-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg19 : FVec F S32 .f32) (main_arg20 : FVec F S2x32 .f32) (main_arg21 : FVec F S2 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S2x32 .f32 := Host.absf main_arg20
  let main_cst_36 : FVec F S_ .f32 := constant S_ .f32 0x7F800000#32
  let main_v95 : FVec F S2x32 .f32 := broadcastInDim S2x32 ![] bcast_S_S2x32 main_cst_36
  let main_v96 : IVec S2x32 1 := cmpf .olt main_v94 main_v95
  let main_c_37 : IVec S_ 1 := constantI S_ 1 1#1
  let main_v97 : IVec S_ 1 := (fun x v => Host.reduce IntOp.andi x v reducesTo_S2x32_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S64 .f32) (main_arg17 : FVec F S64 .f32) (main_arg18 : FVec F S32x64 .f32) (main_arg19 : FVec F S32 .f32) (main_arg20 : FVec F S2x32 .f32) (main_arg21 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S32x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64 .f32) (main_arg14 : FVec F S128 .f32) (main_arg15 : FVec F S128 .f32) (main_arg16 : FVec F S64 .f32) (main_arg17 : FVec F S64 .f32) (main_arg18 : FVec F S32x64 .f32) (main_arg19 : FVec F S32 .f32) (main_arg20 : FVec F S2x32 .f32) (main_arg21 : FVec F S2 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x64 .f32) (main_arg9 : FVec F S64x128 .f32) (main_arg10 : FVec F S64 .f32) (main_arg11 : FVec F S64x128 .f32) (main_arg12 : FVec F S64 .f32) (main_arg13 : FVec F S64 .f32) (main_arg14 : FVec F S128 .f32) (main_arg15 : FVec F S128 .f32) (main_arg16 : FVec F S64 .f32) (main_arg17 : FVec F S64 .f32) (main_arg18 : FVec F S32x64 .f32) (main_arg19 : FVec F S32 .f32) (main_arg20 : FVec F S2x32 .f32) (main_arg21 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64x32 .f32) (main_arg6 : FVec F S128x64 .f32) (main_arg7 : FVec F S128 .f32) (main_arg8 : FVec F S128x64 .f32) (main_arg9 : FVec F S64x128 .f32) (main_arg10 : FVec F S64 .f32) (main_arg11 : FVec F S64x128 .f32) (main_arg12 : FVec F S64 .f32) (main_arg13 : FVec F S64 .f32) (main_arg14 : FVec F S128 .f32) (main_arg15 : FVec F S128 .f32) (main_arg16 : FVec F S64 .f32) (main_arg17 : FVec F S64 .f32) (main_arg18 : FVec F S32x64 .f32) (main_arg19 : FVec F S32 .f32) (main_arg20 : FVec F S2x32 .f32) (main_arg21 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x32 .f32) (main_arg1 : IVec S2x1600000 32) (main_arg2 : FVec F S1600000 .f32) (main_arg3 : FVec F S64x32 .f32) (main_arg4 : FVec F S64 .f32) (main_arg5 : FVec F S64x32 .f32) (main_arg6 : FVec F S128x64 .f32) (main_arg7 : FVec F S128 .f32) (main_arg8 : FVec F S128x64 .f32) (main_arg9 : FVec F S64x128 .f32) (main_arg10 : FVec F S64 .f32) (main_arg11 : FVec F S64x128 .f32) (main_arg12 : FVec F S64 .f32) (main_arg13 : FVec F S64 .f32) (main_arg14 : FVec F S128 .f32) (main_arg15 : FVec F S128 .f32) (main_arg16 : FVec F S64 .f32) (main_arg17 : FVec F S64 .f32) (main_arg18 : FVec F S32x64 .f32) (main_arg19 : FVec F S32 .f32) (main_arg20 : FVec F S2x32 .f32) (main_arg21 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S80x64 : Shape := ⟨2, ![80, 64]⟩
abbrev S10000x32 : Shape := ⟨2, ![10000, 32]⟩
abbrev S10000x64 : Shape := ⟨2, ![10000, 64]⟩
abbrev S8x64 : Shape := ⟨2, ![8, 64]⟩
abbrev S1600000x64 : Shape := ⟨2, ![1600000, 64]⟩
abbrev S1x128 : Shape := ⟨2, ![1, 128]⟩
abbrev S100000x128 : Shape := ⟨2, ![100000, 128]⟩
abbrev S80x128 : Shape := ⟨2, ![80, 128]⟩
abbrev S10000x128 : Shape := ⟨2, ![10000, 128]⟩
abbrev S8x128 : Shape := ⟨2, ![8, 128]⟩
abbrev S1600000x128 : Shape := ⟨2, ![1600000, 128]⟩
abbrev S1x32 : Shape := ⟨2, ![1, 32]⟩
abbrev S1x2 : Shape := ⟨2, ![1, 2]⟩
abbrev S100000x2 : Shape := ⟨2, ![100000, 2]⟩
abbrev S10000x2 : Shape := ⟨2, ![10000, 2]⟩
abbrev S32x2 : Shape := ⟨2, ![32, 2]⟩

abbrev nBuf : Space → Nat
  | .hbm => 142
  | .vmem => 69
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S64x32, .f32⟩
  | 4 => ⟨S64, .f32⟩
  | 5 => ⟨S64x32, .f32⟩
  | 6 => ⟨S128x64, .f32⟩
  | 7 => ⟨S128, .f32⟩
  | 8 => ⟨S128x64, .f32⟩
  | 9 => ⟨S64x128, .f32⟩
  | 10 => ⟨S64, .f32⟩
  | 11 => ⟨S64x128, .f32⟩
  | 12 => ⟨S64, .f32⟩
  | 13 => ⟨S64, .f32⟩
  | 14 => ⟨S128, .f32⟩
  | 15 => ⟨S128, .f32⟩
  | 16 => ⟨S64, .f32⟩
  | 17 => ⟨S64, .f32⟩
  | 18 => ⟨S32x64, .f32⟩
  | 19 => ⟨S32, .f32⟩
  | 20 => ⟨S2x32, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x32, .f32⟩
  | 35 => ⟨S_, .f32⟩
  | 36 => ⟨S100000x32, .f32⟩
  | 37 => ⟨S1600000x1, .i32⟩
  | 38 => ⟨S100000x32, .f32⟩
  | 39 => ⟨S1x64, .f32⟩
  | 40 => ⟨S100000x64, .f32⟩
  | 41 => ⟨S80x64, .f32⟩
  | 42 => ⟨S80x64, .f32⟩
  | 43 => ⟨S_, .f32⟩
  | 44 => ⟨S64, .f32⟩
  | 45 => ⟨S_, .f32⟩
  | 46 => ⟨S64, .f32⟩
  | 47 => ⟨S_, .f32⟩
  | 48 => ⟨S64, .f32⟩
  | 49 => ⟨S64, .f32⟩
  | 50 => ⟨S1x64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S64, .f32⟩
  | 59 => ⟨S1x64, .f32⟩
  | 60 => ⟨S1x64, .f32⟩
  | 61 => ⟨S1x64, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S1x128, .f32⟩
  | 77 => ⟨S100000x128, .f32⟩
  | 78 => ⟨S80x128, .f32⟩
  | 79 => ⟨S80x128, .f32⟩
  | 80 => ⟨S_, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S128, .f32⟩
  | 96 => ⟨S1x128, .f32⟩
  | 97 => ⟨S1x128, .f32⟩
  | 98 => ⟨S1x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S1x64, .f32⟩
  | 117 => ⟨S100000x64, .f32⟩
  | 118 => ⟨S80x64, .f32⟩
  | 119 => ⟨S80x64, .f32⟩
  | 120 => ⟨S_, .f32⟩
  | 121 => ⟨S64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S100000x32, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S64, .f32⟩
  | 7 => ⟨S64, .f32⟩
  | 8 => ⟨S1x64, .f32⟩
  | 9 => ⟨S1x64, .f32⟩
  | 10 => ⟨S1x64, .f32⟩
  | 11 => ⟨S1x32, .f32⟩
  | 12 => ⟨S1x2, .f32⟩
  | 13 => ⟨S100000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S64x32, .f32⟩
  | .local _ .vmem, ⟨5, _⟩ => ⟨S1x64, .f32⟩
  | .local _ .vmem, ⟨6, _⟩ => ⟨S64x32, .f32⟩
  | .local _ .vmem, ⟨7, _⟩ => ⟨S10000x64, .f32⟩
  | .local _ .vmem, ⟨8, _⟩ => ⟨S10000x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S128x64, .f32⟩
  | .local _ .vmem, ⟨26, _⟩ => ⟨S1x128, .f32⟩
  | .local _ .vmem, ⟨27, _⟩ => ⟨S128x64, .f32⟩
  | .local _ .vmem, ⟨28, _⟩ => ⟨S10000x128, .f32⟩
  | .local _ .vmem, ⟨29, _⟩ => ⟨S10000x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S10000x128, .f32⟩
  | .local _ .vmem, ⟨35, _⟩ => ⟨S10000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S64x128, .f32⟩
  | .local _ .vmem, ⟨47, _⟩ => ⟨S1x64, .f32⟩
  | .local _ .vmem, ⟨48, _⟩ => ⟨S64x128, .f32⟩
  | .local _ .vmem, ⟨49, _⟩ => ⟨S10000x64, .f32⟩
  | .local _ .vmem, ⟨50, _⟩ => ⟨S10000x64, .f32⟩
  | .local _ .vmem, ⟨51, _⟩ => ⟨S8x64, .f32⟩
  | .local _ .vmem, ⟨52, _⟩ => ⟨S8x64, .f32⟩
  | .local _ .vmem, ⟨53, _⟩ => ⟨S8x64, .f32⟩
  | .local _ .vmem, ⟨54, _⟩ => ⟨S8x64, .f32⟩
  | .local _ .vmem, ⟨55, _⟩ => ⟨S10000x64, .f32⟩
  | .local _ .vmem, ⟨56, _⟩ => ⟨S10000x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S10000x64, .f32⟩
  | .local _ .vmem, ⟨62, _⟩ => ⟨S10000x64, .f32⟩
  | .local _ .vmem, ⟨63, _⟩ => ⟨S32x64, .f32⟩
  | .local _ .vmem, ⟨64, _⟩ => ⟨S1x32, .f32⟩
  | .local _ .vmem, ⟨65, _⟩ => ⟨S2x32, .f32⟩
  | .local _ .vmem, ⟨66, _⟩ => ⟨S1x2, .f32⟩
  | .local _ .vmem, ⟨67, _⟩ => ⟨S10000x2, .f32⟩
  | .local _ .vmem, ⟨68, _⟩ => ⟨S10000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15_0 : Ref sig .tc := ⟨.hbm, 40, rfl⟩
abbrev main_v15_1 : Ref sig .tc := ⟨.hbm, 41, rfl⟩
abbrev main_v15_2 : Ref sig .tc := ⟨.hbm, 42, rfl⟩
abbrev main_cst_1 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42_0 : Ref sig .tc := ⟨.hbm, 77, rfl⟩
abbrev main_v42_1 : Ref sig .tc := ⟨.hbm, 78, rfl⟩
abbrev main_v42_2 : Ref sig .tc := ⟨.hbm, 79, rfl⟩
abbrev main_cst_9 : Ref sig .tc := ⟨.hbm, 80, rfl⟩
abbrev main_v43 : Ref sig .tc := ⟨.hbm, 81, rfl⟩
abbrev main_cst_10 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_12 : Ref sig .tc := ⟨.hbm, 88, rfl⟩
abbrev main_v48 : Ref sig .tc := ⟨.hbm, 89, rfl⟩
abbrev main_v49 : Ref sig .tc := ⟨.hbm, 90, rfl⟩
abbrev main_cst_13 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_16 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72_0 : Ref sig .tc := ⟨.hbm, 117, rfl⟩
abbrev main_v72_1 : Ref sig .tc := ⟨.hbm, 118, rfl⟩
abbrev main_v72_2 : Ref sig .tc := ⟨.hbm, 119, rfl⟩
abbrev main_cst_17 : Ref sig .tc := ⟨.hbm, 120, rfl⟩
abbrev main_v73 : Ref sig .tc := ⟨.hbm, 121, rfl⟩
abbrev main_cst_18 : Ref sig .tc := ⟨.hbm, 122, rfl⟩
abbrev main_v74 : Ref sig .tc := ⟨.hbm, 123, rfl⟩
abbrev main_cst_19 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_20 : Ref sig .tc := ⟨.hbm, 128, rfl⟩
abbrev main_v78 : Ref sig .tc := ⟨.hbm, 129, rfl⟩
abbrev main_v79 : Ref sig .tc := ⟨.hbm, 130, rfl⟩
abbrev main_cst_21 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg8_0 : Ref sig .tc := ⟨.vmem, 65, rfl⟩
abbrev cc5_stg9_0 : Ref sig .tc := ⟨.vmem, 66, rfl⟩
abbrev cc5_stg10_0 : Ref sig .tc := ⟨.vmem, 67, rfl⟩
abbrev cc5_stg10_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc4_sem6_0 : DmaSem sig := 51
abbrev cc4_sem6_1 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc5_sem6_0 : DmaSem sig := 63
abbrev cc5_sem7_0 : DmaSem sig := 64
abbrev cc5_sem8_0 : DmaSem sig := 65
abbrev cc5_sem9_0 : DmaSem sig := 66
abbrev cc5_sem10_0 : DmaSem sig := 67
abbrev cc5_sem10_1 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S32x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S2x32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x2 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S10000x2 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  inb_S8x64_S8x64_0_0 : ∀ a, (![0, 0] : Fin 2 → Nat) a + S8x64.size a ≤ S8x64.size a
  h_S8x64 : 0 < S8x64.numel
  inb_S8x64_S1x64_0_0 : ∀ a, (![0, 0] : Fin 2 → Nat) a + S1x64.size a ≤ S8x64.size a
  reducesTo_S80x64_S64_d0 : S80x64.ReducesTo [0] S64
  h_S_ : 0 < S_.numel
  bcast_S_S64 : S_.BroadcastsInDim S64 (![] : Fin 0 → Fin S64.rank)
  shapeCasts_S10000x64_S10000x64 : S10000x64.ShapeCasts S10000x64
  bcast_S_S100000x64 : S_.BroadcastsInDim S100000x64 (![] : Fin 0 → Fin S100000x64.rank)
  shapeCasts_S128_S1x128 : S128.ShapeCasts S1x128
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  reducesTo_S80x128_S128_d0 : S80x128.ReducesTo [0] S128
  bcast_S_S128 : S_.BroadcastsInDim S128 (![] : Fin 0 → Fin S128.rank)
  shapeCasts_S10000x128_S10000x128 : S10000x128.ShapeCasts S10000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  shapeCasts_S32_S1x32 : S32.ShapeCasts S1x32
  shapeCasts_S2_S1x2 : S2.ShapeCasts S1x2
  inb_S32x64_S32x64_0_0 : ∀ a, (![0, 0] : Fin 2 → Nat) a + S32x64.size a ≤ S32x64.size a
  h_S32x64 : 0 < S32x64.numel
  inb_S2x32_S2x32_0_0 : ∀ a, (![0, 0] : Fin 2 → Nat) a + S2x32.size a ≤ S2x32.size a
  h_S2x32 : 0 < S2x32.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64.size a ≤ S80x64.size a
  hwx0_6 : ∀ i : grid0.Coords, EltTy.bits .f32 = 32 ∨ (Rect.block (s := S80x64) S8x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S80x64.size a
  hwx0_7 : ∀ i : grid0.Coords, EltTy.bits .f32 = 32 ∨ (Rect.block (s := S80x64) S8x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S80x128.size a
  hwx2_6 : ∀ i : grid2.Coords, EltTy.bits .f32 = 32 ∨ (Rect.block (s := S80x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S80x128.size a
  hwx2_7 : ∀ i : grid2.Coords, EltTy.bits .f32 = 32 ∨ (Rect.block (s := S80x128) S8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x64.size a ≤ S80x64.size a
  hwx4_6 : ∀ i : grid4.Coords, EltTy.bits .f32 = 32 ∨ (Rect.block (s := S80x64) S8x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x64.size a ≤ S80x64.size a
  hwx4_7 : ∀ i : grid4.Coords, EltTy.bits .f32 = 32 ∨ (Rect.block (s := S80x64) S8x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32x64.size a ≤ S32x64.size a
  hwx5_6 : ∀ i : grid5.Coords, EltTy.bits .f32 = 32 ∨ (Rect.block (s := S32x64) S32x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x32.size a ≤ S1x32.size a
  hwx5_7 : ∀ i : grid5.Coords, EltTy.bits .f32 = 32 ∨ (Rect.block (s := S1x32) S1x32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S2x32.size a ≤ S2x32.size a
  hwx5_8 : ∀ i : grid5.Coords, EltTy.bits .f32 = 32 ∨ (Rect.block (s := S2x32) S2x32.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x2.size a ≤ S1x2.size a
  hwx5_9 : ∀ i : grid5.Coords, EltTy.bits .f32 = 32 ∨ (Rect.block (s := S1x2) S1x2.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S10000x2.size a ≤ S100000x2.size a
  hwx5_10 : ∀ i : grid5.Coords, EltTy.bits .f32 = 32 ∨ (Rect.block (s := S100000x2) S10000x2.size (cc5_transform_10 i) (hinb5_10 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_v13) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S8x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S8x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_2) S8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v70) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v72_1) S8x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v72_2) S8x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v72_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v30) S10000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg18) S32x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v87) S1x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg20) S2x32.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v88) S1x2.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v89) S10000x2.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32 : Shape := ⟨1, ![32]⟩
abbrev S2x32 : Shape := ⟨2, ![2, 32]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x32 : Shape := ⟨2, ![1, 32]⟩
abbrev S32x2 : Shape := ⟨2, ![32, 2]⟩
abbrev S100000x2 : Shape := ⟨2, ![100000, 2]⟩
abbrev S1x2 : Shape := ⟨2, ![1, 2]⟩

abbrev nBuf : Space → Nat
  | .hbm => 247
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S64x32, .f32⟩
  | 4 => ⟨S64, .f32⟩
  | 5 => ⟨S64x32, .f32⟩
  | 6 => ⟨S128x64, .f32⟩
  | 7 => ⟨S128, .f32⟩
  | 8 => ⟨S128x64, .f32⟩
  | 9 => ⟨S64x128, .f32⟩
  | 10 => ⟨S64, .f32⟩
  | 11 => ⟨S64x128, .f32⟩
  | 12 => ⟨S64, .f32⟩
  | 13 => ⟨S64, .f32⟩
  | 14 => ⟨S128, .f32⟩
  | 15 => ⟨S128, .f32⟩
  | 16 => ⟨S64, .f32⟩
  | 17 => ⟨S64, .f32⟩
  | 18 => ⟨S32x64, .f32⟩
  | 19 => ⟨S32, .f32⟩
  | 20 => ⟨S2x32, .f32⟩
  | 21 => ⟨S2, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x32, .f32⟩
  | 35 => ⟨S_, .f32⟩
  | 36 => ⟨S100000x32, .f32⟩
  | 37 => ⟨S1600000x1, .i32⟩
  | 38 => ⟨S100000x32, .f32⟩
  | 39 => ⟨S32x64, .f32⟩
  | 40 => ⟨S100000x64, .f32⟩
  | 41 => ⟨S1x64, .f32⟩
  | 42 => ⟨S100000x64, .f32⟩
  | 43 => ⟨S100000x64, .f32⟩
  | 44 => ⟨S32x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S64x128, .f32⟩
  | 108 => ⟨S100000x128, .f32⟩
  | 109 => ⟨S1x128, .f32⟩
  | 110 => ⟨S100000x128, .f32⟩
  | 111 => ⟨S100000x128, .f32⟩
  | 112 => ⟨S64x128, .f32⟩
  | 113 => ⟨S100000x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S100000x128, .f32⟩
  | _ => ⟨S100000x32, .f32⟩

abbrev hbmTy0_1 (i : Nat) : BufTy := match i % 128 with
  | 0 => ⟨S100000x128, .f32⟩
  | 1 => ⟨S100000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S_, .f32⟩
  | 19 => ⟨S128, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S128x64, .f32⟩
  | 51 => ⟨S100000x64, .f32⟩
  | 52 => ⟨S1x64, .f32⟩
  | 53 => ⟨S100000x64, .f32⟩
  | 54 => ⟨S100000x64, .f32⟩
  | 55 => ⟨S128x64, .f32⟩
  | 56 => ⟨S100000x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S_, .i32⟩
  | 64 => ⟨S_, .f32⟩
  | 65 => ⟨S64, .f32⟩
  | 66 => ⟨S1x64, .f32⟩
  | 67 => ⟨S_, .f32⟩
  | 68 => ⟨S1x64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S_, .f32⟩
  | 75 => ⟨S_, .f32⟩
  | 76 => ⟨S_, .f32⟩
  | 77 => ⟨S64, .f32⟩
  | 78 => ⟨S64, .f32⟩
  | 79 => ⟨S64, .f32⟩
  | 80 => ⟨S_, .f32⟩
  | 81 => ⟨S_, .i1⟩
  | 82 => ⟨S_, .f32⟩
  | 83 => ⟨S_, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S64x32, .f32⟩
  | 107 => ⟨S100000x32, .f32⟩
  | 108 => ⟨S1x32, .f32⟩
  | 109 => ⟨S100000x32, .f32⟩
  | 110 => ⟨S100000x32, .f32⟩
  | 111 => ⟨S_, .f32⟩
  | 112 => ⟨S100000x32, .f32⟩
  | 113 => ⟨S100000x32, .f32⟩
  | 114 => ⟨S32x2, .f32⟩
  | 115 => ⟨S100000x2, .f32⟩
  | 116 => ⟨S1x2, .f32⟩
  | 117 => ⟨S100000x2, .f32⟩
  | 118 => ⟨S100000x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_4 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_call1_cst : Ref sig .tc := ⟨.hbm, 91, rfl⟩
abbrev main_call1_v0 : Ref sig .tc := ⟨.hbm, 92, rfl⟩
abbrev main_v41 : Ref sig .tc := ⟨.hbm, 93, rfl⟩
abbrev main_c_5 : Ref sig .tc := ⟨.hbm, 94, rfl⟩
abbrev main_v42 : Ref sig .tc := ⟨.hbm, 95, rfl⟩
abbrev main_v43 : Ref sig .tc := ⟨.hbm, 96, rfl⟩
abbrev main_c_6 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_7 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_8 : Ref sig .tc := ⟨.hbm, 115, rfl⟩
abbrev main_v60 : Ref sig .tc := ⟨.hbm, 116, rfl⟩
abbrev main_cst_9 : Ref sig .tc := ⟨.hbm, 117, rfl⟩
abbrev main_v61 : Ref sig .tc := ⟨.hbm, 118, rfl⟩
abbrev main_v62 : Ref sig .tc := ⟨.hbm, 119, rfl⟩
abbrev main_c_10 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_cst_11 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_call3_cst : Ref sig .tc := ⟨.hbm, 159, rfl⟩
abbrev main_call3_v0 : Ref sig .tc := ⟨.hbm, 160, rfl⟩
abbrev main_v79 : Ref sig .tc := ⟨.hbm, 161, rfl⟩
abbrev main_c_12 : Ref sig .tc := ⟨.hbm, 162, rfl⟩
abbrev main_v80 : Ref sig .tc := ⟨.hbm, 163, rfl⟩
abbrev main_v81 : Ref sig .tc := ⟨.hbm, 164, rfl⟩
abbrev main_c_13 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_14 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_cst_15 : Ref sig .tc := ⟨.hbm, 186, rfl⟩
abbrev main_v101 : Ref sig .tc := ⟨.hbm, 187, rfl⟩
abbrev main_cst_16 : Ref sig .tc := ⟨.hbm, 188, rfl⟩
abbrev main_v102 : Ref sig .tc := ⟨.hbm, 189, rfl⟩
abbrev main_v103 : Ref sig .tc := ⟨.hbm, 190, rfl⟩
abbrev main_c_17 : Ref sig .tc := ⟨.hbm, 191, rfl⟩
abbrev main_call4_cst : Ref sig .tc := ⟨.hbm, 192, rfl⟩
abbrev main_call4_v0 : Ref sig .tc := ⟨.hbm, 193, rfl⟩
abbrev main_call4_v1 : Ref sig .tc := ⟨.hbm, 194, rfl⟩
abbrev main_call4_cst_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_v6 : Ref sig .tc := ⟨.hbm, 200, rfl⟩
abbrev main_call4_v7 : Ref sig .tc := ⟨.hbm, 201, rfl⟩
abbrev main_call4_cst_1 : Ref sig .tc := ⟨.hbm, 202, rfl⟩
abbrev main_call4_v8 : Ref sig .tc := ⟨.hbm, 203, rfl⟩
abbrev main_call4_cst_2 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_cst_3 : Ref sig .tc := ⟨.hbm, 208, rfl⟩
abbrev main_call4_v12 : Ref sig .tc := ⟨.hbm, 209, rfl⟩
abbrev main_call4_cst_4 : Ref sig .tc := ⟨.hbm, 210, rfl⟩
abbrev main_call4_call0_v0 : Ref sig .tc := ⟨.hbm, 211, rfl⟩
abbrev main_call4_call0_v1 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_cst_18 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_call5_cst : Ref sig .tc := ⟨.hbm, 231, rfl⟩
abbrev main_call5_v0 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_call6_cst : Ref sig .tc := ⟨.hbm, 239, rfl⟩
abbrev main_call6_v0 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  transposes_S64x128_S128x64_1_0 : S64x128.Transposes [1, 0] S128x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S2x32_S32x2_1_0 : S2x32.Transposes [1, 0] S32x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.Spec.lean ====
/-
  The mathematics of a three-layer graph convolution network with batch normalisation, written over the extended
  reals on functions of literal coordinates (a node `r` of the 100000 nodes, a feature `c`). Nothing here mentions
  a program: these are the functions both programs are shown to compute.

  One layer: the aggregated neighbour features `agg` and the node's own features `x` each go through a linear
  map (`wrel`, `wroot`, stored output-feature by input-feature) and a bias is added; the result is normalised
  feature by feature with the mean and the variance over all nodes, scaled, shifted, and cut at zero.
  The two programs differ in three places: where the bias is added, how the sum over the nodes is grouped (ten
  tiles of ten thousand rows, each tile's sum stored in one of eight rows), and how the variance is computed
  (mean of the squares minus the square of the mean, against the mean of the squared deviations).
-/
import Idealize.ShloMosaic.PureOps.Ideal
import Idealize.ShloMosaic.PureOps.Ideal.Laws

noncomputable section

open scoped BigOperators

namespace Cert.Spec

open Idealize.ShloMosaic

/-- The number of nodes as an extended real, through its 32-bit float word (100000 is exactly representable). -/
abbrev nodesF : EReal := Ideal.ofBits .f32 0x47C35000#32
/-- The batch-normalisation epsilon as an extended real, through its 32-bit float word (the float nearest 1e-5). -/
abbrev epsF : EReal := Ideal.ofBits .f32 0x3727C5AC#32

/-! ## One layer before normalisation -/

/-- The layer's pre-activation with the bias added last: `(agg · wrelᵀ + x · wrootᵀ) + b`. -/
def lin {di dout : Nat} (agg x : Fin 100000 → Fin di → EReal) (wrel wroot : Fin dout → Fin di → EReal)
    (b : Fin dout → EReal) (r : Fin 100000) (c : Fin dout) : EReal :=
  ((∑ k : Fin di, agg r k * wrel c k) + ∑ k : Fin di, x r k * wroot c k) + b c

/-- The layer's pre-activation with the bias added between the two products: `(agg · wrelᵀ + b) + x · wrootᵀ`. -/
def linMid {di dout : Nat} (agg x : Fin 100000 → Fin di → EReal) (wrel wroot : Fin dout → Fin di → EReal)
    (b : Fin dout → EReal) (r : Fin 100000) (c : Fin dout) : EReal :=
  ((∑ k : Fin di, agg r k * wrel c k) + b c) + ∑ k : Fin di, x r k * wroot c k

/-! ## Sums over the nodes -/

/-- Row `q` of the 80-row table of tile sums: row `8·t` holds the sum of tile `t`'s ten thousand rows of `h`,
    every other row holds zero. -/
def tileSum {d : Nat} (h : Fin 100000 → Fin d → EReal) (q : Fin 80) (c : Fin d) : EReal :=
  if q.val % 8 = 0 then ∑ r : Fin 10000, h ⟨10000 * (q.val / 8) + r.val, by have := q.isLt; have := r.isLt; omega⟩ c else 0

/-- The column sums of an 80-row table, from zero. -/
def colSum80 {d : Nat} (s : Fin 80 → Fin d → EReal) (c : Fin d) : EReal := 0 + ∑ q : Fin 80, s q c

/-- The column sums of a 100000-row table, from zero. -/
def colSum {d : Nat} (h : Fin 100000 → Fin d → EReal) (c : Fin d) : EReal := 0 + ∑ r : Fin 100000, h r c

/-! ## Mean and variance, two ways -/

/-- The mean of a column from its sum. -/
def meanOf {d : Nat} (s : Fin d → EReal) (c : Fin d) : EReal := Ideal.div (s c) nodesF

/-- The variance as the mean of the squares minus the square of the mean, from the column sums of `h` and of `h²`. -/
def varMoments {d : Nat} (s ss : Fin d → EReal) (c : Fin d) : EReal :=
  Ideal.div (ss c) nodesF - Ideal.div (s c) nodesF * Ideal.div (s c) nodesF

/-- The variance as the mean of the squared deviations from the mean `mu`. -/
def varCentred {d : Nat} (h : Fin 100000 → Fin d → EReal) (mu : Fin d → EReal) (c : Fin d) : EReal :=
  Ideal.div (colSum (fun r c => (h r c - mu c) * (h r c - mu c)) c) nodesF

/-! ## Normalisation -/

/-- Batch normalisation of one entry: `((h − mean) · rsqrt (var + ε)) · g + beta`. -/
def bn {d : Nat} (h : Fin 100000 → Fin d → EReal) (mean var g beta : Fin d → EReal) (r : Fin 100000) (c : Fin d) : EReal :=
  ((h r c - mean c) * Ideal.rsqrt (var c + epsF)) * g c + beta c

/-- Batch normalisation followed by the cut at zero. -/
def bnRelu {d : Nat} (h : Fin 100000 → Fin d → EReal) (mean var g beta : Fin d → EReal) (r : Fin 100000) (c : Fin d) : EReal :=
  max (bn h mean var g beta r c) 0

/-! ## The last layer's normalisation, the residual and the two-layer classifier -/

/-- The third layer's output: normalised, the first layer's output added, cut at zero. -/
def resRelu {d : Nat} (h : Fin 100000 → Fin d → EReal) (mean var g beta : Fin d → EReal) (res : Fin 100000 → Fin d → EReal)
    (r : Fin 100000) (c : Fin d) : EReal :=
  max (bn h mean var g beta r c + res r c) 0

/-- A linear map with bias: `y · wᵀ + b` (`w` stored output by input). -/
def affine {di dout : Nat} (y : Fin 100000 → Fin di → EReal) (w : Fin dout → Fin di → EReal) (b : Fin dout → EReal)
    (r : Fin 100000) (c : Fin dout) : EReal :=
  (∑ k : Fin di, y r k * w c k) + b c

/-- The classifier on the third layer's output: a linear map, the cut at zero, a second linear map. -/
def classify {d dh dc : Nat} (h3 : Fin 100000 → Fin d → EReal) (wc1 : Fin dh → Fin d → EReal) (bc1 : Fin dh → EReal)
    (wc2 : Fin dc → Fin dh → EReal) (bc2 : Fin dc → EReal) (r : Fin 100000) (c : Fin dc) : EReal :=
  affine (fun r k => max (affine h3 wc1 bc1 r k) 0) wc2 bc2 r c

/-! ## The whole network, two ways

  Both are stated over three abstract neighbour aggregations `ag1`, `ag2`, `ag3` (gather the source rows, weight them in
  the third layer, add them up per destination node): the two programs aggregate with the same operations. -/

/-- One normalised layer as the reference computes it: bias between the products, column sums over all nodes at
    once, the variance from the squared deviations. -/
def layerR {di dout : Nat} (ag : (Fin 100000 → Fin di → EReal) → Fin 100000 → Fin di → EReal)
    (h : Fin 100000 → Fin di → EReal) (wrel wroot : Fin dout → Fin di → EReal) (b g be : Fin dout → EReal) :
    Fin 100000 → Fin dout → EReal :=
  bnRelu (linMid (ag h) h wrel wroot b) (meanOf (colSum (linMid (ag h) h wrel wroot b)))
    (varCentred (linMid (ag h) h wrel wroot b) (meanOf (colSum (linMid (ag h) h wrel wroot b)))) g be

/-- One normalised layer as the kernel computes it: bias last, column sums tile by tile through the 80-row tables,
    the variance from the two moments. -/
def layerK {di dout : Nat} (ag : (Fin 100000 → Fin di → EReal) → Fin 100000 → Fin di → EReal)
    (h : Fin 100000 → Fin di → EReal) (wrel wroot : Fin dout → Fin di → EReal) (b g be : Fin dout → EReal) :
    Fin 100000 → Fin dout → EReal :=
  bnRelu (lin (ag h) h wrel wroot b) (meanOf (colSum80 (tileSum (lin (ag h) h wrel wroot b))))
    (varMoments (colSum80 (tileSum (lin (ag h) h wrel wroot b)))
      (colSum80 (tileSum fun r c => lin (ag h) h wrel wroot b r c * lin (ag h) h wrel wroot b r c))) g be

/-- The last layer with the residual `res` and the classifier, as the reference computes it. -/
def headR {di dout dh dc : Nat} (ag : (Fin 100000 → Fin di → EReal) → Fin 100000 → Fin di → EReal)
    (h : Fin 100000 → Fin di → EReal) (wrel wroot : Fin dout → Fin di → EReal) (b g be : Fin dout → EReal)
    (res : Fin 100000 → Fin dout → EReal)
    (wc1 : Fin dh → Fin dout → EReal) (bc1 : Fin dh → EReal) (wc2 : Fin dc → Fin dh → EReal) (bc2 : Fin dc → EReal) :
    Fin 100000 → Fin dc → EReal :=
  classify (resRelu (linMid (ag h) h wrel wroot b) (meanOf (colSum (linMid (ag h) h wrel wroot b)))
    (varCentred (linMid (ag h) h wrel wroot b) (meanOf (colSum (linMid (ag h) h wrel wroot b)))) g be res) wc1 bc1 wc2 bc2

/-- The last layer with the residual `res` and the classifier, as the kernel computes it. -/
def headK {di dout dh dc : Nat} (ag : (Fin 100000 → Fin di → EReal) → Fin 100000 → Fin di → EReal)
    (h : Fin 100000 → Fin di → EReal) (wrel wroot : Fin dout → Fin di → EReal) (b g be : Fin dout → EReal)
    (res : Fin 100000 → Fin dout → EReal)
    (wc1 : Fin dh → Fin dout → EReal) (bc1 : Fin dh → EReal) (wc2 : Fin dc → Fin dh → EReal) (bc2 : Fin dc → EReal) :
    Fin 100000 → Fin dc → EReal :=
  classify (resRelu (lin (ag h) h wrel wroot b) (meanOf (colSum80 (tileSum (lin (ag h) h wrel wroot b))))
    (varMoments (colSum80 (tileSum (lin (ag h) h wrel wroot b)))
      (colSum80 (tileSum fun r c => lin (ag h) h wrel wroot b r c * lin (ag h) h wrel wroot b r c))) g be res) wc1 bc1 wc2 bc2

/-- The network as the reference computes it. -/
def netR (ag1 : (Fin 100000 → Fin 32 → EReal) → Fin 100000 → Fin 32 → EReal)
    (ag2 : (Fin 100000 → Fin 64 → EReal) → Fin 100000 → Fin 64 → EReal)
    (ag3 : (Fin 100000 → Fin 128 → EReal) → Fin 100000 → Fin 128 → EReal)
    (x : Fin 100000 → Fin 32 → EReal)
    (w1rel w1root : Fin 64 → Fin 32 → EReal) (b1 : Fin 64 → EReal)
    (w2rel w2root : Fin 128 → Fin 64 → EReal) (b2 : Fin 128 → EReal)
    (w3rel w3root : Fin 64 → Fin 128 → EReal) (b3 : Fin 64 → EReal)
    (g1 be1 : Fin 64 → EReal) (g2 be2 : Fin 128 → EReal) (g3 be3 : Fin 64 → EReal)
    (wc1 : Fin 32 → Fin 64 → EReal) (bc1 : Fin 32 → EReal) (wc2 : Fin 2 → Fin 32 → EReal) (bc2 : Fin 2 → EReal) :
    Fin 100000 → Fin 2 → EReal :=
  headR ag3 (layerR ag2 (layerR ag1 x w1rel w1root b1 g1 be1) w2rel w2root b2 g2 be2) w3rel w3root b3 g3 be3
    (layerR ag1 x w1rel w1root b1 g1 be1) wc1 bc1 wc2 bc2

/-- The network as the kernel computes it. -/
def netK (ag1 : (Fin 100000 → Fin 32 → EReal) → Fin 100000 → Fin 32 → EReal)
    (ag2 : (Fin 100000 → Fin 64 → EReal) → Fin 100000 → Fin 64 → EReal)
    (ag3 : (Fin 100000 → Fin 128 → EReal) → Fin 100000 → Fin 128 → EReal)
    (x : Fin 100000 → Fin 32 → EReal)
    (w1rel w1root : Fin 64 → Fin 32 → EReal) (b1 : Fin 64 → EReal)
    (w2rel w2root : Fin 128 → Fin 64 → EReal) (b2 : Fin 128 → EReal)
    (w3rel w3root : Fin 64 → Fin 128 → EReal) (b3 : Fin 64 → EReal)
    (g1 be1 : Fin 64 → EReal) (g2 be2 : Fin 128 → EReal) (g3 be3 : Fin 64 → EReal)
    (wc1 : Fin 32 → Fin 64 → EReal) (bc1 : Fin 32 → EReal) (wc2 : Fin 2 → Fin 32 → EReal) (bc2 : Fin 2 → EReal) :
    Fin 100000 → Fin 2 → EReal :=
  headK ag3 (layerK ag2 (layerK ag1 x w1rel w1root b1 g1 be1) w2rel w2root b2 g2 be2) w3rel w3root b3 g3 be3
    (layerK ag1 x w1rel w1root b1 g1 be1) wc1 bc1 wc2 bc2

end Cert.Spec

end
-- ==== Proof.KIface.lean ====
/-
  The values of the six regions, as statements: what each region's final arrays hold, entry by entry, as a function of
  the arrays the region finds when it is entered. A region's windows are read through literal coordinates; a [1, d]
  row is read at its one row.
-/
import proofs.«150348_j62612033241213_2_alg».proof.Proof.Gen.KernelIdeal.Frame
import proofs.«150348_j62612033241213_2_alg».proof.Proof.Spec
import Idealize.ShloMosaic.Lib.ValueIdx

set_option maxRecDepth 16384

noncomputable section

namespace Cert.KernelIdeal.Iface

open Idealize.ShloMosaic Idealize.ShloMosaic.TcCoe Idealize.ShloMosaic.ValueIdx Idealize.SL.Sem
open Cert.KernelIdeal Cert.KernelIdeal.Gen

/-- The buffer contents a region finds, as in the generated frame's section on regions. -/
abbrev Entry : Type := (c : Dev nD) → (b : Ref sig .tc) → Buf (Elt Ideal) ((c : Thread nD τ).loc b)

/-- A matrix buffer read at literal coordinates. -/
abbrev mat {a b : Nat} (A : (⟨2, ![a, b]⟩ : Shape).Idx → EReal) : Fin a → Fin b → EReal := fun r k => A (ix2 r k)
/-- A one-row buffer read along its row. -/
abbrev row {b : Nat} (A : (⟨2, ![1, b]⟩ : Shape).Idx → EReal) : Fin b → EReal := fun k => A (ix2 0 k)

/-- Region 0 (two products, bias, tile sums), 32 → 64 features. -/
def Stats0 : Prop := ∀ (V : Entry) (c : Dev nD),
  let P := Cert.Spec.lin (mat (V c main_v13)) (mat (V c main_arg0)) (mat (V c main_arg3)) (mat (V c main_arg5)) (row (V c main_v14))
  (∀ (r : Fin 100000) (j : Fin 64), (dat0 (F := Ideal) V c).arrAt 5 cfg0.N (ix2 r j) = P r j)
  ∧ (∀ (q : Fin 80) (j : Fin 64), (dat0 (F := Ideal) V c).arrAt 6 cfg0.N (ix2 q j) = Cert.Spec.tileSum P q j)
  ∧ (∀ (q : Fin 80) (j : Fin 64), (dat0 (F := Ideal) V c).arrAt 7 cfg0.N (ix2 q j) = Cert.Spec.tileSum (fun r j => P r j * P r j) q j)

/-- Region 2, the same kernel at 64 → 128 features. -/
def Stats2 : Prop := ∀ (V : Entry) (c : Dev nD),
  let P := Cert.Spec.lin (mat (V c main_v40)) (mat (V c main_v30)) (mat (V c main_arg6)) (mat (V c main_arg8)) (row (V c main_v41))
  (∀ (r : Fin 100000) (j : Fin 128), (dat2 (F := Ideal) V c).arrAt 5 cfg2.N (ix2 r j) = P r j)
  ∧ (∀ (q : Fin 80) (j : Fin 128), (dat2 (F := Ideal) V c).arrAt 6 cfg2.N (ix2 q j) = Cert.Spec.tileSum P q j)
  ∧ (∀ (q : Fin 80) (j : Fin 128), (dat2 (F := Ideal) V c).arrAt 7 cfg2.N (ix2 q j) = Cert.Spec.tileSum (fun r j => P r j * P r j) q j)

/-- Region 4, the same kernel at 128 → 64 features. -/
def Stats4 : Prop := ∀ (V : Entry) (c : Dev nD),
  let P := Cert.Spec.lin (mat (V c main_v70)) (mat (V c main_v57)) (mat (V c main_arg9)) (mat (V c main_arg11)) (row (V c main_v71))
  (∀ (r : Fin 100000) (j : Fin 64), (dat4 (F := Ideal) V c).arrAt 5 cfg4.N (ix2 r j) = P r j)
  ∧ (∀ (q : Fin 80) (j : Fin 64), (dat4 (F := Ideal) V c).arrAt 6 cfg4.N (ix2 q j) = Cert.Spec.tileSum P q j)
  ∧ (∀ (q : Fin 80) (j : Fin 64), (dat4 (F := Ideal) V c).arrAt 7 cfg4.N (ix2 q j) = Cert.Spec.tileSum (fun r j => P r j * P r j) q j)

/-- Region 1 (normalise, cut at zero), 64 features. -/
def Point1 : Prop := ∀ (V : Entry) (c : Dev nD) (r : Fin 100000) (j : Fin 64),
  (dat1 (F := Ideal) V c).arrAt 5 cfg1.N (ix2 r j)
    = Cert.Spec.bnRelu (mat (V c main_v15_0)) (row (V c main_v20)) (row (V c main_v27)) (row (V c main_v28)) (row (V c main_v29)) r j

/-- Region 3, the same kernel at 128 features. -/
def Point3 : Prop := ∀ (V : Entry) (c : Dev nD) (r : Fin 100000) (j : Fin 128),
  (dat3 (F := Ideal) V c).arrAt 5 cfg3.N (ix2 r j)
    = Cert.Spec.bnRelu (mat (V c main_v42_0)) (row (V c main_v47)) (row (V c main_v54)) (row (V c main_v55)) (row (V c main_v56)) r j

/-- Region 5 (normalise, add the residual, cut at zero, classify). -/
def Point5 : Prop := ∀ (V : Entry) (c : Dev nD) (r : Fin 100000) (j : Fin 2),
  (dat5 (F := Ideal) V c).arrAt 10 cfg5.N (ix2 r j)
    = Cert.Spec.classify
        (Cert.Spec.resRelu (mat (V c main_v72_0)) (row (V c main_v77)) (row (V c main_v84)) (row (V c main_v85)) (row (V c main_v86)) (mat (V c main_v30)))
        (mat (V c main_arg18)) (row (V c main_v87)) (mat (V c main_arg20)) (row (V c main_v88)) r j

end Cert.KernelIdeal.Iface

end
-- ==== Proof.StatsPay0.lean ====
/-
  The arithmetic of one tile of the first statistics layer, entry by entry over the extended reals.

  A tile has ten thousand rows. Its pre-activation at row p and output feature j is the sum over the 32 input
  features of (aggregated feature times the first weight matrix's entry (j, k)), plus the same sum for the node's own
  features and the second weight matrix, plus the bias at j: the two matrix products contract the weight matrices on
  their second axis because the body multiplies by their transposes, and the narrower float format the operands pass
  through is the identity on extended reals. The two statistics rows are the sums over the tile's rows of the
  pre-activation and of its square, each stored as a one-row matrix. The fill the tables are cleared with is zero.
-/
import proofs.«150348_j62612033241213_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators
open Idealize.ShloMosaic Idealize.SL.Sem
open Idealize.ShloMosaic.ValueIdx

namespace Cert.KernelIdeal.StatsValue

open Cert.KernelIdeal Cert.KernelIdeal.Gen

/-- A product by the transpose of a 64 by 32 weight matrix, into the zero accumulator, at an entry: the sum over the
    32 contracted features. -/
theorem mm_apply {φ₁ φ₂ : FTy} (x : FVec Ideal S10000x32 φ₁) (w : FVec Ideal S64x32 φ₂) (p : Fin 10000) (j : Fin 64) :
    matmul dot_S10000x32_S32x64_S10000x64_1_0_0_1_n_n none x (transpose S32x64 [1, 0] w transposes_S64x32_p1_0_S32x64)
      (constant S10000x64 .f32 0x00000000#32) (ix2 p j) = ∑ k : Fin 32, x (ix2 p k) * w (ix2 j k) := by
  show FloatOps.matmul _ none x _ (constant S10000x64 .f32 0x00000000#32) (ix2 p j) = _
  rw [Ideal.matmul_constant_zero_apply,
    ← Equiv.sum_comp (contrEquiv1 dot_S10000x32_S32x64_S10000x64_1_0_0_1_n_n 32 rfl rfl).symm]
  refine Finset.sum_congr rfl fun k _ => ?_
  have ck := contrEquiv1_symm_val dot_S10000x32_S32x64_S10000x64_1_0_0_1_n_n 32 rfl rfl k
  have hl : dot_S10000x32_S32x64_S10000x64_1_0_0_1_n_n.lhsIdx (ix2 p j) ((contrEquiv1 _ 32 rfl rfl).symm k) = ix2 p k := by
    funext ax; apply Fin.ext
    match ax with
    | ⟨0, _⟩ => simp [DotDims.lhsIdx, dot_S10000x32_S32x64_S10000x64_1_0_0_1_n_n]; rfl
    | ⟨1, _⟩ => simp [DotDims.lhsIdx, dot_S10000x32_S32x64_S10000x64_1_0_0_1_n_n]; exact ck
  have hr : dot_S10000x32_S32x64_S10000x64_1_0_0_1_n_n.rhsIdx (ix2 p j) ((contrEquiv1 _ 32 rfl rfl).symm k) = ix2 k j := by
    funext ax; apply Fin.ext
    match ax with
    | ⟨0, _⟩ => simp [DotDims.rhsIdx, dot_S10000x32_S32x64_S10000x64_1_0_0_1_n_n]; exact ck
    | ⟨1, _⟩ => simp [DotDims.rhsIdx, dot_S10000x32_S32x64_S10000x64_1_0_0_1_n_n]; rfl
  rw [hl, hr]
  refine congrArg (x (ix2 p k) * ·) ?_
  exact transpose_apply [1, 0] w transposes_S64x32_p1_0_S32x64 (ix2 k j) (ix2 j k) fun b => by
    match b with
    | ⟨0, _⟩ => rfl
    | ⟨1, _⟩ => rfl

/-- The bias row spread over the tile's rows, at an entry: the bias at that feature. -/
theorem bias_apply (b : FVec Ideal S1x64 .f32) (p : Fin 10000) (j : Fin 64) :
    broadcastTo S10000x64 (shapeCast S1x64 b shapeCasts_S1x64_S1x64) broadcasts_S1x64_S10000x64 (ix2 p j) = b (ix2 0 j) := by
  rw [shapeCast_self]
  exact broadcastTo_apply b broadcasts_S1x64_S10000x64 (ix2 p j) (ix2 0 j) fun a => by
    match a with
    | ⟨0, _⟩ => rfl
    | ⟨1, _⟩ => rfl

/-- The tile's pre-activation at row p, feature j. -/
theorem pay1_apply (x0 x1 : Vec Ideal S10000x32 .f32) (w0 w1 : Vec Ideal S64x32 .f32) (b : Vec Ideal S1x64 .f32)
    (p : Fin 10000) (j : Fin 64) :
    k0_pay1 (F := Ideal) x0 x1 w0 w1 b (ix2 p j)
      = ((∑ k : Fin 32, x0 (ix2 p k) * w0 (ix2 j k)) + ∑ k : Fin 32, x1 (ix2 p k) * w1 (ix2 j k)) + b (ix2 0 j) := by
  unfold k0_pay1
  dsimp only
  rw [shapeCast_self]
  refine congrArg₂ (· + ·) (congrArg₂ (· + ·) ?_ ?_) ?_
  · exact mm_apply (φ₁ := .bf16) (φ₂ := .bf16) x0 w0 p j
  · exact mm_apply (φ₁ := .bf16) (φ₂ := .bf16) x1 w1 p j
  · exact bias_apply b p j

/-- A sum over the tile's rows, stored as a one-row matrix, at feature j. -/
theorem rowsum_apply (v : FVec Ideal S10000x64 .f32) (j : Fin 64) :
    shapeCast S1x64 (multiReduction .add [0] S64 v 0x00000000#32 reduces_S10000x64_S64 (.inl rfl) rfl) shapeCasts_S64_S1x64
      (ix2 (0 : Fin 1) j) = ∑ p : Fin 10000, v (ix2 p j) := by
  refine (shapeCast_apply _ shapeCasts_S64_S1x64 (ix2 (0 : Fin 1) j) (ix1 j) ?_).trans ?_
  · rw [Shape.rowMajor_val_one, Shape.rowMajor_val_two]
    show j.val = 0 * 64 + j.val
    omega
  refine (Ideal.multiReduction_add_single v 0x00000000#32 reduces_S10000x64_S64 (.inl rfl) rfl (ix1 j)).trans ?_
  refine Finset.sum_congr rfl fun p _ => congrArg v ?_
  funext a
  match a with
  | ⟨0, _⟩ => rfl
  | ⟨1, _⟩ => rfl

/-- The first statistics row: the sum over the tile's rows of the pre-activation. -/
theorem pay2_apply (x0 x1 : Vec Ideal S10000x32 .f32) (w0 w1 : Vec Ideal S64x32 .f32) (b : Vec Ideal S1x64 .f32) (j : Fin 64) :
    k0_pay2 (F := Ideal) x0 x1 w0 w1 b (ix2 (0 : Fin 1) j) = ∑ p : Fin 10000, k0_pay1 (F := Ideal) x0 x1 w0 w1 b (ix2 p j) := by
  unfold k0_pay2
  exact rowsum_apply _ j

/-- The second statistics row: the sum over the tile's rows of the squared pre-activation. -/
theorem pay3_apply (x0 x1 : Vec Ideal S10000x32 .f32) (w0 w1 : Vec Ideal S64x32 .f32) (b : Vec Ideal S1x64 .f32) (j : Fin 64) :
    k0_pay3 (F := Ideal) x0 x1 w0 w1 b (ix2 (0 : Fin 1) j)
      = ∑ p : Fin 10000, k0_pay1 (F := Ideal) x0 x1 w0 w1 b (ix2 p j) * k0_pay1 (F := Ideal) x0 x1 w0 w1 b (ix2 p j) := by
  unfold k0_pay3
  exact rowsum_apply _ j

/-- The fill of the first table's block is zero. -/
theorem pay4_apply (a : Fin 8) (j : Fin 64) : k0_pay4 (F := Ideal) (ix2 a j) = 0 := Ideal.ofBits_zero_f32
/-- The fill of the second table's block is zero. -/
theorem pay5_apply (a : Fin 8) (j : Fin 64) : k0_pay5 (F := Ideal) (ix2 a j) = 0 := Ideal.ofBits_zero_f32

end Cert.KernelIdeal.StatsValue

end
-- ==== Proof.StatsBlk0.lean ====
/-
  The blocks the first statistics layer's body is handed at a grid point, read entry by entry off the arrays the region
  finds, and the tile's pre-activation as the layer's pre-activation of those arrays.

  The grid has ten points. At point t the two feature windows hold rows 10000·t … 10000·t + 9999 of their arrays; the
  two weight windows and the bias window hold their whole arrays at every point. So the body's pre-activation at row p
  of tile t is the layer's pre-activation at node 10000·t + p: the same two sums over the input features and the same
  bias, read at that node.
-/
import proofs.«150348_j62612033241213_2_alg».proof.Proof.KIface
import proofs.«150348_j62612033241213_2_alg».proof.Proof.StatsPay0

set_option maxRecDepth 16384

noncomputable section

open scoped BigOperators
open Idealize.ShloMosaic Idealize.ShloMosaic.TcCoe Idealize.SL.Sem
open Idealize.ShloMosaic.ValueIdx

namespace Cert.KernelIdeal.StatsValue

open Cert.KernelIdeal Cert.KernelIdeal.Gen Cert.KernelIdeal.Iface

/-- Where each window's block sits at grid point t: the row-tiled windows (the two feature inputs and the three
    outputs) at block row t, the weight and bias windows at block (0, 0). Decided over the ten points. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The pre-activation of the layer, as a function of the arrays the region finds. -/
abbrev pre0 (V : Entry) (c : Dev nD) : Fin 100000 → Fin 64 → EReal :=
  Cert.Spec.lin (mat (V c main_v13)) (mat (V c main_arg0)) (mat (V c main_arg3)) (mat (V c main_arg5)) (row (V c main_v14))

/-- The aggregated-feature window at point t, row p: row 10000·t + p of its array. -/
theorem blk0_0 (V : Entry) (c : Dev nD) (t : Fin cfg0.N) (p : Fin 10000) (k : Fin 32) (r : Fin 100000)
    (hr : r.val = 10000 * t.val + p.val) :
    (iblk0 V c 0 t : Vec Ideal S10000x32 .f32) (ix2 p k) = mat (V c main_v13) r k := by
  obtain ⟨⟨e0, e1⟩, -⟩ := idx_facts0 t
  unfold iblk0
  rw [View.read_apply]
  show V c main_v13 _ = V c main_v13 _
  congr 1
  funext a; apply Fin.ext
  match a with
  | ⟨0, _⟩ => show win0_0.index t 0 * 10000 + 1 * p.val = r.val; rw [e0, hr]; omega
  | ⟨1, _⟩ => show win0_0.index t 1 * 32 + 1 * k.val = k.val; rw [e1]; omega

/-- The node-feature window at point t, row p: row 10000·t + p of its array. -/
theorem blk0_1 (V : Entry) (c : Dev nD) (t : Fin cfg0.N) (p : Fin 10000) (k : Fin 32) (r : Fin 100000)
    (hr : r.val = 10000 * t.val + p.val) :
    (iblk0 V c 1 t : Vec Ideal S10000x32 .f32) (ix2 p k) = mat (V c main_arg0) r k := by
  obtain ⟨-, ⟨e0, e1⟩, -⟩ := idx_facts0 t
  unfold iblk0
  rw [View.read_apply]
  show V c main_arg0 _ = V c main_arg0 _
  congr 1
  funext a; apply Fin.ext
  match a with
  | ⟨0, _⟩ => show win0_1.index t 0 * 10000 + 1 * p.val = r.val; rw [e0, hr]; omega
  | ⟨1, _⟩ => show win0_1.index t 1 * 32 + 1 * k.val = k.val; rw [e1]; omega

/-- The first weight window holds its whole matrix at every point. -/
theorem blk0_2 (V : Entry) (c : Dev nD) (t : Fin cfg0.N) (j : Fin 64) (k : Fin 32) :
    (iblk0 V c 2 t : Vec Ideal S64x32 .f32) (ix2 j k) = mat (V c main_arg3) j k := by
  obtain ⟨-, -, ⟨e0, e1⟩, -⟩ := idx_facts0 t
  unfold iblk0
  rw [View.read_apply]
  show V c main_arg3 _ = V c main_arg3 _
  congr 1
  funext a; apply Fin.ext
  match a with
  | ⟨0, _⟩ => show win0_2.index t 0 * 64 + 1 * j.val = j.val; rw [e0]; omega
  | ⟨1, _⟩ => show win0_2.index t 1 * 32 + 1 * k.val = k.val; rw [e1]; omega

/-- The bias window holds its whole row at every point. -/
theorem blk0_3 (V : Entry) (c : Dev nD) (t : Fin cfg0.N) (j : Fin 64) :
    (iblk0 V c 3 t : Vec Ideal S1x64 .f32) (ix2 (0 : Fin 1) j) = row (V c main_v14) j := by
  obtain ⟨-, -, -, ⟨e0, e1⟩, -⟩ := idx_facts0 t
  unfold iblk0
  rw [View.read_apply]
  show V c main_v14 _ = V c main_v14 _
  congr 1
  funext a; apply Fin.ext
  match a with
  | ⟨0, _⟩ => show win0_3.index t 0 * 1 + 1 * 0 = 0; rw [e0]
  | ⟨1, _⟩ => show win0_3.index t 1 * 64 + 1 * j.val = j.val; rw [e1]; omega

/-- The second weight window holds its whole matrix at every point. -/
theorem blk0_4 (V : Entry) (c : Dev nD) (t : Fin cfg0.N) (j : Fin 64) (k : Fin 32) :
    (iblk0 V c 4 t : Vec Ideal S64x32 .f32) (ix2 j k) = mat (V c main_arg5) j k := by
  obtain ⟨-, -, -, -, ⟨e0, e1⟩, -⟩ := idx_facts0 t
  unfold iblk0
  rw [View.read_apply]
  show V c main_arg5 _ = V c main_arg5 _
  congr 1
  funext a; apply Fin.ext
  match a with
  | ⟨0, _⟩ => show win0_4.index t 0 * 64 + 1 * j.val = j.val; rw [e0]; omega
  | ⟨1, _⟩ => show win0_4.index t 1 * 32 + 1 * k.val = k.val; rw [e1]; omega

/-- The body's pre-activation at row p of tile t is the layer's pre-activation at node 10000·t + p. -/
theorem tile_pre0 (V : Entry) (c : Dev nD) (t : Fin cfg0.N) (p : Fin 10000) (j : Fin 64) (r : Fin 100000)
    (hr : r.val = 10000 * t.val + p.val) :
    k0_pay1 (F := Ideal) (iblk0 V c 0 t) (iblk0 V c 1 t) (iblk0 V c 2 t) (iblk0 V c 4 t) (iblk0 V c 3 t) (ix2 p j)
      = pre0 V c r j := by
  refine (pay1_apply (iblk0 V c 0 t) (iblk0 V c 1 t) (iblk0 V c 2 t) (iblk0 V c 4 t) (iblk0 V c 3 t) p j).trans ?_
  unfold pre0 Cert.Spec.lin
  refine congrArg₂ (· + ·) (congrArg₂ (· + ·) (Finset.sum_congr rfl fun k _ => ?_) (Finset.sum_congr rfl fun k _ => ?_)) ?_
  · exact congrArg₂ (· * ·) (blk0_0 V c t p k r hr) (blk0_2 V c t j k)
  · exact congrArg₂ (· * ·) (blk0_1 V c t p k r hr) (blk0_4 V c t j k)
  · exact blk0_3 V c t j

end Cert.KernelIdeal.StatsValue

end
-- ==== Proof.StatsOut0.lean ====
/-
  What one run of the first statistics layer's body leaves in its three output blocks, as values of the blocks it
  loaded, for any float instance.

  The body stores the tile's pre-activation over the whole first block. Each of the two small blocks (eight rows) is
  first filled with a constant and then its row 0 is overwritten with a statistics row; so row 0 reads the statistics
  row and rows 1 to 7 read the fill. The loads read whole staging buffers, so each loaded value is the buffer's contents.
-/
import proofs.«150348_j62612033241213_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.StatsValue

open Cert.KernelIdeal Cert.KernelIdeal.Gen

variable {F : FTy → Type} [FloatOps F]

theorem hz0 : (![0, 0] : Fin 2 → Nat) = fun _ => 0 := funext fun a => by fin_cases a <;> rfl

/-- The first output block holds the tile's pre-activation. -/
theorem out5_eq (c : Dev nD) (i : grid0.Coords) (a1 : Memref sig .tc .vmem S10000x32 .f32) (h1 : a1.IsWhole) (a2 : Memref sig .tc .vmem S10000x32 .f32) (h2 : a2.IsWhole) (a3 : Memref sig .tc .vmem S64x32 .f32) (h3 : a3.IsWhole) (a4 : Memref sig .tc .vmem S1x64 .f32) (h4 : a4.IsWhole) (a5 : Memref sig .tc .vmem S64x32 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x32 .f32) (x1 : Vec F S10000x32 .f32) (x2 : Vec F S64x32 .f32) (x3 : Vec F S1x64 .f32) (x4 : Vec F S64x32 .f32) :
    out0_A_5 c i a1 h1 a2 h2 a3 h3 a4 h4 a5 h5 a6 h6 a7 h7 a8 h8 x0 x1 x2 x3 x4 = k0_pay1 x0 x1 x2 x4 x3 := by
  unfold out0_A_5
  rw [View.read_writes_eq_canon _ _ _ (cover0_A_5 c i a1 h1 a2 h2 a3 h3 a4 h4 a5 h5 a6 h6 a7 h7 a8 h8 x0 x1 x2 x3 x4)]
  unfold kernelRun0_A
  dsimp only
  try sl_unfold_words
  rw [View.canon_unit_zero (S := S10000x64) hz0]
  simp only [View.readAt_eq_ld, h1.read_unread, h2.read_unread, h3.read_unread, h4.read_unread, h5.read_unread,
    View.ld_unit_zero (S := S10000x32) hz0, View.ld_unit_zero (S := S64x32) hz0, View.ld_unit_zero (S := S1x64) hz0]

/-- Row 0 of what the body leaves in the first table's block: the statistics row, stored last over the fill. -/
theorem out6_row0 (c : Dev nD) (i : grid0.Coords) (a1 : Memref sig .tc .vmem S10000x32 .f32) (h1 : a1.IsWhole) (a2 : Memref sig .tc .vmem S10000x32 .f32) (h2 : a2.IsWhole) (a3 : Memref sig .tc .vmem S64x32 .f32) (h3 : a3.IsWhole) (a4 : Memref sig .tc .vmem S1x64 .f32) (h4 : a4.IsWhole) (a5 : Memref sig .tc .vmem S64x32 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x32 .f32) (x1 : Vec F S10000x32 .f32) (x2 : Vec F S64x32 .f32) (x3 : Vec F S1x64 .f32) (x4 : Vec F S64x32 .f32) (j : Fin 64) :
    out0_A_6 c i a1 h1 a2 h2 a3 h3 a4 h4 a5 h5 a6 h6 a7 h7 a8 h8 x0 x1 x2 x3 x4 (ix2 (0 : Fin 8) j) = k0_pay2 x0 x1 x2 x4 x3 (ix2 (0 : Fin 1) j) := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  try sl_unfold_words
  simp only [View.readAt_eq_ld, h1.read_unread, h2.read_unread, h3.read_unread, h4.read_unread, h5.read_unread,
    View.ld_unit_zero (S := S10000x32) hz0, View.ld_unit_zero (S := S64x32) hz0, View.ld_unit_zero (S := S1x64) hz0]
  have e : (ix2 (0 : Fin 8) j : S8x64.Idx) = (Rect.unit (s := S8x64) ![0, 0] ![1, 64] inb_S8x64_S1x64_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out6_rest (c : Dev nD) (i : grid0.Coords) (a1 : Memref sig .tc .vmem S10000x32 .f32) (h1 : a1.IsWhole) (a2 : Memref sig .tc .vmem S10000x32 .f32) (h2 : a2.IsWhole) (a3 : Memref sig .tc .vmem S64x32 .f32) (h3 : a3.IsWhole) (a4 : Memref sig .tc .vmem S1x64 .f32) (h4 : a4.IsWhole) (a5 : Memref sig .tc .vmem S64x32 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x32 .f32) (x1 : Vec F S10000x32 .f32) (x2 : Vec F S64x32 .f32) (x3 : Vec F S1x64 .f32) (x4 : Vec F S64x32 .f32) (a : Fin 8) (ha : a.val ≠ 0) (j : Fin 64) :
    out0_A_6 c i a1 h1 a2 h2 a3 h3 a4 h4 a5 h5 a6 h6 a7 h7 a8 h8 x0 x1 x2 x3 x4 (ix2 a j) = k0_pay4 (F := F) (ix2 a j) := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  try sl_unfold_words
  rw [View.canon_cons_of_not_mem _ _ (by
    rw [Rect.mem_set_unit]
    intro h
    have h0 := (h 0).2
    change a.val < 0 + 1 at h0
    omega), View.canon_unit_zero (S := S8x64) hz0]

/-- Row 0 of what the body leaves in the second table's block: the statistics row, stored last over the fill. -/
theorem out7_row0 (c : Dev nD) (i : grid0.Coords) (a1 : Memref sig .tc .vmem S10000x32 .f32) (h1 : a1.IsWhole) (a2 : Memref sig .tc .vmem S10000x32 .f32) (h2 : a2.IsWhole) (a3 : Memref sig .tc .vmem S64x32 .f32) (h3 : a3.IsWhole) (a4 : Memref sig .tc .vmem S1x64 .f32) (h4 : a4.IsWhole) (a5 : Memref sig .tc .vmem S64x32 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x32 .f32) (x1 : Vec F S10000x32 .f32) (x2 : Vec F S64x32 .f32) (x3 : Vec F S1x64 .f32) (x4 : Vec F S64x32 .f32) (j : Fin 64) :
    out0_A_7 c i a1 h1 a2 h2 a3 h3 a4 h4 a5 h5 a6 h6 a7 h7 a8 h8 x0 x1 x2 x3 x4 (ix2 (0 : Fin 8) j) = k0_pay3 x0 x1 x2 x4 x3 (ix2 (0 : Fin 1) j) := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  try sl_unfold_words
  simp only [View.readAt_eq_ld, h1.read_unread, h2.read_unread, h3.read_unread, h4.read_unread, h5.read_unread,
    View.ld_unit_zero (S := S10000x32) hz0, View.ld_unit_zero (S := S64x32) hz0, View.ld_unit_zero (S := S1x64) hz0]
  have e : (ix2 (0 : Fin 8) j : S8x64.Idx) = (Rect.unit (s := S8x64) ![0, 0] ![1, 64] inb_S8x64_S1x64_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out7_rest (c : Dev nD) (i : grid0.Coords) (a1 : Memref sig .tc .vmem S10000x32 .f32) (h1 : a1.IsWhole) (a2 : Memref sig .tc .vmem S10000x32 .f32) (h2 : a2.IsWhole) (a3 : Memref sig .tc .vmem S64x32 .f32) (h3 : a3.IsWhole) (a4 : Memref sig .tc .vmem S1x64 .f32) (h4 : a4.IsWhole) (a5 : Memref sig .tc .vmem S64x32 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x32 .f32) (x1 : Vec F S10000x32 .f32) (x2 : Vec F S64x32 .f32) (x3 : Vec F S1x64 .f32) (x4 : Vec F S64x32 .f32) (a : Fin 8) (ha : a.val ≠ 0) (j : Fin 64) :
    out0_A_7 c i a1 h1 a2 h2 a3 h3 a4 h4 a5 h5 a6 h6 a7 h7 a8 h8 x0 x1 x2 x3 x4 (ix2 a j) = k0_pay5 (F := F) (ix2 a j) := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  try sl_unfold_words
  rw [View.canon_cons_of_not_mem _ _ (by
    rw [Rect.mem_set_unit]
    intro h
    have h0 := (h 0).2
    change a.val < 0 + 1 at h0
    omega), View.canon_unit_zero (S := S8x64) hz0]

end Cert.KernelIdeal.StatsValue

end
-- ==== Proof.Stats0.lean ====
/-
  The value of the first statistics layer's region: what its three output arrays hold when the region ends, as functions
  of the arrays it finds when it starts.

  The pre-activation array: point t writes back rows 10000·t … 10000·t + 9999, each entry the layer's pre-activation
  at that node; the ten blocks cover the hundred thousand rows. Each of the two 80-row tables: point t writes back rows
  8t … 8t + 7, row 8t holding the sums over tile t's ten thousand rows (of the pre-activation, or of its square) and the
  other seven rows zero; the ten blocks cover the eighty rows. An entry of a table at row q is therefore the sum over
  tile q / 8 when q is a multiple of eight, and zero otherwise.
-/
import proofs.«150348_j62612033241213_2_alg».proof.Proof.StatsBlk0
import proofs.«150348_j62612033241213_2_alg».proof.Proof.StatsOut0

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.StatsValue

open Cert.KernelIdeal Cert.KernelIdeal.Gen Cert.KernelIdeal.Iface

/-- The pre-activation array: the layer's pre-activation at every node and feature. -/
abbrev arr0_5 (V : Entry) (c : Dev nD) : S100000x64.Idx → EReal := fun i => pre0 V c (i 0) (i 1)

/-- An index of the pre-activation array is in point t's block iff each coordinate is in the block's range on its axis. -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15_0).slice (win0_5.rect t)).set ↔ _
  rw [View.set_slice_whole, Rect.mem_set_unit]
  exact Iff.rfl

/-- What point t writes back to the pre-activation array is block t of it. -/
theorem flushed0_5 (V : Entry) (c : Dev nD) (t : Fin cfg0.N) :
    (dat0 (F := Ideal) V c).flushed 5 t = ((cfg0.win 5).blk t).view.read (Elt Ideal) (arr0_5 V c) := by
  show (cfg0.win 5).cut (grid0.coords t) ((dat0 V c).after 5 t) = _
  rw [after0_5]
  unfold outsAt0
  dsimp only
  rw [out5_eq]
  have hN : cfg0.N = 10 := N_0
  have ht : t.val < 10 := hN ▸ t.isLt
  obtain ⟨-, -, -, -, -, ⟨e0, e1⟩, -⟩ := idx_facts0 t
  funext y
  obtain ⟨p, j, rfl⟩ : ∃ (p : Fin 10000) (j : Fin 64), y = ix2 p j := ⟨y 0, y 1, eq_ix2 y⟩
  have hemb : ((cfg0.win 5).blk t).view.emb (ix2 p j) = (ix2 (⟨10000 * t.val + p.val, by omega⟩ : Fin 100000) j : S100000x64.Idx) := by
    funext ax; apply Fin.ext
    match ax with
    | ⟨0, _⟩ => show win0_5.index t 0 * 10000 + 1 * p.val = 10000 * t.val + p.val; rw [e0]; omega
    | ⟨1, _⟩ => show win0_5.index t 1 * 64 + 1 * j.val = j.val; rw [e1]; omega
  rw [View.read_apply, hemb]
  exact tile_pre0 V c t p j _ rfl

/-- Every row of the pre-activation array is in the block of the point that owns its tile. -/
theorem cover0_5 (i : S100000x64.Idx) : ∃ t : Fin cfg0.N, (cfg0.win 5).flush t = true ∧ i ∈ ((cfg0.win 5).blk t).view.set := by
  have h0 : (i 0).val < 100000 := (i 0).isLt
  have h1 : (i 1).val < 64 := (i 1).isLt
  have hN : cfg0.N = 10 := N_0
  refine ⟨⟨(i 0).val / 10000, by rw [hN]; omega⟩, flush0_5 _, ?_⟩
  rw [mem_blk0_5]
  obtain ⟨-, -, -, -, -, ⟨e0, e1⟩, -⟩ := idx_facts0 ⟨(i 0).val / 10000, by rw [hN]; omega⟩
  intro a
  match a with
  | ⟨0, _⟩ =>
    show win0_5.index _ 0 * 10000 ≤ (i 0).val ∧ (i 0).val < win0_5.index _ 0 * 10000 + 10000
    rw [e0]; dsimp only; omega
  | ⟨1, _⟩ =>
    show win0_5.index _ 1 * 64 ≤ (i 1).val ∧ (i 1).val < win0_5.index _ 1 * 64 + 64
    rw [e1]; omega

/-- So the pre-activation array ends holding the layer's pre-activation. -/
theorem final0_5 (V : Entry) (c : Dev nD) : (dat0 (F := Ideal) V c).arrAt 5 cfg0.N = arr0_5 V c :=
  (dat0 (F := Ideal) V c).arrAt_eq_of_cover 5 (arr0_5 V c) (fun t _ => flushed0_5 V c t) cover0_5

/-- What the first table holds: row 8t holds tile t's column sums, every other row zero. -/
abbrev tab0_6 (V : Entry) (c : Dev nD) : S80x64.Idx → EReal :=
  fun i => Cert.Spec.tileSum (pre0 V c) (i 0) (i 1)

/-- An index of the first table is in point t's block iff each coordinate is in the block's range on its axis. -/
theorem mem_blk0_6 (t : Fin cfg0.N) (i : S80x64.Idx) :
    i ∈ ((cfg0.win 6).blk t).view.set ↔ ∀ a : Fin 2, win0_6.index t a * S8x64.size a ≤ (i a).val ∧ (i a).val < win0_6.index t a * S8x64.size a + S8x64.size a := by
  show i ∈ ((View.whole main_v15_1).slice (win0_6.rect t)).set ↔ _
  rw [View.set_slice_whole, Rect.mem_set_unit]
  exact Iff.rfl

/-- What point t writes back to the first table is block t of it. -/
theorem flushed0_6 (V : Entry) (c : Dev nD) (t : Fin cfg0.N) :
    (dat0 (F := Ideal) V c).flushed 6 t = ((cfg0.win 6).blk t).view.read (Elt Ideal) (tab0_6 V c) := by
  show (cfg0.win 6).cut (grid0.coords t) ((dat0 V c).after 6 t) = _
  rw [after0_6]
  unfold outsAt0
  dsimp only
  have hN : cfg0.N = 10 := N_0
  have ht : t.val < 10 := hN ▸ t.isLt
  obtain ⟨-, -, -, -, -, -, ⟨e0, e1⟩, -⟩ := idx_facts0 t
  funext y
  obtain ⟨a, j, rfl⟩ : ∃ (a : Fin 8) (j : Fin 64), y = ix2 a j := ⟨y 0, y 1, eq_ix2 y⟩
  have hemb : ((cfg0.win 6).blk t).view.emb (ix2 a j) = (ix2 (⟨8 * t.val + a.val, by omega⟩ : Fin 80) j : S80x64.Idx) := by
    funext ax; apply Fin.ext
    match ax with
    | ⟨0, _⟩ => show win0_6.index t 0 * 8 + 1 * a.val = 8 * t.val + a.val; rw [e0]; omega
    | ⟨1, _⟩ => show win0_6.index t 1 * 64 + 1 * j.val = j.val; rw [e1]; omega
  rw [View.read_apply, hemb]
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (ix2 a j)
    = Cert.Spec.tileSum (pre0 V c) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) j).trans ?_
    refine (pay2_apply (iblk0 V c 0 t) (iblk0 V c 1 t) (iblk0 V c 2 t) (iblk0 V c 4 t) (iblk0 V c 3 t) j).trans ?_
    refine Finset.sum_congr rfl fun p _ => ?_
    exact tile_pre0 V c t p j _ (by show 10000 * ((8 * t.val + 0) / 8) + p.val = 10000 * t.val + p.val; omega)
  · rw [if_neg (show ¬(8 * t.val + a.val) % 8 = 0 by omega)]
    refine (out6_rest (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) a ha j).trans ?_
    exact pay4_apply a j

/-- Every row of the first table is in the block of the point that owns its group of eight rows. -/
theorem cover0_6 (i : S80x64.Idx) : ∃ t : Fin cfg0.N, (cfg0.win 6).flush t = true ∧ i ∈ ((cfg0.win 6).blk t).view.set := by
  have h0 : (i 0).val < 80 := (i 0).isLt
  have h1 : (i 1).val < 64 := (i 1).isLt
  have hN : cfg0.N = 10 := N_0
  refine ⟨⟨(i 0).val / 8, by rw [hN]; omega⟩, flush0_6 _, ?_⟩
  rw [mem_blk0_6]
  obtain ⟨-, -, -, -, -, -, ⟨e0, e1⟩, -⟩ := idx_facts0 ⟨(i 0).val / 8, by rw [hN]; omega⟩
  intro a
  match a with
  | ⟨0, _⟩ =>
    show win0_6.index _ 0 * 8 ≤ (i 0).val ∧ (i 0).val < win0_6.index _ 0 * 8 + 8
    rw [e0]; dsimp only; omega
  | ⟨1, _⟩ =>
    show win0_6.index _ 1 * 64 ≤ (i 1).val ∧ (i 1).val < win0_6.index _ 1 * 64 + 64
    rw [e1]; omega

/-- So the first table ends holding the tile sums. -/
theorem final0_6 (V : Entry) (c : Dev nD) : (dat0 (F := Ideal) V c).arrAt 6 cfg0.N = tab0_6 V c :=
  (dat0 (F := Ideal) V c).arrAt_eq_of_cover 6 (tab0_6 V c) (fun t _ => flushed0_6 V c t) cover0_6

/-- What the second table holds: row 8t holds tile t's column sums of squares, every other row zero. -/
abbrev tab0_7 (V : Entry) (c : Dev nD) : S80x64.Idx → EReal :=
  fun i => Cert.Spec.tileSum (fun r j => pre0 V c r j * pre0 V c r j) (i 0) (i 1)

/-- An index of the second table is in point t's block iff each coordinate is in the block's range on its axis. -/
theorem mem_blk0_7 (t : Fin cfg0.N) (i : S80x64.Idx) :
    i ∈ ((cfg0.win 7).blk t).view.set ↔ ∀ a : Fin 2, win0_7.index t a * S8x64.size a ≤ (i a).val ∧ (i a).val < win0_7.index t a * S8x64.size a + S8x64.size a := by
  show i ∈ ((View.whole main_v15_2).slice (win0_7.rect t)).set ↔ _
  rw [View.set_slice_whole, Rect.mem_set_unit]
  exact Iff.rfl

/-- What point t writes back to the second table is block t of it. -/
theorem flushed0_7 (V : Entry) (c : Dev nD) (t : Fin cfg0.N) :
    (dat0 (F := Ideal) V c).flushed 7 t = ((cfg0.win 7).blk t).view.read (Elt Ideal) (tab0_7 V c) := by
  show (cfg0.win 7).cut (grid0.coords t) ((dat0 V c).after 7 t) = _
  rw [after0_7]
  unfold outsAt0
  dsimp only
  have hN : cfg0.N = 10 := N_0
  have ht : t.val < 10 := hN ▸ t.isLt
  obtain ⟨-, -, -, -, -, -, -, ⟨e0, e1⟩⟩ := idx_facts0 t
  funext y
  obtain ⟨a, j, rfl⟩ : ∃ (a : Fin 8) (j : Fin 64), y = ix2 a j := ⟨y 0, y 1, eq_ix2 y⟩
  have hemb : ((cfg0.win 7).blk t).view.emb (ix2 a j) = (ix2 (⟨8 * t.val + a.val, by omega⟩ : Fin 80) j : S80x64.Idx) := by
    funext ax; apply Fin.ext
    match ax with
    | ⟨0, _⟩ => show win0_7.index t 0 * 8 + 1 * a.val = 8 * t.val + a.val; rw [e0]; omega
    | ⟨1, _⟩ => show win0_7.index t 1 * 64 + 1 * j.val = j.val; rw [e1]; omega
  rw [View.read_apply, hemb]
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (ix2 a j)
    = Cert.Spec.tileSum (fun r j => pre0 V c r j * pre0 V c r j) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out7_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) j).trans ?_
    refine (pay3_apply (iblk0 V c 0 t) (iblk0 V c 1 t) (iblk0 V c 2 t) (iblk0 V c 4 t) (iblk0 V c 3 t) j).trans ?_
    refine Finset.sum_congr rfl fun p _ => ?_
    exact congrArg₂ (· * ·) (tile_pre0 V c t p j _ (by show 10000 * ((8 * t.val + 0) / 8) + p.val = 10000 * t.val + p.val; omega))
      (tile_pre0 V c t p j _ (by show 10000 * ((8 * t.val + 0) / 8) + p.val = 10000 * t.val + p.val; omega))
  · rw [if_neg (show ¬(8 * t.val + a.val) % 8 = 0 by omega)]
    refine (out7_rest (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) a ha j).trans ?_
    exact pay5_apply a j

/-- Every row of the second table is in the block of the point that owns its group of eight rows. -/
theorem cover0_7 (i : S80x64.Idx) : ∃ t : Fin cfg0.N, (cfg0.win 7).flush t = true ∧ i ∈ ((cfg0.win 7).blk t).view.set := by
  have h0 : (i 0).val < 80 := (i 0).isLt
  have h1 : (i 1).val < 64 := (i 1).isLt
  have hN : cfg0.N = 10 := N_0
  refine ⟨⟨(i 0).val / 8, by rw [hN]; omega⟩, flush0_7 _, ?_⟩
  rw [mem_blk0_7]
  obtain ⟨-, -, -, -, -, -, -, ⟨e0, e1⟩⟩ := idx_facts0 ⟨(i 0).val / 8, by rw [hN]; omega⟩
  intro a
  match a with
  | ⟨0, _⟩ =>
    show win0_7.index _ 0 * 8 ≤ (i 0).val ∧ (i 0).val < win0_7.index _ 0 * 8 + 8
    rw [e0]; dsimp only; omega
  | ⟨1, _⟩ =>
    show win0_7.index _ 1 * 64 ≤ (i 1).val ∧ (i 1).val < win0_7.index _ 1 * 64 + 64
    rw [e1]; omega

/-- So the second table ends holding the tile sums. -/
theorem final0_7 (V : Entry) (c : Dev nD) : (dat0 (F := Ideal) V c).arrAt 7 cfg0.N = tab0_7 V c :=
  (dat0 (F := Ideal) V c).arrAt_eq_of_cover 7 (tab0_7 V c) (fun t _ => flushed0_7 V c t) cover0_7

/-- The region's value: the three output arrays, entry by entry. -/
theorem stats0 : Cert.KernelIdeal.Iface.Stats0 := by
  intro V c
  refine ⟨fun r j => ?_, fun q j => ?_, fun q j => ?_⟩
  · exact congrFun (final0_5 V c) (ix2 r j)
  · exact congrFun (final0_6 V c) (ix2 q j)
  · exact congrFun (final0_7 V c) (ix2 q j)

end Cert.KernelIdeal.StatsValue

end
-- ==== Proof.StatsPay2.lean ====
/-
  The arithmetic of one tile of the second statistics layer, entry by entry over the extended reals.

  A tile has ten thousand rows. Its pre-activation at row p and output feature j is the sum over the 64 input
  features of (aggregated feature times the first weight matrix's entry (j, k)), plus the same sum for the node's own
  features and the second weight matrix, plus the bias at j: the two matrix products contract the weight matrices on
  their second axis because the body multiplies by their transposes, and the narrower float format the operands pass
  through is the identity on extended reals. The two statistics rows are the sums over the tile's rows of the
  pre-activation and of its square, each stored as a one-row matrix. The fill the tables are cleared with is zero.
-/
import proofs.«150348_j62612033241213_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators
open Idealize.ShloMosaic Idealize.SL.Sem
open Idealize.ShloMosaic.ValueIdx

namespace Cert.KernelIdeal.StatsValue

open Cert.KernelIdeal Cert.KernelIdeal.Gen

/-- A product by the transpose of a 128 by 64 weight matrix, into the zero accumulator, at an entry: the sum over the
    64 contracted features. -/
theorem mm2_apply {φ₁ φ₂ : FTy} (x : FVec Ideal S10000x64 φ₁) (w : FVec Ideal S128x64 φ₂) (p : Fin 10000) (j : Fin 128) :
    matmul dot_S10000x64_S64x128_S10000x128_1_0_0_1_n_n none x (transpose S64x128 [1, 0] w transposes_S128x64_p1_0_S64x128)
      (constant S10000x128 .f32 0x00000000#32) (ix2 p j) = ∑ k : Fin 64, x (ix2 p k) * w (ix2 j k) := by
  show FloatOps.matmul _ none x _ (constant S10000x128 .f32 0x00000000#32) (ix2 p j) = _
  rw [Ideal.matmul_constant_zero_apply,
    ← Equiv.sum_comp (contrEquiv1 dot_S10000x64_S64x128_S10000x128_1_0_0_1_n_n 64 rfl rfl).symm]
  refine Finset.sum_congr rfl fun k _ => ?_
  have ck := contrEquiv1_symm_val dot_S10000x64_S64x128_S10000x128_1_0_0_1_n_n 64 rfl rfl k
  have hl : dot_S10000x64_S64x128_S10000x128_1_0_0_1_n_n.lhsIdx (ix2 p j) ((contrEquiv1 _ 64 rfl rfl).symm k) = ix2 p k := by
    funext ax; apply Fin.ext
    match ax with
    | ⟨0, _⟩ => simp [DotDims.lhsIdx, dot_S10000x64_S64x128_S10000x128_1_0_0_1_n_n]; rfl
    | ⟨1, _⟩ => simp [DotDims.lhsIdx, dot_S10000x64_S64x128_S10000x128_1_0_0_1_n_n]; exact ck
  have hr : dot_S10000x64_S64x128_S10000x128_1_0_0_1_n_n.rhsIdx (ix2 p j) ((contrEquiv1 _ 64 rfl rfl).symm k) = ix2 k j := by
    funext ax; apply Fin.ext
    match ax with
    | ⟨0, _⟩ => simp [DotDims.rhsIdx, dot_S10000x64_S64x128_S10000x128_1_0_0_1_n_n]; exact ck
    | ⟨1, _⟩ => simp [DotDims.rhsIdx, dot_S10000x64_S64x128_S10000x128_1_0_0_1_n_n]; rfl
  rw [hl, hr]
  refine congrArg (x (ix2 p k) * ·) ?_
  exact transpose_apply [1, 0] w transposes_S128x64_p1_0_S64x128 (ix2 k j) (ix2 j k) fun b => by
    match b with
    | ⟨0, _⟩ => rfl
    | ⟨1, _⟩ => rfl

/-- The bias row spread over the tile's rows, at an entry: the bias at that feature. -/
theorem bias2_apply (b : FVec Ideal S1x128 .f32) (p : Fin 10000) (j : Fin 128) :
    broadcastTo S10000x128 (shapeCast S1x128 b shapeCasts_S1x128_S1x128) broadcasts_S1x128_S10000x128 (ix2 p j) = b (ix2 0 j) := by
  rw [shapeCast_self]
  exact broadcastTo_apply b broadcasts_S1x128_S10000x128 (ix2 p j) (ix2 0 j) fun a => by
    match a with
    | ⟨0, _⟩ => rfl
    | ⟨1, _⟩ => rfl

/-- The tile's pre-activation at row p, feature j. -/
theorem pay1_2_apply (x0 x1 : Vec Ideal S10000x64 .f32) (w0 w1 : Vec Ideal S128x64 .f32) (b : Vec Ideal S1x128 .f32)
    (p : Fin 10000) (j : Fin 128) :
    k2_pay1 (F := Ideal) x0 x1 w0 w1 b (ix2 p j)
      = ((∑ k : Fin 64, x0 (ix2 p k) * w0 (ix2 j k)) + ∑ k : Fin 64, x1 (ix2 p k) * w1 (ix2 j k)) + b (ix2 0 j) := by
  unfold k2_pay1
  dsimp only
  rw [shapeCast_self, shapeCast_self]
  refine congrArg₂ (· + ·) (congrArg₂ (· + ·) ?_ ?_) ?_
  · exact mm2_apply (φ₁ := .bf16) (φ₂ := .bf16) x0 w0 p j
  · exact mm2_apply (φ₁ := .bf16) (φ₂ := .bf16) x1 w1 p j
  · exact bias2_apply b p j

/-- A sum over the tile's rows, stored as a one-row matrix, at feature j. -/
theorem rowsum2_apply (v : FVec Ideal S10000x128 .f32) (j : Fin 128) :
    shapeCast S1x128 (multiReduction .add [0] S128 v 0x00000000#32 reduces_S10000x128_S128 (.inl rfl) rfl) shapeCasts_S128_S1x128
      (ix2 (0 : Fin 1) j) = ∑ p : Fin 10000, v (ix2 p j) := by
  refine (shapeCast_apply _ shapeCasts_S128_S1x128 (ix2 (0 : Fin 1) j) (ix1 j) ?_).trans ?_
  · rw [Shape.rowMajor_val_one, Shape.rowMajor_val_two]
    show j.val = 0 * 128 + j.val
    omega
  refine (Ideal.multiReduction_add_single v 0x00000000#32 reduces_S10000x128_S128 (.inl rfl) rfl (ix1 j)).trans ?_
  refine Finset.sum_congr rfl fun p _ => congrArg v ?_
  funext a
  match a with
  | ⟨0, _⟩ => rfl
  | ⟨1, _⟩ => rfl

/-- The first statistics row: the sum over the tile's rows of the pre-activation. -/
theorem pay2_2_apply (x0 x1 : Vec Ideal S10000x64 .f32) (w0 w1 : Vec Ideal S128x64 .f32) (b : Vec Ideal S1x128 .f32) (j : Fin 128) :
    k2_pay2 (F := Ideal) x0 x1 w0 w1 b (ix2 (0 : Fin 1) j) = ∑ p : Fin 10000, k2_pay1 (F := Ideal) x0 x1 w0 w1 b (ix2 p j) := by
  unfold k2_pay2
  exact rowsum2_apply _ j

/-- The second statistics row: the sum over the tile's rows of the squared pre-activation. -/
theorem pay3_2_apply (x0 x1 : Vec Ideal S10000x64 .f32) (w0 w1 : Vec Ideal S128x64 .f32) (b : Vec Ideal S1x128 .f32) (j : Fin 128) :
    k2_pay3 (F := Ideal) x0 x1 w0 w1 b (ix2 (0 : Fin 1) j)
      = ∑ p : Fin 10000, k2_pay1 (F := Ideal) x0 x1 w0 w1 b (ix2 p j) * k2_pay1 (F := Ideal) x0 x1 w0 w1 b (ix2 p j) := by
  unfold k2_pay3
  exact rowsum2_apply _ j

/-- The fill of the first table's block is zero. -/
theorem pay4_2_apply (a : Fin 8) (j : Fin 128) : k2_pay4 (F := Ideal) (ix2 a j) = 0 := Ideal.ofBits_zero_f32
/-- The fill of the second table's block is zero. -/
theorem pay5_2_apply (a : Fin 8) (j : Fin 128) : k2_pay5 (F := Ideal) (ix2 a j) = 0 := Ideal.ofBits_zero_f32

end Cert.KernelIdeal.StatsValue

end
-- ==== Proof.StatsBlk2.lean ====
/-
  The blocks the second statistics layer's body is handed at a grid point, read entry by entry off the arrays the region
  finds, and the tile's pre-activation as the layer's pre-activation of those arrays.

  The grid has ten points. At point t the two feature windows hold rows 10000·t … 10000·t + 9999 of their arrays; the
  two weight windows and the bias window hold their whole arrays at every point. So the body's pre-activation at row p
  of tile t is the layer's pre-activation at node 10000·t + p: the same two sums over the input features and the same
  bias, read at that node.
-/
import proofs.«150348_j62612033241213_2_alg».proof.Proof.KIface
import proofs.«150348_j62612033241213_2_alg».proof.Proof.StatsPay2

set_option maxRecDepth 16384

noncomputable section

open scoped BigOperators
open Idealize.ShloMosaic Idealize.ShloMosaic.TcCoe Idealize.SL.Sem
open Idealize.ShloMosaic.ValueIdx

namespace Cert.KernelIdeal.StatsValue

open Cert.KernelIdeal Cert.KernelIdeal.Gen Cert.KernelIdeal.Iface

/-- Where each window's block sits at grid point t: the row-tiled windows (the two feature inputs and the three
    outputs) at block row t, the weight and bias windows at block (0, 0). Decided over the ten points. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- The pre-activation of the layer, as a function of the arrays the region finds. -/
abbrev pre2 (V : Entry) (c : Dev nD) : Fin 100000 → Fin 128 → EReal :=
  Cert.Spec.lin (mat (V c main_v40)) (mat (V c main_v30)) (mat (V c main_arg6)) (mat (V c main_arg8)) (row (V c main_v41))

/-- The aggregated-feature window at point t, row p: row 10000·t + p of its array. -/
theorem blk2_0 (V : Entry) (c : Dev nD) (t : Fin cfg2.N) (p : Fin 10000) (k : Fin 64) (r : Fin 100000)
    (hr : r.val = 10000 * t.val + p.val) :
    (iblk2 V c 0 t : Vec Ideal S10000x64 .f32) (ix2 p k) = mat (V c main_v40) r k := by
  obtain ⟨⟨e0, e1⟩, -⟩ := idx_facts2 t
  unfold iblk2
  rw [View.read_apply]
  show V c main_v40 _ = V c main_v40 _
  congr 1
  funext a; apply Fin.ext
  match a with
  | ⟨0, _⟩ => show win2_0.index t 0 * 10000 + 1 * p.val = r.val; rw [e0, hr]; omega
  | ⟨1, _⟩ => show win2_0.index t 1 * 64 + 1 * k.val = k.val; rw [e1]; omega

/-- The node-feature window at point t, row p: row 10000·t + p of its array. -/
theorem blk2_1 (V : Entry) (c : Dev nD) (t : Fin cfg2.N) (p : Fin 10000) (k : Fin 64) (r : Fin 100000)
    (hr : r.val = 10000 * t.val + p.val) :
    (iblk2 V c 1 t : Vec Ideal S10000x64 .f32) (ix2 p k) = mat (V c main_v30) r k := by
  obtain ⟨-, ⟨e0, e1⟩, -⟩ := idx_facts2 t
  unfold iblk2
  rw [View.read_apply]
  show V c main_v30 _ = V c main_v30 _
  congr 1
  funext a; apply Fin.ext
  match a with
  | ⟨0, _⟩ => show win2_1.index t 0 * 10000 + 1 * p.val = r.val; rw [e0, hr]; omega
  | ⟨1, _⟩ => show win2_1.index t 1 * 64 + 1 * k.val = k.val; rw [e1]; omega

/-- The first weight window holds its whole matrix at every point. -/
theorem blk2_2 (V : Entry) (c : Dev nD) (t : Fin cfg2.N) (j : Fin 128) (k : Fin 64) :
    (iblk2 V c 2 t : Vec Ideal S128x64 .f32) (ix2 j k) = mat (V c main_arg6) j k := by
  obtain ⟨-, -, ⟨e0, e1⟩, -⟩ := idx_facts2 t
  unfold iblk2
  rw [View.read_apply]
  show V c main_arg6 _ = V c main_arg6 _
  congr 1
  funext a; apply Fin.ext
  match a with
  | ⟨0, _⟩ => show win2_2.index t 0 * 128 + 1 * j.val = j.val; rw [e0]; omega
  | ⟨1, _⟩ => show win2_2.index t 1 * 64 + 1 * k.val = k.val; rw [e1]; omega

/-- The bias window holds its whole row at every point. -/
theorem blk2_3 (V : Entry) (c : Dev nD) (t : Fin cfg2.N) (j : Fin 128) :
    (iblk2 V c 3 t : Vec Ideal S1x128 .f32) (ix2 (0 : Fin 1) j) = row (V c main_v41) j := by
  obtain ⟨-, -, -, ⟨e0, e1⟩, -⟩ := idx_facts2 t
  unfold iblk2
  rw [View.read_apply]
  show V c main_v41 _ = V c main_v41 _
  congr 1
  funext a; apply Fin.ext
  match a with
  | ⟨0, _⟩ => show win2_3.index t 0 * 1 + 1 * 0 = 0; rw [e0]
  | ⟨1, _⟩ => show win2_3.index t 1 * 128 + 1 * j.val = j.val; rw [e1]; omega

/-- The second weight window holds its whole matrix at every point. -/
theorem blk2_4 (V : Entry) (c : Dev nD) (t : Fin cfg2.N) (j : Fin 128) (k : Fin 64) :
    (iblk2 V c 4 t : Vec Ideal S128x64 .f32) (ix2 j k) = mat (V c main_arg8) j k := by
  obtain ⟨-, -, -, -, ⟨e0, e1⟩, -⟩ := idx_facts2 t
  unfold iblk2
  rw [View.read_apply]
  show V c main_arg8 _ = V c main_arg8 _
  congr 1
  funext a; apply Fin.ext
  match a with
  | ⟨0, _⟩ => show win2_4.index t 0 * 128 + 1 * j.val = j.val; rw [e0]; omega
  | ⟨1, _⟩ => show win2_4.index t 1 * 64 + 1 * k.val = k.val; rw [e1]; omega

/-- The body's pre-activation at row p of tile t is the layer's pre-activation at node 10000·t + p. -/
theorem tile_pre2 (V : Entry) (c : Dev nD) (t : Fin cfg2.N) (p : Fin 10000) (j : Fin 128) (r : Fin 100000)
    (hr : r.val = 10000 * t.val + p.val) :
    k2_pay1 (F := Ideal) (iblk2 V c 0 t) (iblk2 V c 1 t) (iblk2 V c 2 t) (iblk2 V c 4 t) (iblk2 V c 3 t) (ix2 p j)
      = pre2 V c r j := by
  refine (pay1_2_apply (iblk2 V c 0 t) (iblk2 V c 1 t) (iblk2 V c 2 t) (iblk2 V c 4 t) (iblk2 V c 3 t) p j).trans ?_
  unfold pre2 Cert.Spec.lin
  refine congrArg₂ (· + ·) (congrArg₂ (· + ·) (Finset.sum_congr rfl fun k _ => ?_) (Finset.sum_congr rfl fun k _ => ?_)) ?_
  · exact congrArg₂ (· * ·) (blk2_0 V c t p k r hr) (blk2_2 V c t j k)
  · exact congrArg₂ (· * ·) (blk2_1 V c t p k r hr) (blk2_4 V c t j k)
  · exact blk2_3 V c t j

end Cert.KernelIdeal.StatsValue

end
-- ==== Proof.StatsOut2.lean ====
/-
  What one run of the second statistics layer's body leaves in its three output blocks, as values of the blocks it
  loaded, for any float instance.

  The body stores the tile's pre-activation over the whole first block. Each of the two small blocks (eight rows) is
  first filled with a constant and then its row 0 is overwritten with a statistics row; so row 0 reads the statistics
  row and rows 1 to 7 read the fill. The loads read whole staging buffers, so each loaded value is the buffer's contents.
-/
import proofs.«150348_j62612033241213_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.StatsValue

open Cert.KernelIdeal Cert.KernelIdeal.Gen

variable {F : FTy → Type} [FloatOps F]

theorem hz2 : (![0, 0] : Fin 2 → Nat) = fun _ => 0 := funext fun a => by fin_cases a <;> rfl

/-- The first output block holds the tile's pre-activation. -/
theorem out5_2_eq (c : Dev nD) (i : grid2.Coords) (a1 : Memref sig .tc .vmem S10000x64 .f32) (h1 : a1.IsWhole) (a2 : Memref sig .tc .vmem S10000x64 .f32) (h2 : a2.IsWhole) (a3 : Memref sig .tc .vmem S128x64 .f32) (h3 : a3.IsWhole) (a4 : Memref sig .tc .vmem S1x128 .f32) (h4 : a4.IsWhole) (a5 : Memref sig .tc .vmem S128x64 .f32) (h5 : a5.IsWhole) (a6 : Memref sig .tc .vmem S10000x128 .f32) (h6 : a6.IsWhole) (a7 : Memref sig .tc .vmem S8x128 .f32) (h7 : a7.IsWhole) (a8 : Memref sig .tc .vmem S8x128 .f32) (h8 : a8.IsWhole)
    (x0 : Vec F S10000x64 .f32) (x1 : Vec F S10000x64 .f32) (x2 : Vec F S128x64 .f32) (x3 : Vec F S1x128 .f32) (x4 : Vec F S128x64 .f32) :
    out2_A_5 c i a1 h1 a2 h2 a3 h3 a4 h4 a5 h5 a6 h6 a7 h7 a8 h8 x0 x1 x2 x3 x4 = k2_pay1 x0 x1 x2 x4 x3 := by
  unfold out2_A_5
  rw [View.read_writes_eq_canon _ _ _ (cover2_A_5 c i a1 h1 a2 h2 a3 h3 a4 h4 a5 h5 a6 h6 a7 h7 a8 h8 x0 x1 x2 x3 x4)]
  unfold kernelRun2_A
  dsimp only
  try sl_unfold_words
  rw [View.canon_unit_zero (S := S10000x128) hz2]
  simp only [View.readAt_eq_ld, h1.read_unread, h2.read_unread, h3.read_unread, h4.read_unread, h5.read_unread,
    View.ld_unit_zero (S := S10000x64) hz2, View.ld_unit_zero (S := S128x64) hz2, View.ld_unit_zero (S := S1x128) hz2]

/-- Row 0 of what the body leaves in the first table's block: the statistics row, stored last over the fill. -/
theorem out6_2_row0 (c : Dev nD) (i : grid2.Coords) (a1 : Memref sig .tc .vmem S10000x64 .f32) (h1 : a1.IsWhole) (a2 : Memref sig .tc .vmem S10000x64 .f32) (h2 : a2.IsWhole) (a3 : Memref sig .tc .vmem S128x64 .f32) (h3 : a3.IsWhole) (a4 : Memref sig .tc .vmem S1x128 .f32) (h4 : a4.IsWhole) (a5 : Memref sig .tc .vmem S128x64 .f32) (h5 : a5.IsWhole) (a6 : Memref sig .tc .vmem S10000x128 .f32) (h6 : a6.IsWhole) (a7 : Memref sig .tc .vmem S8x128 .f32) (h7 : a7.IsWhole) (a8 : Memref sig .tc .vmem S8x128 .f32) (h8 : a8.IsWhole)
    (x0 : Vec F S10000x64 .f32) (x1 : Vec F S10000x64 .f32) (x2 : Vec F S128x64 .f32) (x3 : Vec F S1x128 .f32) (x4 : Vec F S128x64 .f32) (j : Fin 128) :
    out2_A_6 c i a1 h1 a2 h2 a3 h3 a4 h4 a5 h5 a6 h6 a7 h7 a8 h8 x0 x1 x2 x3 x4 (ix2 (0 : Fin 8) j) = k2_pay2 x0 x1 x2 x4 x3 (ix2 (0 : Fin 1) j) := by
  unfold out2_A_6
  rw [View.read_writes_eq_canon _ _ _ (cover2_A_6 c i a1 h1 a2 h2 a3 h3 a4 h4 a5 h5 a6 h6 a7 h7 a8 h8 x0 x1 x2 x3 x4)]
  unfold kernelRun2_A
  dsimp only
  try sl_unfold_words
  simp only [View.readAt_eq_ld, h1.read_unread, h2.read_unread, h3.read_unread, h4.read_unread, h5.read_unread,
    View.ld_unit_zero (S := S10000x64) hz2, View.ld_unit_zero (S := S128x64) hz2, View.ld_unit_zero (S := S1x128) hz2]
  have e : (ix2 (0 : Fin 8) j : S8x128.Idx) = (Rect.unit (s := S8x128) ![0, 0] ![1, 128] inb_S8x128_S1x128_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out6_2_rest (c : Dev nD) (i : grid2.Coords) (a1 : Memref sig .tc .vmem S10000x64 .f32) (h1 : a1.IsWhole) (a2 : Memref sig .tc .vmem S10000x64 .f32) (h2 : a2.IsWhole) (a3 : Memref sig .tc .vmem S128x64 .f32) (h3 : a3.IsWhole) (a4 : Memref sig .tc .vmem S1x128 .f32) (h4 : a4.IsWhole) (a5 : Memref sig .tc .vmem S128x64 .f32) (h5 : a5.IsWhole) (a6 : Memref sig .tc .vmem S10000x128 .f32) (h6 : a6.IsWhole) (a7 : Memref sig .tc .vmem S8x128 .f32) (h7 : a7.IsWhole) (a8 : Memref sig .tc .vmem S8x128 .f32) (h8 : a8.IsWhole)
    (x0 : Vec F S10000x64 .f32) (x1 : Vec F S10000x64 .f32) (x2 : Vec F S128x64 .f32) (x3 : Vec F S1x128 .f32) (x4 : Vec F S128x64 .f32) (a : Fin 8) (ha : a.val ≠ 0) (j : Fin 128) :
    out2_A_6 c i a1 h1 a2 h2 a3 h3 a4 h4 a5 h5 a6 h6 a7 h7 a8 h8 x0 x1 x2 x3 x4 (ix2 a j) = k2_pay4 (F := F) (ix2 a j) := by
  unfold out2_A_6
  rw [View.read_writes_eq_canon _ _ _ (cover2_A_6 c i a1 h1 a2 h2 a3 h3 a4 h4 a5 h5 a6 h6 a7 h7 a8 h8 x0 x1 x2 x3 x4)]
  unfold kernelRun2_A
  dsimp only
  try sl_unfold_words
  rw [View.canon_cons_of_not_mem _ _ (by
    rw [Rect.mem_set_unit]
    intro h
    have h0 := (h 0).2
    change a.val < 0 + 1 at h0
    omega), View.canon_unit_zero (S := S8x128) hz2]

/-- Row 0 of what the body leaves in the second table's block: the statistics row, stored last over the fill. -/
theorem out7_2_row0 (c : Dev nD) (i : grid2.Coords) (a1 : Memref sig .tc .vmem S10000x64 .f32) (h1 : a1.IsWhole) (a2 : Memref sig .tc .vmem S10000x64 .f32) (h2 : a2.IsWhole) (a3 : Memref sig .tc .vmem S128x64 .f32) (h3 : a3.IsWhole) (a4 : Memref sig .tc .vmem S1x128 .f32) (h4 : a4.IsWhole) (a5 : Memref sig .tc .vmem S128x64 .f32) (h5 : a5.IsWhole) (a6 : Memref sig .tc .vmem S10000x128 .f32) (h6 : a6.IsWhole) (a7 : Memref sig .tc .vmem S8x128 .f32) (h7 : a7.IsWhole) (a8 : Memref sig .tc .vmem S8x128 .f32) (h8 : a8.IsWhole)
    (x0 : Vec F S10000x64 .f32) (x1 : Vec F S10000x64 .f32) (x2 : Vec F S128x64 .f32) (x3 : Vec F S1x128 .f32) (x4 : Vec F S128x64 .f32) (j : Fin 128) :
    out2_A_7 c i a1 h1 a2 h2 a3 h3 a4 h4 a5 h5 a6 h6 a7 h7 a8 h8 x0 x1 x2 x3 x4 (ix2 (0 : Fin 8) j) = k2_pay3 x0 x1 x2 x4 x3 (ix2 (0 : Fin 1) j) := by
  unfold out2_A_7
  rw [View.read_writes_eq_canon _ _ _ (cover2_A_7 c i a1 h1 a2 h2 a3 h3 a4 h4 a5 h5 a6 h6 a7 h7 a8 h8 x0 x1 x2 x3 x4)]
  unfold kernelRun2_A
  dsimp only
  try sl_unfold_words
  simp only [View.readAt_eq_ld, h1.read_unread, h2.read_unread, h3.read_unread, h4.read_unread, h5.read_unread,
    View.ld_unit_zero (S := S10000x64) hz2, View.ld_unit_zero (S := S128x64) hz2, View.ld_unit_zero (S := S1x128) hz2]
  have e : (ix2 (0 : Fin 8) j : S8x128.Idx) = (Rect.unit (s := S8x128) ![0, 0] ![1, 128] inb_S8x128_S1x128_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out7_2_rest (c : Dev nD) (i : grid2.Coords) (a1 : Memref sig .tc .vmem S10000x64 .f32) (h1 : a1.IsWhole) (a2 : Memref sig .tc .vmem S10000x64 .f32) (h2 : a2.IsWhole) (a3 : Memref sig .tc .vmem S128x64 .f32) (h3 : a3.IsWhole) (a4 : Memref sig .tc .vmem S1x128 .f32) (h4 : a4.IsWhole) (a5 : Memref sig .tc .vmem S128x64 .f32) (h5 : a5.IsWhole) (a6 : Memref sig .tc .vmem S10000x128 .f32) (h6 : a6.IsWhole) (a7 : Memref sig .tc .vmem S8x128 .f32) (h7 : a7.IsWhole) (a8 : Memref sig .tc .vmem S8x128 .f32) (h8 : a8.IsWhole)
    (x0 : Vec F S10000x64 .f32) (x1 : Vec F S10000x64 .f32) (x2 : Vec F S128x64 .f32) (x3 : Vec F S1x128 .f32) (x4 : Vec F S128x64 .f32) (a : Fin 8) (ha : a.val ≠ 0) (j : Fin 128) :
    out2_A_7 c i a1 h1 a2 h2 a3 h3 a4 h4 a5 h5 a6 h6 a7 h7 a8 h8 x0 x1 x2 x3 x4 (ix2 a j) = k2_pay5 (F := F) (ix2 a j) := by
  unfold out2_A_7
  rw [View.read_writes_eq_canon _ _ _ (cover2_A_7 c i a1 h1 a2 h2 a3 h3 a4 h4 a5 h5 a6 h6 a7 h7 a8 h8 x0 x1 x2 x3 x4)]
  unfold kernelRun2_A
  dsimp only
  try sl_unfold_words
  rw [View.canon_cons_of_not_mem _ _ (by
    rw [Rect.mem_set_unit]
    intro h
    have h0 := (h 0).2
    change a.val < 0 + 1 at h0
    omega), View.canon_unit_zero (S := S8x128) hz2]

end Cert.KernelIdeal.StatsValue

end
-- ==== Proof.Stats2.lean ====
/-
  The value of the second statistics layer's region: what its three output arrays hold when the region ends, as functions
  of the arrays it finds when it starts.

  The pre-activation array: point t writes back rows 10000·t … 10000·t + 9999, each entry the layer's pre-activation
  at that node; the ten blocks cover the hundred thousand rows. Each of the two 80-row tables: point t writes back rows
  8t … 8t + 7, row 8t holding the sums over tile t's ten thousand rows (of the pre-activation, or of its square) and the
  other seven rows zero; the ten blocks cover the eighty rows. An entry of a table at row q is therefore the sum over
  tile q / 8 when q is a multiple of eight, and zero otherwise.
-/
import proofs.«150348_j62612033241213_2_alg».proof.Proof.StatsBlk2
import proofs.«150348_j62612033241213_2_alg».proof.Proof.StatsOut2

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.StatsValue

open Cert.KernelIdeal Cert.KernelIdeal.Gen Cert.KernelIdeal.Iface

/-- The pre-activation array: the layer's pre-activation at every node and feature. -/
abbrev arr2_5 (V : Entry) (c : Dev nD) : S100000x128.Idx → EReal := fun i => pre2 V c (i 0) (i 1)

/-- An index of the pre-activation array is in point t's block iff each coordinate is in the block's range on its axis. -/
theorem mem_blk2_5 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v42_0).slice (win2_5.rect t)).set ↔ _
  rw [View.set_slice_whole, Rect.mem_set_unit]
  exact Iff.rfl

/-- What point t writes back to the pre-activation array is block t of it. -/
theorem flushed2_5 (V : Entry) (c : Dev nD) (t : Fin cfg2.N) :
    (dat2 (F := Ideal) V c).flushed 5 t = ((cfg2.win 5).blk t).view.read (Elt Ideal) (arr2_5 V c) := by
  show (cfg2.win 5).cut (grid2.coords t) ((dat2 V c).after 5 t) = _
  rw [after2_5]
  unfold outsAt2
  dsimp only
  rw [out5_2_eq]
  have hN : cfg2.N = 10 := N_2
  have ht : t.val < 10 := hN ▸ t.isLt
  obtain ⟨-, -, -, -, -, ⟨e0, e1⟩, -⟩ := idx_facts2 t
  funext y
  obtain ⟨p, j, rfl⟩ : ∃ (p : Fin 10000) (j : Fin 128), y = ix2 p j := ⟨y 0, y 1, eq_ix2 y⟩
  have hemb : ((cfg2.win 5).blk t).view.emb (ix2 p j) = (ix2 (⟨10000 * t.val + p.val, by omega⟩ : Fin 100000) j : S100000x128.Idx) := by
    funext ax; apply Fin.ext
    match ax with
    | ⟨0, _⟩ => show win2_5.index t 0 * 10000 + 1 * p.val = 10000 * t.val + p.val; rw [e0]; omega
    | ⟨1, _⟩ => show win2_5.index t 1 * 128 + 1 * j.val = j.val; rw [e1]; omega
  rw [View.read_apply, hemb]
  exact tile_pre2 V c t p j _ rfl

/-- Every row of the pre-activation array is in the block of the point that owns its tile. -/
theorem cover2_5 (i : S100000x128.Idx) : ∃ t : Fin cfg2.N, (cfg2.win 5).flush t = true ∧ i ∈ ((cfg2.win 5).blk t).view.set := by
  have h0 : (i 0).val < 100000 := (i 0).isLt
  have h1 : (i 1).val < 128 := (i 1).isLt
  have hN : cfg2.N = 10 := N_2
  refine ⟨⟨(i 0).val / 10000, by rw [hN]; omega⟩, flush2_5 _, ?_⟩
  rw [mem_blk2_5]
  obtain ⟨-, -, -, -, -, ⟨e0, e1⟩, -⟩ := idx_facts2 ⟨(i 0).val / 10000, by rw [hN]; omega⟩
  intro a
  match a with
  | ⟨0, _⟩ =>
    show win2_5.index _ 0 * 10000 ≤ (i 0).val ∧ (i 0).val < win2_5.index _ 0 * 10000 + 10000
    rw [e0]; dsimp only; omega
  | ⟨1, _⟩ =>
    show win2_5.index _ 1 * 128 ≤ (i 1).val ∧ (i 1).val < win2_5.index _ 1 * 128 + 128
    rw [e1]; omega

/-- So the pre-activation array ends holding the layer's pre-activation. -/
theorem final2_5 (V : Entry) (c : Dev nD) : (dat2 (F := Ideal) V c).arrAt 5 cfg2.N = arr2_5 V c :=
  (dat2 (F := Ideal) V c).arrAt_eq_of_cover 5 (arr2_5 V c) (fun t _ => flushed2_5 V c t) cover2_5

/-- What the first table holds: row 8t holds tile t's column sums, every other row zero. -/
abbrev tab2_6 (V : Entry) (c : Dev nD) : S80x128.Idx → EReal :=
  fun i => Cert.Spec.tileSum (pre2 V c) (i 0) (i 1)

/-- An index of the first table is in point t's block iff each coordinate is in the block's range on its axis. -/
theorem mem_blk2_6 (t : Fin cfg2.N) (i : S80x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v42_1).slice (win2_6.rect t)).set ↔ _
  rw [View.set_slice_whole, Rect.mem_set_unit]
  exact Iff.rfl

/-- What point t writes back to the first table is block t of it. -/
theorem flushed2_6 (V : Entry) (c : Dev nD) (t : Fin cfg2.N) :
    (dat2 (F := Ideal) V c).flushed 6 t = ((cfg2.win 6).blk t).view.read (Elt Ideal) (tab2_6 V c) := by
  show (cfg2.win 6).cut (grid2.coords t) ((dat2 V c).after 6 t) = _
  rw [after2_6]
  unfold outsAt2
  dsimp only
  have hN : cfg2.N = 10 := N_2
  have ht : t.val < 10 := hN ▸ t.isLt
  obtain ⟨-, -, -, -, -, -, ⟨e0, e1⟩, -⟩ := idx_facts2 t
  funext y
  obtain ⟨a, j, rfl⟩ : ∃ (a : Fin 8) (j : Fin 128), y = ix2 a j := ⟨y 0, y 1, eq_ix2 y⟩
  have hemb : ((cfg2.win 6).blk t).view.emb (ix2 a j) = (ix2 (⟨8 * t.val + a.val, by omega⟩ : Fin 80) j : S80x128.Idx) := by
    funext ax; apply Fin.ext
    match ax with
    | ⟨0, _⟩ => show win2_6.index t 0 * 8 + 1 * a.val = 8 * t.val + a.val; rw [e0]; omega
    | ⟨1, _⟩ => show win2_6.index t 1 * 128 + 1 * j.val = j.val; rw [e1]; omega
  rw [View.read_apply, hemb]
  show out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (ix2 a j)
    = Cert.Spec.tileSum (pre2 V c) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out6_2_row0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) j).trans ?_
    refine (pay2_2_apply (iblk2 V c 0 t) (iblk2 V c 1 t) (iblk2 V c 2 t) (iblk2 V c 4 t) (iblk2 V c 3 t) j).trans ?_
    refine Finset.sum_congr rfl fun p _ => ?_
    exact tile_pre2 V c t p j _ (by show 10000 * ((8 * t.val + 0) / 8) + p.val = 10000 * t.val + p.val; omega)
  · rw [if_neg (show ¬(8 * t.val + a.val) % 8 = 0 by omega)]
    refine (out6_2_rest (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) a ha j).trans ?_
    exact pay4_2_apply a j

/-- Every row of the first table is in the block of the point that owns its group of eight rows. -/
theorem cover2_6 (i : S80x128.Idx) : ∃ t : Fin cfg2.N, (cfg2.win 6).flush t = true ∧ i ∈ ((cfg2.win 6).blk t).view.set := by
  have h0 : (i 0).val < 80 := (i 0).isLt
  have h1 : (i 1).val < 128 := (i 1).isLt
  have hN : cfg2.N = 10 := N_2
  refine ⟨⟨(i 0).val / 8, by rw [hN]; omega⟩, flush2_6 _, ?_⟩
  rw [mem_blk2_6]
  obtain ⟨-, -, -, -, -, -, ⟨e0, e1⟩, -⟩ := idx_facts2 ⟨(i 0).val / 8, by rw [hN]; omega⟩
  intro a
  match a with
  | ⟨0, _⟩ =>
    show win2_6.index _ 0 * 8 ≤ (i 0).val ∧ (i 0).val < win2_6.index _ 0 * 8 + 8
    rw [e0]; dsimp only; omega
  | ⟨1, _⟩ =>
    show win2_6.index _ 1 * 128 ≤ (i 1).val ∧ (i 1).val < win2_6.index _ 1 * 128 + 128
    rw [e1]; omega

/-- So the first table ends holding the tile sums. -/
theorem final2_6 (V : Entry) (c : Dev nD) : (dat2 (F := Ideal) V c).arrAt 6 cfg2.N = tab2_6 V c :=
  (dat2 (F := Ideal) V c).arrAt_eq_of_cover 6 (tab2_6 V c) (fun t _ => flushed2_6 V c t) cover2_6

/-- What the second table holds: row 8t holds tile t's column sums of squares, every other row zero. -/
abbrev tab2_7 (V : Entry) (c : Dev nD) : S80x128.Idx → EReal :=
  fun i => Cert.Spec.tileSum (fun r j => pre2 V c r j * pre2 V c r j) (i 0) (i 1)

/-- An index of the second table is in point t's block iff each coordinate is in the block's range on its axis. -/
theorem mem_blk2_7 (t : Fin cfg2.N) (i : S80x128.Idx) :
    i ∈ ((cfg2.win 7).blk t).view.set ↔ ∀ a : Fin 2, win2_7.index t a * S8x128.size a ≤ (i a).val ∧ (i a).val < win2_7.index t a * S8x128.size a + S8x128.size a := by
  show i ∈ ((View.whole main_v42_2).slice (win2_7.rect t)).set ↔ _
  rw [View.set_slice_whole, Rect.mem_set_unit]
  exact Iff.rfl

/-- What point t writes back to the second table is block t of it. -/
theorem flushed2_7 (V : Entry) (c : Dev nD) (t : Fin cfg2.N) :
    (dat2 (F := Ideal) V c).flushed 7 t = ((cfg2.win 7).blk t).view.read (Elt Ideal) (tab2_7 V c) := by
  show (cfg2.win 7).cut (grid2.coords t) ((dat2 V c).after 7 t) = _
  rw [after2_7]
  unfold outsAt2
  dsimp only
  have hN : cfg2.N = 10 := N_2
  have ht : t.val < 10 := hN ▸ t.isLt
  obtain ⟨-, -, -, -, -, -, -, ⟨e0, e1⟩⟩ := idx_facts2 t
  funext y
  obtain ⟨a, j, rfl⟩ : ∃ (a : Fin 8) (j : Fin 128), y = ix2 a j := ⟨y 0, y 1, eq_ix2 y⟩
  have hemb : ((cfg2.win 7).blk t).view.emb (ix2 a j) = (ix2 (⟨8 * t.val + a.val, by omega⟩ : Fin 80) j : S80x128.Idx) := by
    funext ax; apply Fin.ext
    match ax with
    | ⟨0, _⟩ => show win2_7.index t 0 * 8 + 1 * a.val = 8 * t.val + a.val; rw [e0]; omega
    | ⟨1, _⟩ => show win2_7.index t 1 * 128 + 1 * j.val = j.val; rw [e1]; omega
  rw [View.read_apply, hemb]
  show out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (ix2 a j)
    = Cert.Spec.tileSum (fun r j => pre2 V c r j * pre2 V c r j) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out7_2_row0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) j).trans ?_
    refine (pay3_2_apply (iblk2 V c 0 t) (iblk2 V c 1 t) (iblk2 V c 2 t) (iblk2 V c 4 t) (iblk2 V c 3 t) j).trans ?_
    refine Finset.sum_congr rfl fun p _ => ?_
    exact congrArg₂ (· * ·) (tile_pre2 V c t p j _ (by show 10000 * ((8 * t.val + 0) / 8) + p.val = 10000 * t.val + p.val; omega))
      (tile_pre2 V c t p j _ (by show 10000 * ((8 * t.val + 0) / 8) + p.val = 10000 * t.val + p.val; omega))
  · rw [if_neg (show ¬(8 * t.val + a.val) % 8 = 0 by omega)]
    refine (out7_2_rest (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) a ha j).trans ?_
    exact pay5_2_apply a j

/-- Every row of the second table is in the block of the point that owns its group of eight rows. -/
theorem cover2_7 (i : S80x128.Idx) : ∃ t : Fin cfg2.N, (cfg2.win 7).flush t = true ∧ i ∈ ((cfg2.win 7).blk t).view.set := by
  have h0 : (i 0).val < 80 := (i 0).isLt
  have h1 : (i 1).val < 128 := (i 1).isLt
  have hN : cfg2.N = 10 := N_2
  refine ⟨⟨(i 0).val / 8, by rw [hN]; omega⟩, flush2_7 _, ?_⟩
  rw [mem_blk2_7]
  obtain ⟨-, -, -, -, -, -, -, ⟨e0, e1⟩⟩ := idx_facts2 ⟨(i 0).val / 8, by rw [hN]; omega⟩
  intro a
  match a with
  | ⟨0, _⟩ =>
    show win2_7.index _ 0 * 8 ≤ (i 0).val ∧ (i 0).val < win2_7.index _ 0 * 8 + 8
    rw [e0]; dsimp only; omega
  | ⟨1, _⟩ =>
    show win2_7.index _ 1 * 128 ≤ (i 1).val ∧ (i 1).val < win2_7.index _ 1 * 128 + 128
    rw [e1]; omega

/-- So the second table ends holding the tile sums. -/
theorem final2_7 (V : Entry) (c : Dev nD) : (dat2 (F := Ideal) V c).arrAt 7 cfg2.N = tab2_7 V c :=
  (dat2 (F := Ideal) V c).arrAt_eq_of_cover 7 (tab2_7 V c) (fun t _ => flushed2_7 V c t) cover2_7

/-- The region's value: the three output arrays, entry by entry. -/
theorem stats2 : Cert.KernelIdeal.Iface.Stats2 := by
  intro V c
  refine ⟨fun r j => ?_, fun q j => ?_, fun q j => ?_⟩
  · exact congrFun (final2_5 V c) (ix2 r j)
  · exact congrFun (final2_6 V c) (ix2 q j)
  · exact congrFun (final2_7 V c) (ix2 q j)

end Cert.KernelIdeal.StatsValue

end
-- ==== Proof.StatsPay4.lean ====
/-
  The arithmetic of one tile of the third statistics layer, entry by entry over the extended reals.

  A tile has ten thousand rows. Its pre-activation at row p and output feature j is the sum over the 128 input
  features of (aggregated feature times the first weight matrix's entry (j, k)), plus the same sum for the node's own
  features and the second weight matrix, plus the bias at j: the two matrix products contract the weight matrices on
  their second axis because the body multiplies by their transposes, and the narrower float format the operands pass
  through is the identity on extended reals. The two statistics rows are the sums over the tile's rows of the
  pre-activation and of its square, each stored as a one-row matrix. The fill the tables are cleared with is zero.
-/
import proofs.«150348_j62612033241213_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators
open Idealize.ShloMosaic Idealize.SL.Sem
open Idealize.ShloMosaic.ValueIdx

namespace Cert.KernelIdeal.StatsValue

open Cert.KernelIdeal Cert.KernelIdeal.Gen

/-- A product by the transpose of a 64 by 128 weight matrix, into the zero accumulator, at an entry: the sum over the
    128 contracted features. -/
theorem mm4_apply {φ₁ φ₂ : FTy} (x : FVec Ideal S10000x128 φ₁) (w : FVec Ideal S64x128 φ₂) (p : Fin 10000) (j : Fin 64) :
    matmul dot_S10000x128_S128x64_S10000x64_1_0_0_1_n_n none x (transpose S128x64 [1, 0] w transposes_S64x128_p1_0_S128x64)
      (constant S10000x64 .f32 0x00000000#32) (ix2 p j) = ∑ k : Fin 128, x (ix2 p k) * w (ix2 j k) := by
  show FloatOps.matmul _ none x _ (constant S10000x64 .f32 0x00000000#32) (ix2 p j) = _
  rw [Ideal.matmul_constant_zero_apply,
    ← Equiv.sum_comp (contrEquiv1 dot_S10000x128_S128x64_S10000x64_1_0_0_1_n_n 128 rfl rfl).symm]
  refine Finset.sum_congr rfl fun k _ => ?_
  have ck := contrEquiv1_symm_val dot_S10000x128_S128x64_S10000x64_1_0_0_1_n_n 128 rfl rfl k
  have hl : dot_S10000x128_S128x64_S10000x64_1_0_0_1_n_n.lhsIdx (ix2 p j) ((contrEquiv1 _ 128 rfl rfl).symm k) = ix2 p k := by
    funext ax; apply Fin.ext
    match ax with
    | ⟨0, _⟩ => simp [DotDims.lhsIdx, dot_S10000x128_S128x64_S10000x64_1_0_0_1_n_n]; rfl
    | ⟨1, _⟩ => simp [DotDims.lhsIdx, dot_S10000x128_S128x64_S10000x64_1_0_0_1_n_n]; exact ck
  have hr : dot_S10000x128_S128x64_S10000x64_1_0_0_1_n_n.rhsIdx (ix2 p j) ((contrEquiv1 _ 128 rfl rfl).symm k) = ix2 k j := by
    funext ax; apply Fin.ext
    match ax with
    | ⟨0, _⟩ => simp [DotDims.rhsIdx, dot_S10000x128_S128x64_S10000x64_1_0_0_1_n_n]; exact ck
    | ⟨1, _⟩ => simp [DotDims.rhsIdx, dot_S10000x128_S128x64_S10000x64_1_0_0_1_n_n]; rfl
  rw [hl, hr]
  refine congrArg (x (ix2 p k) * ·) ?_
  exact transpose_apply [1, 0] w transposes_S64x128_p1_0_S128x64 (ix2 k j) (ix2 j k) fun b => by
    match b with
    | ⟨0, _⟩ => rfl
    | ⟨1, _⟩ => rfl

/-- The bias row spread over the tile's rows, at an entry: the bias at that feature. -/
theorem bias4_apply (b : FVec Ideal S1x64 .f32) (p : Fin 10000) (j : Fin 64) :
    broadcastTo S10000x64 (shapeCast S1x64 b shapeCasts_S1x64_S1x64) broadcasts_S1x64_S10000x64 (ix2 p j) = b (ix2 0 j) := by
  rw [shapeCast_self]
  exact broadcastTo_apply b broadcasts_S1x64_S10000x64 (ix2 p j) (ix2 0 j) fun a => by
    match a with
    | ⟨0, _⟩ => rfl
    | ⟨1, _⟩ => rfl

/-- The tile's pre-activation at row p, feature j. -/
theorem pay1_4_apply (x0 x1 : Vec Ideal S10000x128 .f32) (w0 w1 : Vec Ideal S64x128 .f32) (b : Vec Ideal S1x64 .f32)
    (p : Fin 10000) (j : Fin 64) :
    k4_pay1 (F := Ideal) x0 x1 w0 w1 b (ix2 p j)
      = ((∑ k : Fin 128, x0 (ix2 p k) * w0 (ix2 j k)) + ∑ k : Fin 128, x1 (ix2 p k) * w1 (ix2 j k)) + b (ix2 0 j) := by
  unfold k4_pay1
  dsimp only
  rw [shapeCast_self, shapeCast_self]
  refine congrArg₂ (· + ·) (congrArg₂ (· + ·) ?_ ?_) ?_
  · exact mm4_apply (φ₁ := .bf16) (φ₂ := .bf16) x0 w0 p j
  · exact mm4_apply (φ₁ := .bf16) (φ₂ := .bf16) x1 w1 p j
  · exact bias4_apply b p j

/-- A sum over the tile's rows, stored as a one-row matrix, at feature j. -/
theorem rowsum4_apply (v : FVec Ideal S10000x64 .f32) (j : Fin 64) :
    shapeCast S1x64 (multiReduction .add [0] S64 v 0x00000000#32 reduces_S10000x64_S64 (.inl rfl) rfl) shapeCasts_S64_S1x64
      (ix2 (0 : Fin 1) j) = ∑ p : Fin 10000, v (ix2 p j) := by
  refine (shapeCast_apply _ shapeCasts_S64_S1x64 (ix2 (0 : Fin 1) j) (ix1 j) ?_).trans ?_
  · rw [Shape.rowMajor_val_one, Shape.rowMajor_val_two]
    show j.val = 0 * 64 + j.val
    omega
  refine (Ideal.multiReduction_add_single v 0x00000000#32 reduces_S10000x64_S64 (.inl rfl) rfl (ix1 j)).trans ?_
  refine Finset.sum_congr rfl fun p _ => congrArg v ?_
  funext a
  match a with
  | ⟨0, _⟩ => rfl
  | ⟨1, _⟩ => rfl

/-- The first statistics row: the sum over the tile's rows of the pre-activation. -/
theorem pay2_4_apply (x0 x1 : Vec Ideal S10000x128 .f32) (w0 w1 : Vec Ideal S64x128 .f32) (b : Vec Ideal S1x64 .f32) (j : Fin 64) :
    k4_pay2 (F := Ideal) x0 x1 w0 w1 b (ix2 (0 : Fin 1) j) = ∑ p : Fin 10000, k4_pay1 (F := Ideal) x0 x1 w0 w1 b (ix2 p j) := by
  unfold k4_pay2
  exact rowsum4_apply _ j

/-- The second statistics row: the sum over the tile's rows of the squared pre-activation. -/
theorem pay3_4_apply (x0 x1 : Vec Ideal S10000x128 .f32) (w0 w1 : Vec Ideal S64x128 .f32) (b : Vec Ideal S1x64 .f32) (j : Fin 64) :
    k4_pay3 (F := Ideal) x0 x1 w0 w1 b (ix2 (0 : Fin 1) j)
      = ∑ p : Fin 10000, k4_pay1 (F := Ideal) x0 x1 w0 w1 b (ix2 p j) * k4_pay1 (F := Ideal) x0 x1 w0 w1 b (ix2 p j) := by
  unfold k4_pay3
  exact rowsum4_apply _ j

/-- The fill of the first table's block is zero. -/
theorem pay4_4_apply (a : Fin 8) (j : Fin 64) : k4_pay4 (F := Ideal) (ix2 a j) = 0 := Ideal.ofBits_zero_f32
/-- The fill of the second table's block is zero. -/
theorem pay5_4_apply (a : Fin 8) (j : Fin 64) : k4_pay5 (F := Ideal) (ix2 a j) = 0 := Ideal.ofBits_zero_f32

end Cert.KernelIdeal.StatsValue

end
-- ==== Proof.StatsBlk4.lean ====
/-
  The blocks the third statistics layer's body is handed at a grid point, read entry by entry off the arrays the region
  finds, and the tile's pre-activation as the layer's pre-activation of those arrays.

  The grid has ten points. At point t the two feature windows hold rows 10000·t … 10000·t + 9999 of their arrays; the
  two weight windows and the bias window hold their whole arrays at every point. So the body's pre-activation at row p
  of tile t is the layer's pre-activation at node 10000·t + p: the same two sums over the input features and the same
  bias, read at that node.
-/
import proofs.«150348_j62612033241213_2_alg».proof.Proof.KIface
import proofs.«150348_j62612033241213_2_alg».proof.Proof.StatsPay4

set_option maxRecDepth 16384

noncomputable section

open scoped BigOperators
open Idealize.ShloMosaic Idealize.ShloMosaic.TcCoe Idealize.SL.Sem
open Idealize.ShloMosaic.ValueIdx

namespace Cert.KernelIdeal.StatsValue

open Cert.KernelIdeal Cert.KernelIdeal.Gen Cert.KernelIdeal.Iface

/-- Where each window's block sits at grid point t: the row-tiled windows (the two feature inputs and the three
    outputs) at block row t, the weight and bias windows at block (0, 0). Decided over the ten points. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0) :=
  (by decide +kernel : ∀ t : Fin grid4.N, _)

/-- The pre-activation of the layer, as a function of the arrays the region finds. -/
abbrev pre4 (V : Entry) (c : Dev nD) : Fin 100000 → Fin 64 → EReal :=
  Cert.Spec.lin (mat (V c main_v70)) (mat (V c main_v57)) (mat (V c main_arg9)) (mat (V c main_arg11)) (row (V c main_v71))

/-- The aggregated-feature window at point t, row p: row 10000·t + p of its array. -/
theorem blk4_0 (V : Entry) (c : Dev nD) (t : Fin cfg4.N) (p : Fin 10000) (k : Fin 128) (r : Fin 100000)
    (hr : r.val = 10000 * t.val + p.val) :
    (iblk4 V c 0 t : Vec Ideal S10000x128 .f32) (ix2 p k) = mat (V c main_v70) r k := by
  obtain ⟨⟨e0, e1⟩, -⟩ := idx_facts4 t
  unfold iblk4
  rw [View.read_apply]
  show V c main_v70 _ = V c main_v70 _
  congr 1
  funext a; apply Fin.ext
  match a with
  | ⟨0, _⟩ => show win4_0.index t 0 * 10000 + 1 * p.val = r.val; rw [e0, hr]; omega
  | ⟨1, _⟩ => show win4_0.index t 1 * 128 + 1 * k.val = k.val; rw [e1]; omega

/-- The node-feature window at point t, row p: row 10000·t + p of its array. -/
theorem blk4_1 (V : Entry) (c : Dev nD) (t : Fin cfg4.N) (p : Fin 10000) (k : Fin 128) (r : Fin 100000)
    (hr : r.val = 10000 * t.val + p.val) :
    (iblk4 V c 1 t : Vec Ideal S10000x128 .f32) (ix2 p k) = mat (V c main_v57) r k := by
  obtain ⟨-, ⟨e0, e1⟩, -⟩ := idx_facts4 t
  unfold iblk4
  rw [View.read_apply]
  show V c main_v57 _ = V c main_v57 _
  congr 1
  funext a; apply Fin.ext
  match a with
  | ⟨0, _⟩ => show win4_1.index t 0 * 10000 + 1 * p.val = r.val; rw [e0, hr]; omega
  | ⟨1, _⟩ => show win4_1.index t 1 * 128 + 1 * k.val = k.val; rw [e1]; omega

/-- The first weight window holds its whole matrix at every point. -/
theorem blk4_2 (V : Entry) (c : Dev nD) (t : Fin cfg4.N) (j : Fin 64) (k : Fin 128) :
    (iblk4 V c 2 t : Vec Ideal S64x128 .f32) (ix2 j k) = mat (V c main_arg9) j k := by
  obtain ⟨-, -, ⟨e0, e1⟩, -⟩ := idx_facts4 t
  unfold iblk4
  rw [View.read_apply]
  show V c main_arg9 _ = V c main_arg9 _
  congr 1
  funext a; apply Fin.ext
  match a with
  | ⟨0, _⟩ => show win4_2.index t 0 * 64 + 1 * j.val = j.val; rw [e0]; omega
  | ⟨1, _⟩ => show win4_2.index t 1 * 128 + 1 * k.val = k.val; rw [e1]; omega

/-- The bias window holds its whole row at every point. -/
theorem blk4_3 (V : Entry) (c : Dev nD) (t : Fin cfg4.N) (j : Fin 64) :
    (iblk4 V c 3 t : Vec Ideal S1x64 .f32) (ix2 (0 : Fin 1) j) = row (V c main_v71) j := by
  obtain ⟨-, -, -, ⟨e0, e1⟩, -⟩ := idx_facts4 t
  unfold iblk4
  rw [View.read_apply]
  show V c main_v71 _ = V c main_v71 _
  congr 1
  funext a; apply Fin.ext
  match a with
  | ⟨0, _⟩ => show win4_3.index t 0 * 1 + 1 * 0 = 0; rw [e0]
  | ⟨1, _⟩ => show win4_3.index t 1 * 64 + 1 * j.val = j.val; rw [e1]; omega

/-- The second weight window holds its whole matrix at every point. -/
theorem blk4_4 (V : Entry) (c : Dev nD) (t : Fin cfg4.N) (j : Fin 64) (k : Fin 128) :
    (iblk4 V c 4 t : Vec Ideal S64x128 .f32) (ix2 j k) = mat (V c main_arg11) j k := by
  obtain ⟨-, -, -, -, ⟨e0, e1⟩, -⟩ := idx_facts4 t
  unfold iblk4
  rw [View.read_apply]
  show V c main_arg11 _ = V c main_arg11 _
  congr 1
  funext a; apply Fin.ext
  match a with
  | ⟨0, _⟩ => show win4_4.index t 0 * 64 + 1 * j.val = j.val; rw [e0]; omega
  | ⟨1, _⟩ => show win4_4.index t 1 * 128 + 1 * k.val = k.val; rw [e1]; omega

/-- The body's pre-activation at row p of tile t is the layer's pre-activation at node 10000·t + p. -/
theorem tile_pre4 (V : Entry) (c : Dev nD) (t : Fin cfg4.N) (p : Fin 10000) (j : Fin 64) (r : Fin 100000)
    (hr : r.val = 10000 * t.val + p.val) :
    k4_pay1 (F := Ideal) (iblk4 V c 0 t) (iblk4 V c 1 t) (iblk4 V c 2 t) (iblk4 V c 4 t) (iblk4 V c 3 t) (ix2 p j)
      = pre4 V c r j := by
  refine (pay1_4_apply (iblk4 V c 0 t) (iblk4 V c 1 t) (iblk4 V c 2 t) (iblk4 V c 4 t) (iblk4 V c 3 t) p j).trans ?_
  unfold pre4 Cert.Spec.lin
  refine congrArg₂ (· + ·) (congrArg₂ (· + ·) (Finset.sum_congr rfl fun k _ => ?_) (Finset.sum_congr rfl fun k _ => ?_)) ?_
  · exact congrArg₂ (· * ·) (blk4_0 V c t p k r hr) (blk4_2 V c t j k)
  · exact congrArg₂ (· * ·) (blk4_1 V c t p k r hr) (blk4_4 V c t j k)
  · exact blk4_3 V c t j

end Cert.KernelIdeal.StatsValue

end
-- ==== Proof.StatsOut4.lean ====
/-
  What one run of the third statistics layer's body leaves in its three output blocks, as values of the blocks it
  loaded, for any float instance.

  The body stores the tile's pre-activation over the whole first block. Each of the two small blocks (eight rows) is
  first filled with a constant and then its row 0 is overwritten with a statistics row; so row 0 reads the statistics
  row and rows 1 to 7 read the fill. The loads read whole staging buffers, so each loaded value is the buffer's contents.
-/
import proofs.«150348_j62612033241213_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.StatsValue

open Cert.KernelIdeal Cert.KernelIdeal.Gen

variable {F : FTy → Type} [FloatOps F]

theorem hz4 : (![0, 0] : Fin 2 → Nat) = fun _ => 0 := funext fun a => by fin_cases a <;> rfl

/-- The first output block holds the tile's pre-activation. -/
theorem out5_4_eq (c : Dev nD) (i : grid4.Coords) (a1 : Memref sig .tc .vmem S10000x128 .f32) (h1 : a1.IsWhole) (a2 : Memref sig .tc .vmem S10000x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x128 .f32) (x1 : Vec F S10000x128 .f32) (x2 : Vec F S64x128 .f32) (x3 : Vec F S1x64 .f32) (x4 : Vec F S64x128 .f32) :
    out4_A_5 c i a1 h1 a2 h2 a3 h3 a4 h4 a5 h5 a6 h6 a7 h7 a8 h8 x0 x1 x2 x3 x4 = k4_pay1 x0 x1 x2 x4 x3 := by
  unfold out4_A_5
  rw [View.read_writes_eq_canon _ _ _ (cover4_A_5 c i a1 h1 a2 h2 a3 h3 a4 h4 a5 h5 a6 h6 a7 h7 a8 h8 x0 x1 x2 x3 x4)]
  unfold kernelRun4_A
  dsimp only
  try sl_unfold_words
  rw [View.canon_unit_zero (S := S10000x64) hz4]
  simp only [View.readAt_eq_ld, h1.read_unread, h2.read_unread, h3.read_unread, h4.read_unread, h5.read_unread,
    View.ld_unit_zero (S := S10000x128) hz4, View.ld_unit_zero (S := S64x128) hz4, View.ld_unit_zero (S := S1x64) hz4]

/-- Row 0 of what the body leaves in the first table's block: the statistics row, stored last over the fill. -/
theorem out6_4_row0 (c : Dev nD) (i : grid4.Coords) (a1 : Memref sig .tc .vmem S10000x128 .f32) (h1 : a1.IsWhole) (a2 : Memref sig .tc .vmem S10000x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x128 .f32) (x1 : Vec F S10000x128 .f32) (x2 : Vec F S64x128 .f32) (x3 : Vec F S1x64 .f32) (x4 : Vec F S64x128 .f32) (j : Fin 64) :
    out4_A_6 c i a1 h1 a2 h2 a3 h3 a4 h4 a5 h5 a6 h6 a7 h7 a8 h8 x0 x1 x2 x3 x4 (ix2 (0 : Fin 8) j) = k4_pay2 x0 x1 x2 x4 x3 (ix2 (0 : Fin 1) j) := by
  unfold out4_A_6
  rw [View.read_writes_eq_canon _ _ _ (cover4_A_6 c i a1 h1 a2 h2 a3 h3 a4 h4 a5 h5 a6 h6 a7 h7 a8 h8 x0 x1 x2 x3 x4)]
  unfold kernelRun4_A
  dsimp only
  try sl_unfold_words
  simp only [View.readAt_eq_ld, h1.read_unread, h2.read_unread, h3.read_unread, h4.read_unread, h5.read_unread,
    View.ld_unit_zero (S := S10000x128) hz4, View.ld_unit_zero (S := S64x128) hz4, View.ld_unit_zero (S := S1x64) hz4]
  have e : (ix2 (0 : Fin 8) j : S8x64.Idx) = (Rect.unit (s := S8x64) ![0, 0] ![1, 64] inb_S8x64_S1x64_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out6_4_rest (c : Dev nD) (i : grid4.Coords) (a1 : Memref sig .tc .vmem S10000x128 .f32) (h1 : a1.IsWhole) (a2 : Memref sig .tc .vmem S10000x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x128 .f32) (x1 : Vec F S10000x128 .f32) (x2 : Vec F S64x128 .f32) (x3 : Vec F S1x64 .f32) (x4 : Vec F S64x128 .f32) (a : Fin 8) (ha : a.val ≠ 0) (j : Fin 64) :
    out4_A_6 c i a1 h1 a2 h2 a3 h3 a4 h4 a5 h5 a6 h6 a7 h7 a8 h8 x0 x1 x2 x3 x4 (ix2 a j) = k4_pay4 (F := F) (ix2 a j) := by
  unfold out4_A_6
  rw [View.read_writes_eq_canon _ _ _ (cover4_A_6 c i a1 h1 a2 h2 a3 h3 a4 h4 a5 h5 a6 h6 a7 h7 a8 h8 x0 x1 x2 x3 x4)]
  unfold kernelRun4_A
  dsimp only
  try sl_unfold_words
  rw [View.canon_cons_of_not_mem _ _ (by
    rw [Rect.mem_set_unit]
    intro h
    have h0 := (h 0).2
    change a.val < 0 + 1 at h0
    omega), View.canon_unit_zero (S := S8x64) hz4]

/-- Row 0 of what the body leaves in the second table's block: the statistics row, stored last over the fill. -/
theorem out7_4_row0 (c : Dev nD) (i : grid4.Coords) (a1 : Memref sig .tc .vmem S10000x128 .f32) (h1 : a1.IsWhole) (a2 : Memref sig .tc .vmem S10000x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x128 .f32) (x1 : Vec F S10000x128 .f32) (x2 : Vec F S64x128 .f32) (x3 : Vec F S1x64 .f32) (x4 : Vec F S64x128 .f32) (j : Fin 64) :
    out4_A_7 c i a1 h1 a2 h2 a3 h3 a4 h4 a5 h5 a6 h6 a7 h7 a8 h8 x0 x1 x2 x3 x4 (ix2 (0 : Fin 8) j) = k4_pay3 x0 x1 x2 x4 x3 (ix2 (0 : Fin 1) j) := by
  unfold out4_A_7
  rw [View.read_writes_eq_canon _ _ _ (cover4_A_7 c i a1 h1 a2 h2 a3 h3 a4 h4 a5 h5 a6 h6 a7 h7 a8 h8 x0 x1 x2 x3 x4)]
  unfold kernelRun4_A
  dsimp only
  try sl_unfold_words
  simp only [View.readAt_eq_ld, h1.read_unread, h2.read_unread, h3.read_unread, h4.read_unread, h5.read_unread,
    View.ld_unit_zero (S := S10000x128) hz4, View.ld_unit_zero (S := S64x128) hz4, View.ld_unit_zero (S := S1x64) hz4]
  have e : (ix2 (0 : Fin 8) j : S8x64.Idx) = (Rect.unit (s := S8x64) ![0, 0] ![1, 64] inb_S8x64_S1x64_0_0).emb (ix2 (0 : Fin 1) j) := by
    funext a; apply Fin.ext
    match a with
    | ⟨0, _⟩ => rfl
    | ⟨1, _⟩ => show j.val = 0 + 1 * j.val; omega
  rw [e]
  exact View.canon_cons_emb _ _ _ _

/-- The other seven rows: the fill. -/
theorem out7_4_rest (c : Dev nD) (i : grid4.Coords) (a1 : Memref sig .tc .vmem S10000x128 .f32) (h1 : a1.IsWhole) (a2 : Memref sig .tc .vmem S10000x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S10000x64 .f32) (h6 : a6.IsWhole) (a7 : Memref sig .tc .vmem S8x64 .f32) (h7 : a7.IsWhole) (a8 : Memref sig .tc .vmem S8x64 .f32) (h8 : a8.IsWhole)
    (x0 : Vec F S10000x128 .f32) (x1 : Vec F S10000x128 .f32) (x2 : Vec F S64x128 .f32) (x3 : Vec F S1x64 .f32) (x4 : Vec F S64x128 .f32) (a : Fin 8) (ha : a.val ≠ 0) (j : Fin 64) :
    out4_A_7 c i a1 h1 a2 h2 a3 h3 a4 h4 a5 h5 a6 h6 a7 h7 a8 h8 x0 x1 x2 x3 x4 (ix2 a j) = k4_pay5 (F := F) (ix2 a j) := by
  unfold out4_A_7
  rw [View.read_writes_eq_canon _ _ _ (cover4_A_7 c i a1 h1 a2 h2 a3 h3 a4 h4 a5 h5 a6 h6 a7 h7 a8 h8 x0 x1 x2 x3 x4)]
  unfold kernelRun4_A
  dsimp only
  try sl_unfold_words
  rw [View.canon_cons_of_not_mem _ _ (by
    rw [Rect.mem_set_unit]
    intro h
    have h0 := (h 0).2
    change a.val < 0 + 1 at h0
    omega), View.canon_unit_zero (S := S8x64) hz4]

end Cert.KernelIdeal.StatsValue

end
-- ==== Proof.Stats4.lean ====
/-
  The value of the third statistics layer's region: what its three output arrays hold when the region ends, as functions
  of the arrays it finds when it starts.

  The pre-activation array: point t writes back rows 10000·t … 10000·t + 9999, each entry the layer's pre-activation
  at that node; the ten blocks cover the hundred thousand rows. Each of the two 80-row tables: point t writes back rows
  8t … 8t + 7, row 8t holding the sums over tile t's ten thousand rows (of the pre-activation, or of its square) and the
  other seven rows zero; the ten blocks cover the eighty rows. An entry of a table at row q is therefore the sum over
  tile q / 8 when q is a multiple of eight, and zero otherwise.
-/
import proofs.«150348_j62612033241213_2_alg».proof.Proof.StatsBlk4
import proofs.«150348_j62612033241213_2_alg».proof.Proof.StatsOut4

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.StatsValue

open Cert.KernelIdeal Cert.KernelIdeal.Gen Cert.KernelIdeal.Iface

/-- The pre-activation array: the layer's pre-activation at every node and feature. -/
abbrev arr4_5 (V : Entry) (c : Dev nD) : S100000x64.Idx → EReal := fun i => pre4 V c (i 0) (i 1)

/-- An index of the pre-activation array is in point t's block iff each coordinate is in the block's range on its axis. -/
theorem mem_blk4_5 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v72_0).slice (win4_5.rect t)).set ↔ _
  rw [View.set_slice_whole, Rect.mem_set_unit]
  exact Iff.rfl

/-- What point t writes back to the pre-activation array is block t of it. -/
theorem flushed4_5 (V : Entry) (c : Dev nD) (t : Fin cfg4.N) :
    (dat4 (F := Ideal) V c).flushed 5 t = ((cfg4.win 5).blk t).view.read (Elt Ideal) (arr4_5 V c) := by
  show (cfg4.win 5).cut (grid4.coords t) ((dat4 V c).after 5 t) = _
  rw [after4_5]
  unfold outsAt4
  dsimp only
  rw [out5_4_eq]
  have hN : cfg4.N = 10 := N_4
  have ht : t.val < 10 := hN ▸ t.isLt
  obtain ⟨-, -, -, -, -, ⟨e0, e1⟩, -⟩ := idx_facts4 t
  funext y
  obtain ⟨p, j, rfl⟩ : ∃ (p : Fin 10000) (j : Fin 64), y = ix2 p j := ⟨y 0, y 1, eq_ix2 y⟩
  have hemb : ((cfg4.win 5).blk t).view.emb (ix2 p j) = (ix2 (⟨10000 * t.val + p.val, by omega⟩ : Fin 100000) j : S100000x64.Idx) := by
    funext ax; apply Fin.ext
    match ax with
    | ⟨0, _⟩ => show win4_5.index t 0 * 10000 + 1 * p.val = 10000 * t.val + p.val; rw [e0]; omega
    | ⟨1, _⟩ => show win4_5.index t 1 * 64 + 1 * j.val = j.val; rw [e1]; omega
  rw [View.read_apply, hemb]
  exact tile_pre4 V c t p j _ rfl

/-- Every row of the pre-activation array is in the block of the point that owns its tile. -/
theorem cover4_5 (i : S100000x64.Idx) : ∃ t : Fin cfg4.N, (cfg4.win 5).flush t = true ∧ i ∈ ((cfg4.win 5).blk t).view.set := by
  have h0 : (i 0).val < 100000 := (i 0).isLt
  have h1 : (i 1).val < 64 := (i 1).isLt
  have hN : cfg4.N = 10 := N_4
  refine ⟨⟨(i 0).val / 10000, by rw [hN]; omega⟩, flush4_5 _, ?_⟩
  rw [mem_blk4_5]
  obtain ⟨-, -, -, -, -, ⟨e0, e1⟩, -⟩ := idx_facts4 ⟨(i 0).val / 10000, by rw [hN]; omega⟩
  intro a
  match a with
  | ⟨0, _⟩ =>
    show win4_5.index _ 0 * 10000 ≤ (i 0).val ∧ (i 0).val < win4_5.index _ 0 * 10000 + 10000
    rw [e0]; dsimp only; omega
  | ⟨1, _⟩ =>
    show win4_5.index _ 1 * 64 ≤ (i 1).val ∧ (i 1).val < win4_5.index _ 1 * 64 + 64
    rw [e1]; omega

/-- So the pre-activation array ends holding the layer's pre-activation. -/
theorem final4_5 (V : Entry) (c : Dev nD) : (dat4 (F := Ideal) V c).arrAt 5 cfg4.N = arr4_5 V c :=
  (dat4 (F := Ideal) V c).arrAt_eq_of_cover 5 (arr4_5 V c) (fun t _ => flushed4_5 V c t) cover4_5

/-- What the first table holds: row 8t holds tile t's column sums, every other row zero. -/
abbrev tab4_6 (V : Entry) (c : Dev nD) : S80x64.Idx → EReal :=
  fun i => Cert.Spec.tileSum (pre4 V c) (i 0) (i 1)

/-- An index of the first table is in point t's block iff each coordinate is in the block's range on its axis. -/
theorem mem_blk4_6 (t : Fin cfg4.N) (i : S80x64.Idx) :
    i ∈ ((cfg4.win 6).blk t).view.set ↔ ∀ a : Fin 2, win4_6.index t a * S8x64.size a ≤ (i a).val ∧ (i a).val < win4_6.index t a * S8x64.size a + S8x64.size a := by
  show i ∈ ((View.whole main_v72_1).slice (win4_6.rect t)).set ↔ _
  rw [View.set_slice_whole, Rect.mem_set_unit]
  exact Iff.rfl

/-- What point t writes back to the first table is block t of it. -/
theorem flushed4_6 (V : Entry) (c : Dev nD) (t : Fin cfg4.N) :
    (dat4 (F := Ideal) V c).flushed 6 t = ((cfg4.win 6).blk t).view.read (Elt Ideal) (tab4_6 V c) := by
  show (cfg4.win 6).cut (grid4.coords t) ((dat4 V c).after 6 t) = _
  rw [after4_6]
  unfold outsAt4
  dsimp only
  have hN : cfg4.N = 10 := N_4
  have ht : t.val < 10 := hN ▸ t.isLt
  obtain ⟨-, -, -, -, -, -, ⟨e0, e1⟩, -⟩ := idx_facts4 t
  funext y
  obtain ⟨a, j, rfl⟩ : ∃ (a : Fin 8) (j : Fin 64), y = ix2 a j := ⟨y 0, y 1, eq_ix2 y⟩
  have hemb : ((cfg4.win 6).blk t).view.emb (ix2 a j) = (ix2 (⟨8 * t.val + a.val, by omega⟩ : Fin 80) j : S80x64.Idx) := by
    funext ax; apply Fin.ext
    match ax with
    | ⟨0, _⟩ => show win4_6.index t 0 * 8 + 1 * a.val = 8 * t.val + a.val; rw [e0]; omega
    | ⟨1, _⟩ => show win4_6.index t 1 * 64 + 1 * j.val = j.val; rw [e1]; omega
  rw [View.read_apply, hemb]
  show out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) (ix2 a j)
    = Cert.Spec.tileSum (pre4 V c) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out6_4_row0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) j).trans ?_
    refine (pay2_4_apply (iblk4 V c 0 t) (iblk4 V c 1 t) (iblk4 V c 2 t) (iblk4 V c 4 t) (iblk4 V c 3 t) j).trans ?_
    refine Finset.sum_congr rfl fun p _ => ?_
    exact tile_pre4 V c t p j _ (by show 10000 * ((8 * t.val + 0) / 8) + p.val = 10000 * t.val + p.val; omega)
  · rw [if_neg (show ¬(8 * t.val + a.val) % 8 = 0 by omega)]
    refine (out6_4_rest (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) a ha j).trans ?_
    exact pay4_4_apply a j

/-- Every row of the first table is in the block of the point that owns its group of eight rows. -/
theorem cover4_6 (i : S80x64.Idx) : ∃ t : Fin cfg4.N, (cfg4.win 6).flush t = true ∧ i ∈ ((cfg4.win 6).blk t).view.set := by
  have h0 : (i 0).val < 80 := (i 0).isLt
  have h1 : (i 1).val < 64 := (i 1).isLt
  have hN : cfg4.N = 10 := N_4
  refine ⟨⟨(i 0).val / 8, by rw [hN]; omega⟩, flush4_6 _, ?_⟩
  rw [mem_blk4_6]
  obtain ⟨-, -, -, -, -, -, ⟨e0, e1⟩, -⟩ := idx_facts4 ⟨(i 0).val / 8, by rw [hN]; omega⟩
  intro a
  match a with
  | ⟨0, _⟩ =>
    show win4_6.index _ 0 * 8 ≤ (i 0).val ∧ (i 0).val < win4_6.index _ 0 * 8 + 8
    rw [e0]; dsimp only; omega
  | ⟨1, _⟩ =>
    show win4_6.index _ 1 * 64 ≤ (i 1).val ∧ (i 1).val < win4_6.index _ 1 * 64 + 64
    rw [e1]; omega

/-- So the first table ends holding the tile sums. -/
theorem final4_6 (V : Entry) (c : Dev nD) : (dat4 (F := Ideal) V c).arrAt 6 cfg4.N = tab4_6 V c :=
  (dat4 (F := Ideal) V c).arrAt_eq_of_cover 6 (tab4_6 V c) (fun t _ => flushed4_6 V c t) cover4_6

/-- What the second table holds: row 8t holds tile t's column sums of squares, every other row zero. -/
abbrev tab4_7 (V : Entry) (c : Dev nD) : S80x64.Idx → EReal :=
  fun i => Cert.Spec.tileSum (fun r j => pre4 V c r j * pre4 V c r j) (i 0) (i 1)

/-- An index of the second table is in point t's block iff each coordinate is in the block's range on its axis. -/
theorem mem_blk4_7 (t : Fin cfg4.N) (i : S80x64.Idx) :
    i ∈ ((cfg4.win 7).blk t).view.set ↔ ∀ a : Fin 2, win4_7.index t a * S8x64.size a ≤ (i a).val ∧ (i a).val < win4_7.index t a * S8x64.size a + S8x64.size a := by
  show i ∈ ((View.whole main_v72_2).slice (win4_7.rect t)).set ↔ _
  rw [View.set_slice_whole, Rect.mem_set_unit]
  exact Iff.rfl

/-- What point t writes back to the second table is block t of it. -/
theorem flushed4_7 (V : Entry) (c : Dev nD) (t : Fin cfg4.N) :
    (dat4 (F := Ideal) V c).flushed 7 t = ((cfg4.win 7).blk t).view.read (Elt Ideal) (tab4_7 V c) := by
  show (cfg4.win 7).cut (grid4.coords t) ((dat4 V c).after 7 t) = _
  rw [after4_7]
  unfold outsAt4
  dsimp only
  have hN : cfg4.N = 10 := N_4
  have ht : t.val < 10 := hN ▸ t.isLt
  obtain ⟨-, -, -, -, -, -, -, ⟨e0, e1⟩⟩ := idx_facts4 t
  funext y
  obtain ⟨a, j, rfl⟩ : ∃ (a : Fin 8) (j : Fin 64), y = ix2 a j := ⟨y 0, y 1, eq_ix2 y⟩
  have hemb : ((cfg4.win 7).blk t).view.emb (ix2 a j) = (ix2 (⟨8 * t.val + a.val, by omega⟩ : Fin 80) j : S80x64.Idx) := by
    funext ax; apply Fin.ext
    match ax with
    | ⟨0, _⟩ => show win4_7.index t 0 * 8 + 1 * a.val = 8 * t.val + a.val; rw [e0]; omega
    | ⟨1, _⟩ => show win4_7.index t 1 * 64 + 1 * j.val = j.val; rw [e1]; omega
  rw [View.read_apply, hemb]
  show out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) (ix2 a j)
    = Cert.Spec.tileSum (fun r j => pre4 V c r j * pre4 V c r j) (⟨8 * t.val + a.val, by omega⟩ : Fin 80) j
  unfold Cert.Spec.tileSum
  by_cases ha : a.val = 0
  · obtain rfl : a = 0 := Fin.ext ha
    rw [if_pos (show (8 * t.val + (0 : Fin 8).val) % 8 = 0 by show (8 * t.val + 0) % 8 = 0; omega)]
    refine (out7_4_row0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) j).trans ?_
    refine (pay3_4_apply (iblk4 V c 0 t) (iblk4 V c 1 t) (iblk4 V c 2 t) (iblk4 V c 4 t) (iblk4 V c 3 t) j).trans ?_
    refine Finset.sum_congr rfl fun p _ => ?_
    exact congrArg₂ (· * ·) (tile_pre4 V c t p j _ (by show 10000 * ((8 * t.val + 0) / 8) + p.val = 10000 * t.val + p.val; omega))
      (tile_pre4 V c t p j _ (by show 10000 * ((8 * t.val + 0) / 8) + p.val = 10000 * t.val + p.val; omega))
  · rw [if_neg (show ¬(8 * t.val + a.val) % 8 = 0 by omega)]
    refine (out7_4_rest (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (iblk4 V c 0 t) (iblk4 V c 1 t) (iblk4 V c 2 t) (iblk4 V c 3 t) (iblk4 V c 4 t) a ha j).trans ?_
    exact pay5_4_apply a j

/-- Every row of the second table is in the block of the point that owns its group of eight rows. -/
theorem cover4_7 (i : S80x64.Idx) : ∃ t : Fin cfg4.N, (cfg4.win 7).flush t = true ∧ i ∈ ((cfg4.win 7).blk t).view.set := by
  have h0 : (i 0).val < 80 := (i 0).isLt
  have h1 : (i 1).val < 64 := (i 1).isLt
  have hN : cfg4.N = 10 := N_4
  refine ⟨⟨(i 0).val / 8, by rw [hN]; omega⟩, flush4_7 _, ?_⟩
  rw [mem_blk4_7]
  obtain ⟨-, -, -, -, -, -, -, ⟨e0, e1⟩⟩ := idx_facts4 ⟨(i 0).val / 8, by rw [hN]; omega⟩
  intro a
  match a with
  | ⟨0, _⟩ =>
    show win4_7.index _ 0 * 8 ≤ (i 0).val ∧ (i 0).val < win4_7.index _ 0 * 8 + 8
    rw [e0]; dsimp only; omega
  | ⟨1, _⟩ =>
    show win4_7.index _ 1 * 64 ≤ (i 1).val ∧ (i 1).val < win4_7.index _ 1 * 64 + 64
    rw [e1]; omega

/-- So the second table ends holding the tile sums. -/
theorem final4_7 (V : Entry) (c : Dev nD) : (dat4 (F := Ideal) V c).arrAt 7 cfg4.N = tab4_7 V c :=
  (dat4 (F := Ideal) V c).arrAt_eq_of_cover 7 (tab4_7 V c) (fun t _ => flushed4_7 V c t) cover4_7

/-- The region's value: the three output arrays, entry by entry. -/
theorem stats4 : Cert.KernelIdeal.Iface.Stats4 := by
  intro V c
  refine ⟨fun r j => ?_, fun q j => ?_, fun q j => ?_⟩
  · exact congrFun (final4_5 V c) (ix2 r j)
  · exact congrFun (final4_6 V c) (ix2 q j)
  · exact congrFun (final4_7 V c) (ix2 q j)

end Cert.KernelIdeal.StatsValue

end
-- ==== Proof.PointPay1.lean ====
/-
  One entry of what the normalisation kernel at 64 features stores. The body loads a block of ten thousand rows
  of pre-activations `h` and four rows (mean, variance, scale, shift), and stores, at row `p` and feature `q`,

      max (((h p q − mean q) · rsqrt (var q + ε)) · g q + beta q) 0 :

  every operation of the body is pointwise; a one-row operand is read at its one row whatever the block's row is;
  the cut at zero is the maximum with the zero word, which is the extended real 0; ε stays the float word it is
  written as. Read against the arrays the blocks come from, that entry is the normalised, scaled, shifted and cut
  entry of the whole array at the row the block's row sits at.
-/
import proofs.«150348_j62612033241213_2_alg».proof.Proof.Gen.KernelIdeal.Skeleton
import proofs.«150348_j62612033241213_2_alg».proof.Proof.Spec
import Idealize.ShloMosaic.Lib.ValueIdx
import Idealize.ShloMosaic.Lib.ValueLayout
import Idealize.ShloMosaic.PureOps.Ideal.Laws

noncomputable section

namespace Cert.KernelIdeal.PointValue

open Cert.KernelIdeal Cert.KernelIdeal.Gen Idealize.ShloMosaic Idealize.ShloMosaic.ValueIdx

/-- A reciprocal square root of a vector, read at an index, is the reciprocal square root of the entry. -/
theorem rsqrt_apply1 {s : Shape} {φ : FTy} (a : FVec Ideal s φ) (i : s.Idx) : rsqrt a i = Ideal.rsqrt (a i) := rfl

/-- The stored entry at row `p`, feature `q` of the block, from the loaded block and rows. -/
theorem pay1_apply (v0 : Vec Ideal S10000x64 .f32) (v2 v7 v13 v17 : Vec Ideal S1x64 .f32) (p : Fin 10000) (q : Fin 64) :
    k1_pay1 (F := Ideal) v0 v2 v7 v13 v17 (ix2 p q)
      = max ((((v0 (ix2 p q) - v7 (ix2 0 q)) * Ideal.rsqrt (v2 (ix2 0 q) + Cert.Spec.epsF)) * v13 (ix2 0 q)) + v17 (ix2 0 q)) 0 := by
  unfold k1_pay1
  simp only [shapeCast_self, maximumf_apply, addf_apply, mulf_apply, subf_apply, rsqrt_apply1, broadcastTo_1b_ab_apply,
    broadcast_apply]
  simp only [Ideal.ofBits_def, Ideal.ofBits_zero_f32]

/-- The same entry against the arrays the blocks are read from: when the block's entry is the array's at row `r`
    and the loaded rows are the arrays' rows, the stored entry is the normalised and cut entry at `(r, q)`. -/
theorem pay1_spec (x0 : Vec Ideal S10000x64 .f32) (x1 x2 x3 x4 : Vec Ideal S1x64 .f32)
    (H : Fin 100000 → Fin 64 → EReal) (mean var g beta : Fin 64 → EReal)
    (p : Fin 10000) (q : Fin 64) (r : Fin 100000)
    (h0 : x0 (ix2 p q) = H r q) (h1 : x1 (ix2 0 q) = mean q) (h2 : x2 (ix2 0 q) = var q)
    (h3 : x3 (ix2 0 q) = g q) (h4 : x4 (ix2 0 q) = beta q) :
    k1_pay1 (F := Ideal) x0 x2 x1 x3 x4 (ix2 p q) = Cert.Spec.bnRelu H mean var g beta r q := by
  rw [pay1_apply, h0, h1, h2, h3, h4]
  rfl

end Cert.KernelIdeal.PointValue

end
-- ==== Proof.Point1.lean ====
/-
  The array the normalisation kernel at 64 features leaves, entry by entry.

  The grid has ten points; point `t` reads rows `10000·t … 10000·t + 9999` of the pre-activations (its block's
  row `p` is the array's row `10000·t + p`), reads the four one-row operands whole, and writes the block of the
  same rows of the result. So what point `t` writes back is the block at `t` of ONE function of the arrays the
  region finds: at row `r` and feature `j` the normalised, scaled, shifted entry cut at zero. The ten blocks cover
  every row (row `r` lies in the block of point `r / 10000`), so the array ends holding that function everywhere.
-/
import proofs.«150348_j62612033241213_2_alg».proof.Proof.Gen.KernelIdeal.Frame
import proofs.«150348_j62612033241213_2_alg».proof.Proof.KIface
import proofs.«150348_j62612033241213_2_alg».proof.Proof.PointPay1
import Idealize.ShloMosaic.Lib.Pipeline.Value

set_option maxRecDepth 16384

noncomputable section

namespace Cert.KernelIdeal.PointValue

open Cert.KernelIdeal Cert.KernelIdeal.Gen Cert.KernelIdeal.Iface
open Idealize.ShloMosaic Idealize.ShloMosaic.TcCoe Idealize.ShloMosaic.ValueIdx Idealize.SL.Sem
open Idealize.ShloMosaic.Pipeline (Dat)

variable (V : Entry)

theorem hz1 : (![0, 0] : Fin 2 → Nat) = fun _ => 0 := funext fun a => by fin_cases a <;> rfl

/-- The result array as one function of the arrays the region finds. -/
def G1 (c : Dev nD) : S100000x64.Idx → EReal := fun i =>
  Cert.Spec.bnRelu (mat (V c main_v15_0)) (row (V c main_v20)) (row (V c main_v27)) (row (V c main_v28)) (row (V c main_v29)) (i 0) (i 1)

/-- The block indices of the six windows at point `t`: the two matrices move down with the point, the rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the pre-activations' block at point `t` is row `10000·t + p` of the array. -/
theorem blk1_0 (c : Dev nD) (t : Fin cfg1.N) (p : Fin 10000) (q : Fin 64) (hr : 10000 * t.val + p.val < 100000) :
    (iblk1 V c 0 t : Vec Ideal S10000x64 .f32) (ix2 p q)
      = mat (V c main_v15_0) (⟨10000 * t.val + p.val, hr⟩ : Fin 100000) q := by
  obtain ⟨e0, e1, -⟩ := idx_facts1 t
  unfold iblk1
  rw [View.read_apply]
  show V c main_v15_0 _ = V c main_v15_0 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * q.val = q.val; rw [e1]; omega

/-- The block of one-row window 1 is its array. -/
theorem blk1_1 (c : Dev nD) (t : Fin cfg1.N) (q : Fin 64) :
    (iblk1 V c 1 t : Vec Ideal S1x64 .f32) (ix2 0 q) = row (V c main_v20) q := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- The block of one-row window 2 is its array. -/
theorem blk1_2 (c : Dev nD) (t : Fin cfg1.N) (q : Fin 64) :
    (iblk1 V c 2 t : Vec Ideal S1x64 .f32) (ix2 0 q) = row (V c main_v27) q := by
  obtain ⟨-, -, -, -, e0, e1, -⟩ := idx_facts1 t
  unfold iblk1
  rw [View.read_apply]
  show V c main_v27 _ = V c main_v27 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-- The block of one-row window 3 is its array. -/
theorem blk1_3 (c : Dev nD) (t : Fin cfg1.N) (q : Fin 64) :
    (iblk1 V c 3 t : Vec Ideal S1x64 .f32) (ix2 0 q) = row (V c main_v28) q := by
  obtain ⟨-, -, -, -, -, -, e0, e1, -⟩ := idx_facts1 t
  unfold iblk1
  rw [View.read_apply]
  show V c main_v28 _ = V c main_v28 _
  congr 1
  funext a
  apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- The block of one-row window 4 is its array. -/
theorem blk1_4 (c : Dev nD) (t : Fin cfg1.N) (q : Fin 64) :
    (iblk1 V c 4 t : Vec Ideal S1x64 .f32) (ix2 0 q) = row (V c main_v29) q := by
  obtain ⟨-, -, -, -, -, -, -, -, e0, e1, -⟩ := idx_facts1 t
  unfold iblk1
  rw [View.read_apply]
  show V c main_v29 _ = V c main_v29 _
  congr 1
  funext a
  apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- One entry of what point `t` leaves in the output's staging buffer is the result function at the array index
    the entry is written back to. -/
theorem stored1_at (c : Dev nD) (t : Fin cfg1.N) (p : Fin 10000) (q : Fin 64) :
    k1_pay1 (F := Ideal) (iblk1 V c 0 t) (iblk1 V c 2 t) (iblk1 V c 1 t) (iblk1 V c 3 t) (iblk1 V c 4 t) (ix2 p q)
      = G1 V c (((cfg1.win 5).blk t).view.emb (ix2 p q)) := by
  have ht : t.val < 10 := Nat.lt_of_lt_of_eq t.isLt (show cfg1.N = 10 from N_1)
  have hr : 10000 * t.val + p.val < 100000 := by have := p.isLt; omega
  obtain ⟨-, -, -, -, -, -, -, -, -, -, e0, e1⟩ := idx_facts1 t
  have hemb : ((cfg1.win 5).blk t).view.emb (ix2 p q) = ix2 (⟨10000 * t.val + p.val, hr⟩ : Fin 100000) q := by
    funext a
    apply Fin.ext
    match a with
    | ⟨0, _⟩ => show win1_5.index t (0 : Fin 2) * 10000 + 1 * p.val = 10000 * t.val + p.val; rw [e0]; omega
    | ⟨1, _⟩ => show win1_5.index t (1 : Fin 2) * 64 + 1 * q.val = q.val; rw [e1]; omega
  rw [hemb]
  exact pay1_spec (iblk1 V c 0 t) (iblk1 V c 1 t) (iblk1 V c 2 t) (iblk1 V c 3 t) (iblk1 V c 4 t)
    (mat (V c main_v15_0)) (row (V c main_v20)) (row (V c main_v27)) (row (V c main_v28)) (row (V c main_v29))
    p q ⟨10000 * t.val + p.val, hr⟩ (blk1_0 V c t p q hr) (blk1_1 V c t q) (blk1_2 V c t q) (blk1_3 V c t q) (blk1_4 V c t q)

/-- What point `t` writes back is the block at `t` of the result function. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S1x64) hz1]
  funext y
  obtain ⟨p, q, rfl⟩ : ∃ (p : Fin 10000) (q : Fin 64), y = ix2 p q := ⟨y 0, y 1, eq_ix2 y⟩
  exact stored1_at V c t p q

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v30).slice (win1_5.rect t)).set ↔ _
  rw [View.set_slice_whole, Rect.mem_set_unit]
  exact Iff.rfl

/-- Every index of the array is in the block of the point its row names. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, e0, e1⟩ := idx_facts1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 64 ≤ (i 1).val ∧ (i 1).val < win1_5.index t (1 : Fin 2) * 64 + 64
    rw [e1]; omega

/-- The array after the region's last point is the result function. -/
theorem final1 (c : Dev nD) : (dat1 V c).arrAt 5 cfg1.N = G1 V c :=
  (dat1 V c).arrAt_eq_of_cover 5 (G1 V c) (fun t _ => flushed1_eq V c t) cover1

/-- The region's value: each entry of the array it leaves is the normalised, scaled, shifted entry cut at zero. -/
theorem point1 : Iface.Point1 := fun V c r j => by
  rw [final1 V c]
  rfl

end Cert.KernelIdeal.PointValue

end
-- ==== Proof.PointPay3.lean ====
/-
  One entry of what the normalisation kernel at 128 features stores. The body loads a block of ten thousand rows
  of pre-activations `h` and four rows (mean, variance, scale, shift), and stores, at row `p` and feature `q`,

      max (((h p q − mean q) · rsqrt (var q + ε)) · g q + beta q) 0 :

  every operation of the body is pointwise; a one-row operand is read at its one row whatever the block's row is;
  the cut at zero is the maximum with the zero word, which is the extended real 0; ε stays the float word it is
  written as. Read against the arrays the blocks come from, that entry is the normalised, scaled, shifted and cut
  entry of the whole array at the row the block's row sits at.
-/
import proofs.«150348_j62612033241213_2_alg».proof.Proof.Gen.KernelIdeal.Skeleton
import proofs.«150348_j62612033241213_2_alg».proof.Proof.Spec
import Idealize.ShloMosaic.Lib.ValueIdx
import Idealize.ShloMosaic.Lib.ValueLayout
import Idealize.ShloMosaic.PureOps.Ideal.Laws

noncomputable section

namespace Cert.KernelIdeal.PointValue

open Cert.KernelIdeal Cert.KernelIdeal.Gen Idealize.ShloMosaic Idealize.ShloMosaic.ValueIdx

/-- A reciprocal square root of a vector, read at an index, is the reciprocal square root of the entry. -/
theorem rsqrt_apply3 {s : Shape} {φ : FTy} (a : FVec Ideal s φ) (i : s.Idx) : rsqrt a i = Ideal.rsqrt (a i) := rfl

/-- The stored entry at row `p`, feature `q` of the block, from the loaded block and rows. -/
theorem pay3_apply (v0 : Vec Ideal S10000x128 .f32) (v2 v7 v13 v17 : Vec Ideal S1x128 .f32) (p : Fin 10000) (q : Fin 128) :
    k3_pay1 (F := Ideal) v0 v2 v7 v13 v17 (ix2 p q)
      = max ((((v0 (ix2 p q) - v7 (ix2 0 q)) * Ideal.rsqrt (v2 (ix2 0 q) + Cert.Spec.epsF)) * v13 (ix2 0 q)) + v17 (ix2 0 q)) 0 := by
  unfold k3_pay1
  simp only [shapeCast_self, maximumf_apply, addf_apply, mulf_apply, subf_apply, rsqrt_apply3, broadcastTo_1b_ab_apply,
    broadcast_apply]
  simp only [Ideal.ofBits_def, Ideal.ofBits_zero_f32]

/-- The same entry against the arrays the blocks are read from: when the block's entry is the array's at row `r`
    and the loaded rows are the arrays' rows, the stored entry is the normalised and cut entry at `(r, q)`. -/
theorem pay3_spec (x0 : Vec Ideal S10000x128 .f32) (x1 x2 x3 x4 : Vec Ideal S1x128 .f32)
    (H : Fin 100000 → Fin 128 → EReal) (mean var g beta : Fin 128 → EReal)
    (p : Fin 10000) (q : Fin 128) (r : Fin 100000)
    (h0 : x0 (ix2 p q) = H r q) (h1 : x1 (ix2 0 q) = mean q) (h2 : x2 (ix2 0 q) = var q)
    (h3 : x3 (ix2 0 q) = g q) (h4 : x4 (ix2 0 q) = beta q) :
    k3_pay1 (F := Ideal) x0 x2 x1 x3 x4 (ix2 p q) = Cert.Spec.bnRelu H mean var g beta r q := by
  rw [pay3_apply, h0, h1, h2, h3, h4]
  rfl

end Cert.KernelIdeal.PointValue

end
-- ==== Proof.Point3.lean ====
/-
  The array the normalisation kernel at 128 features leaves, entry by entry.

  The grid has ten points; point `t` reads rows `10000·t … 10000·t + 9999` of the pre-activations (its block's
  row `p` is the array's row `10000·t + p`), reads the four one-row operands whole, and writes the block of the
  same rows of the result. So what point `t` writes back is the block at `t` of ONE function of the arrays the
  region finds: at row `r` and feature `j` the normalised, scaled, shifted entry cut at zero. The ten blocks cover
  every row (row `r` lies in the block of point `r / 10000`), so the array ends holding that function everywhere.
-/
import proofs.«150348_j62612033241213_2_alg».proof.Proof.Gen.KernelIdeal.Frame
import proofs.«150348_j62612033241213_2_alg».proof.Proof.KIface
import proofs.«150348_j62612033241213_2_alg».proof.Proof.PointPay3
import Idealize.ShloMosaic.Lib.Pipeline.Value

set_option maxRecDepth 16384

noncomputable section

namespace Cert.KernelIdeal.PointValue

open Cert.KernelIdeal Cert.KernelIdeal.Gen Cert.KernelIdeal.Iface
open Idealize.ShloMosaic Idealize.ShloMosaic.TcCoe Idealize.ShloMosaic.ValueIdx Idealize.SL.Sem
open Idealize.ShloMosaic.Pipeline (Dat)

variable (V : Entry)

theorem hz3 : (![0, 0] : Fin 2 → Nat) = fun _ => 0 := funext fun a => by fin_cases a <;> rfl

/-- The result array as one function of the arrays the region finds. -/
def G3 (c : Dev nD) : S100000x128.Idx → EReal := fun i =>
  Cert.Spec.bnRelu (mat (V c main_v42_0)) (row (V c main_v47)) (row (V c main_v54)) (row (V c main_v55)) (row (V c main_v56)) (i 0) (i 1)

/-- The block indices of the six windows at point `t`: the two matrices move down with the point, the rows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the pre-activations' block at point `t` is row `10000·t + p` of the array. -/
theorem blk3_0 (c : Dev nD) (t : Fin cfg3.N) (p : Fin 10000) (q : Fin 128) (hr : 10000 * t.val + p.val < 100000) :
    (iblk3 V c 0 t : Vec Ideal S10000x128 .f32) (ix2 p q)
      = mat (V c main_v42_0) (⟨10000 * t.val + p.val, hr⟩ : Fin 100000) q := by
  obtain ⟨e0, e1, -⟩ := idx_facts3 t
  unfold iblk3
  rw [View.read_apply]
  show V c main_v42_0 _ = V c main_v42_0 _
  congr 1
  funext a
  apply Fin.ext
  match a with
  | ⟨0, _⟩ => show win3_0.index t (0 : Fin 2) * 10000 + 1 * p.val = 10000 * t.val + p.val; rw [e0]; omega
  | ⟨1, _⟩ => show win3_0.index t (1 : Fin 2) * 128 + 1 * q.val = q.val; rw [e1]; omega

/-- The block of one-row window 1 is its array. -/
theorem blk3_1 (c : Dev nD) (t : Fin cfg3.N) (q : Fin 128) :
    (iblk3 V c 1 t : Vec Ideal S1x128 .f32) (ix2 0 q) = row (V c main_v47) q := by
  obtain ⟨-, -, e0, e1, -⟩ := idx_facts3 t
  unfold iblk3
  rw [View.read_apply]
  show V c main_v47 _ = V c main_v47 _
  congr 1
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

/-- The block of one-row window 2 is its array. -/
theorem blk3_2 (c : Dev nD) (t : Fin cfg3.N) (q : Fin 128) :
    (iblk3 V c 2 t : Vec Ideal S1x128 .f32) (ix2 0 q) = row (V c main_v54) q := by
  obtain ⟨-, -, -, -, e0, e1, -⟩ := idx_facts3 t
  unfold iblk3
  rw [View.read_apply]
  show V c main_v54 _ = V c main_v54 _
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- The block of one-row window 3 is its array. -/
theorem blk3_3 (c : Dev nD) (t : Fin cfg3.N) (q : Fin 128) :
    (iblk3 V c 3 t : Vec Ideal S1x128 .f32) (ix2 0 q) = row (V c main_v55) q := by
  obtain ⟨-, -, -, -, -, -, e0, e1, -⟩ := idx_facts3 t
  unfold iblk3
  rw [View.read_apply]
  show V c main_v55 _ = V c main_v55 _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- The block of one-row window 4 is its array. -/
theorem blk3_4 (c : Dev nD) (t : Fin cfg3.N) (q : Fin 128) :
    (iblk3 V c 4 t : Vec Ideal S1x128 .f32) (ix2 0 q) = row (V c main_v56) q := by
  obtain ⟨-, -, -, -, -, -, -, -, e0, e1, -⟩ := idx_facts3 t
  unfold iblk3
  rw [View.read_apply]
  show V c main_v56 _ = V c main_v56 _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- One entry of what point `t` leaves in the output's staging buffer is the result function at the array index
    the entry is written back to. -/
theorem stored3_at (c : Dev nD) (t : Fin cfg3.N) (p : Fin 10000) (q : Fin 128) :
    k3_pay1 (F := Ideal) (iblk3 V c 0 t) (iblk3 V c 2 t) (iblk3 V c 1 t) (iblk3 V c 3 t) (iblk3 V c 4 t) (ix2 p q)
      = G3 V c (((cfg3.win 5).blk t).view.emb (ix2 p q)) := by
  have ht : t.val < 10 := Nat.lt_of_lt_of_eq t.isLt (show cfg3.N = 10 from N_3)
  have hr : 10000 * t.val + p.val < 100000 := by have := p.isLt; omega
  obtain ⟨-, -, -, -, -, -, -, -, -, -, e0, e1⟩ := idx_facts3 t
  have hemb : ((cfg3.win 5).blk t).view.emb (ix2 p q) = ix2 (⟨10000 * t.val + p.val, hr⟩ : Fin 100000) q := by
    funext a
    apply Fin.ext
    match a with
    | ⟨0, _⟩ => show win3_5.index t (0 : Fin 2) * 10000 + 1 * p.val = 10000 * t.val + p.val; rw [e0]; omega
    | ⟨1, _⟩ => show win3_5.index t (1 : Fin 2) * 128 + 1 * q.val = q.val; rw [e1]; omega
  rw [hemb]
  exact pay3_spec (iblk3 V c 0 t) (iblk3 V c 1 t) (iblk3 V c 2 t) (iblk3 V c 3 t) (iblk3 V c 4 t)
    (mat (V c main_v42_0)) (row (V c main_v47)) (row (V c main_v54)) (row (V c main_v55)) (row (V c main_v56))
    p q ⟨10000 * t.val + p.val, hr⟩ (blk3_0 V c t p q hr) (blk3_1 V c t q) (blk3_2 V c t q) (blk3_3 V c t q) (blk3_4 V c t q)

/-- What point `t` writes back is the block at `t` of the result function. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S10000x128) hz3, View.ld_unit_zero (S := S1x128) hz3]
  funext y
  obtain ⟨p, q, rfl⟩ : ∃ (p : Fin 10000) (q : Fin 128), y = ix2 p q := ⟨y 0, y 1, eq_ix2 y⟩
  exact stored3_at V c t p q

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v57).slice (win3_5.rect t)).set ↔ _
  rw [View.set_slice_whole, Rect.mem_set_unit]
  exact Iff.rfl

/-- Every index of the array is in the block of the point its row names. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, -, -, -, -, -, -, e0, e1⟩ := idx_facts3 t
  refine ⟨t, flush3_5 t, ?_⟩
  rw [mem_blk3]
  intro a
  match a with
  | ⟨0, _⟩ =>
    show win3_5.index t (0 : Fin 2) * 10000 ≤ (i 0).val ∧ (i 0).val < win3_5.index t (0 : Fin 2) * 10000 + 10000
    rw [e0, ht]; omega
  | ⟨1, _⟩ =>
    show win3_5.index t (1 : Fin 2) * 128 ≤ (i 1).val ∧ (i 1).val < win3_5.index t (1 : Fin 2) * 128 + 128
    rw [e1]; omega

/-- The array after the region's last point is the result function. -/
theorem final3 (c : Dev nD) : (dat3 V c).arrAt 5 cfg3.N = G3 V c :=
  (dat3 V c).arrAt_eq_of_cover 5 (G3 V c) (fun t _ => flushed3_eq V c t) cover3

/-- The region's value: each entry of the array it leaves is the normalised, scaled, shifted entry cut at zero. -/
theorem point3 : Iface.Point3 := fun V c r j => by
  rw [final3 V c]
  rfl

end Cert.KernelIdeal.PointValue

end
-- ==== Proof.PointDot.lean ====
/-
  A product of an `m × k` matrix by a `k × n` matrix, accumulated from zero, read at one entry: the sum over the
  contracted coordinate of the products of the two matrices' entries. The contraction's index set has one axis of
  extent `k`; the sum over it is re-indexed through that axis's coordinate, and the operand indices at an output
  index `(a, b)` and a contracted coordinate `c` are `(a, c)` and `(c, b)`.
-/
import Idealize.ShloMosaic.Lib.ValueIdx
import Idealize.ShloMosaic.Lib.ValueLayout
import Idealize.ShloMosaic.PureOps.Ideal.Laws

noncomputable section

open scoped BigOperators

namespace Cert.KernelIdeal.PointValue

open Idealize.ShloMosaic Idealize.ShloMosaic.ValueIdx

/-- The matrix product from a zero accumulator at `(a, b)` is `∑ c, A (a, c) · B (c, b)`. -/
theorem matmul_zero_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.PointValue

end
-- ==== Proof.PointPay5.lean ====
/-
  One entry of what the last kernel stores. Its body loads a block of ten thousand rows of the third layer's
  pre-activations `h` and of the first layer's output `res`, the four normalisation rows, and the classifier's two
  weight matrices and two bias rows, and computes, at row `p`,

      y p k  = max ((((h p k − mean k) · rsqrt (var k + ε)) · g k + beta k) + res p k) 0      (64 features)
      z p i  = (∑ k, y p k · W₁ i k) + b₁ i                                                  (32 hidden units)
      out p j = (∑ i, max (z p i) 0 · W₂ j i) + b₂ j                                          (2 classes).

  The two products are matrix products from a zero accumulator against the TRANSPOSED weight matrices, so the
  weight is read at (output, input); the narrowing of the operands to sixteen bits is the identity on extended
  reals; each bias row is read at its one row. Against the arrays the blocks come from this is the classifier
  applied to the normalised, residual-added and cut third layer, at the row the block's row sits at.
-/
import proofs.«150348_j62612033241213_2_alg».proof.Proof.Gen.KernelIdeal.Skeleton
import proofs.«150348_j62612033241213_2_alg».proof.Proof.Spec
import proofs.«150348_j62612033241213_2_alg».proof.Proof.PointDot

noncomputable section

open scoped BigOperators

namespace Cert.KernelIdeal.PointValue

open Cert.KernelIdeal Cert.KernelIdeal.Gen Idealize.ShloMosaic Idealize.ShloMosaic.ValueIdx

/-- A reciprocal square root of a vector, read at an index, is the reciprocal square root of the entry. -/
theorem rsqrt_apply5 {s : Shape} {φ : FTy} (a : FVec Ideal s φ) (i : s.Idx) : rsqrt a i = Ideal.rsqrt (a i) := rfl

/-- The first product, 64 features into 32 hidden units, at an entry. -/
theorem dot64_apply (A : FVec Ideal S10000x64 .bf16) (B : FVec Ideal S64x32 .bf16) (p : Fin 10000) (i : Fin 32) :
    matmul dot_S10000x64_S64x32_S10000x32_1_0_0_1_n_n none A B (constant (F := Ideal) S10000x32 .f32 0x00000000#32) (ix2 p i)
      = ∑ k : Fin 64, A (ix2 p k) * B (ix2 k i) :=
  matmul_zero_plain_apply Facts₀.dot_S10000x64_S64x32_S10000x32_1_0_0_1_n_n_wf none A B p i

/-- The second product, 32 hidden units into 2 classes, at an entry. -/
theorem dot32_apply (A : FVec Ideal S10000x32 .bf16) (B : FVec Ideal S32x2 .bf16) (p : Fin 10000) (j : Fin 2) :
    matmul dot_S10000x32_S32x2_S10000x2_1_0_0_1_n_n none A B (constant (F := Ideal) S10000x2 .f32 0x00000000#32) (ix2 p j)
      = ∑ i : Fin 32, A (ix2 p i) * B (ix2 i j) :=
  matmul_zero_plain_apply Facts₀.dot_S10000x32_S32x2_S10000x2_1_0_0_1_n_n_wf none A B p j

/-- The first weight matrix transposed, read at (input, output), is the matrix at (output, input). -/
theorem transpose64_apply (x : FVec Ideal S32x64 .bf16) (k : Fin 64) (i : Fin 32) :
    transpose S64x32 [1, 0] x Facts₀.transposes_S32x64_p1_0_S64x32 (ix2 k i) = x (ix2 i k) :=
  transpose_ix2_apply x _ k i

/-- The second weight matrix transposed likewise. -/
theorem transpose32_apply (x : FVec Ideal S2x32 .bf16) (i : Fin 32) (j : Fin 2) :
    transpose S32x2 [1, 0] x Facts₀.transposes_S2x32_p1_0_S32x2 (ix2 i j) = x (ix2 j i) :=
  transpose_ix2_apply x _ i j

/-- The hidden layer before its cut, at row `p` and hidden unit `i`. -/
theorem pay5_3_apply (v0 : Vec Ideal S10000x64 .f32) (v2 v7 v13 v17 : Vec Ideal S1x64 .f32) (v21 : Vec Ideal S10000x64 .f32)
    (v27 : Vec Ideal S32x64 .f32) (v33 : Vec Ideal S1x32 .f32) (p : Fin 10000) (i : Fin 32) :
    k5_pay3 (F := Ideal) v0 v2 v7 v13 v17 v21 v27 v33 (ix2 p i)
      = (∑ k : Fin 64, max (((((v0 (ix2 p k) - v7 (ix2 0 k)) * Ideal.rsqrt (v2 (ix2 0 k) + Cert.Spec.epsF)) * v13 (ix2 0 k)) + v17 (ix2 0 k)) + v21 (ix2 p k)) 0
          * v27 (ix2 i k)) + v33 (ix2 0 i) := by
  unfold k5_pay3
  simp only [shapeCast_self, addf_apply, broadcastTo_1b_ab_apply, dot64_apply, truncf_apply,
    maximumf_apply, mulf_apply, subf_apply, rsqrt_apply5, broadcast_apply]
  simp only [Ideal.ofBits_def, Ideal.ofBits_zero_f32]
  refine congrArg (· + _) (Finset.sum_congr rfl fun k _ => ?_)
  exact congrArg (_ * ·) (transpose64_apply _ k i)

/-- The narrowed second weight matrix is the matrix. -/
theorem pay5_2_apply (v29 : Vec Ideal S2x32 .f32) (j : Fin 2) (i : Fin 32) : k5_pay2 (F := Ideal) v29 (ix2 j i) = v29 (ix2 j i) := rfl

/-- The stored entry at row `p` and class `j`, from the hidden layer `v36`, the value `z` it is cut at, the narrowed
    second weight matrix and the second bias row. -/
theorem pay5_1_apply (v30 : FVec Ideal S2x32 .bf16) (v36 : FVec Ideal S10000x32 .f32) (z : Ideal .f32) (v42 : Vec Ideal S1x2 .f32)
    (p : Fin 10000) (j : Fin 2) :
    k5_pay1 (F := Ideal) v30 v36 z v42 (ix2 p j) = (∑ i : Fin 32, max (v36 (ix2 p i)) z * v30 (ix2 j i)) + v42 (ix2 0 j) := by
  unfold k5_pay1
  simp only [shapeCast_self, addf_apply, broadcastTo_1b_ab_apply, dot32_apply, truncf_apply,
    maximumf_apply, broadcast_apply]
  refine congrArg (· + _) (Finset.sum_congr rfl fun i _ => ?_)
  exact congrArg (_ * ·) (transpose32_apply v30 i j)

/-- The stored entry against the arrays the blocks are read from: when the two matrix blocks' rows are the arrays'
    row `r` and every other loaded operand is its array, the stored entry is the classifier of the normalised,
    residual-added and cut layer at `(r, j)`. -/
theorem pay5_spec (x0 : Vec Ideal S10000x64 .f32) (x1 x2 x3 x4 : Vec Ideal S1x64 .f32) (x5 : Vec Ideal S10000x64 .f32)
    (x6 : Vec Ideal S32x64 .f32) (x7 : Vec Ideal S1x32 .f32) (x8 : Vec Ideal S2x32 .f32) (x9 : Vec Ideal S1x2 .f32)
    (H R : Fin 100000 → Fin 64 → EReal) (mean var g beta : Fin 64 → EReal)
    (W1 : Fin 32 → Fin 64 → EReal) (B1 : Fin 32 → EReal) (W2 : Fin 2 → Fin 32 → EReal) (B2 : Fin 2 → EReal)
    (p : Fin 10000) (j : Fin 2) (r : Fin 100000)
    (h0 : ∀ k, x0 (ix2 p k) = H r k) (h1 : ∀ k, x1 (ix2 0 k) = mean k) (h2 : ∀ k, x2 (ix2 0 k) = var k)
    (h3 : ∀ k, x3 (ix2 0 k) = g k) (h4 : ∀ k, x4 (ix2 0 k) = beta k) (h5 : ∀ k, x5 (ix2 p k) = R r k)
    (h6 : ∀ i k, x6 (ix2 i k) = W1 i k) (h7 : ∀ i, x7 (ix2 0 i) = B1 i)
    (h8 : ∀ j i, x8 (ix2 j i) = W2 j i) (h9 : ∀ j, x9 (ix2 0 j) = B2 j) :
    k5_pay1 (F := Ideal) (k5_pay2 x8) (k5_pay3 x0 x2 x1 x3 x4 x5 x6 x7) (Scalar.ofBits .f32 0x00000000#32) x9 (ix2 p j)
      = Cert.Spec.classify (Cert.Spec.resRelu H mean var g beta R) W1 B1 W2 B2 r j := by
  rw [pay5_1_apply]
  simp only [pay5_3_apply, pay5_2_apply, h0, h1, h2, h3, h4, h5, h6, h7, h8, h9]
  show (∑ i : Fin 32, max _ (Ideal.ofBits .f32 0x00000000#32) * W2 j i) + B2 j = _
  rw [Ideal.ofBits_zero_f32]
  rfl

end Cert.KernelIdeal.PointValue

end
-- ==== Proof.Point5.lean ====
/-
  The array the last kernel leaves, entry by entry.

  The grid has ten points; point `t` reads rows `10000·t … 10000·t + 9999` of the third layer's pre-activations and
  of the first layer's output (its blocks' row `p` is the arrays' row `10000·t + p`), reads the normalisation rows,
  the two weight matrices and the two bias rows whole, and writes the block of the same rows of the two-class scores.
  So what point `t` writes back is the block at `t` of ONE function of the arrays the region finds: at row `r` and
  class `j`, the classifier (a linear map, the cut at zero, a second linear map) of the normalised third layer with the
  first layer's output added and cut at zero. The ten blocks cover every row (row `r` lies in the block of point
  `r / 10000`), so the array ends holding that function everywhere.
-/
import proofs.«150348_j62612033241213_2_alg».proof.Proof.Gen.KernelIdeal.Frame
import proofs.«150348_j62612033241213_2_alg».proof.Proof.KIface
import proofs.«150348_j62612033241213_2_alg».proof.Proof.PointPay5
import Idealize.ShloMosaic.Lib.Pipeline.Value

set_option maxRecDepth 16384

noncomputable section

namespace Cert.KernelIdeal.PointValue

open Cert.KernelIdeal Cert.KernelIdeal.Gen Cert.KernelIdeal.Iface
open Idealize.ShloMosaic Idealize.ShloMosaic.TcCoe Idealize.ShloMosaic.ValueIdx Idealize.SL.Sem
open Idealize.ShloMosaic.Pipeline (Dat)

variable (V : Entry)

theorem hz5 : (![0, 0] : Fin 2 → Nat) = fun _ => 0 := funext fun a => by fin_cases a <;> rfl

/-- The scores array as one function of the arrays the region finds. -/
def G5 (c : Dev nD) : S100000x2.Idx → EReal := fun i =>
  Cert.Spec.classify
    (Cert.Spec.resRelu (mat (V c main_v72_0)) (row (V c main_v77)) (row (V c main_v84)) (row (V c main_v85)) (row (V c main_v86)) (mat (V c main_v30)))
    (mat (V c main_arg18)) (row (V c main_v87)) (mat (V c main_arg20)) (row (V c main_v88)) (i 0) (i 1)

/-! The block indices of the eleven windows at point `t`: the two 64-feature matrices and the scores move down with the
    point, everything else stays at its one block. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = t.val ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)
theorem idx5_10 : ∀ t : Fin cfg5.N, win5_10.index t (0 : Fin 2) = t.val ∧ win5_10.index t (1 : Fin 2) = 0 :=
  (by decide +kernel : ∀ t : Fin grid5.N, _)

/-- Row `p` of window 0's block at point `t` is row `10000·t + p` of its array. -/
theorem blk5_0 (c : Dev nD) (t : Fin cfg5.N) (p : Fin 10000) (q : Fin 64) (hr : 10000 * t.val + p.val < 100000) :
    (iblk5 V c 0 t : Vec Ideal S10000x64 .f32) (ix2 p q)
      = mat (V c main_v72_0) (⟨10000 * t.val + p.val, hr⟩ : Fin 100000) q := by
  obtain ⟨e0, e1⟩ := idx5_0 t
  unfold iblk5
  rw [View.read_apply]
  show V c main_v72_0 _ = V c main_v72_0 _
  congr 1
  funext a
  apply Fin.ext
  match a with
  | ⟨0, _⟩ => show win5_0.index t (0 : Fin 2) * 10000 + 1 * p.val = 10000 * t.val + p.val; rw [e0]; omega
  | ⟨1, _⟩ => show win5_0.index t (1 : Fin 2) * 64 + 1 * q.val = q.val; rw [e1]; omega

/-- The block of one-row window 1 is its array. -/
theorem blk5_1 (c : Dev nD) (t : Fin cfg5.N) (q : Fin 64) :
    (iblk5 V c 1 t : Vec Ideal S1x64 .f32) (ix2 0 q) = row (V c main_v77) q := by
  obtain ⟨e0, e1⟩ := idx5_1 t
  unfold iblk5
  rw [View.read_apply]
  show V c main_v77 _ = V c main_v77 _
  congr 1
  funext a
  apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

/-- The block of one-row window 2 is its array. -/
theorem blk5_2 (c : Dev nD) (t : Fin cfg5.N) (q : Fin 64) :
    (iblk5 V c 2 t : Vec Ideal S1x64 .f32) (ix2 0 q) = row (V c main_v84) q := by
  obtain ⟨e0, e1⟩ := idx5_2 t
  unfold iblk5
  rw [View.read_apply]
  show V c main_v84 _ = V c main_v84 _
  congr 1
  funext a
  apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

/-- The block of one-row window 3 is its array. -/
theorem blk5_3 (c : Dev nD) (t : Fin cfg5.N) (q : Fin 64) :
    (iblk5 V c 3 t : Vec Ideal S1x64 .f32) (ix2 0 q) = row (V c main_v85) q := by
  obtain ⟨e0, e1⟩ := idx5_3 t
  unfold iblk5
  rw [View.read_apply]
  show V c main_v85 _ = V c main_v85 _
  congr 1
  funext a
  apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

/-- The block of one-row window 4 is its array. -/
theorem blk5_4 (c : Dev nD) (t : Fin cfg5.N) (q : Fin 64) :
    (iblk5 V c 4 t : Vec Ideal S1x64 .f32) (ix2 0 q) = row (V c main_v86) q := by
  obtain ⟨e0, e1⟩ := idx5_4 t
  unfold iblk5
  rw [View.read_apply]
  show V c main_v86 _ = V c main_v86 _
  congr 1
  funext a
  apply Fin.ext
  match a with
  | ⟨0, _⟩ => show win5_4.index t (0 : Fin 2) * 1 + 1 * 0 = 0; rw [e0]
  | ⟨1, _⟩ => show win5_4.index t (1 : Fin 2) * 64 + 1 * q.val = q.val; rw [e1]; omega

/-- Row `p` of window 5's block at point `t` is row `10000·t + p` of its array. -/
theorem blk5_5 (c : Dev nD) (t : Fin cfg5.N) (p : Fin 10000) (q : Fin 64) (hr : 10000 * t.val + p.val < 100000) :
    (iblk5 V c 5 t : Vec Ideal S10000x64 .f32) (ix2 p q)
      = mat (V c main_v30) (⟨10000 * t.val + p.val, hr⟩ : Fin 100000) q := by
  obtain ⟨e0, e1⟩ := idx5_5 t
  unfold iblk5
  rw [View.read_apply]
  show V c main_v30 _ = V c main_v30 _
  congr 1
  funext a
  apply Fin.ext
  match a with
  | ⟨0, _⟩ => show win5_5.index t (0 : Fin 2) * 10000 + 1 * p.val = 10000 * t.val + p.val; rw [e0]; omega
  | ⟨1, _⟩ => show win5_5.index t (1 : Fin 2) * 64 + 1 * q.val = q.val; rw [e1]; omega

/-- The block of window 6, a whole weight matrix, is its array. -/
theorem blk5_6 (c : Dev nD) (t : Fin cfg5.N) (i : Fin 32) (k : Fin 64) :
    (iblk5 V c 6 t : Vec Ideal S32x64 .f32) (ix2 i k) = mat (V c main_arg18) i k := by
  obtain ⟨e0, e1⟩ := idx5_6 t
  unfold iblk5
  rw [View.read_apply]
  show V c main_arg18 _ = V c main_arg18 _
  congr 1
  funext a
  apply Fin.ext
  match a with
  | ⟨0, _⟩ => show win5_6.index t (0 : Fin 2) * 32 + 1 * i.val = i.val; rw [e0]; omega
  | ⟨1, _⟩ => show win5_6.index t (1 : Fin 2) * 64 + 1 * k.val = k.val; rw [e1]; omega

/-- The block of one-row window 7 is its array. -/
theorem blk5_7 (c : Dev nD) (t : Fin cfg5.N) (q : Fin 32) :
    (iblk5 V c 7 t : Vec Ideal S1x32 .f32) (ix2 0 q) = row (V c main_v87) q := by
  obtain ⟨e0, e1⟩ := idx5_7 t
  unfold iblk5
  rw [View.read_apply]
  show V c main_v87 _ = V c main_v87 _
  congr 1
  funext a
  apply Fin.ext
  match a with
  | ⟨0, _⟩ => show win5_7.index t (0 : Fin 2) * 1 + 1 * 0 = 0; rw [e0]
  | ⟨1, _⟩ => show win5_7.index t (1 : Fin 2) * 32 + 1 * q.val = q.val; rw [e1]; omega

/-- The block of window 8, a whole weight matrix, is its array. -/
theorem blk5_8 (c : Dev nD) (t : Fin cfg5.N) (i : Fin 2) (k : Fin 32) :
    (iblk5 V c 8 t : Vec Ideal S2x32 .f32) (ix2 i k) = mat (V c main_arg20) i k := by
  obtain ⟨e0, e1⟩ := idx5_8 t
  unfold iblk5
  rw [View.read_apply]
  show V c main_arg20 _ = V c main_arg20 _
  congr 1
  funext a
  apply Fin.ext
  match a with
  | ⟨0, _⟩ => show win5_8.index t (0 : Fin 2) * 2 + 1 * i.val = i.val; rw [e0]; omega
  | ⟨1, _⟩ => show win5_8.index t (1 : Fin 2) * 32 + 1 * k.val = k.val; rw [e1]; omega

/-- The block of one-row window 9 is its array. -/
theorem blk5_9 (c : Dev nD) (t : Fin cfg5.N) (q : Fin 2) :
    (iblk5 V c 9 t : Vec Ideal S1x2 .f32) (ix2 0 q) = row (V c main_v88) q := by
  obtain ⟨e0, e1⟩ := idx5_9 t
  unfold iblk5
  rw [View.read_apply]
  show V c main_v88 _ = V c main_v88 _
  congr 1
  funext a
  apply Fin.ext
  match a with
  | ⟨0, _⟩ => show win5_9.index t (0 : Fin 2) * 1 + 1 * 0 = 0; rw [e0]
  | ⟨1, _⟩ => show win5_9.index t (1 : Fin 2) * 2 + 1 * q.val = q.val; rw [e1]; omega

/-- One entry of what point `t` leaves in the output's staging buffer is the scores function at the array index the
    entry is written back to. -/
theorem stored5_at (c : Dev nD) (t : Fin cfg5.N) (p : Fin 10000) (j : Fin 2) :
    k5_pay1 (F := Ideal) (k5_pay2 (iblk5 V c 8 t))
        (k5_pay3 (iblk5 V c 0 t) (iblk5 V c 2 t) (iblk5 V c 1 t) (iblk5 V c 3 t) (iblk5 V c 4 t) (iblk5 V c 5 t) (iblk5 V c 6 t) (iblk5 V c 7 t))
        (Scalar.ofBits .f32 0x00000000#32) (iblk5 V c 9 t) (ix2 p j)
      = G5 V c (((cfg5.win 10).blk t).view.emb (ix2 p j)) := by
  have ht : t.val < 10 := Nat.lt_of_lt_of_eq t.isLt (show cfg5.N = 10 from N_5)
  have hr : 10000 * t.val + p.val < 100000 := by have := p.isLt; omega
  obtain ⟨e0, e1⟩ := idx5_10 t
  have hemb : ((cfg5.win 10).blk t).view.emb (ix2 p j) = ix2 (⟨10000 * t.val + p.val, hr⟩ : Fin 100000) j := by
    funext a
    apply Fin.ext
    match a with
    | ⟨0, _⟩ => show win5_10.index t (0 : Fin 2) * 10000 + 1 * p.val = 10000 * t.val + p.val; rw [e0]; omega
    | ⟨1, _⟩ => show win5_10.index t (1 : Fin 2) * 2 + 1 * j.val = j.val; rw [e1]; omega
  rw [hemb]
  exact pay5_spec (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t)
    (mat (V c main_v72_0)) (mat (V c main_v30)) (row (V c main_v77)) (row (V c main_v84)) (row (V c main_v85)) (row (V c main_v86))
    (mat (V c main_arg18)) (row (V c main_v87)) (mat (V c main_arg20)) (row (V c main_v88))
    p j ⟨10000 * t.val + p.val, hr⟩
    (fun k => blk5_0 V c t p k hr) (blk5_1 V c t) (blk5_2 V c t) (blk5_3 V c t) (blk5_4 V c t)
    (fun k => blk5_5 V c t p k hr) (blk5_6 V c t) (blk5_7 V c t) (blk5_8 V c t) (blk5_9 V c t)

/-- What point `t` writes back is the block at `t` of the scores function. -/
theorem flushed5_eq (c : Dev nD) (t : Fin cfg5.N) :
    (dat5 V c).flushed 10 t = ((cfg5.win 10).blk t).view.read (Elt Ideal) (G5 V c) := by
  show (cfg5.win 10).cut (grid5.coords t) ((dat5 V c).after 10 t) = _
  rw [after5_10]
  unfold out5_10
  rw [View.canon_unit_zero hz5]
  simp only [View.ld_unit_zero (S := S10000x64) hz5, View.ld_unit_zero (S := S1x64) hz5, View.ld_unit_zero (S := S32x64) hz5,
    View.ld_unit_zero (S := S2x32) hz5, View.ld_unit_zero (S := S1x32) hz5, View.ld_unit_zero (S := S1x2) hz5]
  funext y
  obtain ⟨p, j, rfl⟩ : ∃ (p : Fin 10000) (j : Fin 2), y = ix2 p j := ⟨y 0, y 1, eq_ix2 y⟩
  exact stored5_at V c t p j

/-- An index of the array is in point `t`'s block iff each coordinate is in the block's range on its axis. -/
theorem mem_blk5 (t : Fin cfg5.N) (i : S100000x2.Idx) :
    i ∈ ((cfg5.win 10).blk t).view.set ↔ ∀ a : Fin 2, win5_10.index t a * S10000x2.size a ≤ (i a).val ∧ (i a).val < win5_10.index t a * S10000x2.size a + S10000x2.size a := by
  show i ∈ ((View.whole main_v89).slice (win5_10.rect t)).set ↔ _
  rw [View.set_slice_whole, Rect.mem_set_unit]
  exact Iff.rfl

/-- Every index of the array is in the block of the point its row names. -/
theorem cover5 (i : S100000x2.Idx) :
    ∃ t : Fin cfg5.N, (cfg5.win 10).flush t = true ∧ i ∈ ((cfg5.win 10).blk t).view.set := by
  have hi0 : (i 0).val < 100000 := (i 0).isLt
  have hi1 : (i 1).val < 2 := (i 1).isLt
  obtain ⟨t, ht⟩ : ∃ t : Fin cfg5.N, t.val = (i 0).val / 10000 :=
    ⟨⟨(i 0).val / 10000, by rw [show cfg5.N = 10 from N_5]; omega⟩, rfl⟩
  obtain ⟨e0, e1⟩ := idx5_10 t
  refine ⟨t, flush5_10 t, ?_⟩
  rw [mem_blk5]
  intro a
  match a with
  | ⟨0, _⟩ =>
    show win5_10.index t (0 : Fin 2) * 10000 ≤ (i 0).val ∧ (i 0).val < win5_10.index t (0 : Fin 2) * 10000 + 10000
    rw [e0, ht]; omega
  | ⟨1, _⟩ =>
    show win5_10.index t (1 : Fin 2) * 2 ≤ (i 1).val ∧ (i 1).val < win5_10.index t (1 : Fin 2) * 2 + 2
    rw [e1]; omega

/-- The array after the region's last point is the scores function. -/
theorem final5 (c : Dev nD) : (dat5 V c).arrAt 10 cfg5.N = G5 V c :=
  (dat5 V c).arrAt_eq_of_cover 10 (G5 V c) (fun t _ => flushed5_eq V c t) cover5

/-- The region's value: each entry of the array it leaves is the classifier's score of the normalised, residual-added
    and cut third layer. -/
theorem point5 : Iface.Point5 := fun V c r j => by
  rw [final5 V c]
  rfl

end Cert.KernelIdeal.PointValue

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.LibAgg.lean ====
/-
  Gathering rows and adding updates up keeps real tables real.

  A gather reads each of its entries from the operand (start indices are clamped, so every read is in bounds): entries
  of a real table are real. A scatter with an add body holds, at each entry, the operand's entry plus the finite sum
  of the update entries that land there: real when the operand and the updates are.
-/
import Idealize.ShloMosaic.PureOps.Ideal
import Idealize.ShloMosaic.PureOps.Contract
import proofs.«150348_j62612033241213_2_alg».proof.Proof.LibFinite

noncomputable section

open scoped BigOperators

namespace Cert.LibAgg

open Idealize.ShloMosaic Cert.LibFinite

/-- Every entry of a gather is an entry of its operand. -/
theorem gather_fin {s si t : Shape} {w : Nat} (d : GatherDims s si t) (x : s.Idx → EReal) (idx : IVec si w)
    (hx : ∀ i, IsFin (x i)) (j : t.Idx) : IsFin (Host.gather d x idx j) :=
  hx _

/-- A scatter-add of real updates into a real operand is real, entry by entry. -/
theorem scatterAdd_fin {s si su : Shape} {w : Nat} (d : ScatterDims s si su) (x : FVec Ideal s .f32) (idx : IVec si w)
    (upd : FVec Ideal su .f32) (hx : ∀ i, IsFin (x i)) (hu : ∀ j, IsFin (upd j)) (i : s.Idx) :
    IsFin (Host.scatterAdd d x idx upd i) := by
  show IsFin (x i + ∑ j ∈ Finset.univ.filter (fun j => d.resultIdx? j idx = some i), upd j)
  exact (hx i).add (IsFin.sum _ _ fun j _ => hu j)

end Cert.LibAgg

end
-- ==== Proof.KAgg.lean ====
/-
  The neighbour aggregation of the idealized kernel program, as closed terms of its host operations.

  From the 2 × E table of edges: row 0 is the source node of each edge, row 1 its destination. A negative source index
  is wrapped by adding the node count. The source rows of the feature table are gathered (one row per edge), in the
  third layer each gathered row is multiplied by its edge's weight, and the rows are added up, per destination node,
  into a table of zeros. Gathering and adding keep a table of reals real.
-/
import proofs.«150348_j62612033241213_2_alg».proof.Proof.Gen.KernelIdeal.Frame
import proofs.«150348_j62612033241213_2_alg».proof.Proof.KIface
import proofs.«150348_j62612033241213_2_alg».proof.Proof.LibAgg
import Idealize.ShloMosaic.PureOps.Ideal
import Idealize.ShloMosaic.Lib.StableHlo.Run

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

/-- An integer buffer's contents at the ideal instance. -/
abbrev TI (S : Shape) : Type := (⟨S, .i32⟩ : BufTy).Contents (Elt Ideal)
/-- A float buffer's contents at the ideal instance. -/
abbrev TF (S : Shape) : Type := (⟨S, .f32⟩ : BufTy).Contents (Elt Ideal)

/-- Row 0 of the edge table: each edge's source node. -/
def srcIdx (ei : TI S2x1600000) : TI S1600000 := fun i =>
  shapeCast S1600000 (extractStridedSlice S1x1600000 ![0, 0] ei slices_S2x1600000_S1x1600000_0_0) shapeCasts_S1x1600000_S1600000 i

/-- Row 1 of the edge table: each edge's destination node. -/
def dstIdx (ei : TI S2x1600000) : TI S1600000 := fun i =>
  shapeCast S1600000 (extractStridedSlice S1x1600000 ![1, 0] ei slices_S2x1600000_S1x1600000_1_0) shapeCasts_S1x1600000_S1600000 i

/-- A negative index counts from the end: the node count is added to it. -/
def wrapIdx (s : TI S1600000) : TI S1600000 :=
  select (cmpi CmpIPredicate.slt s (broadcastInDim S1600000 ![] bcast_S_S1600000 (constantI S_ 32 0#32)))
    (addi s (broadcastInDim S1600000 ![] bcast_S_S1600000 (constantI S_ 32 100000#32))) s

/-- The aggregation of a 32-feature table. -/
def agg32 (x : TF S100000x32) (ei : TI S2x1600000) : TF S100000x32 :=
  Host.scatterAdd scatter_S100000x32_S1600000x1_S1600000x32_1_0_0_1
    (broadcastInDim S100000x32 ![] bcast_S_S100000x32 (constant (F := Ideal) S_ FTy.f32 0#32))
    (broadcastInDim S1600000x1 ![0] bcast_S1600000_S1600000x1_0 (dstIdx ei))
    (Host.gather gather_S100000x32_S1600000x1_S1600000x32_1_0_n_n_0_1_132 x
      (broadcastInDim S1600000x1 ![0] bcast_S1600000_S1600000x1_0 (wrapIdx (srcIdx ei))))

/-- The aggregation of a 64-feature table. -/
def agg64 (x : TF S100000x64) (ei : TI S2x1600000) : TF S100000x64 :=
  Host.scatterAdd scatter_S100000x64_S1600000x1_S1600000x64_1_0_0_1
    (broadcastInDim S100000x64 ![] bcast_S_S100000x64 (constant (F := Ideal) S_ FTy.f32 0#32))
    (broadcastInDim S1600000x1 ![0] bcast_S1600000_S1600000x1_0 (dstIdx ei))
    (Host.gather gather_S100000x64_S1600000x1_S1600000x64_1_0_n_n_0_1_164 x
      (broadcastInDim S1600000x1 ![0] bcast_S1600000_S1600000x1_0 (wrapIdx (srcIdx ei))))

/-- The weighted aggregation of a 128-feature table. -/
def agg128 (x : TF S100000x128) (ei : TI S2x1600000) (ew : TF S1600000) : TF S100000x128 :=
  Host.scatterAdd scatter_S100000x128_S1600000x1_S1600000x128_1_0_0_1
    (broadcastInDim S100000x128 ![] bcast_S_S100000x128 (constant (F := Ideal) S_ FTy.f32 0#32))
    (broadcastInDim S1600000x1 ![0] bcast_S1600000_S1600000x1_0 (dstIdx ei))
    (mulf (Host.gather gather_S100000x128_S1600000x1_S1600000x128_1_0_n_n_0_1_1128 x
        (broadcastInDim S1600000x1 ![0] bcast_S1600000_S1600000x1_0 (wrapIdx (srcIdx ei))))
      (broadcastInDim S1600000x128 ![0, 1] bcast_S1600000x1_S1600000x128_0_1
        (broadcastInDim S1600000x1 ![0] bcast_S1600000_S1600000x1_0 ew)))

open Cert.LibFinite Cert.LibAgg

/-- The zero table is a table of reals. -/
theorem zeros_fin (S : Shape) (h : S_.BroadcastsInDim S ![]) (i : S.Idx) :
    IsFin (broadcastInDim S ![] h (constant (F := Ideal) S_ FTy.f32 0#32) i) := by
  show IsFin (Ideal.ofBits .f32 0#32)
  rw [Ideal.ofBits_zero_f32]
  exact isFin_zero

theorem agg32_fin (x : TF S100000x32) (ei : TI S2x1600000) (hx : ∀ i, IsFin (x i)) (i : S100000x32.Idx) : IsFin (agg32 x ei i) :=
  scatterAdd_fin _ _ _ _ (zeros_fin _ _) (gather_fin _ _ _ hx) i

theorem agg64_fin (x : TF S100000x64) (ei : TI S2x1600000) (hx : ∀ i, IsFin (x i)) (i : S100000x64.Idx) : IsFin (agg64 x ei i) :=
  scatterAdd_fin _ _ _ _ (zeros_fin _ _) (gather_fin _ _ _ hx) i

theorem agg128_fin (x : TF S100000x128) (ei : TI S2x1600000) (ew : TF S1600000) (hx : ∀ i, IsFin (x i)) (hw : ∀ i, IsFin (ew i))
    (i : S100000x128.Idx) : IsFin (agg128 x ei ew i) :=
  scatterAdd_fin _ _ _ _ (zeros_fin _ _) (fun j => (gather_fin _ _ _ hx j).mul (hw _)) i

end Cert.KernelIdeal.Chain

end
-- ==== Proof.KCarry.lean ====
/- Buffers carried unchanged through the run of the idealized kernel program.

  A host operation writes only its result buffer and a region writes only its output arrays, so a buffer that none of
  them writes holds at a later segment boundary what it held at an earlier one: an argument array what was launched,
  the two index vectors cut from the edge table what the first stretch of host operations computed, a region's output
  what the region left. One lemma per buffer and boundary, each from the one before.
-/
import proofs.«150348_j62612033241213_2_alg».proof.Proof.KAgg

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

variable (m : (ℓ : Loc nD τ sig) → Buf (Elt Ideal) ℓ) (ρ : Dev nD → PrngReg)

/-- An argument array as launched. -/
abbrev L (c : Dev nD) (b : Ref sig .tc) : Buf (Elt Ideal) ((c : Thread nD τ).loc b) := m ((c : Thread nD τ).loc b)

/-! ## The arguments -/

theorem W1_arg0 (c : Dev nD) : W1 m ρ c (Proc.devRef .tc main_arg0) = L m c main_arg0 := by
  show StableHlo.after hostOps0 (W0 m ρ c) (Proc.devRef .tc main_arg0) = _
  after_results_simp

theorem V1_arg0 (c : Dev nD) : V1 m ρ c main_arg0 = L m c main_arg0 := W1_arg0 m ρ c

theorem W1_arg3 (c : Dev nD) : W1 m ρ c (Proc.devRef .tc main_arg3) = L m c main_arg3 := by
  show StableHlo.after hostOps0 (W0 m ρ c) (Proc.devRef .tc main_arg3) = _
  after_results_simp

theorem V1_arg3 (c : Dev nD) : V1 m ρ c main_arg3 = L m c main_arg3 := W1_arg3 m ρ c

theorem W1_arg5 (c : Dev nD) : W1 m ρ c (Proc.devRef .tc main_arg5) = L m c main_arg5 := by
  show StableHlo.after hostOps0 (W0 m ρ c) (Proc.devRef .tc main_arg5) = _
  after_results_simp

theorem V1_arg5 (c : Dev nD) : V1 m ρ c main_arg5 = L m c main_arg5 := W1_arg5 m ρ c

theorem W1_arg12 (c : Dev nD) : W1 m ρ c (Proc.devRef .tc main_arg12) = L m c main_arg12 := by
  show StableHlo.after hostOps0 (W0 m ρ c) (Proc.devRef .tc main_arg12) = _
  after_results_simp

theorem V1_arg12 (c : Dev nD) : V1 m ρ c main_arg12 = L m c main_arg12 := W1_arg12 m ρ c

theorem W2_arg12 (c : Dev nD) : W2 m ρ c (Proc.devRef .tc main_arg12) = L m c main_arg12 :=
  (W2_of_ne m ρ c main_arg12 (by decide)).trans (W1_arg12 m ρ c)

theorem W1_arg13 (c : Dev nD) : W1 m ρ c (Proc.devRef .tc main_arg13) = L m c main_arg13 := by
  show StableHlo.after hostOps0 (W0 m ρ c) (Proc.devRef .tc main_arg13) = _
  after_results_simp

theorem V1_arg13 (c : Dev nD) : V1 m ρ c main_arg13 = L m c main_arg13 := W1_arg13 m ρ c

theorem W2_arg13 (c : Dev nD) : W2 m ρ c (Proc.devRef .tc main_arg13) = L m c main_arg13 :=
  (W2_of_ne m ρ c main_arg13 (by decide)).trans (W1_arg13 m ρ c)

theorem W1_arg7 (c : Dev nD) : W1 m ρ c (Proc.devRef .tc main_arg7) = L m c main_arg7 := by
  show StableHlo.after hostOps0 (W0 m ρ c) (Proc.devRef .tc main_arg7) = _
  after_results_simp

theorem V1_arg7 (c : Dev nD) : V1 m ρ c main_arg7 = L m c main_arg7 := W1_arg7 m ρ c

theorem W2_arg7 (c : Dev nD) : W2 m ρ c (Proc.devRef .tc main_arg7) = L m c main_arg7 :=
  (W2_of_ne m ρ c main_arg7 (by decide)).trans (W1_arg7 m ρ c)

theorem W3_arg7 (c : Dev nD) : W3 m ρ c (Proc.devRef .tc main_arg7) = L m c main_arg7 := by
  show StableHlo.after hostOps1 (W2 m ρ c) (Proc.devRef .tc main_arg7) = _
  after_results_simp
  exact W2_arg7 m ρ c

theorem V3_arg7 (c : Dev nD) : V3 m ρ c main_arg7 = L m c main_arg7 := W3_arg7 m ρ c

theorem W4_arg7 (c : Dev nD) : W4 m ρ c (Proc.devRef .tc main_arg7) = L m c main_arg7 :=
  (W4_of_ne m ρ c main_arg7 (by decide)).trans (W3_arg7 m ρ c)

theorem W1_arg6 (c : Dev nD) : W1 m ρ c (Proc.devRef .tc main_arg6) = L m c main_arg6 := by
  show StableHlo.after hostOps0 (W0 m ρ c) (Proc.devRef .tc main_arg6) = _
  after_results_simp

theorem V1_arg6 (c : Dev nD) : V1 m ρ c main_arg6 = L m c main_arg6 := W1_arg6 m ρ c

theorem W2_arg6 (c : Dev nD) : W2 m ρ c (Proc.devRef .tc main_arg6) = L m c main_arg6 :=
  (W2_of_ne m ρ c main_arg6 (by decide)).trans (W1_arg6 m ρ c)

theorem W3_arg6 (c : Dev nD) : W3 m ρ c (Proc.devRef .tc main_arg6) = L m c main_arg6 := by
  show StableHlo.after hostOps1 (W2 m ρ c) (Proc.devRef .tc main_arg6) = _
  after_results_simp
  exact W2_arg6 m ρ c

theorem V3_arg6 (c : Dev nD) : V3 m ρ c main_arg6 = L m c main_arg6 := W3_arg6 m ρ c

theorem W4_arg6 (c : Dev nD) : W4 m ρ c (Proc.devRef .tc main_arg6) = L m c main_arg6 :=
  (W4_of_ne m ρ c main_arg6 (by decide)).trans (W3_arg6 m ρ c)

theorem W5_arg6 (c : Dev nD) : W5 m ρ c (Proc.devRef .tc main_arg6) = L m c main_arg6 := by
  show StableHlo.after hostOps2 (W4 m ρ c) (Proc.devRef .tc main_arg6) = _
  after_results_simp
  exact W4_arg6 m ρ c

theorem V5_arg6 (c : Dev nD) : V5 m ρ c main_arg6 = L m c main_arg6 := W5_arg6 m ρ c

theorem W1_arg8 (c : Dev nD) : W1 m ρ c (Proc.devRef .tc main_arg8) = L m c main_arg8 := by
  show StableHlo.after hostOps0 (W0 m ρ c) (Proc.devRef .tc main_arg8) = _
  after_results_simp

theorem V1_arg8 (c : Dev nD) : V1 m ρ c main_arg8 = L m c main_arg8 := W1_arg8 m ρ c

theorem W2_arg8 (c : Dev nD) : W2 m ρ c (Proc.devRef .tc main_arg8) = L m c main_arg8 :=
  (W2_of_ne m ρ c main_arg8 (by decide)).trans (W1_arg8 m ρ c)

theorem W3_arg8 (c : Dev nD) : W3 m ρ c (Proc.devRef .tc main_arg8) = L m c main_arg8 := by
  show StableHlo.after hostOps1 (W2 m ρ c) (Proc.devRef .tc main_arg8) = _
  after_results_simp
  exact W2_arg8 m ρ c

theorem V3_arg8 (c : Dev nD) : V3 m ρ c main_arg8 = L m c main_arg8 := W3_arg8 m ρ c

theorem W4_arg8 (c : Dev nD) : W4 m ρ c (Proc.devRef .tc main_arg8) = L m c main_arg8 :=
  (W4_of_ne m ρ c main_arg8 (by decide)).trans (W3_arg8 m ρ c)

theorem W5_arg8 (c : Dev nD) : W5 m ρ c (Proc.devRef .tc main_arg8) = L m c main_arg8 := by
  show StableHlo.after hostOps2 (W4 m ρ c) (Proc.devRef .tc main_arg8) = _
  after_results_simp
  exact W4_arg8 m ρ c

theorem V5_arg8 (c : Dev nD) : V5 m ρ c main_arg8 = L m c main_arg8 := W5_arg8 m ρ c

theorem W1_arg14 (c : Dev nD) : W1 m ρ c (Proc.devRef .tc main_arg14) = L m c main_arg14 := by
  show StableHlo.after hostOps0 (W0 m ρ c) (Proc.devRef .tc main_arg14) = _
  after_results_simp

theorem V1_arg14 (c : Dev nD) : V1 m ρ c main_arg14 = L m c main_arg14 := W1_arg14 m ρ c

theorem W2_arg14 (c : Dev nD) : W2 m ρ c (Proc.devRef .tc main_arg14) = L m c main_arg14 :=
  (W2_of_ne m ρ c main_arg14 (by decide)).trans (W1_arg14 m ρ c)

theorem W3_arg14 (c : Dev nD) : W3 m ρ c (Proc.devRef .tc main_arg14) = L m c main_arg14 := by
  show StableHlo.after hostOps1 (W2 m ρ c) (Proc.devRef .tc main_arg14) = _
  after_results_simp
  exact W2_arg14 m ρ c

theorem V3_arg14 (c : Dev nD) : V3 m ρ c main_arg14 = L m c main_arg14 := W3_arg14 m ρ c

theorem W4_arg14 (c : Dev nD) : W4 m ρ c (Proc.devRef .tc main_arg14) = L m c main_arg14 :=
  (W4_of_ne m ρ c main_arg14 (by decide)).trans (W3_arg14 m ρ c)

theorem W5_arg14 (c : Dev nD) : W5 m ρ c (Proc.devRef .tc main_arg14) = L m c main_arg14 := by
  show StableHlo.after hostOps2 (W4 m ρ c) (Proc.devRef .tc main_arg14) = _
  after_results_simp
  exact W4_arg14 m ρ c

theorem V5_arg14 (c : Dev nD) : V5 m ρ c main_arg14 = L m c main_arg14 := W5_arg14 m ρ c

theorem W6_arg14 (c : Dev nD) : W6 m ρ c (Proc.devRef .tc main_arg14) = L m c main_arg14 :=
  (W6_of_ne m ρ c main_arg14 (by decide)).trans (W5_arg14 m ρ c)

theorem W1_arg15 (c : Dev nD) : W1 m ρ c (Proc.devRef .tc main_arg15) = L m c main_arg15 := by
  show StableHlo.after hostOps0 (W0 m ρ c) (Proc.devRef .tc main_arg15) = _
  after_results_simp

theorem V1_arg15 (c : Dev nD) : V1 m ρ c main_arg15 = L m c main_arg15 := W1_arg15 m ρ c

theorem W2_arg15 (c : Dev nD) : W2 m ρ c (Proc.devRef .tc main_arg15) = L m c main_arg15 :=
  (W2_of_ne m ρ c main_arg15 (by decide)).trans (W1_arg15 m ρ c)

theorem W3_arg15 (c : Dev nD) : W3 m ρ c (Proc.devRef .tc main_arg15) = L m c main_arg15 := by
  show StableHlo.after hostOps1 (W2 m ρ c) (Proc.devRef .tc main_arg15) = _
  after_results_simp
  exact W2_arg15 m ρ c

theorem V3_arg15 (c : Dev nD) : V3 m ρ c main_arg15 = L m c main_arg15 := W3_arg15 m ρ c

theorem W4_arg15 (c : Dev nD) : W4 m ρ c (Proc.devRef .tc main_arg15) = L m c main_arg15 :=
  (W4_of_ne m ρ c main_arg15 (by decide)).trans (W3_arg15 m ρ c)

theorem W5_arg15 (c : Dev nD) : W5 m ρ c (Proc.devRef .tc main_arg15) = L m c main_arg15 := by
  show StableHlo.after hostOps2 (W4 m ρ c) (Proc.devRef .tc main_arg15) = _
  after_results_simp
  exact W4_arg15 m ρ c

theorem V5_arg15 (c : Dev nD) : V5 m ρ c main_arg15 = L m c main_arg15 := W5_arg15 m ρ c

theorem W6_arg15 (c : Dev nD) : W6 m ρ c (Proc.devRef .tc main_arg15) = L m c main_arg15 :=
  (W6_of_ne m ρ c main_arg15 (by decide)).trans (W5_arg15 m ρ c)

theorem W1_arg2 (c : Dev nD) : W1 m ρ c (Proc.devRef .tc main_arg2) = L m c main_arg2 := by
  show StableHlo.after hostOps0 (W0 m ρ c) (Proc.devRef .tc main_arg2) = _
  after_results_simp

theorem V1_arg2 (c : Dev nD) : V1 m ρ c main_arg2 = L m c main_arg2 := W1_arg2 m ρ c

theorem W2_arg2 (c : Dev nD) : W2 m ρ c (Proc.devRef .tc main_arg2) = L m c main_arg2 :=
  (W2_of_ne m ρ c main_arg2 (by decide)).trans (W1_arg2 m ρ c)

theorem W3_arg2 (c : Dev nD) : W3 m ρ c (Proc.devRef .tc main_arg2) = L m c main_arg2 := by
  show StableHlo.after hostOps1 (W2 m ρ c) (Proc.devRef .tc main_arg2) = _
  after_results_simp
  exact W2_arg2 m ρ c

theorem V3_arg2 (c : Dev nD) : V3 m ρ c main_arg2 = L m c main_arg2 := W3_arg2 m ρ c

theorem W4_arg2 (c : Dev nD) : W4 m ρ c (Proc.devRef .tc main_arg2) = L m c main_arg2 :=
  (W4_of_ne m ρ c main_arg2 (by decide)).trans (W3_arg2 m ρ c)

theorem W5_arg2 (c : Dev nD) : W5 m ρ c (Proc.devRef .tc main_arg2) = L m c main_arg2 := by
  show StableHlo.after hostOps2 (W4 m ρ c) (Proc.devRef .tc main_arg2) = _
  after_results_simp
  exact W4_arg2 m ρ c

theorem V5_arg2 (c : Dev nD) : V5 m ρ c main_arg2 = L m c main_arg2 := W5_arg2 m ρ c

theorem W6_arg2 (c : Dev nD) : W6 m ρ c (Proc.devRef .tc main_arg2) = L m c main_arg2 :=
  (W6_of_ne m ρ c main_arg2 (by decide)).trans (W5_arg2 m ρ c)

theorem W7_arg2 (c : Dev nD) : W7 m ρ c (Proc.devRef .tc main_arg2) = L m c main_arg2 := by
  show StableHlo.after hostOps3 (W6 m ρ c) (Proc.devRef .tc main_arg2) = _
  after_results_simp
  exact W6_arg2 m ρ c

theorem V7_arg2 (c : Dev nD) : V7 m ρ c main_arg2 = L m c main_arg2 := W7_arg2 m ρ c

theorem W8_arg2 (c : Dev nD) : W8 m ρ c (Proc.devRef .tc main_arg2) = L m c main_arg2 :=
  (W8_of_ne m ρ c main_arg2 (by decide)).trans (W7_arg2 m ρ c)

theorem W1_arg10 (c : Dev nD) : W1 m ρ c (Proc.devRef .tc main_arg10) = L m c main_arg10 := by
  show StableHlo.after hostOps0 (W0 m ρ c) (Proc.devRef .tc main_arg10) = _
  after_results_simp

theorem V1_arg10 (c : Dev nD) : V1 m ρ c main_arg10 = L m c main_arg10 := W1_arg10 m ρ c

theorem W2_arg10 (c : Dev nD) : W2 m ρ c (Proc.devRef .tc main_arg10) = L m c main_arg10 :=
  (W2_of_ne m ρ c main_arg10 (by decide)).trans (W1_arg10 m ρ c)

theorem W3_arg10 (c : Dev nD) : W3 m ρ c (Proc.devRef .tc main_arg10) = L m c main_arg10 := by
  show StableHlo.after hostOps1 (W2 m ρ c) (Proc.devRef .tc main_arg10) = _
  after_results_simp
  exact W2_arg10 m ρ c

theorem V3_arg10 (c : Dev nD) : V3 m ρ c main_arg10 = L m c main_arg10 := W3_arg10 m ρ c

theorem W4_arg10 (c : Dev nD) : W4 m ρ c (Proc.devRef .tc main_arg10) = L m c main_arg10 :=
  (W4_of_ne m ρ c main_arg10 (by decide)).trans (W3_arg10 m ρ c)

theorem W5_arg10 (c : Dev nD) : W5 m ρ c (Proc.devRef .tc main_arg10) = L m c main_arg10 := by
  show StableHlo.after hostOps2 (W4 m ρ c) (Proc.devRef .tc main_arg10) = _
  after_results_simp
  exact W4_arg10 m ρ c

theorem V5_arg10 (c : Dev nD) : V5 m ρ c main_arg10 = L m c main_arg10 := W5_arg10 m ρ c

theorem W6_arg10 (c : Dev nD) : W6 m ρ c (Proc.devRef .tc main_arg10) = L m c main_arg10 :=
  (W6_of_ne m ρ c main_arg10 (by decide)).trans (W5_arg10 m ρ c)

theorem W7_arg10 (c : Dev nD) : W7 m ρ c (Proc.devRef .tc main_arg10) = L m c main_arg10 := by
  show StableHlo.after hostOps3 (W6 m ρ c) (Proc.devRef .tc main_arg10) = _
  after_results_simp
  exact W6_arg10 m ρ c

theorem V7_arg10 (c : Dev nD) : V7 m ρ c main_arg10 = L m c main_arg10 := W7_arg10 m ρ c

theorem W8_arg10 (c : Dev nD) : W8 m ρ c (Proc.devRef .tc main_arg10) = L m c main_arg10 :=
  (W8_of_ne m ρ c main_arg10 (by decide)).trans (W7_arg10 m ρ c)

theorem W1_arg9 (c : Dev nD) : W1 m ρ c (Proc.devRef .tc main_arg9) = L m c main_arg9 := by
  show StableHlo.after hostOps0 (W0 m ρ c) (Proc.devRef .tc main_arg9) = _
  after_results_simp

theorem V1_arg9 (c : Dev nD) : V1 m ρ c main_arg9 = L m c main_arg9 := W1_arg9 m ρ c

theorem W2_arg9 (c : Dev nD) : W2 m ρ c (Proc.devRef .tc main_arg9) = L m c main_arg9 :=
  (W2_of_ne m ρ c main_arg9 (by decide)).trans (W1_arg9 m ρ c)

theorem W3_arg9 (c : Dev nD) : W3 m ρ c (Proc.devRef .tc main_arg9) = L m c main_arg9 := by
  show StableHlo.after hostOps1 (W2 m ρ c) (Proc.devRef .tc main_arg9) = _
  after_results_simp
  exact W2_arg9 m ρ c

theorem V3_arg9 (c : Dev nD) : V3 m ρ c main_arg9 = L m c main_arg9 := W3_arg9 m ρ c

theorem W4_arg9 (c : Dev nD) : W4 m ρ c (Proc.devRef .tc main_arg9) = L m c main_arg9 :=
  (W4_of_ne m ρ c main_arg9 (by decide)).trans (W3_arg9 m ρ c)

theorem W5_arg9 (c : Dev nD) : W5 m ρ c (Proc.devRef .tc main_arg9) = L m c main_arg9 := by
  show StableHlo.after hostOps2 (W4 m ρ c) (Proc.devRef .tc main_arg9) = _
  after_results_simp
  exact W4_arg9 m ρ c

theorem V5_arg9 (c : Dev nD) : V5 m ρ c main_arg9 = L m c main_arg9 := W5_arg9 m ρ c

theorem W6_arg9 (c : Dev nD) : W6 m ρ c (Proc.devRef .tc main_arg9) = L m c main_arg9 :=
  (W6_of_ne m ρ c main_arg9 (by decide)).trans (W5_arg9 m ρ c)

theorem W7_arg9 (c : Dev nD) : W7 m ρ c (Proc.devRef .tc main_arg9) = L m c main_arg9 := by
  show StableHlo.after hostOps3 (W6 m ρ c) (Proc.devRef .tc main_arg9) = _
  after_results_simp
  exact W6_arg9 m ρ c

theorem V7_arg9 (c : Dev nD) : V7 m ρ c main_arg9 = L m c main_arg9 := W7_arg9 m ρ c

theorem W8_arg9 (c : Dev nD) : W8 m ρ c (Proc.devRef .tc main_arg9) = L m c main_arg9 :=
  (W8_of_ne m ρ c main_arg9 (by decide)).trans (W7_arg9 m ρ c)

theorem W9_arg9 (c : Dev nD) : W9 m ρ c (Proc.devRef .tc main_arg9) = L m c main_arg9 := by
  show StableHlo.after hostOps4 (W8 m ρ c) (Proc.devRef .tc main_arg9) = _
  after_results_simp
  exact W8_arg9 m ρ c

theorem V9_arg9 (c : Dev nD) : V9 m ρ c main_arg9 = L m c main_arg9 := W9_arg9 m ρ c

theorem W1_arg11 (c : Dev nD) : W1 m ρ c (Proc.devRef .tc main_arg11) = L m c main_arg11 := by
  show StableHlo.after hostOps0 (W0 m ρ c) (Proc.devRef .tc main_arg11) = _
  after_results_simp

theorem V1_arg11 (c : Dev nD) : V1 m ρ c main_arg11 = L m c main_arg11 := W1_arg11 m ρ c

theorem W2_arg11 (c : Dev nD) : W2 m ρ c (Proc.devRef .tc main_arg11) = L m c main_arg11 :=
  (W2_of_ne m ρ c main_arg11 (by decide)).trans (W1_arg11 m ρ c)

theorem W3_arg11 (c : Dev nD) : W3 m ρ c (Proc.devRef .tc main_arg11) = L m c main_arg11 := by
  show StableHlo.after hostOps1 (W2 m ρ c) (Proc.devRef .tc main_arg11) = _
  after_results_simp
  exact W2_arg11 m ρ c

theorem V3_arg11 (c : Dev nD) : V3 m ρ c main_arg11 = L m c main_arg11 := W3_arg11 m ρ c

theorem W4_arg11 (c : Dev nD) : W4 m ρ c (Proc.devRef .tc main_arg11) = L m c main_arg11 :=
  (W4_of_ne m ρ c main_arg11 (by decide)).trans (W3_arg11 m ρ c)

theorem W5_arg11 (c : Dev nD) : W5 m ρ c (Proc.devRef .tc main_arg11) = L m c main_arg11 := by
  show StableHlo.after hostOps2 (W4 m ρ c) (Proc.devRef .tc main_arg11) = _
  after_results_simp
  exact W4_arg11 m ρ c

theorem V5_arg11 (c : Dev nD) : V5 m ρ c main_arg11 = L m c main_arg11 := W5_arg11 m ρ c

theorem W6_arg11 (c : Dev nD) : W6 m ρ c (Proc.devRef .tc main_arg11) = L m c main_arg11 :=
  (W6_of_ne m ρ c main_arg11 (by decide)).trans (W5_arg11 m ρ c)

theorem W7_arg11 (c : Dev nD) : W7 m ρ c (Proc.devRef .tc main_arg11) = L m c main_arg11 := by
  show StableHlo.after hostOps3 (W6 m ρ c) (Proc.devRef .tc main_arg11) = _
  after_results_simp
  exact W6_arg11 m ρ c

theorem V7_arg11 (c : Dev nD) : V7 m ρ c main_arg11 = L m c main_arg11 := W7_arg11 m ρ c

theorem W8_arg11 (c : Dev nD) : W8 m ρ c (Proc.devRef .tc main_arg11) = L m c main_arg11 :=
  (W8_of_ne m ρ c main_arg11 (by decide)).trans (W7_arg11 m ρ c)

theorem W9_arg11 (c : Dev nD) : W9 m ρ c (Proc.devRef .tc main_arg11) = L m c main_arg11 := by
  show StableHlo.after hostOps4 (W8 m ρ c) (Proc.devRef .tc main_arg11) = _
  after_results_simp
  exact W8_arg11 m ρ c

theorem V9_arg11 (c : Dev nD) : V9 m ρ c main_arg11 = L m c main_arg11 := W9_arg11 m ρ c

theorem W1_arg16 (c : Dev nD) : W1 m ρ c (Proc.devRef .tc main_arg16) = L m c main_arg16 := by
  show StableHlo.after hostOps0 (W0 m ρ c) (Proc.devRef .tc main_arg16) = _
  after_results_simp

theorem V1_arg16 (c : Dev nD) : V1 m ρ c main_arg16 = L m c main_arg16 := W1_arg16 m ρ c

theorem W2_arg16 (c : Dev nD) : W2 m ρ c (Proc.devRef .tc main_arg16) = L m c main_arg16 :=
  (W2_of_ne m ρ c main_arg16 (by decide)).trans (W1_arg16 m ρ c)

theorem W3_arg16 (c : Dev nD) : W3 m ρ c (Proc.devRef .tc main_arg16) = L m c main_arg16 := by
  show StableHlo.after hostOps1 (W2 m ρ c) (Proc.devRef .tc main_arg16) = _
  after_results_simp
  exact W2_arg16 m ρ c

theorem V3_arg16 (c : Dev nD) : V3 m ρ c main_arg16 = L m c main_arg16 := W3_arg16 m ρ c

theorem W4_arg16 (c : Dev nD) : W4 m ρ c (Proc.devRef .tc main_arg16) = L m c main_arg16 :=
  (W4_of_ne m ρ c main_arg16 (by decide)).trans (W3_arg16 m ρ c)

theorem W5_arg16 (c : Dev nD) : W5 m ρ c (Proc.devRef .tc main_arg16) = L m c main_arg16 := by
  show StableHlo.after hostOps2 (W4 m ρ c) (Proc.devRef .tc main_arg16) = _
  after_results_simp
  exact W4_arg16 m ρ c

theorem V5_arg16 (c : Dev nD) : V5 m ρ c main_arg16 = L m c main_arg16 := W5_arg16 m ρ c

theorem W6_arg16 (c : Dev nD) : W6 m ρ c (Proc.devRef .tc main_arg16) = L m c main_arg16 :=
  (W6_of_ne m ρ c main_arg16 (by decide)).trans (W5_arg16 m ρ c)

theorem W7_arg16 (c : Dev nD) : W7 m ρ c (Proc.devRef .tc main_arg16) = L m c main_arg16 := by
  show StableHlo.after hostOps3 (W6 m ρ c) (Proc.devRef .tc main_arg16) = _
  after_results_simp
  exact W6_arg16 m ρ c

theorem V7_arg16 (c : Dev nD) : V7 m ρ c main_arg16 = L m c main_arg16 := W7_arg16 m ρ c

theorem W8_arg16 (c : Dev nD) : W8 m ρ c (Proc.devRef .tc main_arg16) = L m c main_arg16 :=
  (W8_of_ne m ρ c main_arg16 (by decide)).trans (W7_arg16 m ρ c)

theorem W9_arg16 (c : Dev nD) : W9 m ρ c (Proc.devRef .tc main_arg16) = L m c main_arg16 := by
  show StableHlo.after hostOps4 (W8 m ρ c) (Proc.devRef .tc main_arg16) = _
  after_results_simp
  exact W8_arg16 m ρ c

theorem V9_arg16 (c : Dev nD) : V9 m ρ c main_arg16 = L m c main_arg16 := W9_arg16 m ρ c

theorem W10_arg16 (c : Dev nD) : W10 m ρ c (Proc.devRef .tc main_arg16) = L m c main_arg16 :=
  (W10_of_ne m ρ c main_arg16 (by decide)).trans (W9_arg16 m ρ c)

theorem W1_arg17 (c : Dev nD) : W1 m ρ c (Proc.devRef .tc main_arg17) = L m c main_arg17 := by
  show StableHlo.after hostOps0 (W0 m ρ c) (Proc.devRef .tc main_arg17) = _
  after_results_simp

theorem V1_arg17 (c : Dev nD) : V1 m ρ c main_arg17 = L m c main_arg17 := W1_arg17 m ρ c

theorem W2_arg17 (c : Dev nD) : W2 m ρ c (Proc.devRef .tc main_arg17) = L m c main_arg17 :=
  (W2_of_ne m ρ c main_arg17 (by decide)).trans (W1_arg17 m ρ c)

theorem W3_arg17 (c : Dev nD) : W3 m ρ c (Proc.devRef .tc main_arg17) = L m c main_arg17 := by
  show StableHlo.after hostOps1 (W2 m ρ c) (Proc.devRef .tc main_arg17) = _
  after_results_simp
  exact W2_arg17 m ρ c

theorem V3_arg17 (c : Dev nD) : V3 m ρ c main_arg17 = L m c main_arg17 := W3_arg17 m ρ c

theorem W4_arg17 (c : Dev nD) : W4 m ρ c (Proc.devRef .tc main_arg17) = L m c main_arg17 :=
  (W4_of_ne m ρ c main_arg17 (by decide)).trans (W3_arg17 m ρ c)

theorem W5_arg17 (c : Dev nD) : W5 m ρ c (Proc.devRef .tc main_arg17) = L m c main_arg17 := by
  show StableHlo.after hostOps2 (W4 m ρ c) (Proc.devRef .tc main_arg17) = _
  after_results_simp
  exact W4_arg17 m ρ c

theorem V5_arg17 (c : Dev nD) : V5 m ρ c main_arg17 = L m c main_arg17 := W5_arg17 m ρ c

theorem W6_arg17 (c : Dev nD) : W6 m ρ c (Proc.devRef .tc main_arg17) = L m c main_arg17 :=
  (W6_of_ne m ρ c main_arg17 (by decide)).trans (W5_arg17 m ρ c)

theorem W7_arg17 (c : Dev nD) : W7 m ρ c (Proc.devRef .tc main_arg17) = L m c main_arg17 := by
  show StableHlo.after hostOps3 (W6 m ρ c) (Proc.devRef .tc main_arg17) = _
  after_results_simp
  exact W6_arg17 m ρ c

theorem V7_arg17 (c : Dev nD) : V7 m ρ c main_arg17 = L m c main_arg17 := W7_arg17 m ρ c

theorem W8_arg17 (c : Dev nD) : W8 m ρ c (Proc.devRef .tc main_arg17) = L m c main_arg17 :=
  (W8_of_ne m ρ c main_arg17 (by decide)).trans (W7_arg17 m ρ c)

theorem W9_arg17 (c : Dev nD) : W9 m ρ c (Proc.devRef .tc main_arg17) = L m c main_arg17 := by
  show StableHlo.after hostOps4 (W8 m ρ c) (Proc.devRef .tc main_arg17) = _
  after_results_simp
  exact W8_arg17 m ρ c

theorem V9_arg17 (c : Dev nD) : V9 m ρ c main_arg17 = L m c main_arg17 := W9_arg17 m ρ c

theorem W10_arg17 (c : Dev nD) : W10 m ρ c (Proc.devRef .tc main_arg17) = L m c main_arg17 :=
  (W10_of_ne m ρ c main_arg17 (by decide)).trans (W9_arg17 m ρ c)

theorem W1_arg19 (c : Dev nD) : W1 m ρ c (Proc.devRef .tc main_arg19) = L m c main_arg19 := by
  show StableHlo.after hostOps0 (W0 m ρ c) (Proc.devRef .tc main_arg19) = _
  after_results_simp

theorem V1_arg19 (c : Dev nD) : V1 m ρ c main_arg19 = L m c main_arg19 := W1_arg19 m ρ c

theorem W2_arg19 (c : Dev nD) : W2 m ρ c (Proc.devRef .tc main_arg19) = L m c main_arg19 :=
  (W2_of_ne m ρ c main_arg19 (by decide)).trans (W1_arg19 m ρ c)

theorem W3_arg19 (c : Dev nD) : W3 m ρ c (Proc.devRef .tc main_arg19) = L m c main_arg19 := by
  show StableHlo.after hostOps1 (W2 m ρ c) (Proc.devRef .tc main_arg19) = _
  after_results_simp
  exact W2_arg19 m ρ c

theorem V3_arg19 (c : Dev nD) : V3 m ρ c main_arg19 = L m c main_arg19 := W3_arg19 m ρ c

theorem W4_arg19 (c : Dev nD) : W4 m ρ c (Proc.devRef .tc main_arg19) = L m c main_arg19 :=
  (W4_of_ne m ρ c main_arg19 (by decide)).trans (W3_arg19 m ρ c)

theorem W5_arg19 (c : Dev nD) : W5 m ρ c (Proc.devRef .tc main_arg19) = L m c main_arg19 := by
  show StableHlo.after hostOps2 (W4 m ρ c) (Proc.devRef .tc main_arg19) = _
  after_results_simp
  exact W4_arg19 m ρ c

theorem V5_arg19 (c : Dev nD) : V5 m ρ c main_arg19 = L m c main_arg19 := W5_arg19 m ρ c

theorem W6_arg19 (c : Dev nD) : W6 m ρ c (Proc.devRef .tc main_arg19) = L m c main_arg19 :=
  (W6_of_ne m ρ c main_arg19 (by decide)).trans (W5_arg19 m ρ c)

theorem W7_arg19 (c : Dev nD) : W7 m ρ c (Proc.devRef .tc main_arg19) = L m c main_arg19 := by
  show StableHlo.after hostOps3 (W6 m ρ c) (Proc.devRef .tc main_arg19) = _
  after_results_simp
  exact W6_arg19 m ρ c

theorem V7_arg19 (c : Dev nD) : V7 m ρ c main_arg19 = L m c main_arg19 := W7_arg19 m ρ c

theorem W8_arg19 (c : Dev nD) : W8 m ρ c (Proc.devRef .tc main_arg19) = L m c main_arg19 :=
  (W8_of_ne m ρ c main_arg19 (by decide)).trans (W7_arg19 m ρ c)

theorem W9_arg19 (c : Dev nD) : W9 m ρ c (Proc.devRef .tc main_arg19) = L m c main_arg19 := by
  show StableHlo.after hostOps4 (W8 m ρ c) (Proc.devRef .tc main_arg19) = _
  after_results_simp
  exact W8_arg19 m ρ c

theorem V9_arg19 (c : Dev nD) : V9 m ρ c main_arg19 = L m c main_arg19 := W9_arg19 m ρ c

theorem W10_arg19 (c : Dev nD) : W10 m ρ c (Proc.devRef .tc main_arg19) = L m c main_arg19 :=
  (W10_of_ne m ρ c main_arg19 (by decide)).trans (W9_arg19 m ρ c)

theorem W1_arg21 (c : Dev nD) : W1 m ρ c (Proc.devRef .tc main_arg21) = L m c main_arg21 := by
  show StableHlo.after hostOps0 (W0 m ρ c) (Proc.devRef .tc main_arg21) = _
  after_results_simp

theorem V1_arg21 (c : Dev nD) : V1 m ρ c main_arg21 = L m c main_arg21 := W1_arg21 m ρ c

theorem W2_arg21 (c : Dev nD) : W2 m ρ c (Proc.devRef .tc main_arg21) = L m c main_arg21 :=
  (W2_of_ne m ρ c main_arg21 (by decide)).trans (W1_arg21 m ρ c)

theorem W3_arg21 (c : Dev nD) : W3 m ρ c (Proc.devRef .tc main_arg21) = L m c main_arg21 := by
  show StableHlo.after hostOps1 (W2 m ρ c) (Proc.devRef .tc main_arg21) = _
  after_results_simp
  exact W2_arg21 m ρ c

theorem V3_arg21 (c : Dev nD) : V3 m ρ c main_arg21 = L m c main_arg21 := W3_arg21 m ρ c

theorem W4_arg21 (c : Dev nD) : W4 m ρ c (Proc.devRef .tc main_arg21) = L m c main_arg21 :=
  (W4_of_ne m ρ c main_arg21 (by decide)).trans (W3_arg21 m ρ c)

theorem W5_arg21 (c : Dev nD) : W5 m ρ c (Proc.devRef .tc main_arg21) = L m c main_arg21 := by
  show StableHlo.after hostOps2 (W4 m ρ c) (Proc.devRef .tc main_arg21) = _
  after_results_simp
  exact W4_arg21 m ρ c

theorem V5_arg21 (c : Dev nD) : V5 m ρ c main_arg21 = L m c main_arg21 := W5_arg21 m ρ c

theorem W6_arg21 (c : Dev nD) : W6 m ρ c (Proc.devRef .tc main_arg21) = L m c main_arg21 :=
  (W6_of_ne m ρ c main_arg21 (by decide)).trans (W5_arg21 m ρ c)

theorem W7_arg21 (c : Dev nD) : W7 m ρ c (Proc.devRef .tc main_arg21) = L m c main_arg21 := by
  show StableHlo.after hostOps3 (W6 m ρ c) (Proc.devRef .tc main_arg21) = _
  after_results_simp
  exact W6_arg21 m ρ c

theorem V7_arg21 (c : Dev nD) : V7 m ρ c main_arg21 = L m c main_arg21 := W7_arg21 m ρ c

theorem W8_arg21 (c : Dev nD) : W8 m ρ c (Proc.devRef .tc main_arg21) = L m c main_arg21 :=
  (W8_of_ne m ρ c main_arg21 (by decide)).trans (W7_arg21 m ρ c)

theorem W9_arg21 (c : Dev nD) : W9 m ρ c (Proc.devRef .tc main_arg21) = L m c main_arg21 := by
  show StableHlo.after hostOps4 (W8 m ρ c) (Proc.devRef .tc main_arg21) = _
  after_results_simp
  exact W8_arg21 m ρ c

theorem V9_arg21 (c : Dev nD) : V9 m ρ c main_arg21 = L m c main_arg21 := W9_arg21 m ρ c

theorem W10_arg21 (c : Dev nD) : W10 m ρ c (Proc.devRef .tc main_arg21) = L m c main_arg21 :=
  (W10_of_ne m ρ c main_arg21 (by decide)).trans (W9_arg21 m ρ c)

theorem W1_arg18 (c : Dev nD) : W1 m ρ c (Proc.devRef .tc main_arg18) = L m c main_arg18 := by
  show StableHlo.after hostOps0 (W0 m ρ c) (Proc.devRef .tc main_arg18) = _
  after_results_simp

theorem V1_arg18 (c : Dev nD) : V1 m ρ c main_arg18 = L m c main_arg18 := W1_arg18 m ρ c

theorem W2_arg18 (c : Dev nD) : W2 m ρ c (Proc.devRef .tc main_arg18) = L m c main_arg18 :=
  (W2_of_ne m ρ c main_arg18 (by decide)).trans (W1_arg18 m ρ c)

theorem W3_arg18 (c : Dev nD) : W3 m ρ c (Proc.devRef .tc main_arg18) = L m c main_arg18 := by
  show StableHlo.after hostOps1 (W2 m ρ c) (Proc.devRef .tc main_arg18) = _
  after_results_simp
  exact W2_arg18 m ρ c

theorem V3_arg18 (c : Dev nD) : V3 m ρ c main_arg18 = L m c main_arg18 := W3_arg18 m ρ c

theorem W4_arg18 (c : Dev nD) : W4 m ρ c (Proc.devRef .tc main_arg18) = L m c main_arg18 :=
  (W4_of_ne m ρ c main_arg18 (by decide)).trans (W3_arg18 m ρ c)

theorem W5_arg18 (c : Dev nD) : W5 m ρ c (Proc.devRef .tc main_arg18) = L m c main_arg18 := by
  show StableHlo.after hostOps2 (W4 m ρ c) (Proc.devRef .tc main_arg18) = _
  after_results_simp
  exact W4_arg18 m ρ c

theorem V5_arg18 (c : Dev nD) : V5 m ρ c main_arg18 = L m c main_arg18 := W5_arg18 m ρ c

theorem W6_arg18 (c : Dev nD) : W6 m ρ c (Proc.devRef .tc main_arg18) = L m c main_arg18 :=
  (W6_of_ne m ρ c main_arg18 (by decide)).trans (W5_arg18 m ρ c)

theorem W7_arg18 (c : Dev nD) : W7 m ρ c (Proc.devRef .tc main_arg18) = L m c main_arg18 := by
  show StableHlo.after hostOps3 (W6 m ρ c) (Proc.devRef .tc main_arg18) = _
  after_results_simp
  exact W6_arg18 m ρ c

theorem V7_arg18 (c : Dev nD) : V7 m ρ c main_arg18 = L m c main_arg18 := W7_arg18 m ρ c

theorem W8_arg18 (c : Dev nD) : W8 m ρ c (Proc.devRef .tc main_arg18) = L m c main_arg18 :=
  (W8_of_ne m ρ c main_arg18 (by decide)).trans (W7_arg18 m ρ c)

theorem W9_arg18 (c : Dev nD) : W9 m ρ c (Proc.devRef .tc main_arg18) = L m c main_arg18 := by
  show StableHlo.after hostOps4 (W8 m ρ c) (Proc.devRef .tc main_arg18) = _
  after_results_simp
  exact W8_arg18 m ρ c

theorem V9_arg18 (c : Dev nD) : V9 m ρ c main_arg18 = L m c main_arg18 := W9_arg18 m ρ c

theorem W10_arg18 (c : Dev nD) : W10 m ρ c (Proc.devRef .tc main_arg18) = L m c main_arg18 :=
  (W10_of_ne m ρ c main_arg18 (by decide)).trans (W9_arg18 m ρ c)

theorem W11_arg18 (c : Dev nD) : W11 m ρ c (Proc.devRef .tc main_arg18) = L m c main_arg18 := by
  show StableHlo.after hostOps5 (W10 m ρ c) (Proc.devRef .tc main_arg18) = _
  after_results_simp
  exact W10_arg18 m ρ c

theorem V11_arg18 (c : Dev nD) : V11 m ρ c main_arg18 = L m c main_arg18 := W11_arg18 m ρ c

theorem W1_arg20 (c : Dev nD) : W1 m ρ c (Proc.devRef .tc main_arg20) = L m c main_arg20 := by
  show StableHlo.after hostOps0 (W0 m ρ c) (Proc.devRef .tc main_arg20) = _
  after_results_simp

theorem V1_arg20 (c : Dev nD) : V1 m ρ c main_arg20 = L m c main_arg20 := W1_arg20 m ρ c

theorem W2_arg20 (c : Dev nD) : W2 m ρ c (Proc.devRef .tc main_arg20) = L m c main_arg20 :=
  (W2_of_ne m ρ c main_arg20 (by decide)).trans (W1_arg20 m ρ c)

theorem W3_arg20 (c : Dev nD) : W3 m ρ c (Proc.devRef .tc main_arg20) = L m c main_arg20 := by
  show StableHlo.after hostOps1 (W2 m ρ c) (Proc.devRef .tc main_arg20) = _
  after_results_simp
  exact W2_arg20 m ρ c

theorem V3_arg20 (c : Dev nD) : V3 m ρ c main_arg20 = L m c main_arg20 := W3_arg20 m ρ c

theorem W4_arg20 (c : Dev nD) : W4 m ρ c (Proc.devRef .tc main_arg20) = L m c main_arg20 :=
  (W4_of_ne m ρ c main_arg20 (by decide)).trans (W3_arg20 m ρ c)

theorem W5_arg20 (c : Dev nD) : W5 m ρ c (Proc.devRef .tc main_arg20) = L m c main_arg20 := by
  show StableHlo.after hostOps2 (W4 m ρ c) (Proc.devRef .tc main_arg20) = _
  after_results_simp
  exact W4_arg20 m ρ c

theorem V5_arg20 (c : Dev nD) : V5 m ρ c main_arg20 = L m c main_arg20 := W5_arg20 m ρ c

theorem W6_arg20 (c : Dev nD) : W6 m ρ c (Proc.devRef .tc main_arg20) = L m c main_arg20 :=
  (W6_of_ne m ρ c main_arg20 (by decide)).trans (W5_arg20 m ρ c)

theorem W7_arg20 (c : Dev nD) : W7 m ρ c (Proc.devRef .tc main_arg20) = L m c main_arg20 := by
  show StableHlo.after hostOps3 (W6 m ρ c) (Proc.devRef .tc main_arg20) = _
  after_results_simp
  exact W6_arg20 m ρ c

theorem V7_arg20 (c : Dev nD) : V7 m ρ c main_arg20 = L m c main_arg20 := W7_arg20 m ρ c

theorem W8_arg20 (c : Dev nD) : W8 m ρ c (Proc.devRef .tc main_arg20) = L m c main_arg20 :=
  (W8_of_ne m ρ c main_arg20 (by decide)).trans (W7_arg20 m ρ c)

theorem W9_arg20 (c : Dev nD) : W9 m ρ c (Proc.devRef .tc main_arg20) = L m c main_arg20 := by
  show StableHlo.after hostOps4 (W8 m ρ c) (Proc.devRef .tc main_arg20) = _
  after_results_simp
  exact W8_arg20 m ρ c

theorem V9_arg20 (c : Dev nD) : V9 m ρ c main_arg20 = L m c main_arg20 := W9_arg20 m ρ c

theorem W10_arg20 (c : Dev nD) : W10 m ρ c (Proc.devRef .tc main_arg20) = L m c main_arg20 :=
  (W10_of_ne m ρ c main_arg20 (by decide)).trans (W9_arg20 m ρ c)

theorem W11_arg20 (c : Dev nD) : W11 m ρ c (Proc.devRef .tc main_arg20) = L m c main_arg20 := by
  show StableHlo.after hostOps5 (W10 m ρ c) (Proc.devRef .tc main_arg20) = _
  after_results_simp
  exact W10_arg20 m ρ c

theorem V11_arg20 (c : Dev nD) : V11 m ρ c main_arg20 = L m c main_arg20 := W11_arg20 m ρ c

/-! ## The two index vectors -/

theorem W1_v1 (c : Dev nD) : (W1 m ρ c (Proc.devRef .tc main_v1) : TI S1600000) = srcIdx (L m c main_arg1) := by
  show StableHlo.after hostOps0 (W0 m ρ c) (Proc.devRef .tc main_v1) = _
  after_results_simp
  rfl

theorem W1_v3 (c : Dev nD) : (W1 m ρ c (Proc.devRef .tc main_v3) : TI S1600000) = dstIdx (L m c main_arg1) := by
  show StableHlo.after hostOps0 (W0 m ρ c) (Proc.devRef .tc main_v3) = _
  after_results_simp
  rfl

theorem W2_v1 (c : Dev nD) : (W2 m ρ c (Proc.devRef .tc main_v1) : TI S1600000) = srcIdx (L m c main_arg1) :=
  (W2_of_ne m ρ c main_v1 (by decide)).trans (W1_v1 m ρ c)

theorem W3_v1 (c : Dev nD) : (W3 m ρ c (Proc.devRef .tc main_v1) : TI S1600000) = srcIdx (L m c main_arg1) := by
  show StableHlo.after hostOps1 (W2 m ρ c) (Proc.devRef .tc main_v1) = _
  after_results_simp
  exact W2_v1 m ρ c

theorem V3_v1 (c : Dev nD) : (V3 m ρ c main_v1 : TI S1600000) = srcIdx (L m c main_arg1) := W3_v1 m ρ c

theorem W4_v1 (c : Dev nD) : (W4 m ρ c (Proc.devRef .tc main_v1) : TI S1600000) = srcIdx (L m c main_arg1) :=
  (W4_of_ne m ρ c main_v1 (by decide)).trans (W3_v1 m ρ c)

theorem W5_v1 (c : Dev nD) : (W5 m ρ c (Proc.devRef .tc main_v1) : TI S1600000) = srcIdx (L m c main_arg1) := by
  show StableHlo.after hostOps2 (W4 m ρ c) (Proc.devRef .tc main_v1) = _
  after_results_simp
  exact W4_v1 m ρ c

theorem V5_v1 (c : Dev nD) : (V5 m ρ c main_v1 : TI S1600000) = srcIdx (L m c main_arg1) := W5_v1 m ρ c

theorem W6_v1 (c : Dev nD) : (W6 m ρ c (Proc.devRef .tc main_v1) : TI S1600000) = srcIdx (L m c main_arg1) :=
  (W6_of_ne m ρ c main_v1 (by decide)).trans (W5_v1 m ρ c)

theorem W7_v1 (c : Dev nD) : (W7 m ρ c (Proc.devRef .tc main_v1) : TI S1600000) = srcIdx (L m c main_arg1) := by
  show StableHlo.after hostOps3 (W6 m ρ c) (Proc.devRef .tc main_v1) = _
  after_results_simp
  exact W6_v1 m ρ c

theorem V7_v1 (c : Dev nD) : (V7 m ρ c main_v1 : TI S1600000) = srcIdx (L m c main_arg1) := W7_v1 m ρ c

theorem W8_v1 (c : Dev nD) : (W8 m ρ c (Proc.devRef .tc main_v1) : TI S1600000) = srcIdx (L m c main_arg1) :=
  (W8_of_ne m ρ c main_v1 (by decide)).trans (W7_v1 m ρ c)

theorem W2_v3 (c : Dev nD) : (W2 m ρ c (Proc.devRef .tc main_v3) : TI S1600000) = dstIdx (L m c main_arg1) :=
  (W2_of_ne m ρ c main_v3 (by decide)).trans (W1_v3 m ρ c)

theorem W3_v3 (c : Dev nD) : (W3 m ρ c (Proc.devRef .tc main_v3) : TI S1600000) = dstIdx (L m c main_arg1) := by
  show StableHlo.after hostOps1 (W2 m ρ c) (Proc.devRef .tc main_v3) = _
  after_results_simp
  exact W2_v3 m ρ c

theorem V3_v3 (c : Dev nD) : (V3 m ρ c main_v3 : TI S1600000) = dstIdx (L m c main_arg1) := W3_v3 m ρ c

theorem W4_v3 (c : Dev nD) : (W4 m ρ c (Proc.devRef .tc main_v3) : TI S1600000) = dstIdx (L m c main_arg1) :=
  (W4_of_ne m ρ c main_v3 (by decide)).trans (W3_v3 m ρ c)

theorem W5_v3 (c : Dev nD) : (W5 m ρ c (Proc.devRef .tc main_v3) : TI S1600000) = dstIdx (L m c main_arg1) := by
  show StableHlo.after hostOps2 (W4 m ρ c) (Proc.devRef .tc main_v3) = _
  after_results_simp
  exact W4_v3 m ρ c

theorem V5_v3 (c : Dev nD) : (V5 m ρ c main_v3 : TI S1600000) = dstIdx (L m c main_arg1) := W5_v3 m ρ c

theorem W6_v3 (c : Dev nD) : (W6 m ρ c (Proc.devRef .tc main_v3) : TI S1600000) = dstIdx (L m c main_arg1) :=
  (W6_of_ne m ρ c main_v3 (by decide)).trans (W5_v3 m ρ c)

theorem W7_v3 (c : Dev nD) : (W7 m ρ c (Proc.devRef .tc main_v3) : TI S1600000) = dstIdx (L m c main_arg1) := by
  show StableHlo.after hostOps3 (W6 m ρ c) (Proc.devRef .tc main_v3) = _
  after_results_simp
  exact W6_v3 m ρ c

theorem V7_v3 (c : Dev nD) : (V7 m ρ c main_v3 : TI S1600000) = dstIdx (L m c main_arg1) := W7_v3 m ρ c

theorem W8_v3 (c : Dev nD) : (W8 m ρ c (Proc.devRef .tc main_v3) : TI S1600000) = dstIdx (L m c main_arg1) :=
  (W8_of_ne m ρ c main_v3 (by decide)).trans (W7_v3 m ρ c)

/-! ## Region outputs carried to their later readers -/

theorem W3_v15_0 (c : Dev nD) : (W3 m ρ c (Proc.devRef .tc main_v15_0) : TF S100000x64) = (W2 m ρ c (Proc.devRef .tc main_v15_0) : TF S100000x64) := by
  show StableHlo.after hostOps1 (W2 m ρ c) (Proc.devRef .tc main_v15_0) = _
  after_results_simp

theorem V3_v15_0 (c : Dev nD) : (V3 m ρ c main_v15_0 : TF S100000x64) = (W2 m ρ c (Proc.devRef .tc main_v15_0) : TF S100000x64) := W3_v15_0 m ρ c

theorem W5_v30 (c : Dev nD) : (W5 m ρ c (Proc.devRef .tc main_v30) : TF S100000x64) = (W4 m ρ c (Proc.devRef .tc main_v30) : TF S100000x64) := by
  show StableHlo.after hostOps2 (W4 m ρ c) (Proc.devRef .tc main_v30) = _
  after_results_simp

theorem V5_v30 (c : Dev nD) : (V5 m ρ c main_v30 : TF S100000x64) = (W4 m ρ c (Proc.devRef .tc main_v30) : TF S100000x64) := W5_v30 m ρ c

theorem W6_v30 (c : Dev nD) : (W6 m ρ c (Proc.devRef .tc main_v30) : TF S100000x64) = (W4 m ρ c (Proc.devRef .tc main_v30) : TF S100000x64) :=
  ((W6_arr m ρ c 1).trans (((dat2 (V5 m ρ) c).arrAt_in 1 rfl _).trans (A_eq2 (V5 m ρ) c 1))).trans (W5_v30 m ρ c)

theorem W7_v30 (c : Dev nD) : (W7 m ρ c (Proc.devRef .tc main_v30) : TF S100000x64) = (W4 m ρ c (Proc.devRef .tc main_v30) : TF S100000x64) := by
  show StableHlo.after hostOps3 (W6 m ρ c) (Proc.devRef .tc main_v30) = _
  after_results_simp
  exact W6_v30 m ρ c

theorem V7_v30 (c : Dev nD) : (V7 m ρ c main_v30 : TF S100000x64) = (W4 m ρ c (Proc.devRef .tc main_v30) : TF S100000x64) := W7_v30 m ρ c

theorem W8_v30 (c : Dev nD) : (W8 m ρ c (Proc.devRef .tc main_v30) : TF S100000x64) = (W4 m ρ c (Proc.devRef .tc main_v30) : TF S100000x64) :=
  (W8_of_ne m ρ c main_v30 (by decide)).trans (W7_v30 m ρ c)

theorem W9_v30 (c : Dev nD) : (W9 m ρ c (Proc.devRef .tc main_v30) : TF S100000x64) = (W4 m ρ c (Proc.devRef .tc main_v30) : TF S100000x64) := by
  show StableHlo.after hostOps4 (W8 m ρ c) (Proc.devRef .tc main_v30) = _
  after_results_simp
  exact W8_v30 m ρ c

theorem V9_v30 (c : Dev nD) : (V9 m ρ c main_v30 : TF S100000x64) = (W4 m ρ c (Proc.devRef .tc main_v30) : TF S100000x64) := W9_v30 m ρ c

theorem W10_v30 (c : Dev nD) : (W10 m ρ c (Proc.devRef .tc main_v30) : TF S100000x64) = (W4 m ρ c (Proc.devRef .tc main_v30) : TF S100000x64) :=
  (W10_of_ne m ρ c main_v30 (by decide)).trans (W9_v30 m ρ c)

theorem W11_v30 (c : Dev nD) : (W11 m ρ c (Proc.devRef .tc main_v30) : TF S100000x64) = (W4 m ρ c (Proc.devRef .tc main_v30) : TF S100000x64) := by
  show StableHlo.after hostOps5 (W10 m ρ c) (Proc.devRef .tc main_v30) = _
  after_results_simp
  exact W10_v30 m ρ c

theorem V11_v30 (c : Dev nD) : (V11 m ρ c main_v30 : TF S100000x64) = (W4 m ρ c (Proc.devRef .tc main_v30) : TF S100000x64) := W11_v30 m ρ c

theorem W7_v42_0 (c : Dev nD) : (W7 m ρ c (Proc.devRef .tc main_v42_0) : TF S100000x128) = (W6 m ρ c (Proc.devRef .tc main_v42_0) : TF S100000x128) := by
  show StableHlo.after hostOps3 (W6 m ρ c) (Proc.devRef .tc main_v42_0) = _
  after_results_simp

theorem V7_v42_0 (c : Dev nD) : (V7 m ρ c main_v42_0 : TF S100000x128) = (W6 m ρ c (Proc.devRef .tc main_v42_0) : TF S100000x128) := W7_v42_0 m ρ c

theorem W9_v57 (c : Dev nD) : (W9 m ρ c (Proc.devRef .tc main_v57) : TF S100000x128) = (W8 m ρ c (Proc.devRef .tc main_v57) : TF S100000x128) := by
  show StableHlo.after hostOps4 (W8 m ρ c) (Proc.devRef .tc main_v57) = _
  after_results_simp

theorem V9_v57 (c : Dev nD) : (V9 m ρ c main_v57 : TF S100000x128) = (W8 m ρ c (Proc.devRef .tc main_v57) : TF S100000x128) := W9_v57 m ρ c

theorem W11_v72_0 (c : Dev nD) : (W11 m ρ c (Proc.devRef .tc main_v72_0) : TF S100000x64) = (W10 m ρ c (Proc.devRef .tc main_v72_0) : TF S100000x64) := by
  show StableHlo.after hostOps5 (W10 m ρ c) (Proc.devRef .tc main_v72_0) = _
  after_results_simp

theorem V11_v72_0 (c : Dev nD) : (V11 m ρ c main_v72_0 : TF S100000x64) = (W10 m ρ c (Proc.devRef .tc main_v72_0) : TF S100000x64) := W11_v72_0 m ρ c

end Cert.KernelIdeal.Chain

end
-- ==== Proof.KRead.lean ====
/-
  The host's statistics read at an index.

  A column sum of an 80-row table is zero plus the sum of the column's eighty entries; the mean is that sum divided by
  the node count; the variance is the second table's column sum divided by the node count, minus the square of the mean.
  A vector stored as a one-row table is read along its row.
-/
import proofs.«150348_j62612033241213_2_alg».proof.Proof.KAgg
import Idealize.ShloMosaic.Lib.ValueLayout
import Idealize.ShloMosaic.PureOps.Ideal.Laws

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

/-- A vector buffer read at literal coordinates. -/
abbrev vec {b : Nat} (A : (⟨1, ![b]⟩ : Shape).Idx → EReal) : Fin b → EReal := fun k => A (ix1 k)

/-- A function of coordinates as a table. -/
abbrev tab {a b : Nat} (f : Fin a → Fin b → EReal) : (⟨2, ![a, b]⟩ : Shape).Idx → EReal := fun i => f (i 0) (i 1)

theorem tab_mat {a b : Nat} (A : (⟨2, ![a, b]⟩ : Shape).Idx → EReal) : tab (mat A) = A := by
  funext i
  exact congrArg A (eq_ix2 i).symm

/-- A vector stored as one row, read along the row. -/
theorem row_cast {b : Nat} (A : (⟨1, ![b]⟩ : Shape).Idx → EReal) (h : (⟨1, ![b]⟩ : Shape).ShapeCasts ⟨2, ![1, b]⟩) :
    row (fun i => shapeCast (⟨2, ![1, b]⟩ : Shape) A h i) = vec A := by
  funext k
  exact shapeCast_a_1a_apply A h 0 k

/-! ## Column sums, mean and variance of 64 features, as the host computes them from the two 80-row tables -/

theorem colsum64 (T : TF S80x64) (j : Fin 64) :
    Host.reduceAdd T (constant (F := Ideal) S_ FTy.f32 0#32) reducesTo_S80x64_S64_d0 h_S_ (ix1 j) = Cert.Spec.colSum80 (mat T) j := by
  show Ideal.hostReduceAdd reducesTo_S80x64_S64_d0 T (Ideal.ofBits .f32 0#32) (ix1 j) = _
  rw [Ideal.hostReduceAdd_single reducesTo_S80x64_S64_d0 (by decide) T _ (ix1 j), Ideal.ofBits_zero_f32]
  unfold Cert.Spec.colSum80
  refine congrArg (fun z : EReal => 0 + z) (Finset.sum_congr rfl fun q _ => congrArg T (funext fun a => ?_))
  match a with
  | ⟨0, _⟩ => rfl
  | ⟨1, _⟩ => rfl

theorem mean64 (T : TF S80x64) :
    row (fun i => shapeCast S1x64
        (Host.divf (Host.reduceAdd T (constant (F := Ideal) S_ FTy.f32 0#32) reducesTo_S80x64_S64_d0 h_S_)
          (broadcastInDim S64 ![] bcast_S_S64 (constant (F := Ideal) S_ FTy.f32 0x47C35000#32)))
        shapeCasts_S64_S1x64 i)
      = Cert.Spec.meanOf (Cert.Spec.colSum80 (mat T)) := by
  rw [row_cast]
  funext j
  show Ideal.div (Host.reduceAdd T (constant (F := Ideal) S_ FTy.f32 0#32) reducesTo_S80x64_S64_d0 h_S_ (ix1 j))
      (Ideal.ofBits .f32 0x47C35000#32) = _
  rw [colsum64]
  rfl

theorem var64 (T T2 : TF S80x64) :
    row (fun i => shapeCast S1x64
        (subf
          (Host.divf (Host.reduceAdd T2 (constant (F := Ideal) S_ FTy.f32 0#32) reducesTo_S80x64_S64_d0 h_S_)
            (broadcastInDim S64 ![] bcast_S_S64 (constant (F := Ideal) S_ FTy.f32 0x47C35000#32)))
          (mulf
            (Host.divf (Host.reduceAdd T (constant (F := Ideal) S_ FTy.f32 0#32) reducesTo_S80x64_S64_d0 h_S_)
              (broadcastInDim S64 ![] bcast_S_S64 (constant (F := Ideal) S_ FTy.f32 0x47C35000#32)))
            (Host.divf (Host.reduceAdd T (constant (F := Ideal) S_ FTy.f32 0#32) reducesTo_S80x64_S64_d0 h_S_)
              (broadcastInDim S64 ![] bcast_S_S64 (constant (F := Ideal) S_ FTy.f32 0x47C35000#32)))))
        shapeCasts_S64_S1x64 i)
      = Cert.Spec.varMoments (Cert.Spec.colSum80 (mat T)) (Cert.Spec.colSum80 (mat T2)) := by
  rw [row_cast]
  funext j
  show Ideal.div (Host.reduceAdd T2 (constant (F := Ideal) S_ FTy.f32 0#32) reducesTo_S80x64_S64_d0 h_S_ (ix1 j))
        (Ideal.ofBits .f32 0x47C35000#32)
      - Ideal.div (Host.reduceAdd T (constant (F := Ideal) S_ FTy.f32 0#32) reducesTo_S80x64_S64_d0 h_S_ (ix1 j))
          (Ideal.ofBits .f32 0x47C35000#32)
        * Ideal.div (Host.reduceAdd T (constant (F := Ideal) S_ FTy.f32 0#32) reducesTo_S80x64_S64_d0 h_S_ (ix1 j))
          (Ideal.ofBits .f32 0x47C35000#32) = _
  rw [colsum64, colsum64]
  rfl

/-! ## Column sums, mean and variance of 128 features, as the host computes them from the two 80-row tables -/

theorem colsum128 (T : TF S80x128) (j : Fin 128) :
    Host.reduceAdd T (constant (F := Ideal) S_ FTy.f32 0#32) reducesTo_S80x128_S128_d0 h_S_ (ix1 j) = Cert.Spec.colSum80 (mat T) j := by
  show Ideal.hostReduceAdd reducesTo_S80x128_S128_d0 T (Ideal.ofBits .f32 0#32) (ix1 j) = _
  rw [Ideal.hostReduceAdd_single reducesTo_S80x128_S128_d0 (by decide) T _ (ix1 j), Ideal.ofBits_zero_f32]
  unfold Cert.Spec.colSum80
  refine congrArg (fun z : EReal => 0 + z) (Finset.sum_congr rfl fun q _ => congrArg T (funext fun a => ?_))
  match a with
  | ⟨0, _⟩ => rfl
  | ⟨1, _⟩ => rfl

theorem mean128 (T : TF S80x128) :
    row (fun i => shapeCast S1x128
        (Host.divf (Host.reduceAdd T (constant (F := Ideal) S_ FTy.f32 0#32) reducesTo_S80x128_S128_d0 h_S_)
          (broadcastInDim S128 ![] bcast_S_S128 (constant (F := Ideal) S_ FTy.f32 0x47C35000#32)))
        shapeCasts_S128_S1x128 i)
      = Cert.Spec.meanOf (Cert.Spec.colSum80 (mat T)) := by
  rw [row_cast]
  funext j
  show Ideal.div (Host.reduceAdd T (constant (F := Ideal) S_ FTy.f32 0#32) reducesTo_S80x128_S128_d0 h_S_ (ix1 j))
      (Ideal.ofBits .f32 0x47C35000#32) = _
  rw [colsum128]
  rfl

theorem var128 (T T2 : TF S80x128) :
    row (fun i => shapeCast S1x128
        (subf
          (Host.divf (Host.reduceAdd T2 (constant (F := Ideal) S_ FTy.f32 0#32) reducesTo_S80x128_S128_d0 h_S_)
            (broadcastInDim S128 ![] bcast_S_S128 (constant (F := Ideal) S_ FTy.f32 0x47C35000#32)))
          (mulf
            (Host.divf (Host.reduceAdd T (constant (F := Ideal) S_ FTy.f32 0#32) reducesTo_S80x128_S128_d0 h_S_)
              (broadcastInDim S128 ![] bcast_S_S128 (constant (F := Ideal) S_ FTy.f32 0x47C35000#32)))
            (Host.divf (Host.reduceAdd T (constant (F := Ideal) S_ FTy.f32 0#32) reducesTo_S80x128_S128_d0 h_S_)
              (broadcastInDim S128 ![] bcast_S_S128 (constant (F := Ideal) S_ FTy.f32 0x47C35000#32)))))
        shapeCasts_S128_S1x128 i)
      = Cert.Spec.varMoments (Cert.Spec.colSum80 (mat T)) (Cert.Spec.colSum80 (mat T2)) := by
  rw [row_cast]
  funext j
  show Ideal.div (Host.reduceAdd T2 (constant (F := Ideal) S_ FTy.f32 0#32) reducesTo_S80x128_S128_d0 h_S_ (ix1 j))
        (Ideal.ofBits .f32 0x47C35000#32)
      - Ideal.div (Host.reduceAdd T (constant (F := Ideal) S_ FTy.f32 0#32) reducesTo_S80x128_S128_d0 h_S_ (ix1 j))
          (Ideal.ofBits .f32 0x47C35000#32)
        * Ideal.div (Host.reduceAdd T (constant (F := Ideal) S_ FTy.f32 0#32) reducesTo_S80x128_S128_d0 h_S_ (ix1 j))
          (Ideal.ofBits .f32 0x47C35000#32) = _
  rw [colsum128, colsum128]
  rfl

end Cert.KernelIdeal.Chain

end
-- ==== Proof.KL1.lean ====
/-
  The first layer of the idealized kernel program, read off its run.

  Before the first region the host aggregates the input features and stores the bias as one row. The first region then
  holds, per node and output feature, the two products plus the bias, and the two 80-row tables of tile sums of that
  value and of its square. The host divides the tables' column sums by the node count (mean, and second moment minus
  squared mean), and the second region normalises and cuts at zero: the first layer's output.
-/
import proofs.«150348_j62612033241213_2_alg».proof.Proof.KCarry
import proofs.«150348_j62612033241213_2_alg».proof.Proof.KRead

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

variable (m : (ℓ : Loc nD τ sig) → Buf (Elt Ideal) ℓ) (ρ : Dev nD → PrngReg)

/-! ## The layer's mathematics, on the launch contents -/

/-- The input features. -/
def x0 (c : Dev nD) : Fin 100000 → Fin 32 → EReal := mat (L m c main_arg0 : TF S100000x32)

/-- The first layer's aggregation on functions of coordinates. -/
def ag1 (c : Dev nD) (f : Fin 100000 → Fin 32 → EReal) : Fin 100000 → Fin 32 → EReal :=
  mat (agg32 (tab f) (L m c main_arg1))

/-- The first layer before normalisation. -/
def p1 (c : Dev nD) : Fin 100000 → Fin 64 → EReal :=
  Cert.Spec.lin (ag1 m c (x0 m c)) (x0 m c) (mat (L m c main_arg3 : TF S64x32)) (mat (L m c main_arg5 : TF S64x32))
    (vec (L m c main_arg4 : TF S64))

/-- The first layer's output. -/
def h1 (c : Dev nD) : Fin 100000 → Fin 64 → EReal :=
  Cert.Spec.layerK (ag1 m c) (x0 m c) (mat (L m c main_arg3 : TF S64x32)) (mat (L m c main_arg5 : TF S64x32))
    (vec (L m c main_arg4 : TF S64)) (vec (L m c main_arg12 : TF S64)) (vec (L m c main_arg13 : TF S64))

/-! ## Region 0's entry -/

theorem V1_v13 (c : Dev nD) :
    (V1 m ρ c main_v13 : TF S100000x32) = agg32 (L m c main_arg0) (L m c main_arg1) := by
  show StableHlo.after hostOps0 (W0 m ρ c) (Proc.devRef .tc main_v13) = _
  after_results_simp
  rfl

theorem V1_v14 (c : Dev nD) :
    (V1 m ρ c main_v14 : TF S1x64) = fun i => shapeCast S1x64 (L m c main_arg4 : TF S64) shapeCasts_S64_S1x64 i := by
  show StableHlo.after hostOps0 (W0 m ρ c) (Proc.devRef .tc main_v14) = _
  after_results_simp
  rfl

/-! ## Region 0's exit -/

theorem stats0_at (hS : Stats0) (c : Dev nD) :
    mat (W2 m ρ c (Proc.devRef .tc main_v15_0) : TF S100000x64) = p1 m c
    ∧ mat (W2 m ρ c (Proc.devRef .tc main_v15_1) : TF S80x64) = Cert.Spec.tileSum (p1 m c)
    ∧ mat (W2 m ρ c (Proc.devRef .tc main_v15_2) : TF S80x64) = Cert.Spec.tileSum (fun r j => p1 m c r j * p1 m c r j) := by
  have h := hS (V1 m ρ) c
  rw [V1_v13, V1_arg0, V1_arg3, V1_arg5, V1_v14, row_cast] at h
  have e5 : (W2 m ρ c (Proc.devRef .tc main_v15_0) : TF S100000x64) = (dat0 (V1 m ρ) c).arrAt 5 cfg0.N := W2_arr m ρ c 5
  have e6 : (W2 m ρ c (Proc.devRef .tc main_v15_1) : TF S80x64) = (dat0 (V1 m ρ) c).arrAt 6 cfg0.N := W2_arr m ρ c 6
  have e7 : (W2 m ρ c (Proc.devRef .tc main_v15_2) : TF S80x64) = (dat0 (V1 m ρ) c).arrAt 7 cfg0.N := W2_arr m ρ c 7
  rw [e5, e6, e7]
  unfold p1 ag1 x0
  rw [tab_mat]
  exact ⟨funext fun r => funext fun j => h.1 r j, funext fun q => funext fun j => h.2.1 q j,
    funext fun q => funext fun j => h.2.2 q j⟩

/-! ## Region 1's entry -/

theorem W3_v20 (c : Dev nD) : (W3 m ρ c (Proc.devRef .tc main_v20) : TF S1x64)
    = fun i => shapeCast S1x64
        (Host.divf (Host.reduceAdd (W2 m ρ c (Proc.devRef .tc main_v15_1) : TF S80x64) (constant (F := Ideal) S_ FTy.f32 0#32) reducesTo_S80x64_S64_d0 h_S_)
          (broadcastInDim S64 ![] bcast_S_S64 (constant (F := Ideal) S_ FTy.f32 0x47C35000#32)))
        shapeCasts_S64_S1x64 i := by
  show StableHlo.after hostOps1 (W2 m ρ c) (Proc.devRef .tc main_v20) = _
  after_results_simp
  rfl

theorem W3_v27 (c : Dev nD) : (W3 m ρ c (Proc.devRef .tc main_v27) : TF S1x64)
    = fun i => shapeCast S1x64
        (subf
          (Host.divf (Host.reduceAdd (W2 m ρ c (Proc.devRef .tc main_v15_2) : TF S80x64) (constant (F := Ideal) S_ FTy.f32 0#32) reducesTo_S80x64_S64_d0 h_S_)
            (broadcastInDim S64 ![] bcast_S_S64 (constant (F := Ideal) S_ FTy.f32 0x47C35000#32)))
          (mulf
            (Host.divf (Host.reduceAdd (W2 m ρ c (Proc.devRef .tc main_v15_1) : TF S80x64) (constant (F := Ideal) S_ FTy.f32 0#32) reducesTo_S80x64_S64_d0 h_S_)
              (broadcastInDim S64 ![] bcast_S_S64 (constant (F := Ideal) S_ FTy.f32 0x47C35000#32)))
            (Host.divf (Host.reduceAdd (W2 m ρ c (Proc.devRef .tc main_v15_1) : TF S80x64) (constant (F := Ideal) S_ FTy.f32 0#32) reducesTo_S80x64_S64_d0 h_S_)
              (broadcastInDim S64 ![] bcast_S_S64 (constant (F := Ideal) S_ FTy.f32 0x47C35000#32)))))
        shapeCasts_S64_S1x64 i := by
  show StableHlo.after hostOps1 (W2 m ρ c) (Proc.devRef .tc main_v27) = _
  after_results_simp
  rfl

theorem W3_v28 (c : Dev nD) : (W3 m ρ c (Proc.devRef .tc main_v28) : TF S1x64)
    = fun i => shapeCast S1x64 (L m c main_arg12 : TF S64) shapeCasts_S64_S1x64 i := by
  show StableHlo.after hostOps1 (W2 m ρ c) (Proc.devRef .tc main_v28) = _
  after_results_simp
  rw [W2_arg12]
  rfl

theorem W3_v29 (c : Dev nD) : (W3 m ρ c (Proc.devRef .tc main_v29) : TF S1x64)
    = fun i => shapeCast S1x64 (L m c main_arg13 : TF S64) shapeCasts_S64_S1x64 i := by
  show StableHlo.after hostOps1 (W2 m ρ c) (Proc.devRef .tc main_v29) = _
  after_results_simp
  rw [W2_arg13]
  rfl

/-! ## Region 1's exit: the first layer's output -/

theorem point1_at (hS : Stats0) (hP : Point1) (c : Dev nD) :
    mat (W4 m ρ c (Proc.devRef .tc main_v30) : TF S100000x64) = h1 m c := by
  obtain ⟨e0, e1, e2⟩ := stats0_at m ρ hS c
  have h := hP (V3 m ρ) c
  have e5 : (W4 m ρ c (Proc.devRef .tc main_v30) : TF S100000x64) = (dat1 (V3 m ρ) c).arrAt 5 cfg1.N := W4_arr m ρ c 5
  rw [e5]
  funext r j
  refine (h r j).trans ?_
  rw [V3_v15_0]
  rw [show (V3 m ρ c main_v20 : TF S1x64) = _ from W3_v20 m ρ c, show (V3 m ρ c main_v27 : TF S1x64) = _ from W3_v27 m ρ c,
    show (V3 m ρ c main_v28 : TF S1x64) = _ from W3_v28 m ρ c, show (V3 m ρ c main_v29 : TF S1x64) = _ from W3_v29 m ρ c,
    mean64, var64, row_cast, row_cast, e0, e1, e2]
  rfl

end Cert.KernelIdeal.Chain

end
-- ==== Proof.KL2.lean ====
/-
  The second layer of the idealized kernel program, read off its run.

  Before the third region the host aggregates the first layer's output over the edges (gather the source rows, add them
  up per destination node) and stores the second bias as one row. The third region then holds, per node and output
  feature, the two products plus the bias, and the two 80-row tables of tile sums of that value and of its square. The
  host divides the tables' column sums by the node count (mean, and second moment minus squared mean), and the fourth
  region normalises and cuts at zero: the second layer's output, 128 features per node.
-/
import proofs.«150348_j62612033241213_2_alg».proof.Proof.KL1

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

variable (m : (ℓ : Loc nD τ sig) → Buf (Elt Ideal) ℓ) (ρ : Dev nD → PrngReg)

/-! ## The layer's mathematics, on the launch contents -/

/-- The second layer's aggregation on functions of coordinates. -/
def ag2 (c : Dev nD) (f : Fin 100000 → Fin 64 → EReal) : Fin 100000 → Fin 64 → EReal :=
  mat (agg64 (tab f) (L m c main_arg1))

/-- The second layer before normalisation. -/
def p2 (c : Dev nD) : Fin 100000 → Fin 128 → EReal :=
  Cert.Spec.lin (ag2 m c (h1 m c)) (h1 m c) (mat (L m c main_arg6 : TF S128x64)) (mat (L m c main_arg8 : TF S128x64))
    (vec (L m c main_arg7 : TF S128))

/-- The second layer's output. -/
def h2 (c : Dev nD) : Fin 100000 → Fin 128 → EReal :=
  Cert.Spec.layerK (ag2 m c) (h1 m c) (mat (L m c main_arg6 : TF S128x64)) (mat (L m c main_arg8 : TF S128x64))
    (vec (L m c main_arg7 : TF S128)) (vec (L m c main_arg14 : TF S128)) (vec (L m c main_arg15 : TF S128))

/-! ## Region 2's entry -/

/-- The aggregated table the region finds: the aggregation of the first layer's output as the second region left it. -/
theorem W5_v40 (c : Dev nD) :
    (W5 m ρ c (Proc.devRef .tc main_v40) : TF S100000x64)
      = agg64 (W4 m ρ c (Proc.devRef .tc main_v30) : TF S100000x64) (L m c main_arg1) := by
  show StableHlo.after hostOps2 (W4 m ρ c) (Proc.devRef .tc main_v40) = _
  after_results_simp
  rw [W4_v1, W4_v3]
  rfl

/-- The bias the region finds, one row. -/
theorem W5_v41 (c : Dev nD) :
    (W5 m ρ c (Proc.devRef .tc main_v41) : TF S1x128) = fun i => shapeCast S1x128 (L m c main_arg7 : TF S128) shapeCasts_S128_S1x128 i := by
  show StableHlo.after hostOps2 (W4 m ρ c) (Proc.devRef .tc main_v41) = _
  after_results_simp
  rw [W4_arg7]
  rfl

/-! ## Region 2's exit -/

theorem stats2_at (hS0 : Stats0) (hP1 : Point1) (hS : Stats2) (c : Dev nD) :
    mat (W6 m ρ c (Proc.devRef .tc main_v42_0) : TF S100000x128) = p2 m c
    ∧ mat (W6 m ρ c (Proc.devRef .tc main_v42_1) : TF S80x128) = Cert.Spec.tileSum (p2 m c)
    ∧ mat (W6 m ρ c (Proc.devRef .tc main_v42_2) : TF S80x128) = Cert.Spec.tileSum (fun r j => p2 m c r j * p2 m c r j) := by
  have h := hS (V5 m ρ) c
  have e30 : (W4 m ρ c (Proc.devRef .tc main_v30) : TF S100000x64) = tab (h1 m c) := by
    rw [← point1_at m ρ hS0 hP1 c, tab_mat]
  rw [show (V5 m ρ c main_v40 : TF S100000x64) = _ from W5_v40 m ρ c, V5_v30, V5_arg6, V5_arg8,
    show (V5 m ρ c main_v41 : TF S1x128) = _ from W5_v41 m ρ c, row_cast, e30] at h
  have e5 : (W6 m ρ c (Proc.devRef .tc main_v42_0) : TF S100000x128) = (dat2 (V5 m ρ) c).arrAt 5 cfg2.N := W6_arr m ρ c 5
  have e6 : (W6 m ρ c (Proc.devRef .tc main_v42_1) : TF S80x128) = (dat2 (V5 m ρ) c).arrAt 6 cfg2.N := W6_arr m ρ c 6
  have e7 : (W6 m ρ c (Proc.devRef .tc main_v42_2) : TF S80x128) = (dat2 (V5 m ρ) c).arrAt 7 cfg2.N := W6_arr m ρ c 7
  rw [e5, e6, e7]
  exact ⟨funext fun r => funext fun j => h.1 r j, funext fun q => funext fun j => h.2.1 q j,
    funext fun q => funext fun j => h.2.2 q j⟩

/-! ## Region 3's entry -/

theorem W7_v47 (c : Dev nD) : (W7 m ρ c (Proc.devRef .tc main_v47) : TF S1x128)
    = fun i => shapeCast S1x128
        (Host.divf (Host.reduceAdd (W6 m ρ c (Proc.devRef .tc main_v42_1) : TF S80x128) (constant (F := Ideal) S_ FTy.f32 0#32) reducesTo_S80x128_S128_d0 h_S_)
          (broadcastInDim S128 ![] bcast_S_S128 (constant (F := Ideal) S_ FTy.f32 0x47C35000#32)))
        shapeCasts_S128_S1x128 i := by
  show StableHlo.after hostOps3 (W6 m ρ c) (Proc.devRef .tc main_v47) = _
  after_results_simp
  rfl

theorem W7_v54 (c : Dev nD) : (W7 m ρ c (Proc.devRef .tc main_v54) : TF S1x128)
    = fun i => shapeCast S1x128
        (subf
          (Host.divf (Host.reduceAdd (W6 m ρ c (Proc.devRef .tc main_v42_2) : TF S80x128) (constant (F := Ideal) S_ FTy.f32 0#32) reducesTo_S80x128_S128_d0 h_S_)
            (broadcastInDim S128 ![] bcast_S_S128 (constant (F := Ideal) S_ FTy.f32 0x47C35000#32)))
          (mulf
            (Host.divf (Host.reduceAdd (W6 m ρ c (Proc.devRef .tc main_v42_1) : TF S80x128) (constant (F := Ideal) S_ FTy.f32 0#32) reducesTo_S80x128_S128_d0 h_S_)
            (broadcastInDim S128 ![] bcast_S_S128 (constant (F := Ideal) S_ FTy.f32 0x47C35000#32)))
            (Host.divf (Host.reduceAdd (W6 m ρ c (Proc.devRef .tc main_v42_1) : TF S80x128) (constant (F := Ideal) S_ FTy.f32 0#32) reducesTo_S80x128_S128_d0 h_S_)
            (broadcastInDim S128 ![] bcast_S_S128 (constant (F := Ideal) S_ FTy.f32 0x47C35000#32)))))
        shapeCasts_S128_S1x128 i := by
  show StableHlo.after hostOps3 (W6 m ρ c) (Proc.devRef .tc main_v54) = _
  after_results_simp
  rfl

theorem W7_v55 (c : Dev nD) : (W7 m ρ c (Proc.devRef .tc main_v55) : TF S1x128)
    = fun i => shapeCast S1x128 (L m c main_arg14 : TF S128) shapeCasts_S128_S1x128 i := by
  show StableHlo.after hostOps3 (W6 m ρ c) (Proc.devRef .tc main_v55) = _
  after_results_simp
  rw [W6_arg14]
  rfl

theorem W7_v56 (c : Dev nD) : (W7 m ρ c (Proc.devRef .tc main_v56) : TF S1x128)
    = fun i => shapeCast S1x128 (L m c main_arg15 : TF S128) shapeCasts_S128_S1x128 i := by
  show StableHlo.after hostOps3 (W6 m ρ c) (Proc.devRef .tc main_v56) = _
  after_results_simp
  rw [W6_arg15]
  rfl

/-! ## Region 3's exit: the second layer's output -/

theorem point3_at (hS0 : Stats0) (hP1 : Point1) (hS2 : Stats2) (hP3 : Point3) (c : Dev nD) :
    mat (W8 m ρ c (Proc.devRef .tc main_v57) : TF S100000x128) = h2 m c := by
  obtain ⟨e0, e1, e2⟩ := stats2_at m ρ hS0 hP1 hS2 c
  have h := hP3 (V7 m ρ) c
  have e5 : (W8 m ρ c (Proc.devRef .tc main_v57) : TF S100000x128) = (dat3 (V7 m ρ) c).arrAt 5 cfg3.N := W8_arr m ρ c 5
  rw [e5]
  funext r j
  refine (h r j).trans ?_
  rw [V7_v42_0]
  rw [show (V7 m ρ c main_v47 : TF S1x128) = _ from W7_v47 m ρ c, show (V7 m ρ c main_v54 : TF S1x128) = _ from W7_v54 m ρ c,
    show (V7 m ρ c main_v55 : TF S1x128) = _ from W7_v55 m ρ c, show (V7 m ρ c main_v56 : TF S1x128) = _ from W7_v56 m ρ c,
    mean128, var128, row_cast, row_cast, e0, e1, e2]
  rfl

end Cert.KernelIdeal.Chain

end
-- ==== Proof.KL3.lean ====
/-
  The third layer of the idealized kernel program and its classifier, read off the run.

  The host aggregates the second layer's output with the edge weights and stores the bias as one row; the fifth region
  holds the two products plus the bias and the two tables of tile sums; the host forms mean and variance from the
  tables; the last region normalises, adds the first layer's output, cuts at zero and applies the two-layer classifier.
  Put together with the first two layers this is the network in the kernel's arrangement.
-/
import proofs.«150348_j62612033241213_2_alg».proof.Proof.KL2

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

variable (m : (ℓ : Loc nD τ sig) → Buf (Elt Ideal) ℓ) (ρ : Dev nD → PrngReg)

/-! ## The layer's mathematics, on the launch contents -/

/-- The third layer's weighted aggregation on functions of coordinates. -/
def ag3 (c : Dev nD) (f : Fin 100000 → Fin 128 → EReal) : Fin 100000 → Fin 128 → EReal :=
  mat (agg128 (tab f) (L m c main_arg1) (L m c main_arg2 : TF S1600000))

/-- The third layer before normalisation. -/
def p3 (c : Dev nD) : Fin 100000 → Fin 64 → EReal :=
  Cert.Spec.lin (ag3 m c (h2 m c)) (h2 m c) (mat (L m c main_arg9 : TF S64x128)) (mat (L m c main_arg11 : TF S64x128))
    (vec (L m c main_arg10 : TF S64))

/-- The network's result. -/
def logits (c : Dev nD) : Fin 100000 → Fin 2 → EReal :=
  Cert.Spec.headK (ag3 m c) (h2 m c) (mat (L m c main_arg9 : TF S64x128)) (mat (L m c main_arg11 : TF S64x128))
    (vec (L m c main_arg10 : TF S64)) (vec (L m c main_arg16 : TF S64)) (vec (L m c main_arg17 : TF S64)) (h1 m c)
    (mat (L m c main_arg18 : TF S32x64)) (vec (L m c main_arg19 : TF S32)) (mat (L m c main_arg20 : TF S2x32))
    (vec (L m c main_arg21 : TF S2))

/-! ## Region 4's entry -/

theorem W9_v70 (c : Dev nD) : (W9 m ρ c (Proc.devRef .tc main_v70) : TF S100000x128)
    = agg128 (W8 m ρ c (Proc.devRef .tc main_v57) : TF S100000x128) (L m c main_arg1) (L m c main_arg2 : TF S1600000) := by
  show StableHlo.after hostOps4 (W8 m ρ c) (Proc.devRef .tc main_v70) = _
  after_results_simp
  rw [W8_v1, W8_v3, W8_arg2]
  rfl

theorem W9_v71 (c : Dev nD) : (W9 m ρ c (Proc.devRef .tc main_v71) : TF S1x64)
    = fun i => shapeCast S1x64 (L m c main_arg10 : TF S64) shapeCasts_S64_S1x64 i := by
  show StableHlo.after hostOps4 (W8 m ρ c) (Proc.devRef .tc main_v71) = _
  after_results_simp
  rw [W8_arg10]
  rfl

/-! ## Region 4's exit -/

theorem stats4_at (hS0 : Stats0) (hP1 : Point1) (hS2 : Stats2) (hP3 : Point3) (hS : Stats4) (c : Dev nD) :
    mat (W10 m ρ c (Proc.devRef .tc main_v72_0) : TF S100000x64) = p3 m c
    ∧ mat (W10 m ρ c (Proc.devRef .tc main_v72_1) : TF S80x64) = Cert.Spec.tileSum (p3 m c)
    ∧ mat (W10 m ρ c (Proc.devRef .tc main_v72_2) : TF S80x64) = Cert.Spec.tileSum (fun r j => p3 m c r j * p3 m c r j) := by
  have eh2 := point3_at m ρ hS0 hP1 hS2 hP3 c
  have t : (W8 m ρ c (Proc.devRef .tc main_v57) : TF S100000x128) = tab (h2 m c) := by rw [← eh2, tab_mat]
  have h := hS (V9 m ρ) c
  rw [show (V9 m ρ c main_v70 : TF S100000x128) = _ from W9_v70 m ρ c, V9_v57, V9_arg9, V9_arg11,
    show (V9 m ρ c main_v71 : TF S1x64) = _ from W9_v71 m ρ c, row_cast, t] at h
  have e5 : (W10 m ρ c (Proc.devRef .tc main_v72_0) : TF S100000x64) = (dat4 (V9 m ρ) c).arrAt 5 cfg4.N := W10_arr m ρ c 5
  have e6 : (W10 m ρ c (Proc.devRef .tc main_v72_1) : TF S80x64) = (dat4 (V9 m ρ) c).arrAt 6 cfg4.N := W10_arr m ρ c 6
  have e7 : (W10 m ρ c (Proc.devRef .tc main_v72_2) : TF S80x64) = (dat4 (V9 m ρ) c).arrAt 7 cfg4.N := W10_arr m ρ c 7
  rw [e5, e6, e7]
  unfold p3 ag3
  exact ⟨funext fun r => funext fun j => h.1 r j, funext fun q => funext fun j => h.2.1 q j,
    funext fun q => funext fun j => h.2.2 q j⟩

/-! ## Region 5's entry -/

theorem W11_v77 (c : Dev nD) : (W11 m ρ c (Proc.devRef .tc main_v77) : TF S1x64)
    = fun i => shapeCast S1x64
        (Host.divf (Host.reduceAdd (W10 m ρ c (Proc.devRef .tc main_v72_1) : TF S80x64) (constant (F := Ideal) S_ FTy.f32 0#32) reducesTo_S80x64_S64_d0 h_S_)
          (broadcastInDim S64 ![] bcast_S_S64 (constant (F := Ideal) S_ FTy.f32 0x47C35000#32)))
        shapeCasts_S64_S1x64 i := by
  show StableHlo.after hostOps5 (W10 m ρ c) (Proc.devRef .tc main_v77) = _
  after_results_simp
  rfl

theorem W11_v84 (c : Dev nD) : (W11 m ρ c (Proc.devRef .tc main_v84) : TF S1x64)
    = fun i => shapeCast S1x64
        (subf
          (Host.divf (Host.reduceAdd (W10 m ρ c (Proc.devRef .tc main_v72_2) : TF S80x64) (constant (F := Ideal) S_ FTy.f32 0#32) reducesTo_S80x64_S64_d0 h_S_)
            (broadcastInDim S64 ![] bcast_S_S64 (constant (F := Ideal) S_ FTy.f32 0x47C35000#32)))
          (mulf
            (Host.divf (Host.reduceAdd (W10 m ρ c (Proc.devRef .tc main_v72_1) : TF S80x64) (constant (F := Ideal) S_ FTy.f32 0#32) reducesTo_S80x64_S64_d0 h_S_)
              (broadcastInDim S64 ![] bcast_S_S64 (constant (F := Ideal) S_ FTy.f32 0x47C35000#32)))
            (Host.divf (Host.reduceAdd (W10 m ρ c (Proc.devRef .tc main_v72_1) : TF S80x64) (constant (F := Ideal) S_ FTy.f32 0#32) reducesTo_S80x64_S64_d0 h_S_)
              (broadcastInDim S64 ![] bcast_S_S64 (constant (F := Ideal) S_ FTy.f32 0x47C35000#32)))))
        shapeCasts_S64_S1x64 i := by
  show StableHlo.after hostOps5 (W10 m ρ c) (Proc.devRef .tc main_v84) = _
  after_results_simp
  rfl

theorem W11_v85 (c : Dev nD) : (W11 m ρ c (Proc.devRef .tc main_v85) : TF S1x64)
    = fun i => shapeCast S1x64 (L m c main_arg16 : TF S64) shapeCasts_S64_S1x64 i := by
  show StableHlo.after hostOps5 (W10 m ρ c) (Proc.devRef .tc main_v85) = _
  after_results_simp
  rw [W10_arg16]
  rfl

theorem W11_v86 (c : Dev nD) : (W11 m ρ c (Proc.devRef .tc main_v86) : TF S1x64)
    = fun i => shapeCast S1x64 (L m c main_arg17 : TF S64) shapeCasts_S64_S1x64 i := by
  show StableHlo.after hostOps5 (W10 m ρ c) (Proc.devRef .tc main_v86) = _
  after_results_simp
  rw [W10_arg17]
  rfl

theorem W11_v87 (c : Dev nD) : (W11 m ρ c (Proc.devRef .tc main_v87) : TF S1x32)
    = fun i => shapeCast S1x32 (L m c main_arg19 : TF S32) shapeCasts_S32_S1x32 i := by
  show StableHlo.after hostOps5 (W10 m ρ c) (Proc.devRef .tc main_v87) = _
  after_results_simp
  rw [W10_arg19]
  rfl

theorem W11_v88 (c : Dev nD) : (W11 m ρ c (Proc.devRef .tc main_v88) : TF S1x2)
    = fun i => shapeCast S1x2 (L m c main_arg21 : TF S2) shapeCasts_S2_S1x2 i := by
  show StableHlo.after hostOps5 (W10 m ρ c) (Proc.devRef .tc main_v88) = _
  after_results_simp
  rw [W10_arg21]
  rfl

/-! ## Region 5's exit: the result -/

theorem point5_at (hS0 : Stats0) (hP1 : Point1) (hS2 : Stats2) (hP3 : Point3) (hS4 : Stats4) (hP : Point5) (c : Dev nD) :
    mat (W12 m ρ c (Proc.devRef .tc main_v89) : TF S100000x2) = logits m c := by
  obtain ⟨e0, e1, e2⟩ := stats4_at m ρ hS0 hP1 hS2 hP3 hS4 c
  have eh1 := point1_at m ρ hS0 hP1 c
  have h := hP (V11 m ρ) c
  have e10 : (W12 m ρ c (Proc.devRef .tc main_v89) : TF S100000x2) = (dat5 (V11 m ρ) c).arrAt 10 cfg5.N := W12_arr m ρ c 10
  rw [e10]
  funext r j
  refine (h r j).trans ?_
  rw [V11_v72_0, V11_v30, V11_arg18, V11_arg20]
  rw [show (V11 m ρ c main_v77 : TF S1x64) = _ from W11_v77 m ρ c, show (V11 m ρ c main_v84 : TF S1x64) = _ from W11_v84 m ρ c,
    show (V11 m ρ c main_v85 : TF S1x64) = _ from W11_v85 m ρ c, show (V11 m ρ c main_v86 : TF S1x64) = _ from W11_v86 m ρ c,
    show (V11 m ρ c main_v87 : TF S1x32) = _ from W11_v87 m ρ c, show (V11 m ρ c main_v88 : TF S1x2) = _ from W11_v88 m ρ c,
    mean64, var64, row_cast, row_cast, row_cast, row_cast, e0, e1, e2, eh1]
  rfl

/-- The result is the network in the kernel's arrangement. -/
theorem logits_eq (c : Dev nD) :
    logits m c = Cert.Spec.netK (ag1 m c) (ag2 m c) (ag3 m c) (x0 m c)
      (mat (L m c main_arg3 : TF S64x32)) (mat (L m c main_arg5 : TF S64x32)) (vec (L m c main_arg4 : TF S64))
      (mat (L m c main_arg6 : TF S128x64)) (mat (L m c main_arg8 : TF S128x64)) (vec (L m c main_arg7 : TF S128))
      (mat (L m c main_arg9 : TF S64x128)) (mat (L m c main_arg11 : TF S64x128)) (vec (L m c main_arg10 : TF S64))
      (vec (L m c main_arg12 : TF S64)) (vec (L m c main_arg13 : TF S64)) (vec (L m c main_arg14 : TF S128)) (vec (L m c main_arg15 : TF S128))
      (vec (L m c main_arg16 : TF S64)) (vec (L m c main_arg17 : TF S64))
      (mat (L m c main_arg18 : TF S32x64)) (vec (L m c main_arg19 : TF S32)) (mat (L m c main_arg20 : TF S2x32)) (vec (L m c main_arg21 : TF S2)) :=
  rfl

end Cert.KernelIdeal.Chain

end
-- ==== Proof.KRun.lean ====
/-
  The idealized kernel program's run with its result named: every weakly fair execution of the six regions and the host
  stretches between them terminates without a fault, leaves the argument arrays as launched, and leaves in the result
  buffer what the last region's write-backs hold — the contents at the last segment boundary, a fold over the launch
  memory through each stretch of host operations and each region's final arrays.
-/
import proofs.«150348_j62612033241213_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_out : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c)⟩)

end Cert.KernelIdeal.RunValue

end
-- ==== Proof.Algebra.lean ====
/-
  The two ways of computing one normalised layer agree on real inputs.

  Three facts. Adding the bias last or between the two products is the same sum (addition on the extended reals is
  commutative and associative, infinities included). The column sum over the hundred thousand nodes is the sum of the
  ten tile sums, and the 80-row table holds exactly those ten sums and seventy zero rows. And for REAL entries the mean
  of the squares minus the square of the mean is the mean of the squared deviations — the one identity here that uses
  distributivity, hence finiteness; it is proved on the reals and carried to the extended reals through the coercion.
  Finiteness is then carried through the layer: a real variance is nonnegative, the epsilon is a positive real, so the
  reciprocal square root of their sum is a real and the layer's output is real again.
-/
import proofs.«150348_j62612033241213_2_alg».proof.Proof.Spec
import proofs.«150348_j62612033241213_2_alg».proof.Proof.LibFinite

noncomputable section

open scoped BigOperators

namespace Cert.Algebra

open Idealize.ShloMosaic Cert.Spec Cert.LibFinite

/-! ## The bias -/

theorem lin_eq_linMid {di dout : Nat} (agg x : Fin 100000 → Fin di → EReal) (wrel wroot : Fin dout → Fin di → EReal)
    (b : Fin dout → EReal) : lin agg x wrel wroot b = linMid agg x wrel wroot b := by
  funext r c
  unfold lin linMid
  exact add_right_comm _ _ _

/-! ## Tiles -/

/-- The hundred thousand nodes are ten tiles of ten thousand. -/
theorem sum_nodes_eq_tiles (h : Fin 100000 → EReal) :
    (∑ i : Fin 100000, h i)
      = ∑ t : Fin 10, ∑ r : Fin 10000, h ⟨10000 * t.val + r.val, by have := t.isLt; have := r.isLt; omega⟩ := by
  have e : Fin 10 × Fin 10000 ≃ Fin 100000 := finProdFinEquiv
  rw [← (finProdFinEquiv : Fin 10 × Fin 10000 ≃ Fin 100000).sum_comp, Fintype.sum_prod_type]
  refine Finset.sum_congr rfl fun t _ => Finset.sum_congr rfl fun r _ => congrArg h (Fin.ext ?_)
  simp only [finProdFinEquiv_apply_val]
  omega

/-- The eighty rows of the table are ten blocks of eight; only a block's first row is not zero. -/
theorem sum_table_eq_tiles (f : Fin 80 → EReal) (hz : ∀ q : Fin 80, q.val % 8 ≠ 0 → f q = 0) :
    (∑ q : Fin 80, f q) = ∑ t : Fin 10, f ⟨8 * t.val, by have := t.isLt; omega⟩ := by
  rw [← (finProdFinEquiv : Fin 10 × Fin 8 ≃ Fin 80).sum_comp, Fintype.sum_prod_type]
  refine Finset.sum_congr rfl fun t _ => ?_
  rw [Fin.sum_univ_succ, Finset.sum_eq_zero, add_zero]
  · refine congrArg f (Fin.ext ?_)
    simp only [finProdFinEquiv_apply_val, Fin.val_zero]
    omega
  · intro s _
    refine hz _ ?_
    simp only [finProdFinEquiv_apply_val, Fin.val_succ]
    have := s.isLt
    omega

theorem colSum80_tileSum {d : Nat} (h : Fin 100000 → Fin d → EReal) : colSum80 (tileSum h) = colSum h := by
  funext c
  unfold colSum80 colSum
  refine congrArg (fun z : EReal => 0 + z) ?_
  rw [sum_table_eq_tiles (fun q => tileSum h q c) (fun q hq => by unfold tileSum; rw [if_neg hq]),
    sum_nodes_eq_tiles (fun i => h i c)]
  refine Finset.sum_congr rfl fun t _ => ?_
  unfold tileSum
  have h8 : (8 * t.val) % 8 = 0 := by omega
  rw [if_pos h8]
  refine Finset.sum_congr rfl fun r _ => ?_
  refine congrArg (fun i => h i c) (Fin.ext ?_)
  show 10000 * (8 * t.val / 8) + r.val = 10000 * t.val + r.val
  have : 8 * t.val / 8 = t.val := by omega
  rw [this]

/-! ## The variance of real entries -/

/-- The coercion of a finite real sum. -/
theorem coe_sum {ι : Type} (s : Finset ι) (a : ι → ℝ) : (∑ i ∈ s, (a i : EReal)) = ((∑ i ∈ s, a i : ℝ) : EReal) := by
  classical
  induction s using Finset.induction_on with
  | empty => simp
  | insert i s hi ih => rw [Finset.sum_insert hi, Finset.sum_insert hi, ih, EReal.coe_add]

/-- A real divided by the node count. -/
theorem div_nodes (y : ℝ) : Ideal.div (y : EReal) nodesF = ((y / 100000 : ℝ) : EReal) := by
  rw [show nodesF = ((100000 : ℝ) : EReal) from ofBits_1e5, Ideal.div_coe (by norm_num), ← EReal.coe_mul]
  congr 1
  ring

/-- Mean of the squares minus the square of the mean is the mean of the squared deviations, on the reals. -/
theorem var_real (a : Fin 100000 → ℝ) :
    (∑ r, a r * a r) / 100000 - (∑ r, a r) / 100000 * ((∑ r, a r) / 100000)
      = (∑ r, (a r - (∑ r, a r) / 100000) * (a r - (∑ r, a r) / 100000)) / 100000 := by
  obtain ⟨S, hS⟩ : ∃ S : ℝ, S = ∑ r, a r := ⟨_, rfl⟩
  rw [← hS]
  have h1 : ∀ r, (a r - S / 100000) * (a r - S / 100000) = a r * a r - 2 * (S / 100000) * a r + S / 100000 * (S / 100000) :=
    fun r => by ring
  simp only [h1]
  rw [Finset.sum_add_distrib, Finset.sum_sub_distrib, ← Finset.mul_sum, ← hS, Finset.sum_const, Finset.card_univ,
    Fintype.card_fin, nsmul_eq_mul]
  push_cast
  ring

/-- The column sum of a column of reals. -/
theorem colSum_coe {d : Nat} (h : Fin 100000 → Fin d → EReal) (c : Fin d) (a : Fin 100000 → ℝ) (ha : ∀ r, h r c = (a r : EReal)) :
    colSum h c = ((∑ r, a r : ℝ) : EReal) := by
  unfold colSum
  rw [zero_add, ← coe_sum]
  exact Finset.sum_congr rfl fun r _ => ha r

theorem meanOf_colSum_coe {d : Nat} (h : Fin 100000 → Fin d → EReal) (c : Fin d) (a : Fin 100000 → ℝ) (ha : ∀ r, h r c = (a r : EReal)) :
    meanOf (colSum h) c = (((∑ r, a r) / 100000 : ℝ) : EReal) := by
  unfold meanOf
  rw [colSum_coe h c a ha, div_nodes]

theorem varCentred_coe {d : Nat} (h : Fin 100000 → Fin d → EReal) (c : Fin d) (a : Fin 100000 → ℝ) (ha : ∀ r, h r c = (a r : EReal)) :
    varCentred h (meanOf (colSum h)) c
      = (((∑ r, (a r - (∑ r, a r) / 100000) * (a r - (∑ r, a r) / 100000)) / 100000 : ℝ) : EReal) := by
  unfold varCentred
  rw [colSum_coe (fun r c => (h r c - meanOf (colSum h) c) * (h r c - meanOf (colSum h) c)) c
    (fun r => (a r - (∑ r, a r) / 100000) * (a r - (∑ r, a r) / 100000)) (fun r => by
      show (h r c - meanOf (colSum h) c) * (h r c - meanOf (colSum h) c) = _
      rw [meanOf_colSum_coe h c a ha, ha r, ← EReal.coe_sub, ← EReal.coe_mul]), div_nodes]

theorem varMoments_coe {d : Nat} (h : Fin 100000 → Fin d → EReal) (c : Fin d) (a : Fin 100000 → ℝ) (ha : ∀ r, h r c = (a r : EReal)) :
    varMoments (colSum h) (colSum fun r c => h r c * h r c) c
      = (((∑ r, a r * a r) / 100000 - (∑ r, a r) / 100000 * ((∑ r, a r) / 100000) : ℝ) : EReal) := by
  unfold varMoments
  rw [colSum_coe h c a ha, colSum_coe (fun r c => h r c * h r c) c (fun r => a r * a r) (fun r => by
      show h r c * h r c = _
      rw [ha r, ← EReal.coe_mul]), div_nodes, div_nodes, ← EReal.coe_mul, ← EReal.coe_sub]

/-- The two variances of a real column agree. -/
theorem varMoments_eq_varCentred {d : Nat} (h : Fin 100000 → Fin d → EReal) (hf : ∀ r c, IsFin (h r c)) :
    varMoments (colSum h) (colSum fun r c => h r c * h r c) = varCentred h (meanOf (colSum h)) := by
  funext c
  choose a ha using fun r => hf r c
  rw [varMoments_coe h c a ha, varCentred_coe h c a ha, var_real]

/-! ## Finiteness through a layer -/

theorem lin_fin {di dout : Nat} {agg x : Fin 100000 → Fin di → EReal} {wrel wroot : Fin dout → Fin di → EReal}
    {b : Fin dout → EReal} (hagg : ∀ r k, IsFin (agg r k)) (hx : ∀ r k, IsFin (x r k)) (hrel : ∀ c k, IsFin (wrel c k))
    (hroot : ∀ c k, IsFin (wroot c k)) (hb : ∀ c, IsFin (b c)) (r : Fin 100000) (c : Fin dout) :
    IsFin (linMid agg x wrel wroot b r c) := by
  unfold linMid
  exact ((IsFin.sum _ _ fun k _ => (hagg r k).mul (hrel c k)).add (hb c)).add
    (IsFin.sum _ _ fun k _ => (hx r k).mul (hroot c k))

/-- The epsilon is a positive real. -/
theorem eps_pos : ∃ e : ℝ, 0 < e ∧ epsF = (e : EReal) := by
  refine ⟨_, ?_, by simp [Ideal.ofBits, Ideal.ieee, -EReal.coe_mul]; rfl⟩
  positivity

/-- The reciprocal square root of a positive real is a real. -/
theorem rsqrt_fin (y : ℝ) (hy : 0 < y) : IsFin (Ideal.rsqrt (y : EReal)) := by
  refine ⟨(Real.sqrt y)⁻¹, ?_⟩
  show (if y < 0 then (⊥ : EReal) else if y = 0 then ⊤ else (((Real.sqrt y)⁻¹ : ℝ) : EReal)) = _
  rw [if_neg (not_lt.mpr hy.le), if_neg hy.ne']

theorem bn_fin {d : Nat} {h : Fin 100000 → Fin d → EReal} {g be : Fin d → EReal} (hf : ∀ r c, IsFin (h r c))
    (hg : ∀ c, IsFin (g c)) (hbe : ∀ c, IsFin (be c)) (r : Fin 100000) (c : Fin d) :
    IsFin (bn h (meanOf (colSum h)) (varCentred h (meanOf (colSum h))) g be r c) := by
  choose a ha using fun r => hf r c
  obtain ⟨e, he, hee⟩ := eps_pos
  unfold bn
  rw [varCentred_coe h c a ha, meanOf_colSum_coe h c a ha, hee, ← EReal.coe_add]
  refine (((hf r c).sub (isFin_coe _)).mul (rsqrt_fin _ ?_)).mul (hg c) |>.add (hbe c)
  have : 0 ≤ (∑ r, (a r - (∑ r, a r) / 100000) * (a r - (∑ r, a r) / 100000)) / 100000 :=
    div_nonneg (Finset.sum_nonneg fun r _ => mul_self_nonneg _) (by norm_num)
  linarith

/-! ## One layer, and the last one -/

theorem layerK_eq_layerR {di dout : Nat} (ag : (Fin 100000 → Fin di → EReal) → Fin 100000 → Fin di → EReal)
    (h : Fin 100000 → Fin di → EReal) (wrel wroot : Fin dout → Fin di → EReal) (b g be : Fin dout → EReal)
    (hag : ∀ r k, IsFin (ag h r k)) (hh : ∀ r k, IsFin (h r k)) (hrel : ∀ c k, IsFin (wrel c k))
    (hroot : ∀ c k, IsFin (wroot c k)) (hb : ∀ c, IsFin (b c)) :
    layerK ag h wrel wroot b g be = layerR ag h wrel wroot b g be := by
  unfold layerK layerR
  rw [lin_eq_linMid, colSum80_tileSum, colSum80_tileSum,
    varMoments_eq_varCentred _ (lin_fin hag hh hrel hroot hb)]

theorem layerR_fin {di dout : Nat} (ag : (Fin 100000 → Fin di → EReal) → Fin 100000 → Fin di → EReal)
    (h : Fin 100000 → Fin di → EReal) (wrel wroot : Fin dout → Fin di → EReal) (b g be : Fin dout → EReal)
    (hag : ∀ r k, IsFin (ag h r k)) (hh : ∀ r k, IsFin (h r k)) (hrel : ∀ c k, IsFin (wrel c k))
    (hroot : ∀ c k, IsFin (wroot c k)) (hb : ∀ c, IsFin (b c)) (hg : ∀ c, IsFin (g c)) (hbe : ∀ c, IsFin (be c))
    (r : Fin 100000) (c : Fin dout) : IsFin (layerR ag h wrel wroot b g be r c) := by
  unfold layerR bnRelu
  exact (bn_fin (lin_fin hag hh hrel hroot hb) hg hbe r c).max isFin_zero

theorem headK_eq_headR {di dout dh dc : Nat} (ag : (Fin 100000 → Fin di → EReal) → Fin 100000 → Fin di → EReal)
    (h : Fin 100000 → Fin di → EReal) (wrel wroot : Fin dout → Fin di → EReal) (b g be : Fin dout → EReal)
    (res : Fin 100000 → Fin dout → EReal)
    (wc1 : Fin dh → Fin dout → EReal) (bc1 : Fin dh → EReal) (wc2 : Fin dc → Fin dh → EReal) (bc2 : Fin dc → EReal)
    (hag : ∀ r k, IsFin (ag h r k)) (hh : ∀ r k, IsFin (h r k)) (hrel : ∀ c k, IsFin (wrel c k))
    (hroot : ∀ c k, IsFin (wroot c k)) (hb : ∀ c, IsFin (b c)) :
    headK ag h wrel wroot b g be res wc1 bc1 wc2 bc2 = headR ag h wrel wroot b g be res wc1 bc1 wc2 bc2 := by
  unfold headK headR
  rw [lin_eq_linMid, colSum80_tileSum, colSum80_tileSum,
    varMoments_eq_varCentred _ (lin_fin hag hh hrel hroot hb)]

/-! ## The network -/

/-- On real inputs, with aggregations that keep real tables real, the kernel's network is the reference's. -/
theorem netK_eq_netR
    (ag1 : (Fin 100000 → Fin 32 → EReal) → Fin 100000 → Fin 32 → EReal)
    (ag2 : (Fin 100000 → Fin 64 → EReal) → Fin 100000 → Fin 64 → EReal)
    (ag3 : (Fin 100000 → Fin 128 → EReal) → Fin 100000 → Fin 128 → EReal)
    (x : Fin 100000 → Fin 32 → EReal)
    (w1rel w1root : Fin 64 → Fin 32 → EReal) (b1 : Fin 64 → EReal)
    (w2rel w2root : Fin 128 → Fin 64 → EReal) (b2 : Fin 128 → EReal)
    (w3rel w3root : Fin 64 → Fin 128 → EReal) (b3 : Fin 64 → EReal)
    (g1 be1 : Fin 64 → EReal) (g2 be2 : Fin 128 → EReal) (g3 be3 : Fin 64 → EReal)
    (wc1 : Fin 32 → Fin 64 → EReal) (bc1 : Fin 32 → EReal) (wc2 : Fin 2 → Fin 32 → EReal) (bc2 : Fin 2 → EReal)
    (hag1 : ∀ f, (∀ r k, IsFin (f r k)) → ∀ r k, IsFin (ag1 f r k))
    (hag2 : ∀ f, (∀ r k, IsFin (f r k)) → ∀ r k, IsFin (ag2 f r k))
    (hag3 : ∀ f, (∀ r k, IsFin (f r k)) → ∀ r k, IsFin (ag3 f r k))
    (hx : ∀ r k, IsFin (x r k))
    (hw1rel : ∀ c k, IsFin (w1rel c k)) (hw1root : ∀ c k, IsFin (w1root c k)) (hb1 : ∀ c, IsFin (b1 c))
    (hw2rel : ∀ c k, IsFin (w2rel c k)) (hw2root : ∀ c k, IsFin (w2root c k)) (hb2 : ∀ c, IsFin (b2 c))
    (hw3rel : ∀ c k, IsFin (w3rel c k)) (hw3root : ∀ c k, IsFin (w3root c k)) (hb3 : ∀ c, IsFin (b3 c))
    (hg1 : ∀ c, IsFin (g1 c)) (hbe1 : ∀ c, IsFin (be1 c)) (hg2 : ∀ c, IsFin (g2 c)) (hbe2 : ∀ c, IsFin (be2 c)) :
    netK ag1 ag2 ag3 x w1rel w1root b1 w2rel w2root b2 w3rel w3root b3 g1 be1 g2 be2 g3 be3 wc1 bc1 wc2 bc2
      = netR ag1 ag2 ag3 x w1rel w1root b1 w2rel w2root b2 w3rel w3root b3 g1 be1 g2 be2 g3 be3 wc1 bc1 wc2 bc2 := by
  unfold netK netR
  have e1 := layerK_eq_layerR ag1 x w1rel w1root b1 g1 be1 (hag1 x hx) hx hw1rel hw1root hb1
  have f1 := layerR_fin ag1 x w1rel w1root b1 g1 be1 (hag1 x hx) hx hw1rel hw1root hb1 hg1 hbe1
  rw [e1]
  have e2 := layerK_eq_layerR ag2 _ w2rel w2root b2 g2 be2 (hag2 _ f1) f1 hw2rel hw2root hb2
  have f2 := layerR_fin ag2 _ w2rel w2root b2 g2 be2 (hag2 _ f1) f1 hw2rel hw2root hb2 hg2 hbe2
  rw [e2]
  exact headK_eq_headR ag3 _ w3rel w3root b3 g3 be3 _ wc1 bc1 wc2 bc2 (hag3 _ f2) f2 hw3rel hw3root hb3

end Cert.Algebra

end
-- ==== Proof.PreFiniteElem.lean ====
/-
  Finiteness of one array, read back from the test "every |x| is strictly below +infinity".

  The scalar fact: over the extended reals, |x| = max x (-x); for x = -infinity or x = +infinity this
  maximum is +infinity, which is not strictly below +infinity, so the test passes only at a real number.
  The bit pattern with exponent field all ones and fraction zero denotes +infinity.

  The array fact: the conjunction (a reduction by "and" from the constant 1 over every axis) of the
  elementwise tests |x i| < +infinity equals 1 only if the test is 1 at every index i, hence every entry
  of the array is a real number. It is stated for an arbitrary array shape, an arbitrary shape of the
  scalar constants, and any result shape with a single index.
-/
import Idealize.ShloMosaic.Lib.ReduceAll
import Idealize.ShloMosaic.Lib.StableHlo
import Idealize.ShloMosaic.PureOps
import Idealize.ShloMosaic.PureOps.Ideal

noncomputable section

namespace Cert.PreFinite

open Idealize.ShloMosaic

/-- The pattern with exponent field all ones and zero fraction denotes +infinity. -/
theorem ofBits_inf : Ideal.ofBits .f32 0x7F800000#32 = (⊤ : EReal) := by
  simp [Ideal.ofBits, Ideal.ieee]

/-- An extended real whose absolute value max x (-x) is strictly below +infinity is a real number. -/
theorem real_of_abs_lt_inf (x : EReal)
    (h : Ideal.cmp .olt (max x (-x)) (Ideal.ofBits .f32 0x7F800000#32) = 1#1) : ∃ y : ℝ, x = (y : EReal) := by
  rw [ofBits_inf] at h
  induction x using EReal.rec with
  | bot => simp [Ideal.cmp] at h
  | coe y => exact ⟨y, rfl⟩
  | top => simp [Ideal.cmp] at h

/-- If the conjunction over all indices of the tests |x i| < +infinity is 1, every entry of x is a real number. -/
theorem real_of_all {s u t : Shape} {axes : List (Fin s.rank)} [Subsingleton t.Idx]
    {dims : Fin u.rank → Fin s.rank} (hb : u.BroadcastsInDim s dims) (hr : s.ReducesTo axes t) (hu : 0 < u.numel)
    (x : FVec Ideal s .f32) (j : t.Idx)
    (e : Host.reduce IntOp.andi
          (cmpf .olt (Host.absf x) (broadcastInDim s dims hb (constant (F := Ideal) u .f32 0x7F800000#32)))
          (constantI u 1 1#1) hr hu j = 1#1)
    (i : s.Idx) : ∃ y : ℝ, x i = (y : EReal) :=
  real_of_abs_lt_inf (x i) (Host.reduce_andi_all _ _ hr hu j e i)

end Cert.PreFinite

end
-- ==== Proof.PreFiniteSplit.lean ====
/-
  The finiteness test of the 21 floating-point arrays, taken apart.

  The test is one truth value: the conjunction, array by array, of "every entry has absolute value strictly
  below +infinity". It is printed as a left-nested chain of 20 binary "and"s over 21 reductions. A binary
  "and" of two one-bit words is 1 exactly when both are 1, so the chain being 1 gives each of the 21
  reductions as 1, and each reduction being 1 makes every entry of its array a real number. The integer
  array (the second argument) is not tested and nothing is said about it.
-/
import proofs.«150348_j62612033241213_2_alg».proof.Pre_finite_inputs
import proofs.«150348_j62612033241213_2_alg».proof.Proof.PreFiniteElem
import Idealize.ShloMosaic.Lib.ValueIdx

noncomputable section

namespace Cert.PreFinite

open Idealize.ShloMosaic Cert.Pre_finite_inputs

variable [hPre : Cert.Pre_finite_inputs.Facts]

/-- The shape of rank zero has a single index. -/
instance subsingleton_scalar_idx : Subsingleton S_.Idx := ⟨fun a b => funext fun d => d.elim0⟩

/-- The elementwise "and" of two arrays of words, read at an index. -/
theorem andi_apply {s : Shape} {w : Nat} (x y : IVec s w) (i : s.Idx) : andi x y i = IntOp.andi (x i) (y i) := rfl

variable {a0 : FVec Ideal S100000x32 .f32} {a1 : IVec S2x1600000 32} {a2 : FVec Ideal S1600000 .f32} {a3 : FVec Ideal S64x32 .f32} {a4 : FVec Ideal S64 .f32} {a5 : FVec Ideal S64x32 .f32} {a6 : FVec Ideal S128x64 .f32} {a7 : FVec Ideal S128 .f32} {a8 : FVec Ideal S128x64 .f32} {a9 : FVec Ideal S64x128 .f32} {a10 : FVec Ideal S64 .f32} {a11 : FVec Ideal S64x128 .f32} {a12 : FVec Ideal S64 .f32} {a13 : FVec Ideal S64 .f32} {a14 : FVec Ideal S128 .f32} {a15 : FVec Ideal S128 .f32} {a16 : FVec Ideal S64 .f32} {a17 : FVec Ideal S64 .f32} {a18 : FVec Ideal S32x64 .f32} {a19 : FVec Ideal S32 .f32} {a20 : FVec Ideal S2x32 .f32} {a21 : FVec Ideal S2 .f32}

/-- If the test of the 22 arguments is 1, every entry of each of the 21 floating-point arrays is a real number. -/
theorem real_all (h : fn (F := Ideal) a0 a1 a2 a3 a4 a5 a6 a7 a8 a9 a10 a11 a12 a13 a14 a15 a16 a17 a18 a19 a20 a21 = fun _ => 1#1) :
      (∀ i, ∃ y : ℝ, a0 i = (y : EReal)) ∧
      (∀ i, ∃ y : ℝ, a2 i = (y : EReal)) ∧
      (∀ i, ∃ y : ℝ, a3 i = (y : EReal)) ∧
      (∀ i, ∃ y : ℝ, a4 i = (y : EReal)) ∧
      (∀ i, ∃ y : ℝ, a5 i = (y : EReal)) ∧
      (∀ i, ∃ y : ℝ, a6 i = (y : EReal)) ∧
      (∀ i, ∃ y : ℝ, a7 i = (y : EReal)) ∧
      (∀ i, ∃ y : ℝ, a8 i = (y : EReal)) ∧
      (∀ i, ∃ y : ℝ, a9 i = (y : EReal)) ∧
      (∀ i, ∃ y : ℝ, a10 i = (y : EReal)) ∧
      (∀ i, ∃ y : ℝ, a11 i = (y : EReal)) ∧
      (∀ i, ∃ y : ℝ, a12 i = (y : EReal)) ∧
      (∀ i, ∃ y : ℝ, a13 i = (y : EReal)) ∧
      (∀ i, ∃ y : ℝ, a14 i = (y : EReal)) ∧
      (∀ i, ∃ y : ℝ, a15 i = (y : EReal)) ∧
      (∀ i, ∃ y : ℝ, a16 i = (y : EReal)) ∧
      (∀ i, ∃ y : ℝ, a17 i = (y : EReal)) ∧
      (∀ i, ∃ y : ℝ, a18 i = (y : EReal)) ∧
      (∀ i, ∃ y : ℝ, a19 i = (y : EReal)) ∧
      (∀ i, ∃ y : ℝ, a20 i = (y : EReal)) ∧
      (∀ i, ∃ y : ℝ, a21 i = (y : EReal)) := by
  have e := congrFun h ValueIdx.ix0
  dsimp only [fn, fn_part1, fn_part2, fn_part3, fn_part4, fn_part5, fn_part6] at e
  simp only [andi_apply, IntOp.andi_eq_one] at e
  obtain ⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩ := e
  exact ⟨fun i => real_of_all _ _ _ a0 _ h0 i,
    fun i => real_of_all _ _ _ a2 _ h2 i,
    fun i => real_of_all _ _ _ a3 _ h3 i,
    fun i => real_of_all _ _ _ a4 _ h4 i,
    fun i => real_of_all _ _ _ a5 _ h5 i,
    fun i => real_of_all _ _ _ a6 _ h6 i,
    fun i => real_of_all _ _ _ a7 _ h7 i,
    fun i => real_of_all _ _ _ a8 _ h8 i,
    fun i => real_of_all _ _ _ a9 _ h9 i,
    fun i => real_of_all _ _ _ a10 _ h10 i,
    fun i => real_of_all _ _ _ a11 _ h11 i,
    fun i => real_of_all _ _ _ a12 _ h12 i,
    fun i => real_of_all _ _ _ a13 _ h13 i,
    fun i => real_of_all _ _ _ a14 _ h14 i,
    fun i => real_of_all _ _ _ a15 _ h15 i,
    fun i => real_of_all _ _ _ a16 _ h16 i,
    fun i => real_of_all _ _ _ a17 _ h17 i,
    fun i => real_of_all _ _ _ a18 _ h18 i,
    fun i => real_of_all _ _ _ a19 _ h19 i,
    fun i => real_of_all _ _ _ a20 _ h20 i,
    fun i => real_of_all _ _ _ a21 _ h21 i⟩

end Cert.PreFinite

end
-- ==== Proof.PreFinite.lean ====
/-
  Finiteness of the network's floating-point inputs, from the precondition.

  The precondition says that, on every device, the finiteness test of the 22 argument arrays comes out 1.
  The test is the conjunction over the 21 floating-point arrays (all arguments but the integer edge list)
  of "every entry has absolute value strictly below +infinity". Over the extended reals this holds of an
  entry exactly when the entry is a real number. So, first for arbitrary arrays and then for the arrays the
  memory of a device holds at the 21 floating-point arguments, every entry is a real number.
-/
import proofs.«150348_j62612033241213_2_alg».proof.Defs
import proofs.«150348_j62612033241213_2_alg».proof.Proof.LibFinite
import proofs.«150348_j62612033241213_2_alg».proof.Proof.PreFiniteSplit

noncomputable section

namespace Cert.PreFinite

open Idealize.ShloMosaic Idealize.SL.Sem Cert.Pre_finite_inputs Cert.LibFinite

variable [hPre : Cert.Pre_finite_inputs.Facts]

section Arrays

variable {a0 : FVec Ideal S100000x32 .f32} {a1 : IVec S2x1600000 32} {a2 : FVec Ideal S1600000 .f32} {a3 : FVec Ideal S64x32 .f32} {a4 : FVec Ideal S64 .f32} {a5 : FVec Ideal S64x32 .f32} {a6 : FVec Ideal S128x64 .f32} {a7 : FVec Ideal S128 .f32} {a8 : FVec Ideal S128x64 .f32} {a9 : FVec Ideal S64x128 .f32} {a10 : FVec Ideal S64 .f32} {a11 : FVec Ideal S64x128 .f32} {a12 : FVec Ideal S64 .f32} {a13 : FVec Ideal S64 .f32} {a14 : FVec Ideal S128 .f32} {a15 : FVec Ideal S128 .f32} {a16 : FVec Ideal S64 .f32} {a17 : FVec Ideal S64 .f32} {a18 : FVec Ideal S32x64 .f32} {a19 : FVec Ideal S32 .f32} {a20 : FVec Ideal S2x32 .f32} {a21 : FVec Ideal S2 .f32}

/-- Every entry of argument 0 is a real number. -/
theorem fin_a0 (h : fn (F := Ideal) a0 a1 a2 a3 a4 a5 a6 a7 a8 a9 a10 a11 a12 a13 a14 a15 a16 a17 a18 a19 a20 a21 = fun _ => 1#1) : ∀ i, IsFin (a0 i) :=
  (real_all h).1

/-- Every entry of argument 2 is a real number. -/
theorem fin_a2 (h : fn (F := Ideal) a0 a1 a2 a3 a4 a5 a6 a7 a8 a9 a10 a11 a12 a13 a14 a15 a16 a17 a18 a19 a20 a21 = fun _ => 1#1) : ∀ i, IsFin (a2 i) :=
  (real_all h).2.1

/-- Every entry of argument 3 is a real number. -/
theorem fin_a3 (h : fn (F := Ideal) a0 a1 a2 a3 a4 a5 a6 a7 a8 a9 a10 a11 a12 a13 a14 a15 a16 a17 a18 a19 a20 a21 = fun _ => 1#1) : ∀ i, IsFin (a3 i) :=
  (real_all h).2.2.1

/-- Every entry of argument 4 is a real number. -/
theorem fin_a4 (h : fn (F := Ideal) a0 a1 a2 a3 a4 a5 a6 a7 a8 a9 a10 a11 a12 a13 a14 a15 a16 a17 a18 a19 a20 a21 = fun _ => 1#1) : ∀ i, IsFin (a4 i) :=
  (real_all h).2.2.2.1

/-- Every entry of argument 5 is a real number. -/
theorem fin_a5 (h : fn (F := Ideal) a0 a1 a2 a3 a4 a5 a6 a7 a8 a9 a10 a11 a12 a13 a14 a15 a16 a17 a18 a19 a20 a21 = fun _ => 1#1) : ∀ i, IsFin (a5 i) :=
  (real_all h).2.2.2.2.1

/-- Every entry of argument 6 is a real number. -/
theorem fin_a6 (h : fn (F := Ideal) a0 a1 a2 a3 a4 a5 a6 a7 a8 a9 a10 a11 a12 a13 a14 a15 a16 a17 a18 a19 a20 a21 = fun _ => 1#1) : ∀ i, IsFin (a6 i) :=
  (real_all h).2.2.2.2.2.1

/-- Every entry of argument 7 is a real number. -/
theorem fin_a7 (h : fn (F := Ideal) a0 a1 a2 a3 a4 a5 a6 a7 a8 a9 a10 a11 a12 a13 a14 a15 a16 a17 a18 a19 a20 a21 = fun _ => 1#1) : ∀ i, IsFin (a7 i) :=
  (real_all h).2.2.2.2.2.2.1

/-- Every entry of argument 8 is a real number. -/
theorem fin_a8 (h : fn (F := Ideal) a0 a1 a2 a3 a4 a5 a6 a7 a8 a9 a10 a11 a12 a13 a14 a15 a16 a17 a18 a19 a20 a21 = fun _ => 1#1) : ∀ i, IsFin (a8 i) :=
  (real_all h).2.2.2.2.2.2.2.1

/-- Every entry of argument 9 is a real number. -/
theorem fin_a9 (h : fn (F := Ideal) a0 a1 a2 a3 a4 a5 a6 a7 a8 a9 a10 a11 a12 a13 a14 a15 a16 a17 a18 a19 a20 a21 = fun _ => 1#1) : ∀ i, IsFin (a9 i) :=
  (real_all h).2.2.2.2.2.2.2.2.1

/-- Every entry of argument 10 is a real number. -/
theorem fin_a10 (h : fn (F := Ideal) a0 a1 a2 a3 a4 a5 a6 a7 a8 a9 a10 a11 a12 a13 a14 a15 a16 a17 a18 a19 a20 a21 = fun _ => 1#1) : ∀ i, IsFin (a10 i) :=
  (real_all h).2.2.2.2.2.2.2.2.2.1

/-- Every entry of argument 11 is a real number. -/
theorem fin_a11 (h : fn (F := Ideal) a0 a1 a2 a3 a4 a5 a6 a7 a8 a9 a10 a11 a12 a13 a14 a15 a16 a17 a18 a19 a20 a21 = fun _ => 1#1) : ∀ i, IsFin (a11 i) :=
  (real_all h).2.2.2.2.2.2.2.2.2.2.1

/-- Every entry of argument 12 is a real number. -/
theorem fin_a12 (h : fn (F := Ideal) a0 a1 a2 a3 a4 a5 a6 a7 a8 a9 a10 a11 a12 a13 a14 a15 a16 a17 a18 a19 a20 a21 = fun _ => 1#1) : ∀ i, IsFin (a12 i) :=
  (real_all h).2.2.2.2.2.2.2.2.2.2.2.1

/-- Every entry of argument 13 is a real number. -/
theorem fin_a13 (h : fn (F := Ideal) a0 a1 a2 a3 a4 a5 a6 a7 a8 a9 a10 a11 a12 a13 a14 a15 a16 a17 a18 a19 a20 a21 = fun _ => 1#1) : ∀ i, IsFin (a13 i) :=
  (real_all h).2.2.2.2.2.2.2.2.2.2.2.2.1

/-- Every entry of argument 14 is a real number. -/
theorem fin_a14 (h : fn (F := Ideal) a0 a1 a2 a3 a4 a5 a6 a7 a8 a9 a10 a11 a12 a13 a14 a15 a16 a17 a18 a19 a20 a21 = fun _ => 1#1) : ∀ i, IsFin (a14 i) :=
  (real_all h).2.2.2.2.2.2.2.2.2.2.2.2.2.1

/-- Every entry of argument 15 is a real number. -/
theorem fin_a15 (h : fn (F := Ideal) a0 a1 a2 a3 a4 a5 a6 a7 a8 a9 a10 a11 a12 a13 a14 a15 a16 a17 a18 a19 a20 a21 = fun _ => 1#1) : ∀ i, IsFin (a15 i) :=
  (real_all h).2.2.2.2.2.2.2.2.2.2.2.2.2.2.1

/-- Every entry of argument 16 is a real number. -/
theorem fin_a16 (h : fn (F := Ideal) a0 a1 a2 a3 a4 a5 a6 a7 a8 a9 a10 a11 a12 a13 a14 a15 a16 a17 a18 a19 a20 a21 = fun _ => 1#1) : ∀ i, IsFin (a16 i) :=
  (real_all h).2.2.2.2.2.2.2.2.2.2.2.2.2.2.2.1

/-- Every entry of argument 17 is a real number. -/
theorem fin_a17 (h : fn (F := Ideal) a0 a1 a2 a3 a4 a5 a6 a7 a8 a9 a10 a11 a12 a13 a14 a15 a16 a17 a18 a19 a20 a21 = fun _ => 1#1) : ∀ i, IsFin (a17 i) :=
  (real_all h).2.2.2.2.2.2.2.2.2.2.2.2.2.2.2.2.1

/-- Every entry of argument 18 is a real number. -/
theorem fin_a18 (h : fn (F := Ideal) a0 a1 a2 a3 a4 a5 a6 a7 a8 a9 a10 a11 a12 a13 a14 a15 a16 a17 a18 a19 a20 a21 = fun _ => 1#1) : ∀ i, IsFin (a18 i) :=
  (real_all h).2.2.2.2.2.2.2.2.2.2.2.2.2.2.2.2.2.1

/-- Every entry of argument 19 is a real number. -/
theorem fin_a19 (h : fn (F := Ideal) a0 a1 a2 a3 a4 a5 a6 a7 a8 a9 a10 a11 a12 a13 a14 a15 a16 a17 a18 a19 a20 a21 = fun _ => 1#1) : ∀ i, IsFin (a19 i) :=
  (real_all h).2.2.2.2.2.2.2.2.2.2.2.2.2.2.2.2.2.2.1

/-- Every entry of argument 20 is a real number. -/
theorem fin_a20 (h : fn (F := Ideal) a0 a1 a2 a3 a4 a5 a6 a7 a8 a9 a10 a11 a12 a13 a14 a15 a16 a17 a18 a19 a20 a21 = fun _ => 1#1) : ∀ i, IsFin (a20 i) :=
  (real_all h).2.2.2.2.2.2.2.2.2.2.2.2.2.2.2.2.2.2.2.1

/-- Every entry of argument 21 is a real number. -/
theorem fin_a21 (h : fn (F := Ideal) a0 a1 a2 a3 a4 a5 a6 a7 a8 a9 a10 a11 a12 a13 a14 a15 a16 a17 a18 a19 a20 a21 = fun _ => 1#1) : ∀ i, IsFin (a21 i) :=
  (real_all h).2.2.2.2.2.2.2.2.2.2.2.2.2.2.2.2.2.2.2.2

end Arrays

/-! The same at the arrays a device's memory holds at the arguments of the network. -/

theorem of_pre_arg0 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg0) i) :=
  fin_a0 (h c)

theorem of_pre_arg2 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg2) i) :=
  fin_a2 (h c)

theorem of_pre_arg3 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg3) i) :=
  fin_a3 (h c)

theorem of_pre_arg4 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg4) i) :=
  fin_a4 (h c)

theorem of_pre_arg5 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg5) i) :=
  fin_a5 (h c)

theorem of_pre_arg6 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg6) i) :=
  fin_a6 (h c)

theorem of_pre_arg7 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg7) i) :=
  fin_a7 (h c)

theorem of_pre_arg8 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg8) i) :=
  fin_a8 (h c)

theorem of_pre_arg9 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg9) i) :=
  fin_a9 (h c)

theorem of_pre_arg10 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg10) i) :=
  fin_a10 (h c)

theorem of_pre_arg11 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg11) i) :=
  fin_a11 (h c)

theorem of_pre_arg12 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg12) i) :=
  fin_a12 (h c)

theorem of_pre_arg13 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg13) i) :=
  fin_a13 (h c)

theorem of_pre_arg14 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg14) i) :=
  fin_a14 (h c)

theorem of_pre_arg15 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg15) i) :=
  fin_a15 (h c)

theorem of_pre_arg16 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg16) i) :=
  fin_a16 (h c)

theorem of_pre_arg17 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg17) i) :=
  fin_a17 (h c)

theorem of_pre_arg18 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg18) i) :=
  fin_a18 (h c)

theorem of_pre_arg19 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg19) i) :=
  fin_a19 (h c)

theorem of_pre_arg20 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg20) i) :=
  fin_a20 (h c)

theorem of_pre_arg21 (m : (ℓ : Loc Cert.KernelIdeal.nD Cert.KernelIdeal.τ Cert.KernelIdeal.sig) → Buf (Elt Ideal) ℓ) (h : Cert.Pre_KernelIdeal m) (c : Dev Cert.KernelIdeal.nD) :
    ∀ i, Cert.LibFinite.IsFin (m ((c.tc : Thread Cert.KernelIdeal.nD Cert.KernelIdeal.τ).loc Cert.KernelIdeal.main_arg21) i) :=
  fin_a21 (h c)

end Cert.PreFinite

end
-- ==== Proof.KBridge.lean ====
/-
  The idealized kernel program's result, and its agreement with the network in the reference's arrangement.

  The run leaves in the result buffer the table of the network's values in the kernel's arrangement (bias last, tile
  sums, variance from the two moments). Under the precondition every float argument is a table of reals; gathering and
  adding keep tables real; so each layer's two arrangements agree and the result is also the network in the
  reference's arrangement (bias between the products, one sum over all nodes, variance from the squared deviations).
-/
import proofs.«150348_j62612033241213_2_alg».proof.Proof.KL3
import proofs.«150348_j62612033241213_2_alg».proof.Proof.KRun
import proofs.«150348_j62612033241213_2_alg».proof.Proof.Algebra
import proofs.«150348_j62612033241213_2_alg».proof.Proof.PreFinite

set_option maxRecDepth 16384

noncomputable section

namespace Cert.KernelIdeal.Chain

open Idealize.ShloMosaic Idealize.ShloMosaic.TcCoe Idealize.ShloMosaic.Tactic Idealize.ShloMosaic.ValueIdx Idealize.SL.Sem
open Cert.KernelIdeal Cert.KernelIdeal.Gen Cert.KernelIdeal.Iface

open Cert.LibFinite

variable (m : (ℓ : Loc nD τ sig) → Buf (Elt Ideal) ℓ) (ρ : Dev nD → PrngReg)

/-- The run of the idealized kernel program with its result named: the table of `logits`. -/
theorem kernel_run (hS0 : Stats0) (hP1 : Point1) (hS2 : Stats2) (hP3 : Point3) (hS4 : Stats4) (hP5 : Point5) :
    θ_run defs (onTc (τ := τ) (main (F := Ideal))) ⟨m, fun _ => 0, ρ⟩ (fun r => ∀ c : Dev nD,
      r.2.mem ((c.tc : Thread nD τ).loc main_v89) = (tab (logits m c) : TF S100000x2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c).1.trans
      ((tab_mat (W12 m ρ c (Proc.devRef .tc main_v89) : TF S100000x2)).symm.trans
        (congrArg tab (point5_at m ρ hS0 hP1 hS2 hP3 hS4 hP5 c))), (h c).2⟩)
    (Cert.KernelIdeal.RunValue.run_out (F := Ideal) m ρ)

/-- Under the precondition the result is the network in the reference's arrangement. -/
theorem logits_eq_netR [hPre : Cert.Pre_finite_inputs.Facts] (hpre : Cert.Pre_KernelIdeal m) (c : Dev nD) :
    logits m c = Cert.Spec.netR (ag1 m c) (ag2 m c) (ag3 m c) (x0 m c)
      (mat (L m c main_arg3 : TF S64x32)) (mat (L m c main_arg5 : TF S64x32)) (vec (L m c main_arg4 : TF S64))
      (mat (L m c main_arg6 : TF S128x64)) (mat (L m c main_arg8 : TF S128x64)) (vec (L m c main_arg7 : TF S128))
      (mat (L m c main_arg9 : TF S64x128)) (mat (L m c main_arg11 : TF S64x128)) (vec (L m c main_arg10 : TF S64))
      (vec (L m c main_arg12 : TF S64)) (vec (L m c main_arg13 : TF S64)) (vec (L m c main_arg14 : TF S128)) (vec (L m c main_arg15 : TF S128))
      (vec (L m c main_arg16 : TF S64)) (vec (L m c main_arg17 : TF S64))
      (mat (L m c main_arg18 : TF S32x64)) (vec (L m c main_arg19 : TF S32)) (mat (L m c main_arg20 : TF S2x32)) (vec (L m c main_arg21 : TF S2)) := by
  rw [logits_eq]
  exact Cert.Algebra.netK_eq_netR _ _ _ _ _ _ _ _ _ _ _ _ _ _ _ _ _ _ _ _ _ _ _
    (fun f hf r k => agg32_fin (tab f) _ (fun i => hf (i 0) (i 1)) (ix2 r k))
    (fun f hf r k => agg64_fin (tab f) _ (fun i => hf (i 0) (i 1)) (ix2 r k))
    (fun f hf r k => agg128_fin (tab f) _ _ (fun i => hf (i 0) (i 1)) (Cert.PreFinite.of_pre_arg2 m hpre c) (ix2 r k))
    (fun c2 k => Cert.PreFinite.of_pre_arg0 m hpre c (ix2 c2 k))
    (fun c2 k => Cert.PreFinite.of_pre_arg3 m hpre c (ix2 c2 k)) (fun c2 k => Cert.PreFinite.of_pre_arg5 m hpre c (ix2 c2 k)) (fun c2 => Cert.PreFinite.of_pre_arg4 m hpre c (ix1 c2))
    (fun c2 k => Cert.PreFinite.of_pre_arg6 m hpre c (ix2 c2 k)) (fun c2 k => Cert.PreFinite.of_pre_arg8 m hpre c (ix2 c2 k)) (fun c2 => Cert.PreFinite.of_pre_arg7 m hpre c (ix1 c2))
    (fun c2 k => Cert.PreFinite.of_pre_arg9 m hpre c (ix2 c2 k)) (fun c2 k => Cert.PreFinite.of_pre_arg11 m hpre c (ix2 c2 k)) (fun c2 => Cert.PreFinite.of_pre_arg10 m hpre c (ix1 c2))
    (fun c2 => Cert.PreFinite.of_pre_arg12 m hpre c (ix1 c2)) (fun c2 => Cert.PreFinite.of_pre_arg13 m hpre c (ix1 c2)) (fun c2 => Cert.PreFinite.of_pre_arg14 m hpre c (ix1 c2)) (fun c2 => Cert.PreFinite.of_pre_arg15 m hpre c (ix1 c2))

end Cert.KernelIdeal.Chain

end
-- ==== Proof.RefTerm.lean ====
/-
  The reference network as one function of its twenty-two argument arrays, over the extended reals.

  A layer is: the neighbour aggregation (slice the two rows of the edge table, wrap negative source indices by
  adding the node count, gather the source rows — in the third layer scaled by the edge weights —, and add
  each gathered row into the row of its destination node, starting from zeros); the pre-activation
  (aggregate times the transposed first weight, plus the bias broadcast over the nodes, plus the node features
  times the transposed second weight); the column mean (column sum from zero, divided by the node count); the
  variance (the column mean again, the squared deviations from it summed over the nodes and divided by the node
  count minus a converted integer zero, kept where that divisor is positive and replaced by the quiet not-a-number
  word otherwise); the normalisation ((p - mean) * rsqrt (var + eps)) * g + be; and the cut at zero. The third
  layer adds the first layer's output before the cut, and is followed by the classifier: a linear map with bias, a
  cut at zero, a second linear map with bias.

  Every definition below is the composition of the printed host operations of that stretch of the program, in the
  printed order, with nothing evaluated; the three aggregations are closed terms of the node features, the edge
  table and (third layer) the edge weights.
-/
import proofs.«150348_j62612033241213_2_alg».proof.Proof.Gen.ReferenceIdeal
import Idealize.ShloMosaic.PureOps.Ideal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## Layer 1: 32 features in, 64 out -/

/-- Neighbour aggregation of a 32-column feature table along the edge table. -/
def aggT1 (x : FVec Ideal S100000x32 .f32) (ei : IVec S2x1600000 32) : FVec Ideal S100000x32 .f32 :=
  Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 (shapeCast S1600000 (extractStridedSlice S1x1600000 ![1, 0] ei slices_S2x1600000_S1x1600000_1_0) shapeCasts_S1x1600000_S1600000)) (Host.gather gather_S100000x32_S1600000x1_S1600000x32_1_0_n_n_0_1_132 x (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))))

/-- Pre-activation: (agg · wrelᵀ + b) + x · wrootᵀ. -/
def preT1 (agg x : FVec Ideal S100000x32 .f32) (wrel : FVec Ideal S64x32 .f32) (b : FVec Ideal S64 .f32) (wroot : FVec Ideal S64x32 .f32) : FVec Ideal S100000x64 .f32 :=
  addf (F := Ideal) (addf (F := Ideal) (Host.dotGeneral (F := Ideal) dot_S100000x32_S32x64_S100000x64_1_0_0_1_n_n none agg (transpose S32x64 [1, 0] wrel transposes_S64x32_S32x64_1_0)) (broadcastInDim S100000x64 ![0, 1] bcast_S1x64_S100000x64_0_1 (broadcastInDim S1x64 ![1] bcast_S64_S1x64_1 b))) (Host.dotGeneral (F := Ideal) dot_S100000x32_S32x64_S100000x64_1_0_0_1_n_n none x (transpose S32x64 [1, 0] wroot transposes_S64x32_S32x64_1_0))

/-- Column mean of a 64-column table. -/
def meanT64 (p : FVec Ideal S100000x64 .f32) : FVec Ideal S64 .f32 :=
  Host.divf (F := Ideal) (Host.reduceAdd (F := Ideal) p (constant (F := Ideal) S_ .f32 0x00000000#32) reducesTo_S100000x64_S64_d0 h_S_) (broadcastInDim S64 ![] bcast_S_S64 (constant (F := Ideal) S_ .f32 0x47C35000#32))

/-- Deviations from the column mean as the variance routine computes them (its own mean, kept as a one-row table). -/
def centT64 (p : FVec Ideal S100000x64 .f32) : FVec Ideal S100000x64 .f32 :=
  subf (F := Ideal) p (broadcastInDim S100000x64 ![0, 1] bcast_S1x64_S100000x64_0_1 (Host.divf (F := Ideal) (broadcastInDim S1x64 ![1] bcast_S64_S1x64_1 (Host.reduceAdd (F := Ideal) p (constant (F := Ideal) S_ .f32 0x00000000#32) reducesTo_S100000x64_S64_d0 h_S_)) (broadcastInDim S1x64 ![] bcast_S_S1x64 (constant (F := Ideal) S_ .f32 0x47C35000#32))))

/-- Column variance of a 64-column table: the mean of the squared deviations, guarded by the sign of the divisor. -/
def varT64 (p : FVec Ideal S100000x64 .f32) : FVec Ideal S64 .f32 :=
  select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (centT64 p) (centT64 p)) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (constant (F := Ideal) S_ .f32 0x7FC00000#32))

/-- Normalisation with scale and shift. -/
def bnT64 (p : FVec Ideal S100000x64 .f32) (mu var g be : FVec Ideal S64 .f32) : FVec Ideal S100000x64 .f32 :=
  addf (F := Ideal) (mulf (F := Ideal) (mulf (F := Ideal) (subf (F := Ideal) p (broadcastInDim S100000x64 ![0, 1] bcast_S1x64_S100000x64_0_1 (broadcastInDim S1x64 ![1] bcast_S64_S1x64_1 mu))) (broadcastInDim S100000x64 ![0, 1] bcast_S1x64_S100000x64_0_1 (broadcastInDim S1x64 ![1] bcast_S64_S1x64_1 (Host.rsqrt (F := Ideal) (addf (F := Ideal) var (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 be))

/-- Cut at zero. -/
def reluT64 (y : FVec Ideal S100000x64 .f32) : FVec Ideal S100000x64 .f32 :=
  maximumf (F := Ideal) y (broadcastInDim S100000x64 ![] bcast_S_S100000x64 (constant (F := Ideal) S_ .f32 0x00000000#32))

/-- The first layer's output. -/
def layerT1 (x : FVec Ideal S100000x32 .f32) (ei : IVec S2x1600000 32) (wrel : FVec Ideal S64x32 .f32) (b : FVec Ideal S64 .f32) (wroot : FVec Ideal S64x32 .f32)
    (g be : FVec Ideal S64 .f32) : FVec Ideal S100000x64 .f32 :=
  reluT64 (bnT64 (preT1 (aggT1 x ei) x wrel b wroot) (meanT64 (preT1 (aggT1 x ei) x wrel b wroot)) (varT64 (preT1 (aggT1 x ei) x wrel b wroot)) g be)

/-! ## Layer 2: 64 features in, 128 out -/

/-- Neighbour aggregation of a 64-column feature table. -/
def aggT2 (h : FVec Ideal S100000x64 .f32) (ei : IVec S2x1600000 32) : FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast S1600000 (extractStridedSlice S1x1600000 ![1, 0] ei slices_S2x1600000_S1x1600000_1_0) shapeCasts_S1x1600000_S1600000)) (Host.gather gather_S100000x64_S1600000x1_S1600000x64_1_0_n_n_0_1_164 h (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000))))

def preT2 (agg h : FVec Ideal S100000x64 .f32) (wrel : FVec Ideal S128x64 .f32) (b : FVec Ideal S128 .f32) (wroot : FVec Ideal S128x64 .f32) : FVec Ideal S100000x128 .f32 :=
  addf (F := Ideal) (addf (F := Ideal) (Host.dotGeneral (F := Ideal) dot_S100000x64_S64x128_S100000x128_1_0_0_1_n_n none agg (transpose S64x128 [1, 0] wrel transposes_S128x64_S64x128_1_0)) (broadcastInDim S100000x128 ![0, 1] bcast_S1x128_S100000x128_0_1 (broadcastInDim S1x128 ![1] bcast_S128_S1x128_1 b))) (Host.dotGeneral (F := Ideal) dot_S100000x64_S64x128_S100000x128_1_0_0_1_n_n none h (transpose S64x128 [1, 0] wroot transposes_S128x64_S64x128_1_0))

def meanT128 (p : FVec Ideal S100000x128 .f32) : FVec Ideal S128 .f32 :=
  Host.divf (F := Ideal) (Host.reduceAdd (F := Ideal) p (constant (F := Ideal) S_ .f32 0x00000000#32) reducesTo_S100000x128_S128_d0 h_S_) (broadcastInDim S128 ![] bcast_S_S128 (constant (F := Ideal) S_ .f32 0x47C35000#32))

def centT128 (p : FVec Ideal S100000x128 .f32) : FVec Ideal S100000x128 .f32 :=
  subf (F := Ideal) p (broadcastInDim S100000x128 ![0, 1] bcast_S1x128_S100000x128_0_1 (Host.divf (F := Ideal) (broadcastInDim S1x128 ![1] bcast_S128_S1x128_1 (Host.reduceAdd (F := Ideal) p (constant (F := Ideal) S_ .f32 0x00000000#32) reducesTo_S100000x128_S128_d0 h_S_)) (broadcastInDim S1x128 ![] bcast_S_S1x128 (constant (F := Ideal) S_ .f32 0x47C35000#32))))

def varT128 (p : FVec Ideal S100000x128 .f32) : FVec Ideal S128 .f32 :=
  select (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (centT128 p) (centT128 p)) (constant (F := Ideal) S_ .f32 0x00000000#32) reducesTo_S100000x128_S128_d0 h_S_) (broadcastInDim S128 ![] bcast_S_S128 (subf (F := Ideal) (constant (F := Ideal) S_ .f32 0x47C35000#32) (sitofp (F := Ideal) .f32 (constantI S_ 32 0#32))))) (broadcastInDim S128 ![] bcast_S_S128 (constant (F := Ideal) S_ .f32 0x7FC00000#32))

def bnT128 (p : FVec Ideal S100000x128 .f32) (mu var g be : FVec Ideal S128 .f32) : FVec Ideal S100000x128 .f32 :=
  addf (F := Ideal) (mulf (F := Ideal) (mulf (F := Ideal) (subf (F := Ideal) p (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (F := Ideal) (addf (F := Ideal) var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))

def reluT128 (y : FVec Ideal S100000x128 .f32) : FVec Ideal S100000x128 .f32 :=
  maximumf (F := Ideal) y (broadcastInDim S100000x128 ![] bcast_S_S100000x128 (constant (F := Ideal) S_ .f32 0x00000000#32))

/-- The second layer's output, from the first layer's. -/
def layerT2 (h : FVec Ideal S100000x64 .f32) (ei : IVec S2x1600000 32) (wrel : FVec Ideal S128x64 .f32) (b : FVec Ideal S128 .f32) (wroot : FVec Ideal S128x64 .f32)
    (g be : FVec Ideal S128 .f32) : FVec Ideal S100000x128 .f32 :=
  reluT128 (bnT128 (preT2 (aggT2 h ei) h wrel b wroot) (meanT128 (preT2 (aggT2 h ei) h wrel b wroot)) (varT128 (preT2 (aggT2 h ei) h wrel b wroot)) g be)

/-! ## Layer 3: 128 features in, 64 out, weighted edges, residual, classifier -/

/-- Neighbour aggregation of a 128-column feature table, each gathered row scaled by its edge's weight. -/
def aggT3 (h : FVec Ideal S100000x128 .f32) (ei : IVec S2x1600000 32) (ew : FVec Ideal S1600000 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast S1600000 (extractStridedSlice S1x1600000 ![1, 0] ei slices_S2x1600000_S1x1600000_1_0) shapeCasts_S1x1600000_S1600000)) (mulf (F := Ideal) (Host.gather gather_S100000x128_S1600000x1_S1600000x128_1_0_n_n_0_1_1128 h (broadcastInDim S1600000x1 ![0] bcast_S1600000_S1600000x1_0 (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32))) (addi (shapeCast S1600000 (extractStridedSlice S1x1600000 ![0, 0] ei slices_S2x1600000_S1x1600000_0_0) shapeCasts_S1x1600000_S1600000) (broadcastInDim S1600000 ![] bcast_S_S1600000 (constantI S_ 32 100000#32))) (shapeCast S1600000 (extractStridedSlice S1x1600000 ![0, 0] ei slices_S2x1600000_S1x1600000_0_0) shapeCasts_S1x1600000_S1600000)))) (broadcastInDim S1600000x128 ![0, 1] bcast_S1600000x1_S1600000x128_0_1 (broadcastInDim S1600000x1 ![0] bcast_S1600000_S1600000x1_0 ew)))

def preT3 (agg h : FVec Ideal S100000x128 .f32) (wrel : FVec Ideal S64x128 .f32) (b : FVec Ideal S64 .f32) (wroot : FVec Ideal S64x128 .f32) : FVec Ideal S100000x64 .f32 :=
  addf (F := Ideal) (addf (F := Ideal) (Host.dotGeneral (F := Ideal) dot_S100000x128_S128x64_S100000x64_1_0_0_1_n_n none agg (transpose S128x64 [1, 0] wrel transposes_S64x128_S128x64_1_0)) (broadcastInDim S100000x64 ![0, 1] bcast_S1x64_S100000x64_0_1 (broadcastInDim S1x64 ![1] bcast_S64_S1x64_1 b))) (Host.dotGeneral (F := Ideal) dot_S100000x128_S128x64_S100000x64_1_0_0_1_n_n none h (transpose S128x64 [1, 0] wroot transposes_S64x128_S128x64_1_0))

/-- Residual added, then the cut at zero. -/
def resReluT64 (y res : FVec Ideal S100000x64 .f32) : FVec Ideal S100000x64 .f32 :=
  maximumf (F := Ideal) (addf (F := Ideal) y res) (broadcastInDim S100000x64 ![] bcast_S_S100000x64 (constant (F := Ideal) S_ .f32 0x00000000#32))

/-- The classifier: (relu (h3 · wc1ᵀ + bc1)) · wc2ᵀ + bc2. -/
def clsT (h3 : FVec Ideal S100000x64 .f32) (wc1 : FVec Ideal S32x64 .f32) (bc1 : FVec Ideal S32 .f32) (wc2 : FVec Ideal S2x32 .f32) (bc2 : FVec Ideal S2 .f32) : FVec Ideal S100000x2 .f32 :=
  addf (F := Ideal) (Host.dotGeneral (F := Ideal) dot_S100000x32_S32x2_S100000x2_1_0_0_1_n_n none (maximumf (F := Ideal) (addf (F := Ideal) (Host.dotGeneral (F := Ideal) dot_S100000x64_S64x32_S100000x32_1_0_0_1_n_n none h3 (transpose S64x32 [1, 0] wc1 transposes_S32x64_S64x32_1_0)) (broadcastInDim S100000x32 ![0, 1] bcast_S1x32_S100000x32_0_1 (broadcastInDim S1x32 ![1] bcast_S32_S1x32_1 bc1))) (broadcastInDim S100000x32 ![] bcast_S_S100000x32 (constant (F := Ideal) S_ .f32 0x00000000#32))) (transpose S32x2 [1, 0] wc2 transposes_S2x32_S32x2_1_0)) (broadcastInDim S100000x2 ![0, 1] bcast_S1x2_S100000x2_0_1 (broadcastInDim S1x2 ![1] bcast_S2_S1x2_1 bc2))

/-- The network's result from the second and the first layer's outputs. -/
def layerT3 (h2 : FVec Ideal S100000x128 .f32) (h1 : FVec Ideal S100000x64 .f32) (ei : IVec S2x1600000 32) (ew : FVec Ideal S1600000 .f32)
    (wrel : FVec Ideal S64x128 .f32) (b : FVec Ideal S64 .f32) (wroot : FVec Ideal S64x128 .f32) (g be : FVec Ideal S64 .f32)
    (wc1 : FVec Ideal S32x64 .f32) (bc1 : FVec Ideal S32 .f32) (wc2 : FVec Ideal S2x32 .f32) (bc2 : FVec Ideal S2 .f32) : FVec Ideal S100000x2 .f32 :=
  clsT (resReluT64 (bnT64 (preT3 (aggT3 h2 ei ew) h2 wrel b wroot) (meanT64 (preT3 (aggT3 h2 ei ew) h2 wrel b wroot)) (varT64 (preT3 (aggT3 h2 ei ew) h2 wrel b wroot)) g be) h1) wc1 bc1 wc2 bc2

/-! ## The whole network -/

/-- The reference's result as a function of its twenty-two arguments, in the program's argument order. -/
def refOut (x : FVec Ideal S100000x32 .f32) (ei : IVec S2x1600000 32) (ew : FVec Ideal S1600000 .f32)
    (w1rel : FVec Ideal S64x32 .f32) (b1 : FVec Ideal S64 .f32) (w1root : FVec Ideal S64x32 .f32)
    (w2rel : FVec Ideal S128x64 .f32) (b2 : FVec Ideal S128 .f32) (w2root : FVec Ideal S128x64 .f32)
    (w3rel : FVec Ideal S64x128 .f32) (b3 : FVec Ideal S64 .f32) (w3root : FVec Ideal S64x128 .f32)
    (g1 be1 : FVec Ideal S64 .f32) (g2 be2 : FVec Ideal S128 .f32) (g3 be3 : FVec Ideal S64 .f32)
    (wc1 : FVec Ideal S32x64 .f32) (bc1 : FVec Ideal S32 .f32) (wc2 : FVec Ideal S2x32 .f32) (bc2 : FVec Ideal S2 .f32) : FVec Ideal S100000x2 .f32 :=
  layerT3 (layerT2 (layerT1 x ei w1rel b1 w1root g1 be1) ei w2rel b2 w2root g2 be2) (layerT1 x ei w1rel b1 w1root g1 be1) ei ew
    w3rel b3 w3root g3 be3 wc1 bc1 wc2 bc2

/-- Row 0 of the edge table (edge sources) and row 1 (edge destinations) as vectors: what the later layers reuse. -/
def EdgeRows (W : Valuation τ sig (Elt Ideal)) : Prop :=
  W (Proc.devRef .tc main_v1) = shapeCast S1600000 (extractStridedSlice S1x1600000 ![0, 0] (W (Proc.devRef .tc main_arg1)) slices_S2x1600000_S1x1600000_0_0) shapeCasts_S1x1600000_S1600000
  ∧ W (Proc.devRef .tc main_v3) = shapeCast S1600000 (extractStridedSlice S1x1600000 ![1, 0] (W (Proc.devRef .tc main_arg1)) slices_S2x1600000_S1x1600000_1_0) shapeCasts_S1x1600000_S1600000

end Cert.ReferenceIdeal.RefValue

end
-- ==== Proof.AggBridge.lean ====
/-
  The neighbour aggregation is the same function in the two programs.

  Each program slices the two rows of the edge table, wraps a negative source index by adding the node count, gathers
  the source rows of the feature table (in the third layer scales each gathered row by its edge's weight) and adds each
  row into its destination node's row of a table of zeros. The two programs spell this with the same operations in the
  same order over the same literal shapes and dimension numbers; only the names of the shape and dimension records
  differ, and records with equal fields are equal.
-/
import proofs.«150348_j62612033241213_2_alg».proof.Proof.KAgg
import proofs.«150348_j62612033241213_2_alg».proof.Proof.RefTerm

set_option maxRecDepth 16384

noncomputable section

namespace Cert.AggBridge

open Idealize.ShloMosaic
open Cert.KernelIdeal.Chain (TF TI)

/-- The aggregation of a 32-feature table. -/
theorem agg32_eq (x : TF Cert.KernelIdeal.S100000x32) (ei : TI Cert.KernelIdeal.S2x1600000) :
    Cert.KernelIdeal.Chain.agg32 x ei = Cert.ReferenceIdeal.RefValue.aggT1 x ei := by
  unfold Cert.KernelIdeal.Chain.agg32 Cert.ReferenceIdeal.RefValue.aggT1 Cert.KernelIdeal.Chain.dstIdx
    Cert.KernelIdeal.Chain.wrapIdx Cert.KernelIdeal.Chain.srcIdx
  rfl

/-- The aggregation of a 64-feature table. -/
theorem agg64_eq (x : TF Cert.KernelIdeal.S100000x64) (ei : TI Cert.KernelIdeal.S2x1600000) :
    Cert.KernelIdeal.Chain.agg64 x ei = Cert.ReferenceIdeal.RefValue.aggT2 x ei := by
  unfold Cert.KernelIdeal.Chain.agg64 Cert.ReferenceIdeal.RefValue.aggT2 Cert.KernelIdeal.Chain.dstIdx
    Cert.KernelIdeal.Chain.wrapIdx Cert.KernelIdeal.Chain.srcIdx
  rfl

/-- The weighted aggregation of a 128-feature table. -/
theorem agg128_eq (x : TF Cert.KernelIdeal.S100000x128) (ei : TI Cert.KernelIdeal.S2x1600000) (ew : TF Cert.KernelIdeal.S1600000) :
    Cert.KernelIdeal.Chain.agg128 x ei ew = Cert.ReferenceIdeal.RefValue.aggT3 x ei ew := by
  unfold Cert.KernelIdeal.Chain.agg128 Cert.ReferenceIdeal.RefValue.aggT3 Cert.KernelIdeal.Chain.dstIdx
    Cert.KernelIdeal.Chain.wrapIdx Cert.KernelIdeal.Chain.srcIdx
  rfl

end Cert.AggBridge

end
-- ==== Proof.RefOps.lean ====
/-
  The reference program's straight line of host operations, as five lists in program order (the calls of the
  outlined variance, select and cut-at-zero routines written out at their call sites over each call's own
  buffers). The cuts are where a layer ends and where the program's text is divided into its three parts, so
  that each part of the program is two of the lists and each layer is one or two of them.
-/
import proofs.«150348_j62612033241213_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- 72 operations: the first layer: the two rows of the edge table, the wrapped source indices, gather and scatter-add, the two products with the bias between them, the column mean, the variance routine's twenty-three operations, the normalisation, the cut at zero. -/
def opsL1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst (constant S_ .f32 0x00000000#32),
    unary main_cst main_v11 (broadcastInDim S100000x32 ![] bcast_S_S100000x32 : (⟨S_, .f32⟩ : BufTy).Contents (Elt F) → (⟨S100000x32, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v14 ((transpose S32x64 [1, 0] · transposes_S64x32_S32x64_1_0) : (⟨S64x32, .f32⟩ : BufTy).Contents (Elt F) → (⟨S32x64, .f32⟩ : BufTy).Contents (Elt F)),
    binary main_v13 main_v14 main_v15 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    unary main_arg5 main_v19 ((transpose S32x64 [1, 0] · transposes_S64x32_S32x64_1_0) : (⟨S64x32, .f32⟩ : BufTy).Contents (Elt F) → (⟨S32x64, .f32⟩ : BufTy).Contents (Elt F)),
    binary main_arg0 main_v19 main_v20 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v21 main_cst_1 main_v22 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v23 (broadcastInDim S64 ![] bcast_S_S64 : (⟨S_, .f32⟩ : BufTy).Contents (Elt F) → (⟨S64, .f32⟩ : BufTy).Contents (Elt F)),
    binary main_v22 main_v23 main_v24 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v21 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v21 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v24 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v21 main_v27 main_v28 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v25 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg12 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (mulf : (⟨S100000x64, .f32⟩ : BufTy).Contents (Elt F) → (⟨S100000x64, .f32⟩ : BufTy).Contents (Elt F) → (⟨S100000x64, .f32⟩ : BufTy).Contents (Elt F)),
    unary main_arg13 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v37 main_v39 main_v40 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v40 : TRef sig ⟨S100000x64, .f32⟩) main_call1.v0 main_call1.v1 maximumf ]

theorem opsL1_sub : (opsL1 : List (HloOp τ sig (Elt F))).Forall fun op => op.bufs ⊆ tcRefs τ sig := by
  unfold opsL1
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL1_fresh : ∀ op ∈ (opsL1 : List (HloOp τ sig (Elt F))), op.fresh = ∅ := by
  unfold opsL1
  intro _ h; (repeat (cases h with | head => rfl | tail _ h => ?_)); exact nomatch h

/-- 11 operations: the start of the second layer: wrapped source indices again, the gather of the first layer's output, the zeros to add into. -/
def opsL2a : List (HloOp τ sig (Elt F)) :=
  [ nullary main_c_5 (constantI S_ 32 0#32),
    unary main_c_5 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v49 (broadcastInDim S100000x64 ![] bcast_S_S100000x64 : (⟨S_, .f32⟩ : BufTy).Contents (Elt F) → (⟨S100000x64, .f32⟩ : BufTy).Contents (Elt F)) ]

theorem opsL2a_sub : (opsL2a : List (HloOp τ sig (Elt F))).Forall fun op => op.bufs ⊆ tcRefs τ sig := by
  unfold opsL2a
  exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

theorem opsL2a_fresh : ∀ op ∈ (opsL2a : List (HloOp τ sig (Elt F))), op.fresh = ∅ := by
  unfold opsL2a
  intro _ h; (repeat (cases h with | head => rfl | tail _ h => ?_)); exact nomatch h

/-- 57 operations: the rest of the second layer: scatter-add, products and bias, mean, variance routine, normalisation, cut at zero. -/
def opsL2b : List (HloOp τ sig (Elt F)) :=
  [ unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg6 main_v52 ((transpose S64x128 [1, 0] · transposes_S128x64_S64x128_1_0) : (⟨S128x64, .f32⟩ : BufTy).Contents (Elt F) → (⟨S64x128, .f32⟩ : BufTy).Contents (Elt F)),
    binary main_v51 main_v52 main_v53 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    unary main_arg8 main_v57 ((transpose S64x128 [1, 0] · transposes_S128x64_S64x128_1_0) : (⟨S128x64, .f32⟩ : BufTy).Contents (Elt F) → (⟨S64x128, .f32⟩ : BufTy).Contents (Elt F)),
    binary main_v41 main_v57 main_v58 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (.of main_v59 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v59 : TRef sig ⟨S100000x128, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v59 main_v65 main_v66 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_arg14 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg15 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v78 : TRef sig ⟨S100000x128, .f32⟩) main_call3.v0 main_call3.v1 maximumf ]

theorem opsL2b_sub : (opsL2b : List (HloOp τ sig (Elt F))).Forall fun op => op.bufs ⊆ tcRefs τ sig := by
  unfold opsL2b
  exact ⟨unary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem opsL2b_fresh : ∀ op ∈ (opsL2b : List (HloOp τ sig (Elt F))), op.fresh = ∅ := by
  unfold opsL2b
  intro _ h; (repeat (cases h with | head => rfl | tail _ h => ?_)); exact nomatch h

/-- 26 operations: the start of the third layer: wrapped indices, gather, the edge weights broadcast and multiplied in, scatter-add, products and bias, the column sum. -/
def opsL3a : List (HloOp τ sig (Elt F)) :=
  [ nullary main_c_12 (constantI S_ 32 0#32),
    unary main_c_12 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v87 (broadcastInDim S1600000x1 ![0] bcast_S1600000_S1600000x1_0 : (⟨S1600000, .f32⟩ : BufTy).Contents (Elt F) → (⟨S1600000x1, .f32⟩ : BufTy).Contents (Elt F)),
    unary main_v87 main_v88 (broadcastInDim S1600000x128 ![0, 1] bcast_S1600000x1_S1600000x128_0_1 : (⟨S1600000x1, .f32⟩ : BufTy).Contents (Elt F) → (⟨S1600000x128, .f32⟩ : BufTy).Contents (Elt F)),
    binary main_v86 main_v88 main_v89 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v90 (broadcastInDim S100000x128 ![] bcast_S_S100000x128 : (⟨S_, .f32⟩ : BufTy).Contents (Elt F) → (⟨S100000x128, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v93 ((transpose S128x64 [1, 0] · transposes_S64x128_S128x64_1_0) : (⟨S64x128, .f32⟩ : BufTy).Contents (Elt F) → (⟨S128x64, .f32⟩ : BufTy).Contents (Elt F)),
    binary main_v92 main_v93 main_v94 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v94 main_v96 main_v97 (addf : (⟨S100000x64, .f32⟩ : BufTy).Contents (Elt F) → (⟨S100000x64, .f32⟩ : BufTy).Contents (Elt F) → (⟨S100000x64, .f32⟩ : BufTy).Contents (Elt F)),
    unary main_arg11 main_v98 ((transpose S128x64 [1, 0] · transposes_S64x128_S128x64_1_0) : (⟨S64x128, .f32⟩ : BufTy).Contents (Elt F) → (⟨S128x64, .f32⟩ : BufTy).Contents (Elt F)),
    binary main_v79 main_v98 main_v99 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v100 main_cst_15 main_v101 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

theorem opsL3a_sub : (opsL3a : List (HloOp τ sig (Elt F))).Forall fun op => op.bufs ⊆ tcRefs τ sig := by
  unfold opsL3a
  exact ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub ..⟩

theorem opsL3a_fresh : ∀ op ∈ (opsL3a : List (HloOp τ sig (Elt F))), op.fresh = ∅ := by
  unfold opsL3a
  intro _ h; (repeat (cases h with | head => rfl | tail _ h => ?_)); exact nomatch h

/-- 59 operations: the rest of the third layer: mean, variance routine, normalisation, the residual and the cut at zero, and the classifier. -/
def opsL3b : List (HloOp τ sig (Elt F)) :=
  [ nullary main_cst_16 (constant S_ .f32 0x47C35000#32),
    unary main_cst_16 main_v102 (broadcastInDim S64 ![] bcast_S_S64 : (⟨S_, .f32⟩ : BufTy).Contents (Elt F) → (⟨S64, .f32⟩ : BufTy).Contents (Elt F)),
    binary main_v101 main_v102 main_v103 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    TRef.nullary main_call4.cst (constant S_ .f32 0x00000000#32),
    TRef.binary (.of main_v100 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v100 : TRef sig ⟨S100000x64, .f32⟩) main_call4.v4 main_call4.v5 subf,
    TRef.binary main_call4.v5 main_call4.v5 main_call4.v6 mulf,
    TRef.unary (.of main_c_17 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v103 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v100 main_v106 main_v107 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v108 (broadcastInDim S64 ![] bcast_S_S64 : (⟨S_, .f32⟩ : BufTy).Contents (Elt F) → (⟨S64, .f32⟩ : BufTy).Contents (Elt F)),
    binary main_v104 main_v108 main_v109 (addf : (⟨S64, .f32⟩ : BufTy).Contents (Elt F) → (⟨S64, .f32⟩ : BufTy).Contents (Elt F) → (⟨S64, .f32⟩ : BufTy).Contents (Elt F)),
    unary main_v109 main_v110 (Host.rsqrt : (⟨S64, .f32⟩ : BufTy).Contents (Elt F) → (⟨S64, .f32⟩ : BufTy).Contents (Elt F)),
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v107 main_v112 main_v113 (mulf : (⟨S100000x64, .f32⟩ : BufTy).Contents (Elt F) → (⟨S100000x64, .f32⟩ : BufTy).Contents (Elt F) → (⟨S100000x64, .f32⟩ : BufTy).Contents (Elt F)),
    unary main_arg16 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v113 main_v115 main_v116 (mulf : (⟨S100000x64, .f32⟩ : BufTy).Contents (Elt F) → (⟨S100000x64, .f32⟩ : BufTy).Contents (Elt F) → (⟨S100000x64, .f32⟩ : BufTy).Contents (Elt F)),
    unary main_arg17 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (addf : (⟨S100000x64, .f32⟩ : BufTy).Contents (Elt F) → (⟨S100000x64, .f32⟩ : BufTy).Contents (Elt F) → (⟨S100000x64, .f32⟩ : BufTy).Contents (Elt F)),
    binary main_v119 main_v41 main_v120 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v120 : TRef sig ⟨S100000x64, .f32⟩) main_call5.v0 main_call5.v1 maximumf,
    unary main_arg18 main_v122 ((transpose S64x32 [1, 0] · transposes_S32x64_S64x32_1_0) : (⟨S32x64, .f32⟩ : BufTy).Contents (Elt F) → (⟨S64x32, .f32⟩ : BufTy).Contents (Elt F)),
    binary main_v121 main_v122 main_v123 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg19 main_v124 (broadcastInDim S1x32 ![1] bcast_S32_S1x32_1 : (⟨S32, .f32⟩ : BufTy).Contents (Elt F) → (⟨S1x32, .f32⟩ : BufTy).Contents (Elt F)),
    unary main_v124 main_v125 (broadcastInDim S100000x32 ![0, 1] bcast_S1x32_S100000x32_0_1 : (⟨S1x32, .f32⟩ : BufTy).Contents (Elt F) → (⟨S100000x32, .f32⟩ : BufTy).Contents (Elt F)),
    binary main_v123 main_v125 main_v126 (addf : (⟨S100000x32, .f32⟩ : BufTy).Contents (Elt F) → (⟨S100000x32, .f32⟩ : BufTy).Contents (Elt F) → (⟨S100000x32, .f32⟩ : BufTy).Contents (Elt F)),
    TRef.nullary main_call6.cst (constant S_ .f32 0x00000000#32),
    TRef.unary main_call6.cst main_call6.v0 (broadcastInDim S100000x32 ![] bcast_S_S100000x32),
    TRef.binary (.of main_v126 : TRef sig ⟨S100000x32, .f32⟩) main_call6.v0 main_call6.v1 maximumf,
    unary main_arg20 main_v128 ((transpose S32x2 [1, 0] · transposes_S2x32_S32x2_1_0) : (⟨S2x32, .f32⟩ : BufTy).Contents (Elt F) → (⟨S32x2, .f32⟩ : BufTy).Contents (Elt F)),
    binary main_v127 main_v128 main_v129 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    unary main_arg21 main_v130 (broadcastInDim S1x2 ![1] bcast_S2_S1x2_1 : (⟨S2, .f32⟩ : BufTy).Contents (Elt F) → (⟨S1x2, .f32⟩ : BufTy).Contents (Elt F)),
    unary main_v130 main_v131 (broadcastInDim S100000x2 ![0, 1] bcast_S1x2_S100000x2_0_1 : (⟨S1x2, .f32⟩ : BufTy).Contents (Elt F) → (⟨S100000x2, .f32⟩ : BufTy).Contents (Elt F)),
    binary main_v129 main_v131 main_v132 (addf : (⟨S100000x2, .f32⟩ : BufTy).Contents (Elt F) → (⟨S100000x2, .f32⟩ : BufTy).Contents (Elt F) → (⟨S100000x2, .f32⟩ : BufTy).Contents (Elt F)) ]

theorem opsL3b_sub : (opsL3b : List (HloOp τ sig (Elt F))).Forall fun op => op.bufs ⊆ tcRefs τ sig := by
  unfold opsL3b
  exact ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem opsL3b_fresh : ∀ op ∈ (opsL3b : List (HloOp τ sig (Elt F))), op.fresh = ∅ := by
  unfold opsL3b
  intro _ h; (repeat (cases h with | head => rfl | tail _ h => ?_)); exact nomatch h

end Cert.ReferenceIdeal.RefValue

end
-- ==== Proof.RefMainEq.lean ====
/-
  The reference program is its straight line of operations: each of the three parts of its text, with the
  outlined routines opened at their calls and sequencing reassociated, is the sequence of two of the five lists,
  and the whole program is the sequence of their concatenation. Also what the run theorem asks of the list: every
  operation touches only buffers of the one core, none allocates, and the signature scopes no buffer or semaphore.
-/
import proofs.«150348_j62612033241213_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- All 225 operations, in program order. -/
def ops : List (HloOp τ sig (Elt F)) := opsL1 ++ opsL2a ++ opsL2b ++ opsL3a ++ opsL3b

theorem part0_eq (c : Dev nD) : main_part0 (F := F) c = seq (opsL1 ++ opsL2a) := by
  simp only [main_part0, fn_var.body, fn_where.body, fn_relu.body, bind_assoc, pure_bind]
  rfl

theorem part1_eq (c : Dev nD) : main_part1 (F := F) c = seq (opsL2b ++ opsL3a) := by
  simp only [main_part1, fn_var_0.body, fn_where_1.body, fn_relu_2.body, bind_assoc, pure_bind]
  rfl

theorem part2_eq (c : Dev nD) : main_part2 (F := F) c = seq opsL3b := by
  simp only [main_part2, fn_var.body, fn_where.body, fn_relu.body, fn_relu_3.body, bind_assoc, pure_bind]
  rfl

theorem ops_assoc : (ops : List (HloOp τ sig (Elt F))) = (opsL1 ++ opsL2a) ++ ((opsL2b ++ opsL3a) ++ opsL3b) := by
  unfold ops
  simp only [List.append_assoc]

theorem main_eq (c : Dev nD) : main (F := F) c = seq ops := by
  rw [ops_assoc, seq_append (opsL1 ++ opsL2a), seq_append (opsL2b ++ opsL3a), ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  unfold ops at h
  simp only [List.mem_append] at h
  rcases h with (((h | h) | h) | h) | h
  · exact List.forall_iff_forall_mem.mp opsL1_sub op h
  · exact List.forall_iff_forall_mem.mp opsL2a_sub op h
  · exact List.forall_iff_forall_mem.mp opsL2b_sub op h
  · exact List.forall_iff_forall_mem.mp opsL3a_sub op h
  · exact List.forall_iff_forall_mem.mp opsL3b_sub op h

theorem ops_fresh : ∀ op ∈ (ops : List (HloOp τ sig (Elt F))), op.fresh = ∅ := by
  intro op h
  unfold ops at h
  simp only [List.mem_append] at h
  rcases h with (((h | h) | h) | h) | h
  · exact opsL1_fresh op h
  · exact opsL2a_fresh op h
  · exact opsL2b_fresh op h
  · exact opsL3a_fresh op h
  · exact opsL3b_fresh op h

end Cert.ReferenceIdeal.RefValue

end
-- ==== Proof.RefOpsU.lean ====
/-
  The same five lists of operations with the outlined routines' operations written as the program's own lines
  are: the plain builders over the buffers themselves, each function at the buffers' literal types. Operation by
  operation this is the list of the typed-reference spelling: a typed reference built from a literal buffer
  transports contents along an equation that holds by computation, so the transport is the identity.
-/
import proofs.«150348_j62612033241213_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def uopsL1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst (constant S_ .f32 0x00000000#32),
    unary main_cst main_v11 (broadcastInDim S100000x32 ![] bcast_S_S100000x32 : (⟨S_, .f32⟩ : BufTy).Contents (Elt F) → (⟨S100000x32, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v14 ((transpose S32x64 [1, 0] · transposes_S64x32_S32x64_1_0) : (⟨S64x32, .f32⟩ : BufTy).Contents (Elt F) → (⟨S32x64, .f32⟩ : BufTy).Contents (Elt F)),
    binary main_v13 main_v14 main_v15 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    unary main_arg5 main_v19 ((transpose S32x64 [1, 0] · transposes_S64x32_S32x64_1_0) : (⟨S64x32, .f32⟩ : BufTy).Contents (Elt F) → (⟨S32x64, .f32⟩ : BufTy).Contents (Elt F)),
    binary main_arg0 main_v19 main_v20 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v21 main_cst_1 main_v22 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v23 (broadcastInDim S64 ![] bcast_S_S64 : (⟨S_, .f32⟩ : BufTy).Contents (Elt F) → (⟨S64, .f32⟩ : BufTy).Contents (Elt F)),
    binary main_v22 main_v23 main_v24 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    nullary main_call0_cst ((constant S_ .f32 0x00000000#32) : (⟨S_, .f32⟩ : BufTy).Contents (Elt F)),
    binary main_v21 main_call0_cst main_call0_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call0_v0 main_call0_v1 ((broadcastInDim S1x64 ![1] bcast_S64_S1x64_1) : (⟨S64, .f32⟩ : BufTy).Contents (Elt F) → (⟨S1x64, .f32⟩ : BufTy).Contents (Elt F)),
    nullary main_call0_cst_0 ((constant S_ .f32 0x47C35000#32) : (⟨S_, .f32⟩ : BufTy).Contents (Elt F)),
    unary main_call0_cst_0 main_call0_v2 ((broadcastInDim S1x64 ![] bcast_S_S1x64) : (⟨S_, .f32⟩ : BufTy).Contents (Elt F) → (⟨S1x64, .f32⟩ : BufTy).Contents (Elt F)),
    binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    unary main_call0_v3 main_call0_v4 ((broadcastInDim S100000x64 ![0, 1] bcast_S1x64_S100000x64_0_1) : (⟨S1x64, .f32⟩ : BufTy).Contents (Elt F) → (⟨S100000x64, .f32⟩ : BufTy).Contents (Elt F)),
    binary main_v21 main_call0_v4 main_call0_v5 (subf : (⟨S100000x64, .f32⟩ : BufTy).Contents (Elt F) → (⟨S100000x64, .f32⟩ : BufTy).Contents (Elt F) → (⟨S100000x64, .f32⟩ : BufTy).Contents (Elt F)),
    binary main_call0_v5 main_call0_v5 main_call0_v6 (mulf : (⟨S100000x64, .f32⟩ : BufTy).Contents (Elt F) → (⟨S100000x64, .f32⟩ : BufTy).Contents (Elt F) → (⟨S100000x64, .f32⟩ : BufTy).Contents (Elt F)),
    unary main_c_3 main_call0_v7 ((sitofp .f32) : (⟨S_, .i32⟩ : BufTy).Contents (Elt F) → (⟨S_, .f32⟩ : BufTy).Contents (Elt F)),
    nullary main_call0_cst_1 ((constant S_ .f32 0x47C35000#32) : (⟨S_, .f32⟩ : BufTy).Contents (Elt F)),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 ((constant S_ .f32 0x00000000#32) : (⟨S_, .f32⟩ : BufTy).Contents (Elt F)),
    binary main_call0_v6 main_call0_cst_2 main_call0_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call0_v8 main_call0_v10 ((broadcastInDim S64 ![] bcast_S_S64) : (⟨S_, .f32⟩ : BufTy).Contents (Elt F) → (⟨S64, .f32⟩ : BufTy).Contents (Elt F)),
    binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    nullary main_call0_cst_3 ((constant S_ .f32 0x00000000#32) : (⟨S_, .f32⟩ : BufTy).Contents (Elt F)),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 ((constant S_ .f32 0x7FC00000#32) : (⟨S_, .f32⟩ : BufTy).Contents (Elt F)),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S64 ![] bcast_S_S64) : (⟨S_, .f32⟩ : BufTy).Contents (Elt F) → (⟨S64, .f32⟩ : BufTy).Contents (Elt F)),
    ternary main_call0_v12 main_call0_v11 main_call0_call0_v1 main_v25 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v24 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v21 main_v27 main_v28 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v25 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg12 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (mulf : (⟨S100000x64, .f32⟩ : BufTy).Contents (Elt F) → (⟨S100000x64, .f32⟩ : BufTy).Contents (Elt F) → (⟨S100000x64, .f32⟩ : BufTy).Contents (Elt F)),
    unary main_arg13 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v37 main_v39 main_v40 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0x00000000#32) : (⟨S_, .f32⟩ : BufTy).Contents (Elt F)),
    unary main_call1_cst main_call1_v0 ((broadcastInDim S100000x64 ![] bcast_S_S100000x64) : (⟨S_, .f32⟩ : BufTy).Contents (Elt F) → (⟨S100000x64, .f32⟩ : BufTy).Contents (Elt F)),
    binary main_v40 main_call1_v0 main_v41 (maximumf : (⟨S100000x64, .f32⟩ : BufTy).Contents (Elt F) → (⟨S100000x64, .f32⟩ : BufTy).Contents (Elt F) → (⟨S100000x64, .f32⟩ : BufTy).Contents (Elt F)) ]

set_option maxHeartbeats 1000000 in
theorem opsL1_eq : (opsL1 : List (HloOp τ sig (Elt F))) = uopsL1 := by
  unfold opsL1 uopsL1
  rfl

def uopsL2a : List (HloOp τ sig (Elt F)) :=
  [ nullary main_c_5 (constantI S_ 32 0#32),
    unary main_c_5 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v49 (broadcastInDim S100000x64 ![] bcast_S_S100000x64 : (⟨S_, .f32⟩ : BufTy).Contents (Elt F) → (⟨S100000x64, .f32⟩ : BufTy).Contents (Elt F)) ]

set_option maxHeartbeats 1000000 in
theorem opsL2a_eq : (opsL2a : List (HloOp τ sig (Elt F))) = uopsL2a := by
  unfold opsL2a uopsL2a
  rfl

def uopsL2b : List (HloOp τ sig (Elt F)) :=
  [ unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg6 main_v52 ((transpose S64x128 [1, 0] · transposes_S128x64_S64x128_1_0) : (⟨S128x64, .f32⟩ : BufTy).Contents (Elt F) → (⟨S64x128, .f32⟩ : BufTy).Contents (Elt F)),
    binary main_v51 main_v52 main_v53 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    unary main_arg8 main_v57 ((transpose S64x128 [1, 0] · transposes_S128x64_S64x128_1_0) : (⟨S128x64, .f32⟩ : BufTy).Contents (Elt F) → (⟨S64x128, .f32⟩ : BufTy).Contents (Elt F)),
    binary main_v41 main_v57 main_v58 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    nullary main_call2_cst ((constant S_ .f32 0x00000000#32) : (⟨S_, .f32⟩ : BufTy).Contents (Elt F)),
    binary main_v59 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call2_v0 main_call2_v1 ((broadcastInDim S1x128 ![1] bcast_S128_S1x128_1) : (⟨S128, .f32⟩ : BufTy).Contents (Elt F) → (⟨S1x128, .f32⟩ : BufTy).Contents (Elt F)),
    nullary main_call2_cst_0 ((constant S_ .f32 0x47C35000#32) : (⟨S_, .f32⟩ : BufTy).Contents (Elt F)),
    unary main_call2_cst_0 main_call2_v2 ((broadcastInDim S1x128 ![] bcast_S_S1x128) : (⟨S_, .f32⟩ : BufTy).Contents (Elt F) → (⟨S1x128, .f32⟩ : BufTy).Contents (Elt F)),
    binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    unary main_call2_v3 main_call2_v4 ((broadcastInDim S100000x128 ![0, 1] bcast_S1x128_S100000x128_0_1) : (⟨S1x128, .f32⟩ : BufTy).Contents (Elt F) → (⟨S100000x128, .f32⟩ : BufTy).Contents (Elt F)),
    binary main_v59 main_call2_v4 main_call2_v5 (subf : (⟨S100000x128, .f32⟩ : BufTy).Contents (Elt F) → (⟨S100000x128, .f32⟩ : BufTy).Contents (Elt F) → (⟨S100000x128, .f32⟩ : BufTy).Contents (Elt F)),
    binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    unary main_c_10 main_call2_v7 ((sitofp .f32) : (⟨S_, .i32⟩ : BufTy).Contents (Elt F) → (⟨S_, .f32⟩ : BufTy).Contents (Elt F)),
    nullary main_call2_cst_1 ((constant S_ .f32 0x47C35000#32) : (⟨S_, .f32⟩ : BufTy).Contents (Elt F)),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 ((constant S_ .f32 0x00000000#32) : (⟨S_, .f32⟩ : BufTy).Contents (Elt F)),
    binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call2_v8 main_call2_v10 ((broadcastInDim S128 ![] bcast_S_S128) : (⟨S_, .f32⟩ : BufTy).Contents (Elt F) → (⟨S128, .f32⟩ : BufTy).Contents (Elt F)),
    binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    nullary main_call2_cst_3 ((constant S_ .f32 0x00000000#32) : (⟨S_, .f32⟩ : BufTy).Contents (Elt F)),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 ((constant S_ .f32 0x7FC00000#32) : (⟨S_, .f32⟩ : BufTy).Contents (Elt F)),
    unary main_call2_cst_4 main_call2_call0_v0 (id : (⟨S_, .f32⟩ : BufTy).Contents (Elt F) → (⟨S_, .f32⟩ : BufTy).Contents (Elt F)),
    unary main_call2_call0_v0 main_call2_call0_v1 ((broadcastInDim S128 ![] bcast_S_S128) : (⟨S_, .f32⟩ : BufTy).Contents (Elt F) → (⟨S128, .f32⟩ : BufTy).Contents (Elt F)),
    ternary main_call2_v12 main_call2_v11 main_call2_call0_v1 main_v63 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v59 main_v65 main_v66 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_arg14 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg15 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    nullary main_call3_cst ((constant S_ .f32 0x00000000#32) : (⟨S_, .f32⟩ : BufTy).Contents (Elt F)),
    unary main_call3_cst main_call3_v0 ((broadcastInDim S100000x128 ![] bcast_S_S100000x128) : (⟨S_, .f32⟩ : BufTy).Contents (Elt F) → (⟨S100000x128, .f32⟩ : BufTy).Contents (Elt F)),
    binary main_v78 main_call3_v0 main_v79 (maximumf : (⟨S100000x128, .f32⟩ : BufTy).Contents (Elt F) → (⟨S100000x128, .f32⟩ : BufTy).Contents (Elt F) → (⟨S100000x128, .f32⟩ : BufTy).Contents (Elt F)) ]

set_option maxHeartbeats 1000000 in
theorem opsL2b_eq : (opsL2b : List (HloOp τ sig (Elt F))) = uopsL2b := by
  unfold opsL2b uopsL2b
  rfl

def uopsL3a : List (HloOp τ sig (Elt F)) :=
  [ nullary main_c_12 (constantI S_ 32 0#32),
    unary main_c_12 main_v80 (broadcastInDim S1600000 ![] bcast_S_S1600000 : (⟨S_, .i32⟩ : BufTy).Contents (Elt F) → (⟨S1600000, .i32⟩ : BufTy).Contents (Elt F)),
    binary main_v1 main_v80 main_v81 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v82 (broadcastInDim S1600000 ![] bcast_S_S1600000 : (⟨S_, .i32⟩ : BufTy).Contents (Elt F) → (⟨S1600000, .i32⟩ : BufTy).Contents (Elt F)),
    binary main_v1 main_v82 main_v83 (addi : (⟨S1600000, .i32⟩ : BufTy).Contents (Elt F) → (⟨S1600000, .i32⟩ : BufTy).Contents (Elt F) → (⟨S1600000, .i32⟩ : BufTy).Contents (Elt F)),
    ternary main_v81 main_v83 main_v1 main_v84 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v84 main_v85 (broadcastInDim S1600000x1 ![0] bcast_S1600000_S1600000x1_0 : (⟨S1600000, .i32⟩ : BufTy).Contents (Elt F) → (⟨S1600000x1, .i32⟩ : BufTy).Contents (Elt F)),
    binary main_v79 main_v85 main_v86 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v87 (broadcastInDim S1600000x1 ![0] bcast_S1600000_S1600000x1_0 : (⟨S1600000, .f32⟩ : BufTy).Contents (Elt F) → (⟨S1600000x1, .f32⟩ : BufTy).Contents (Elt F)),
    unary main_v87 main_v88 (broadcastInDim S1600000x128 ![0, 1] bcast_S1600000x1_S1600000x128_0_1 : (⟨S1600000x1, .f32⟩ : BufTy).Contents (Elt F) → (⟨S1600000x128, .f32⟩ : BufTy).Contents (Elt F)),
    binary main_v86 main_v88 main_v89 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v90 (broadcastInDim S100000x128 ![] bcast_S_S100000x128 : (⟨S_, .f32⟩ : BufTy).Contents (Elt F) → (⟨S100000x128, .f32⟩ : BufTy).Contents (Elt F)),
    unary main_v3 main_v91 (broadcastInDim S1600000x1 ![0] bcast_S1600000_S1600000x1_0 : (⟨S1600000, .i32⟩ : BufTy).Contents (Elt F) → (⟨S1600000x1, .i32⟩ : BufTy).Contents (Elt F)),
    ternary main_v90 main_v91 main_v89 main_v92 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v93 ((transpose S128x64 [1, 0] · transposes_S64x128_S128x64_1_0) : (⟨S64x128, .f32⟩ : BufTy).Contents (Elt F) → (⟨S128x64, .f32⟩ : BufTy).Contents (Elt F)),
    binary main_v92 main_v93 main_v94 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v94 main_v96 main_v97 (addf : (⟨S100000x64, .f32⟩ : BufTy).Contents (Elt F) → (⟨S100000x64, .f32⟩ : BufTy).Contents (Elt F) → (⟨S100000x64, .f32⟩ : BufTy).Contents (Elt F)),
    unary main_arg11 main_v98 ((transpose S128x64 [1, 0] · transposes_S64x128_S128x64_1_0) : (⟨S64x128, .f32⟩ : BufTy).Contents (Elt F) → (⟨S128x64, .f32⟩ : BufTy).Contents (Elt F)),
    binary main_v79 main_v98 main_v99 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v100 main_cst_15 main_v101 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

set_option maxHeartbeats 1000000 in
theorem opsL3a_eq : (opsL3a : List (HloOp τ sig (Elt F))) = uopsL3a := by
  unfold opsL3a uopsL3a
  rfl

def uopsL3b : List (HloOp τ sig (Elt F)) :=
  [ nullary main_cst_16 (constant S_ .f32 0x47C35000#32),
    unary main_cst_16 main_v102 (broadcastInDim S64 ![] bcast_S_S64 : (⟨S_, .f32⟩ : BufTy).Contents (Elt F) → (⟨S64, .f32⟩ : BufTy).Contents (Elt F)),
    binary main_v101 main_v102 main_v103 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    nullary main_call4_cst ((constant S_ .f32 0x00000000#32) : (⟨S_, .f32⟩ : BufTy).Contents (Elt F)),
    binary main_v100 main_call4_cst main_call4_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call4_v0 main_call4_v1 ((broadcastInDim S1x64 ![1] bcast_S64_S1x64_1) : (⟨S64, .f32⟩ : BufTy).Contents (Elt F) → (⟨S1x64, .f32⟩ : BufTy).Contents (Elt F)),
    nullary main_call4_cst_0 ((constant S_ .f32 0x47C35000#32) : (⟨S_, .f32⟩ : BufTy).Contents (Elt F)),
    unary main_call4_cst_0 main_call4_v2 ((broadcastInDim S1x64 ![] bcast_S_S1x64) : (⟨S_, .f32⟩ : BufTy).Contents (Elt F) → (⟨S1x64, .f32⟩ : BufTy).Contents (Elt F)),
    binary main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)),
    unary main_call4_v3 main_call4_v4 ((broadcastInDim S100000x64 ![0, 1] bcast_S1x64_S100000x64_0_1) : (⟨S1x64, .f32⟩ : BufTy).Contents (Elt F) → (⟨S100000x64, .f32⟩ : BufTy).Contents (Elt F)),
    binary main_v100 main_call4_v4 main_call4_v5 (subf : (⟨S100000x64, .f32⟩ : BufTy).Contents (Elt F) → (⟨S100000x64, .f32⟩ : BufTy).Contents (Elt F) → (⟨S100000x64, .f32⟩ : BufTy).Contents (Elt F)),
    binary main_call4_v5 main_call4_v5 main_call4_v6 (mulf : (⟨S100000x64, .f32⟩ : BufTy).Contents (Elt F) → (⟨S100000x64, .f32⟩ : BufTy).Contents (Elt F) → (⟨S100000x64, .f32⟩ : BufTy).Contents (Elt F)),
    unary main_c_17 main_call4_v7 ((sitofp .f32) : (⟨S_, .i32⟩ : BufTy).Contents (Elt F) → (⟨S_, .f32⟩ : BufTy).Contents (Elt F)),
    nullary main_call4_cst_1 ((constant S_ .f32 0x47C35000#32) : (⟨S_, .f32⟩ : BufTy).Contents (Elt F)),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 ((constant S_ .f32 0x00000000#32) : (⟨S_, .f32⟩ : BufTy).Contents (Elt F)),
    binary main_call4_v6 main_call4_cst_2 main_call4_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call4_v8 main_call4_v10 ((broadcastInDim S64 ![] bcast_S_S64) : (⟨S_, .f32⟩ : BufTy).Contents (Elt F) → (⟨S64, .f32⟩ : BufTy).Contents (Elt F)),
    binary main_call4_v9 main_call4_v10 main_call4_v11 (Host.divf : (⟨S64, .f32⟩ : BufTy).Contents (Elt F) → (⟨S64, .f32⟩ : BufTy).Contents (Elt F) → (⟨S64, .f32⟩ : BufTy).Contents (Elt F)),
    nullary main_call4_cst_3 ((constant S_ .f32 0x00000000#32) : (⟨S_, .f32⟩ : BufTy).Contents (Elt F)),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 ((constant S_ .f32 0x7FC00000#32) : (⟨S_, .f32⟩ : BufTy).Contents (Elt F)),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S64 ![] bcast_S_S64) : (⟨S_, .f32⟩ : BufTy).Contents (Elt F) → (⟨S64, .f32⟩ : BufTy).Contents (Elt F)),
    ternary main_call4_v12 main_call4_v11 main_call4_call0_v1 main_v104 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v103 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v100 main_v106 main_v107 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v108 (broadcastInDim S64 ![] bcast_S_S64 : (⟨S_, .f32⟩ : BufTy).Contents (Elt F) → (⟨S64, .f32⟩ : BufTy).Contents (Elt F)),
    binary main_v104 main_v108 main_v109 (addf : (⟨S64, .f32⟩ : BufTy).Contents (Elt F) → (⟨S64, .f32⟩ : BufTy).Contents (Elt F) → (⟨S64, .f32⟩ : BufTy).Contents (Elt F)),
    unary main_v109 main_v110 (Host.rsqrt : (⟨S64, .f32⟩ : BufTy).Contents (Elt F) → (⟨S64, .f32⟩ : BufTy).Contents (Elt F)),
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v107 main_v112 main_v113 (mulf : (⟨S100000x64, .f32⟩ : BufTy).Contents (Elt F) → (⟨S100000x64, .f32⟩ : BufTy).Contents (Elt F) → (⟨S100000x64, .f32⟩ : BufTy).Contents (Elt F)),
    unary main_arg16 main_v114 (broadcastInDim S1x64 ![1] bcast_S64_S1x64_1 : (⟨S64, .f32⟩ : BufTy).Contents (Elt F) → (⟨S1x64, .f32⟩ : BufTy).Contents (Elt F)),
    unary main_v114 main_v115 (broadcastInDim S100000x64 ![0, 1] bcast_S1x64_S100000x64_0_1 : (⟨S1x64, .f32⟩ : BufTy).Contents (Elt F) → (⟨S100000x64, .f32⟩ : BufTy).Contents (Elt F)),
    binary main_v113 main_v115 main_v116 (mulf : (⟨S100000x64, .f32⟩ : BufTy).Contents (Elt F) → (⟨S100000x64, .f32⟩ : BufTy).Contents (Elt F) → (⟨S100000x64, .f32⟩ : BufTy).Contents (Elt F)),
    unary main_arg17 main_v117 (broadcastInDim S1x64 ![1] bcast_S64_S1x64_1 : (⟨S64, .f32⟩ : BufTy).Contents (Elt F) → (⟨S1x64, .f32⟩ : BufTy).Contents (Elt F)),
    unary main_v117 main_v118 (broadcastInDim S100000x64 ![0, 1] bcast_S1x64_S100000x64_0_1 : (⟨S1x64, .f32⟩ : BufTy).Contents (Elt F) → (⟨S100000x64, .f32⟩ : BufTy).Contents (Elt F)),
    binary main_v116 main_v118 main_v119 (addf : (⟨S100000x64, .f32⟩ : BufTy).Contents (Elt F) → (⟨S100000x64, .f32⟩ : BufTy).Contents (Elt F) → (⟨S100000x64, .f32⟩ : BufTy).Contents (Elt F)),
    binary main_v119 main_v41 main_v120 (addf : (⟨S100000x64, .f32⟩ : BufTy).Contents (Elt F) → (⟨S100000x64, .f32⟩ : BufTy).Contents (Elt F) → (⟨S100000x64, .f32⟩ : BufTy).Contents (Elt F)),
    nullary main_call5_cst ((constant S_ .f32 0x00000000#32) : (⟨S_, .f32⟩ : BufTy).Contents (Elt F)),
    unary main_call5_cst main_call5_v0 ((broadcastInDim S100000x64 ![] bcast_S_S100000x64) : (⟨S_, .f32⟩ : BufTy).Contents (Elt F) → (⟨S100000x64, .f32⟩ : BufTy).Contents (Elt F)),
    binary main_v120 main_call5_v0 main_v121 (maximumf : (⟨S100000x64, .f32⟩ : BufTy).Contents (Elt F) → (⟨S100000x64, .f32⟩ : BufTy).Contents (Elt F) → (⟨S100000x64, .f32⟩ : BufTy).Contents (Elt F)),
    unary main_arg18 main_v122 ((transpose S64x32 [1, 0] · transposes_S32x64_S64x32_1_0) : (⟨S32x64, .f32⟩ : BufTy).Contents (Elt F) → (⟨S64x32, .f32⟩ : BufTy).Contents (Elt F)),
    binary main_v121 main_v122 main_v123 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg19 main_v124 (broadcastInDim S1x32 ![1] bcast_S32_S1x32_1 : (⟨S32, .f32⟩ : BufTy).Contents (Elt F) → (⟨S1x32, .f32⟩ : BufTy).Contents (Elt F)),
    unary main_v124 main_v125 (broadcastInDim S100000x32 ![0, 1] bcast_S1x32_S100000x32_0_1 : (⟨S1x32, .f32⟩ : BufTy).Contents (Elt F) → (⟨S100000x32, .f32⟩ : BufTy).Contents (Elt F)),
    binary main_v123 main_v125 main_v126 (addf : (⟨S100000x32, .f32⟩ : BufTy).Contents (Elt F) → (⟨S100000x32, .f32⟩ : BufTy).Contents (Elt F) → (⟨S100000x32, .f32⟩ : BufTy).Contents (Elt F)),
    nullary main_call6_cst ((constant S_ .f32 0x00000000#32) : (⟨S_, .f32⟩ : BufTy).Contents (Elt F)),
    unary main_call6_cst main_call6_v0 ((broadcastInDim S100000x32 ![] bcast_S_S100000x32) : (⟨S_, .f32⟩ : BufTy).Contents (Elt F) → (⟨S100000x32, .f32⟩ : BufTy).Contents (Elt F)),
    binary main_v126 main_call6_v0 main_v127 (maximumf : (⟨S100000x32, .f32⟩ : BufTy).Contents (Elt F) → (⟨S100000x32, .f32⟩ : BufTy).Contents (Elt F) → (⟨S100000x32, .f32⟩ : BufTy).Contents (Elt F)),
    unary main_arg20 main_v128 ((transpose S32x2 [1, 0] · transposes_S2x32_S32x2_1_0) : (⟨S2x32, .f32⟩ : BufTy).Contents (Elt F) → (⟨S32x2, .f32⟩ : BufTy).Contents (Elt F)),
    binary main_v127 main_v128 main_v129 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    unary main_arg21 main_v130 (broadcastInDim S1x2 ![1] bcast_S2_S1x2_1 : (⟨S2, .f32⟩ : BufTy).Contents (Elt F) → (⟨S1x2, .f32⟩ : BufTy).Contents (Elt F)),
    unary main_v130 main_v131 (broadcastInDim S100000x2 ![0, 1] bcast_S1x2_S100000x2_0_1 : (⟨S1x2, .f32⟩ : BufTy).Contents (Elt F) → (⟨S100000x2, .f32⟩ : BufTy).Contents (Elt F)),
    binary main_v129 main_v131 main_v132 (addf : (⟨S100000x2, .f32⟩ : BufTy).Contents (Elt F) → (⟨S100000x2, .f32⟩ : BufTy).Contents (Elt F) → (⟨S100000x2, .f32⟩ : BufTy).Contents (Elt F)) ]

set_option maxHeartbeats 1000000 in
theorem opsL3b_eq : (opsL3b : List (HloOp τ sig (Elt F))) = uopsL3b := by
  unfold opsL3b uopsL3b
  rfl

end Cert.ReferenceIdeal.RefValue

end
-- ==== Proof.RefL1.lean ====
/-
  The first layer's stretch of the reference program read back: from any contents V of the buffers, after its 72 operations the buffer of the layer's result holds the first layer's function of the argument buffers, the two edge-row buffers hold the two rows of the edge table as vectors, and every argument buffer holds what it held.
-/
import proofs.«150348_j62612033241213_2_alg».proof.Proof.RefTerm
import proofs.«150348_j62612033241213_2_alg».proof.Proof.RefOpsU

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd Host.gather Host.scatterAdd Host.divf Host.rsqrt

/-- The layer's result buffer. -/
theorem out1 (V : Valuation τ sig (Elt Ideal)) :
    after (opsL1 (F := Ideal)) V (Proc.devRef .tc main_v41)
      = layerT1 (V (Proc.devRef .tc main_arg0)) (V (Proc.devRef .tc main_arg1)) (V (Proc.devRef .tc main_arg3)) (V (Proc.devRef .tc main_arg4)) (V (Proc.devRef .tc main_arg5)) (V (Proc.devRef .tc main_arg12)) (V (Proc.devRef .tc main_arg13)) := by
  rw [opsL1_eq]
  unfold uopsL1
  after_results_simp
  rfl

/-- The two edge rows. -/
theorem edges1 (V : Valuation τ sig (Elt Ideal)) : EdgeRows (after (opsL1 (F := Ideal)) V) := by
  unfold EdgeRows
  rw [opsL1_eq]
  unfold uopsL1
  constructor
  · after_results_simp
    rfl
  · after_results_simp
    rfl

theorem kept1_arg0 (V : Valuation τ sig (Elt Ideal)) : after (opsL1 (F := Ideal)) V (Proc.devRef .tc main_arg0) = V (Proc.devRef .tc main_arg0) := by
  rw [opsL1_eq]
  unfold uopsL1
  after_results_simp

theorem kept1_arg1 (V : Valuation τ sig (Elt Ideal)) : after (opsL1 (F := Ideal)) V (Proc.devRef .tc main_arg1) = V (Proc.devRef .tc main_arg1) := by
  rw [opsL1_eq]
  unfold uopsL1
  after_results_simp

theorem kept1_arg2 (V : Valuation τ sig (Elt Ideal)) : after (opsL1 (F := Ideal)) V (Proc.devRef .tc main_arg2) = V (Proc.devRef .tc main_arg2) := by
  rw [opsL1_eq]
  unfold uopsL1
  after_results_simp

theorem kept1_arg3 (V : Valuation τ sig (Elt Ideal)) : after (opsL1 (F := Ideal)) V (Proc.devRef .tc main_arg3) = V (Proc.devRef .tc main_arg3) := by
  rw [opsL1_eq]
  unfold uopsL1
  after_results_simp

theorem kept1_arg4 (V : Valuation τ sig (Elt Ideal)) : after (opsL1 (F := Ideal)) V (Proc.devRef .tc main_arg4) = V (Proc.devRef .tc main_arg4) := by
  rw [opsL1_eq]
  unfold uopsL1
  after_results_simp

theorem kept1_arg5 (V : Valuation τ sig (Elt Ideal)) : after (opsL1 (F := Ideal)) V (Proc.devRef .tc main_arg5) = V (Proc.devRef .tc main_arg5) := by
  rw [opsL1_eq]
  unfold uopsL1
  after_results_simp

theorem kept1_arg6 (V : Valuation τ sig (Elt Ideal)) : after (opsL1 (F := Ideal)) V (Proc.devRef .tc main_arg6) = V (Proc.devRef .tc main_arg6) := by
  rw [opsL1_eq]
  unfold uopsL1
  after_results_simp

theorem kept1_arg7 (V : Valuation τ sig (Elt Ideal)) : after (opsL1 (F := Ideal)) V (Proc.devRef .tc main_arg7) = V (Proc.devRef .tc main_arg7) := by
  rw [opsL1_eq]
  unfold uopsL1
  after_results_simp

theorem kept1_arg8 (V : Valuation τ sig (Elt Ideal)) : after (opsL1 (F := Ideal)) V (Proc.devRef .tc main_arg8) = V (Proc.devRef .tc main_arg8) := by
  rw [opsL1_eq]
  unfold uopsL1
  after_results_simp

theorem kept1_arg9 (V : Valuation τ sig (Elt Ideal)) : after (opsL1 (F := Ideal)) V (Proc.devRef .tc main_arg9) = V (Proc.devRef .tc main_arg9) := by
  rw [opsL1_eq]
  unfold uopsL1
  after_results_simp

theorem kept1_arg10 (V : Valuation τ sig (Elt Ideal)) : after (opsL1 (F := Ideal)) V (Proc.devRef .tc main_arg10) = V (Proc.devRef .tc main_arg10) := by
  rw [opsL1_eq]
  unfold uopsL1
  after_results_simp

theorem kept1_arg11 (V : Valuation τ sig (Elt Ideal)) : after (opsL1 (F := Ideal)) V (Proc.devRef .tc main_arg11) = V (Proc.devRef .tc main_arg11) := by
  rw [opsL1_eq]
  unfold uopsL1
  after_results_simp

theorem kept1_arg12 (V : Valuation τ sig (Elt Ideal)) : after (opsL1 (F := Ideal)) V (Proc.devRef .tc main_arg12) = V (Proc.devRef .tc main_arg12) := by
  rw [opsL1_eq]
  unfold uopsL1
  after_results_simp

theorem kept1_arg13 (V : Valuation τ sig (Elt Ideal)) : after (opsL1 (F := Ideal)) V (Proc.devRef .tc main_arg13) = V (Proc.devRef .tc main_arg13) := by
  rw [opsL1_eq]
  unfold uopsL1
  after_results_simp

theorem kept1_arg14 (V : Valuation τ sig (Elt Ideal)) : after (opsL1 (F := Ideal)) V (Proc.devRef .tc main_arg14) = V (Proc.devRef .tc main_arg14) := by
  rw [opsL1_eq]
  unfold uopsL1
  after_results_simp

theorem kept1_arg15 (V : Valuation τ sig (Elt Ideal)) : after (opsL1 (F := Ideal)) V (Proc.devRef .tc main_arg15) = V (Proc.devRef .tc main_arg15) := by
  rw [opsL1_eq]
  unfold uopsL1
  after_results_simp

theorem kept1_arg16 (V : Valuation τ sig (Elt Ideal)) : after (opsL1 (F := Ideal)) V (Proc.devRef .tc main_arg16) = V (Proc.devRef .tc main_arg16) := by
  rw [opsL1_eq]
  unfold uopsL1
  after_results_simp

theorem kept1_arg17 (V : Valuation τ sig (Elt Ideal)) : after (opsL1 (F := Ideal)) V (Proc.devRef .tc main_arg17) = V (Proc.devRef .tc main_arg17) := by
  rw [opsL1_eq]
  unfold uopsL1
  after_results_simp

theorem kept1_arg18 (V : Valuation τ sig (Elt Ideal)) : after (opsL1 (F := Ideal)) V (Proc.devRef .tc main_arg18) = V (Proc.devRef .tc main_arg18) := by
  rw [opsL1_eq]
  unfold uopsL1
  after_results_simp

theorem kept1_arg19 (V : Valuation τ sig (Elt Ideal)) : after (opsL1 (F := Ideal)) V (Proc.devRef .tc main_arg19) = V (Proc.devRef .tc main_arg19) := by
  rw [opsL1_eq]
  unfold uopsL1
  after_results_simp

theorem kept1_arg20 (V : Valuation τ sig (Elt Ideal)) : after (opsL1 (F := Ideal)) V (Proc.devRef .tc main_arg20) = V (Proc.devRef .tc main_arg20) := by
  rw [opsL1_eq]
  unfold uopsL1
  after_results_simp

theorem kept1_arg21 (V : Valuation τ sig (Elt Ideal)) : after (opsL1 (F := Ideal)) V (Proc.devRef .tc main_arg21) = V (Proc.devRef .tc main_arg21) := by
  rw [opsL1_eq]
  unfold uopsL1
  after_results_simp

end Cert.ReferenceIdeal.RefValue

end
-- ==== Proof.RefL2Kept.lean ====
/-
  The second layer's stretch leaves alone what it does not write: after its 68 operations every argument buffer, the
  first layer's result buffer and the two edge-row buffers hold what they held; so the edge rows are still the rows of
  the edge table.
-/
import proofs.«150348_j62612033241213_2_alg».proof.Proof.RefTerm
import proofs.«150348_j62612033241213_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

theorem kept2_arg0 (W : Valuation τ sig (Elt Ideal)) : after (opsL2b (F := Ideal)) (after (opsL2a (F := Ideal)) W) (Proc.devRef .tc main_arg0) = W (Proc.devRef .tc main_arg0) := by
  unfold opsL2a opsL2b
  after_results_simp

theorem kept2_arg1 (W : Valuation τ sig (Elt Ideal)) : after (opsL2b (F := Ideal)) (after (opsL2a (F := Ideal)) W) (Proc.devRef .tc main_arg1) = W (Proc.devRef .tc main_arg1) := by
  unfold opsL2a opsL2b
  after_results_simp

theorem kept2_arg2 (W : Valuation τ sig (Elt Ideal)) : after (opsL2b (F := Ideal)) (after (opsL2a (F := Ideal)) W) (Proc.devRef .tc main_arg2) = W (Proc.devRef .tc main_arg2) := by
  unfold opsL2a opsL2b
  after_results_simp

theorem kept2_arg3 (W : Valuation τ sig (Elt Ideal)) : after (opsL2b (F := Ideal)) (after (opsL2a (F := Ideal)) W) (Proc.devRef .tc main_arg3) = W (Proc.devRef .tc main_arg3) := by
  unfold opsL2a opsL2b
  after_results_simp

theorem kept2_arg4 (W : Valuation τ sig (Elt Ideal)) : after (opsL2b (F := Ideal)) (after (opsL2a (F := Ideal)) W) (Proc.devRef .tc main_arg4) = W (Proc.devRef .tc main_arg4) := by
  unfold opsL2a opsL2b
  after_results_simp

theorem kept2_arg5 (W : Valuation τ sig (Elt Ideal)) : after (opsL2b (F := Ideal)) (after (opsL2a (F := Ideal)) W) (Proc.devRef .tc main_arg5) = W (Proc.devRef .tc main_arg5) := by
  unfold opsL2a opsL2b
  after_results_simp

theorem kept2_arg6 (W : Valuation τ sig (Elt Ideal)) : after (opsL2b (F := Ideal)) (after (opsL2a (F := Ideal)) W) (Proc.devRef .tc main_arg6) = W (Proc.devRef .tc main_arg6) := by
  unfold opsL2a opsL2b
  after_results_simp

theorem kept2_arg7 (W : Valuation τ sig (Elt Ideal)) : after (opsL2b (F := Ideal)) (after (opsL2a (F := Ideal)) W) (Proc.devRef .tc main_arg7) = W (Proc.devRef .tc main_arg7) := by
  unfold opsL2a opsL2b
  after_results_simp

theorem kept2_arg8 (W : Valuation τ sig (Elt Ideal)) : after (opsL2b (F := Ideal)) (after (opsL2a (F := Ideal)) W) (Proc.devRef .tc main_arg8) = W (Proc.devRef .tc main_arg8) := by
  unfold opsL2a opsL2b
  after_results_simp

theorem kept2_arg9 (W : Valuation τ sig (Elt Ideal)) : after (opsL2b (F := Ideal)) (after (opsL2a (F := Ideal)) W) (Proc.devRef .tc main_arg9) = W (Proc.devRef .tc main_arg9) := by
  unfold opsL2a opsL2b
  after_results_simp

theorem kept2_arg10 (W : Valuation τ sig (Elt Ideal)) : after (opsL2b (F := Ideal)) (after (opsL2a (F := Ideal)) W) (Proc.devRef .tc main_arg10) = W (Proc.devRef .tc main_arg10) := by
  unfold opsL2a opsL2b
  after_results_simp

theorem kept2_arg11 (W : Valuation τ sig (Elt Ideal)) : after (opsL2b (F := Ideal)) (after (opsL2a (F := Ideal)) W) (Proc.devRef .tc main_arg11) = W (Proc.devRef .tc main_arg11) := by
  unfold opsL2a opsL2b
  after_results_simp

theorem kept2_arg12 (W : Valuation τ sig (Elt Ideal)) : after (opsL2b (F := Ideal)) (after (opsL2a (F := Ideal)) W) (Proc.devRef .tc main_arg12) = W (Proc.devRef .tc main_arg12) := by
  unfold opsL2a opsL2b
  after_results_simp

theorem kept2_arg13 (W : Valuation τ sig (Elt Ideal)) : after (opsL2b (F := Ideal)) (after (opsL2a (F := Ideal)) W) (Proc.devRef .tc main_arg13) = W (Proc.devRef .tc main_arg13) := by
  unfold opsL2a opsL2b
  after_results_simp

theorem kept2_arg14 (W : Valuation τ sig (Elt Ideal)) : after (opsL2b (F := Ideal)) (after (opsL2a (F := Ideal)) W) (Proc.devRef .tc main_arg14) = W (Proc.devRef .tc main_arg14) := by
  unfold opsL2a opsL2b
  after_results_simp

theorem kept2_arg15 (W : Valuation τ sig (Elt Ideal)) : after (opsL2b (F := Ideal)) (after (opsL2a (F := Ideal)) W) (Proc.devRef .tc main_arg15) = W (Proc.devRef .tc main_arg15) := by
  unfold opsL2a opsL2b
  after_results_simp

theorem kept2_arg16 (W : Valuation τ sig (Elt Ideal)) : after (opsL2b (F := Ideal)) (after (opsL2a (F := Ideal)) W) (Proc.devRef .tc main_arg16) = W (Proc.devRef .tc main_arg16) := by
  unfold opsL2a opsL2b
  after_results_simp

theorem kept2_arg17 (W : Valuation τ sig (Elt Ideal)) : after (opsL2b (F := Ideal)) (after (opsL2a (F := Ideal)) W) (Proc.devRef .tc main_arg17) = W (Proc.devRef .tc main_arg17) := by
  unfold opsL2a opsL2b
  after_results_simp

theorem kept2_arg18 (W : Valuation τ sig (Elt Ideal)) : after (opsL2b (F := Ideal)) (after (opsL2a (F := Ideal)) W) (Proc.devRef .tc main_arg18) = W (Proc.devRef .tc main_arg18) := by
  unfold opsL2a opsL2b
  after_results_simp

theorem kept2_arg19 (W : Valuation τ sig (Elt Ideal)) : after (opsL2b (F := Ideal)) (after (opsL2a (F := Ideal)) W) (Proc.devRef .tc main_arg19) = W (Proc.devRef .tc main_arg19) := by
  unfold opsL2a opsL2b
  after_results_simp

theorem kept2_arg20 (W : Valuation τ sig (Elt Ideal)) : after (opsL2b (F := Ideal)) (after (opsL2a (F := Ideal)) W) (Proc.devRef .tc main_arg20) = W (Proc.devRef .tc main_arg20) := by
  unfold opsL2a opsL2b
  after_results_simp

theorem kept2_arg21 (W : Valuation τ sig (Elt Ideal)) : after (opsL2b (F := Ideal)) (after (opsL2a (F := Ideal)) W) (Proc.devRef .tc main_arg21) = W (Proc.devRef .tc main_arg21) := by
  unfold opsL2a opsL2b
  after_results_simp

theorem kept2_v41 (W : Valuation τ sig (Elt Ideal)) : after (opsL2b (F := Ideal)) (after (opsL2a (F := Ideal)) W) (Proc.devRef .tc main_v41) = W (Proc.devRef .tc main_v41) := by
  unfold opsL2a opsL2b
  after_results_simp

theorem kept2_v1 (W : Valuation τ sig (Elt Ideal)) : after (opsL2b (F := Ideal)) (after (opsL2a (F := Ideal)) W) (Proc.devRef .tc main_v1) = W (Proc.devRef .tc main_v1) := by
  unfold opsL2a opsL2b
  after_results_simp

theorem kept2_v3 (W : Valuation τ sig (Elt Ideal)) : after (opsL2b (F := Ideal)) (after (opsL2a (F := Ideal)) W) (Proc.devRef .tc main_v3) = W (Proc.devRef .tc main_v3) := by
  unfold opsL2a opsL2b
  after_results_simp

theorem edges2 (W : Valuation τ sig (Elt Ideal)) (h : EdgeRows W) : EdgeRows (after (opsL2b (F := Ideal)) (after (opsL2a (F := Ideal)) W)) := by
  unfold EdgeRows
  rw [kept2_v1, kept2_v3, kept2_arg1]
  exact h

end Cert.ReferenceIdeal.RefValue

end
-- ==== Proof.RefL2.lean ====
/-
  The second layer's stretch read back: from any contents W in which the two edge-row buffers are the rows of the edge
  table, after its 68 operations the layer's result buffer holds the second layer's function of the first layer's buffer
  and the arguments, and the first layer's buffer, the edge rows and every argument buffer hold what they held.

  The stretch is read in two steps so that no comparison ever sees the aggregation's term more than once. Its first
  21 operations compute the pre-activation (the aggregation of the first layer's output, the two products, the bias
  between them). The remaining 47 compute, from whatever the pre-activation buffer holds, its column mean, its
  variance (the outlined routine, opened at its call), the normalisation and the cut at zero; inside the outlined
  routines a value stored at a buffer's declared type and read back at it is the value itself.
-/
import proofs.«150348_j62612033241213_2_alg».proof.Proof.RefTerm
import proofs.«150348_j62612033241213_2_alg».proof.Proof.RefOps
import proofs.«150348_j62612033241213_2_alg».proof.Proof.RefL2Kept

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd Host.gather Host.scatterAdd Host.divf Host.rsqrt

section Lists

variable {F : FTy → Type} [FloatOps F]

/-- The first ten operations of the stretch's second list: scatter-add, the two products, the bias between them. -/
def opsL2b1 : List (HloOp τ sig (Elt F)) :=
  [
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg6 main_v52 ((transpose S64x128 [1, 0] · transposes_S128x64_S64x128_1_0) : (⟨S128x64, .f32⟩ : BufTy).Contents (Elt F) → (⟨S64x128, .f32⟩ : BufTy).Contents (Elt F)),
    binary main_v51 main_v52 main_v53 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    unary main_arg8 main_v57 ((transpose S64x128 [1, 0] · transposes_S128x64_S64x128_1_0) : (⟨S128x64, .f32⟩ : BufTy).Contents (Elt F) → (⟨S64x128, .f32⟩ : BufTy).Contents (Elt F)),
    binary main_v41 main_v57 main_v58 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)) ]

/-- Its other forty-seven: column mean, variance, normalisation, cut at zero. -/
def opsL2b2 : List (HloOp τ sig (Elt F)) :=
  [
    nullary main_cst_8 (constant S_ .f32 0x00000000#32),
    binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (.of main_v59 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v59 : TRef sig ⟨S100000x128, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v59 main_v65 main_v66 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_arg14 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg15 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v78 : TRef sig ⟨S100000x128, .f32⟩) main_call3.v0 main_call3.v1 maximumf ]

theorem opsL2b_split : (opsL2b : List (HloOp τ sig (Elt F))) = opsL2b1 ++ opsL2b2 := by
  unfold opsL2b opsL2b1 opsL2b2
  rfl

end Lists

/-- The contents after two lists run one after the other. -/
theorem after_append2 : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_append2 l₁ l₂]

/-- A value stored at a buffer's declared type and read back at it is the value. -/
theorem ofBuf_toBuf2 {Val : EltTy → Type} {T : BufTy} (x : TRef sig T) (v : T.Contents Val) : x.ofBuf (x.toBuf v) = v := by
  obtain ⟨r, rfl, _, _⟩ := x
  rfl

set_option maxHeartbeats 400000 in
/-- The pre-activation buffer after the first 21 operations. -/
theorem pre2 (W : Valuation τ sig (Elt Ideal)) (h : EdgeRows W) :
    after (opsL2b1 (F := Ideal)) (after (opsL2a (F := Ideal)) W) (Proc.devRef .tc main_v59)
      = preT2 (aggT2 (W (Proc.devRef .tc main_v41)) (W (Proc.devRef .tc main_arg1))) (W (Proc.devRef .tc main_v41)) (W (Proc.devRef .tc main_arg6)) (W (Proc.devRef .tc main_arg7)) (W (Proc.devRef .tc main_arg8)) := by
  unfold opsL2a opsL2b1
  after_results_simp
  rw [h.1, h.2]
  rfl

theorem keptA_arg14 (W : Valuation τ sig (Elt Ideal)) : after (opsL2b1 (F := Ideal)) (after (opsL2a (F := Ideal)) W) (Proc.devRef .tc main_arg14) = W (Proc.devRef .tc main_arg14) := by
  unfold opsL2a opsL2b1
  after_results_simp

theorem keptA_arg15 (W : Valuation τ sig (Elt Ideal)) : after (opsL2b1 (F := Ideal)) (after (opsL2a (F := Ideal)) W) (Proc.devRef .tc main_arg15) = W (Proc.devRef .tc main_arg15) := by
  unfold opsL2a opsL2b1
  after_results_simp

set_option maxHeartbeats 400000 in
/-- The result buffer after the last 47 operations, from whatever the pre-activation buffer holds. -/
theorem out2b (W : Valuation τ sig (Elt Ideal)) :
    after (opsL2b2 (F := Ideal)) W (Proc.devRef .tc main_v79)
      = reluT128 (bnT128 (W (Proc.devRef .tc main_v59)) (meanT128 (W (Proc.devRef .tc main_v59))) (varT128 (W (Proc.devRef .tc main_v59))) (W (Proc.devRef .tc main_arg14)) (W (Proc.devRef .tc main_arg15))) := by
  unfold opsL2b2
  after_results_simp
  simp only [ofBuf_toBuf2]
  rfl

theorem out2 (W : Valuation τ sig (Elt Ideal)) (h : EdgeRows W) :
    after (opsL2b (F := Ideal)) (after (opsL2a (F := Ideal)) W) (Proc.devRef .tc main_v79)
      = layerT2 (W (Proc.devRef .tc main_v41)) (W (Proc.devRef .tc main_arg1)) (W (Proc.devRef .tc main_arg6)) (W (Proc.devRef .tc main_arg7)) (W (Proc.devRef .tc main_arg8)) (W (Proc.devRef .tc main_arg14)) (W (Proc.devRef .tc main_arg15)) := by
  rw [opsL2b_split, after_append2, out2b, pre2 W h, keptA_arg14, keptA_arg15]
  rfl

end Cert.ReferenceIdeal.RefValue

end
-- ==== Proof.RefCast.lean ====
/-
  A value stored into a buffer through a reference that carries the value's type, and read back through the same
  reference, is the value: the two transports along the reference's type equation are inverse to each other. Stated
  for an arbitrary typed reference, so the equation is taken apart once and no buffer's type is ever looked up.
-/
import Idealize.ShloMosaic.Lib.StableHlo

noncomputable section

namespace Cert.ReferenceIdeal.RefValue

open Idealize.ShloMosaic Idealize.ShloMosaic.StableHlo

/-- Reading back at the value's type what was stored at the buffer's type gives the value. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.ReferenceIdeal.RefValue

end
-- ==== Proof.RefL3Kept.lean ====
/-
  The third layer's stretch writes none of the argument buffers: after its 85 operations every argument buffer holds
  what it held; and after its first 26 operations the buffers the last 59 read besides the stretch's own (six
  arguments and the first layer's result) hold what they held.
-/
import proofs.«150348_j62612033241213_2_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The first 26 operations -/

theorem kept3a_arg16 (W : Valuation τ sig (Elt Ideal)) : after (opsL3a (F := Ideal)) W (Proc.devRef .tc main_arg16) = W (Proc.devRef .tc main_arg16) := by
  unfold opsL3a
  after_results_simp

theorem kept3a_arg17 (W : Valuation τ sig (Elt Ideal)) : after (opsL3a (F := Ideal)) W (Proc.devRef .tc main_arg17) = W (Proc.devRef .tc main_arg17) := by
  unfold opsL3a
  after_results_simp

theorem kept3a_arg18 (W : Valuation τ sig (Elt Ideal)) : after (opsL3a (F := Ideal)) W (Proc.devRef .tc main_arg18) = W (Proc.devRef .tc main_arg18) := by
  unfold opsL3a
  after_results_simp

theorem kept3a_arg19 (W : Valuation τ sig (Elt Ideal)) : after (opsL3a (F := Ideal)) W (Proc.devRef .tc main_arg19) = W (Proc.devRef .tc main_arg19) := by
  unfold opsL3a
  after_results_simp

theorem kept3a_arg20 (W : Valuation τ sig (Elt Ideal)) : after (opsL3a (F := Ideal)) W (Proc.devRef .tc main_arg20) = W (Proc.devRef .tc main_arg20) := by
  unfold opsL3a
  after_results_simp

theorem kept3a_arg21 (W : Valuation τ sig (Elt Ideal)) : after (opsL3a (F := Ideal)) W (Proc.devRef .tc main_arg21) = W (Proc.devRef .tc main_arg21) := by
  unfold opsL3a
  after_results_simp

theorem kept3a_v41 (W : Valuation τ sig (Elt Ideal)) : after (opsL3a (F := Ideal)) W (Proc.devRef .tc main_v41) = W (Proc.devRef .tc main_v41) := by
  unfold opsL3a
  after_results_simp

/-! ## All 85 -/

theorem kept3_arg0 (W : Valuation τ sig (Elt Ideal)) : after (opsL3b (F := Ideal)) (after (opsL3a (F := Ideal)) W) (Proc.devRef .tc main_arg0) = W (Proc.devRef .tc main_arg0) := by
  unfold opsL3a opsL3b
  after_results_simp

theorem kept3_arg1 (W : Valuation τ sig (Elt Ideal)) : after (opsL3b (F := Ideal)) (after (opsL3a (F := Ideal)) W) (Proc.devRef .tc main_arg1) = W (Proc.devRef .tc main_arg1) := by
  unfold opsL3a opsL3b
  after_results_simp

theorem kept3_arg2 (W : Valuation τ sig (Elt Ideal)) : after (opsL3b (F := Ideal)) (after (opsL3a (F := Ideal)) W) (Proc.devRef .tc main_arg2) = W (Proc.devRef .tc main_arg2) := by
  unfold opsL3a opsL3b
  after_results_simp

theorem kept3_arg3 (W : Valuation τ sig (Elt Ideal)) : after (opsL3b (F := Ideal)) (after (opsL3a (F := Ideal)) W) (Proc.devRef .tc main_arg3) = W (Proc.devRef .tc main_arg3) := by
  unfold opsL3a opsL3b
  after_results_simp

theorem kept3_arg4 (W : Valuation τ sig (Elt Ideal)) : after (opsL3b (F := Ideal)) (after (opsL3a (F := Ideal)) W) (Proc.devRef .tc main_arg4) = W (Proc.devRef .tc main_arg4) := by
  unfold opsL3a opsL3b
  after_results_simp

theorem kept3_arg5 (W : Valuation τ sig (Elt Ideal)) : after (opsL3b (F := Ideal)) (after (opsL3a (F := Ideal)) W) (Proc.devRef .tc main_arg5) = W (Proc.devRef .tc main_arg5) := by
  unfold opsL3a opsL3b
  after_results_simp

theorem kept3_arg6 (W : Valuation τ sig (Elt Ideal)) : after (opsL3b (F := Ideal)) (after (opsL3a (F := Ideal)) W) (Proc.devRef .tc main_arg6) = W (Proc.devRef .tc main_arg6) := by
  unfold opsL3a opsL3b
  after_results_simp

theorem kept3_arg7 (W : Valuation τ sig (Elt Ideal)) : after (opsL3b (F := Ideal)) (after (opsL3a (F := Ideal)) W) (Proc.devRef .tc main_arg7) = W (Proc.devRef .tc main_arg7) := by
  unfold opsL3a opsL3b
  after_results_simp

theorem kept3_arg8 (W : Valuation τ sig (Elt Ideal)) : after (opsL3b (F := Ideal)) (after (opsL3a (F := Ideal)) W) (Proc.devRef .tc main_arg8) = W (Proc.devRef .tc main_arg8) := by
  unfold opsL3a opsL3b
  after_results_simp

theorem kept3_arg9 (W : Valuation τ sig (Elt Ideal)) : after (opsL3b (F := Ideal)) (after (opsL3a (F := Ideal)) W) (Proc.devRef .tc main_arg9) = W (Proc.devRef .tc main_arg9) := by
  unfold opsL3a opsL3b
  after_results_simp

theorem kept3_arg10 (W : Valuation τ sig (Elt Ideal)) : after (opsL3b (F := Ideal)) (after (opsL3a (F := Ideal)) W) (Proc.devRef .tc main_arg10) = W (Proc.devRef .tc main_arg10) := by
  unfold opsL3a opsL3b
  after_results_simp

theorem kept3_arg11 (W : Valuation τ sig (Elt Ideal)) : after (opsL3b (F := Ideal)) (after (opsL3a (F := Ideal)) W) (Proc.devRef .tc main_arg11) = W (Proc.devRef .tc main_arg11) := by
  unfold opsL3a opsL3b
  after_results_simp

theorem kept3_arg12 (W : Valuation τ sig (Elt Ideal)) : after (opsL3b (F := Ideal)) (after (opsL3a (F := Ideal)) W) (Proc.devRef .tc main_arg12) = W (Proc.devRef .tc main_arg12) := by
  unfold opsL3a opsL3b
  after_results_simp

theorem kept3_arg13 (W : Valuation τ sig (Elt Ideal)) : after (opsL3b (F := Ideal)) (after (opsL3a (F := Ideal)) W) (Proc.devRef .tc main_arg13) = W (Proc.devRef .tc main_arg13) := by
  unfold opsL3a opsL3b
  after_results_simp

theorem kept3_arg14 (W : Valuation τ sig (Elt Ideal)) : after (opsL3b (F := Ideal)) (after (opsL3a (F := Ideal)) W) (Proc.devRef .tc main_arg14) = W (Proc.devRef .tc main_arg14) := by
  unfold opsL3a opsL3b
  after_results_simp

theorem kept3_arg15 (W : Valuation τ sig (Elt Ideal)) : after (opsL3b (F := Ideal)) (after (opsL3a (F := Ideal)) W) (Proc.devRef .tc main_arg15) = W (Proc.devRef .tc main_arg15) := by
  unfold opsL3a opsL3b
  after_results_simp

theorem kept3_arg16 (W : Valuation τ sig (Elt Ideal)) : after (opsL3b (F := Ideal)) (after (opsL3a (F := Ideal)) W) (Proc.devRef .tc main_arg16) = W (Proc.devRef .tc main_arg16) := by
  unfold opsL3a opsL3b
  after_results_simp

theorem kept3_arg17 (W : Valuation τ sig (Elt Ideal)) : after (opsL3b (F := Ideal)) (after (opsL3a (F := Ideal)) W) (Proc.devRef .tc main_arg17) = W (Proc.devRef .tc main_arg17) := by
  unfold opsL3a opsL3b
  after_results_simp

theorem kept3_arg18 (W : Valuation τ sig (Elt Ideal)) : after (opsL3b (F := Ideal)) (after (opsL3a (F := Ideal)) W) (Proc.devRef .tc main_arg18) = W (Proc.devRef .tc main_arg18) := by
  unfold opsL3a opsL3b
  after_results_simp

theorem kept3_arg19 (W : Valuation τ sig (Elt Ideal)) : after (opsL3b (F := Ideal)) (after (opsL3a (F := Ideal)) W) (Proc.devRef .tc main_arg19) = W (Proc.devRef .tc main_arg19) := by
  unfold opsL3a opsL3b
  after_results_simp

theorem kept3_arg20 (W : Valuation τ sig (Elt Ideal)) : after (opsL3b (F := Ideal)) (after (opsL3a (F := Ideal)) W) (Proc.devRef .tc main_arg20) = W (Proc.devRef .tc main_arg20) := by
  unfold opsL3a opsL3b
  after_results_simp

theorem kept3_arg21 (W : Valuation τ sig (Elt Ideal)) : after (opsL3b (F := Ideal)) (after (opsL3a (F := Ideal)) W) (Proc.devRef .tc main_arg21) = W (Proc.devRef .tc main_arg21) := by
  unfold opsL3a opsL3b
  after_results_simp

end Cert.ReferenceIdeal.RefValue

end
-- ==== Proof.RefL3.lean ====
/-
  The third layer's stretch and the classifier read back: from any contents W in which the two edge-row buffers are
  the rows of the edge table, after its 85 operations the program's result buffer holds the third layer's and the
  classifier's function of the second and first layers' buffers and the arguments. (That every argument buffer holds
  what it held is the imported module on kept buffers.)

  The stretch is read in two steps. Its first 26 operations (aggregation, the two products with the bias between
  them, the column sum) leave the pre-activation and its column sum. Its last 59 operations (mean, the variance
  routine, normalisation, residual, cut at zero, classifier), from ANY contents, leave the classifier's function of
  the pre-activation buffer, the column-sum buffer, the first layer's buffer and the arguments; inside the outlined
  routines every value is stored and read back through the same typed reference, which cancels. The two steps
  compose by substituting the first step's buffers into the second.
-/
import proofs.«150348_j62612033241213_2_alg».proof.Proof.RefTerm
import proofs.«150348_j62612033241213_2_alg».proof.Proof.RefOps
import proofs.«150348_j62612033241213_2_alg».proof.Proof.RefCast
import proofs.«150348_j62612033241213_2_alg».proof.Proof.RefL3Kept

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd Host.gather Host.scatterAdd Host.divf Host.rsqrt

/-! ## The first 26 operations -/

/-- The pre-activation buffer. -/
theorem pre3 (W : Valuation τ sig (Elt Ideal)) (h : EdgeRows W) :
    after (opsL3a (F := Ideal)) W (Proc.devRef .tc main_v100) = preT3 (aggT3 (W (Proc.devRef .tc main_v79)) (W (Proc.devRef .tc main_arg1)) (W (Proc.devRef .tc main_arg2))) (W (Proc.devRef .tc main_v79)) (W (Proc.devRef .tc main_arg9)) (W (Proc.devRef .tc main_arg10)) (W (Proc.devRef .tc main_arg11)) := by
  unfold opsL3a
  after_results_simp
  rw [h.1, h.2]
  rfl

/-- The column sum of the pre-activation. -/
theorem sum3 (W : Valuation τ sig (Elt Ideal)) (h : EdgeRows W) :
    after (opsL3a (F := Ideal)) W (Proc.devRef .tc main_v101)
      = Host.reduceAdd (F := Ideal) (preT3 (aggT3 (W (Proc.devRef .tc main_v79)) (W (Proc.devRef .tc main_arg1)) (W (Proc.devRef .tc main_arg2))) (W (Proc.devRef .tc main_v79)) (W (Proc.devRef .tc main_arg9)) (W (Proc.devRef .tc main_arg10)) (W (Proc.devRef .tc main_arg11)))
          (constant (F := Ideal) S_ .f32 0x00000000#32) reducesTo_S100000x64_S64_d0 h_S_ := by
  unfold opsL3a
  after_results_simp
  rw [h.1, h.2]
  rfl

/-! ## The last 59 operations, from any contents -/

theorem out3b (W : Valuation τ sig (Elt Ideal)) :
    after (opsL3b (F := Ideal)) W (Proc.devRef .tc main_v132)
      = clsT (resReluT64 (bnT64 (W (Proc.devRef .tc main_v100))
            (Host.divf (F := Ideal) (W (Proc.devRef .tc main_v101)) (broadcastInDim S64 ![] bcast_S_S64 (constant (F := Ideal) S_ .f32 0x47C35000#32)))
            (varT64 (W (Proc.devRef .tc main_v100))) (W (Proc.devRef .tc main_arg16)) (W (Proc.devRef .tc main_arg17))) (W (Proc.devRef .tc main_v41)))
          (W (Proc.devRef .tc main_arg18)) (W (Proc.devRef .tc main_arg19)) (W (Proc.devRef .tc main_arg20)) (W (Proc.devRef .tc main_arg21)) := by
  unfold opsL3b
  after_results_simp
  simp only [ofBuf_toBuf]
  rfl

/-- The same with the buffers it reads named: what the composition substitutes into. -/
theorem out3b_of (W : Valuation τ sig (Elt Ideal))
    (X : FVec Ideal S100000x64 .f32) (S G BE : FVec Ideal S64 .f32) (H1 : FVec Ideal S100000x64 .f32)
    (WC1 : FVec Ideal S32x64 .f32) (BC1 : FVec Ideal S32 .f32) (WC2 : FVec Ideal S2x32 .f32) (BC2 : FVec Ideal S2 .f32)
    (hX : (W (Proc.devRef .tc main_v100)) = X) (hS : (W (Proc.devRef .tc main_v101)) = S) (hG : (W (Proc.devRef .tc main_arg16)) = G) (hBE : (W (Proc.devRef .tc main_arg17)) = BE)
    (hH1 : (W (Proc.devRef .tc main_v41)) = H1) (hWC1 : (W (Proc.devRef .tc main_arg18)) = WC1) (hBC1 : (W (Proc.devRef .tc main_arg19)) = BC1)
    (hWC2 : (W (Proc.devRef .tc main_arg20)) = WC2) (hBC2 : (W (Proc.devRef .tc main_arg21)) = BC2) :
    after (opsL3b (F := Ideal)) W (Proc.devRef .tc main_v132)
      = clsT (resReluT64 (bnT64 X
            (Host.divf (F := Ideal) S (broadcastInDim S64 ![] bcast_S_S64 (constant (F := Ideal) S_ .f32 0x47C35000#32)))
            (varT64 X) G BE) H1) WC1 BC1 WC2 BC2 := by
  subst hX hS hG hBE hH1 hWC1 hBC1 hWC2 hBC2
  exact out3b W

/-! ## The whole stretch -/

theorem out3 (W : Valuation τ sig (Elt Ideal)) (h : EdgeRows W) :
    after (opsL3b (F := Ideal)) (after (opsL3a (F := Ideal)) W) (Proc.devRef .tc main_v132)
      = layerT3 (W (Proc.devRef .tc main_v79)) (W (Proc.devRef .tc main_v41)) (W (Proc.devRef .tc main_arg1)) (W (Proc.devRef .tc main_arg2)) (W (Proc.devRef .tc main_arg9)) (W (Proc.devRef .tc main_arg10)) (W (Proc.devRef .tc main_arg11))
          (W (Proc.devRef .tc main_arg16)) (W (Proc.devRef .tc main_arg17)) (W (Proc.devRef .tc main_arg18)) (W (Proc.devRef .tc main_arg19)) (W (Proc.devRef .tc main_arg20)) (W (Proc.devRef .tc main_arg21)) :=
  out3b_of (after (opsL3a (F := Ideal)) W) _ _ _ _ _ _ _ _ _ (pre3 W h) (sum3 W h) (kept3a_arg16 W) (kept3a_arg17 W) (kept3a_v41 W)
    (kept3a_arg18 W) (kept3a_arg19 W) (kept3a_arg20 W) (kept3a_arg21 W)

end Cert.ReferenceIdeal.RefValue

end
-- ==== Proof.RefRun.lean ====
/-
  The reference program's run: from any memory with zero counters every weakly fair execution terminates, the
  result buffer holds the network's function of the twenty-two argument arrays as the memory held them at the
  start, and the argument arrays are unchanged. The three layers' stretches are composed through the contents
  between them: the first layer's result and the edge rows are what the second stretch finds, and so on; nothing
  is unfolded here.
-/
import proofs.«150348_j62612033241213_2_alg».proof.Proof.RefMainEq
import proofs.«150348_j62612033241213_2_alg».proof.Proof.RefL1
import proofs.«150348_j62612033241213_2_alg».proof.Proof.RefL2
import proofs.«150348_j62612033241213_2_alg».proof.Proof.RefL3

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The contents after two stretches run one after the other. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

theorem ops_split : (ops (F := Ideal)) = opsL1 ++ (opsL2a ++ (opsL2b ++ (opsL3a ++ opsL3b))) := by
  unfold ops
  simp only [List.append_assoc]

/-- The result buffer after the whole line. -/
theorem out_eq (V : Valuation τ sig (Elt Ideal)) :
    after (ops (F := Ideal)) V (Proc.devRef .tc main_v132)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [ops_split, after_app, after_app, after_app, after_app]
  rw [out3 _ (edges2 _ (edges1 V))]
  rw [out2 _ (edges1 V)]
  rw [kept2_v41, kept2_arg1, kept2_arg2, kept2_arg9, kept2_arg10, kept2_arg11, kept2_arg16, kept2_arg17, kept2_arg18, kept2_arg19, kept2_arg20, kept2_arg21]
  rw [out1]
  rw [kept1_arg1, kept1_arg2, kept1_arg6, kept1_arg7, kept1_arg8, kept1_arg9, kept1_arg10, kept1_arg11, kept1_arg14, kept1_arg15, kept1_arg16, kept1_arg17, kept1_arg18, kept1_arg19, kept1_arg20, kept1_arg21]
  rfl

theorem kept_arg0 (V : Valuation τ sig (Elt Ideal)) : after (ops (F := Ideal)) V (Proc.devRef .tc main_arg0) = V (Proc.devRef .tc main_arg0) := by
  rw [ops_split, after_app, after_app, after_app, after_app, kept3_arg0, kept2_arg0, kept1_arg0]
theorem kept_arg1 (V : Valuation τ sig (Elt Ideal)) : after (ops (F := Ideal)) V (Proc.devRef .tc main_arg1) = V (Proc.devRef .tc main_arg1) := by
  rw [ops_split, after_app, after_app, after_app, after_app, kept3_arg1, kept2_arg1, kept1_arg1]
theorem kept_arg2 (V : Valuation τ sig (Elt Ideal)) : after (ops (F := Ideal)) V (Proc.devRef .tc main_arg2) = V (Proc.devRef .tc main_arg2) := by
  rw [ops_split, after_app, after_app, after_app, after_app, kept3_arg2, kept2_arg2, kept1_arg2]
theorem kept_arg3 (V : Valuation τ sig (Elt Ideal)) : after (ops (F := Ideal)) V (Proc.devRef .tc main_arg3) = V (Proc.devRef .tc main_arg3) := by
  rw [ops_split, after_app, after_app, after_app, after_app, kept3_arg3, kept2_arg3, kept1_arg3]
theorem kept_arg4 (V : Valuation τ sig (Elt Ideal)) : after (ops (F := Ideal)) V (Proc.devRef .tc main_arg4) = V (Proc.devRef .tc main_arg4) := by
  rw [ops_split, after_app, after_app, after_app, after_app, kept3_arg4, kept2_arg4, kept1_arg4]
theorem kept_arg5 (V : Valuation τ sig (Elt Ideal)) : after (ops (F := Ideal)) V (Proc.devRef .tc main_arg5) = V (Proc.devRef .tc main_arg5) := by
  rw [ops_split, after_app, after_app, after_app, after_app, kept3_arg5, kept2_arg5, kept1_arg5]
theorem kept_arg6 (V : Valuation τ sig (Elt Ideal)) : after (ops (F := Ideal)) V (Proc.devRef .tc main_arg6) = V (Proc.devRef .tc main_arg6) := by
  rw [ops_split, after_app, after_app, after_app, after_app, kept3_arg6, kept2_arg6, kept1_arg6]
theorem kept_arg7 (V : Valuation τ sig (Elt Ideal)) : after (ops (F := Ideal)) V (Proc.devRef .tc main_arg7) = V (Proc.devRef .tc main_arg7) := by
  rw [ops_split, after_app, after_app, after_app, after_app, kept3_arg7, kept2_arg7, kept1_arg7]
theorem kept_arg8 (V : Valuation τ sig (Elt Ideal)) : after (ops (F := Ideal)) V (Proc.devRef .tc main_arg8) = V (Proc.devRef .tc main_arg8) := by
  rw [ops_split, after_app, after_app, after_app, after_app, kept3_arg8, kept2_arg8, kept1_arg8]
theorem kept_arg9 (V : Valuation τ sig (Elt Ideal)) : after (ops (F := Ideal)) V (Proc.devRef .tc main_arg9) = V (Proc.devRef .tc main_arg9) := by
  rw [ops_split, after_app, after_app, after_app, after_app, kept3_arg9, kept2_arg9, kept1_arg9]
theorem kept_arg10 (V : Valuation τ sig (Elt Ideal)) : after (ops (F := Ideal)) V (Proc.devRef .tc main_arg10) = V (Proc.devRef .tc main_arg10) := by
  rw [ops_split, after_app, after_app, after_app, after_app, kept3_arg10, kept2_arg10, kept1_arg10]
theorem kept_arg11 (V : Valuation τ sig (Elt Ideal)) : after (ops (F := Ideal)) V (Proc.devRef .tc main_arg11) = V (Proc.devRef .tc main_arg11) := by
  rw [ops_split, after_app, after_app, after_app, after_app, kept3_arg11, kept2_arg11, kept1_arg11]
theorem kept_arg12 (V : Valuation τ sig (Elt Ideal)) : after (ops (F := Ideal)) V (Proc.devRef .tc main_arg12) = V (Proc.devRef .tc main_arg12) := by
  rw [ops_split, after_app, after_app, after_app, after_app, kept3_arg12, kept2_arg12, kept1_arg12]
theorem kept_arg13 (V : Valuation τ sig (Elt Ideal)) : after (ops (F := Ideal)) V (Proc.devRef .tc main_arg13) = V (Proc.devRef .tc main_arg13) := by
  rw [ops_split, after_app, after_app, after_app, after_app, kept3_arg13, kept2_arg13, kept1_arg13]
theorem kept_arg14 (V : Valuation τ sig (Elt Ideal)) : after (ops (F := Ideal)) V (Proc.devRef .tc main_arg14) = V (Proc.devRef .tc main_arg14) := by
  rw [ops_split, after_app, after_app, after_app, after_app, kept3_arg14, kept2_arg14, kept1_arg14]
theorem kept_arg15 (V : Valuation τ sig (Elt Ideal)) : after (ops (F := Ideal)) V (Proc.devRef .tc main_arg15) = V (Proc.devRef .tc main_arg15) := by
  rw [ops_split, after_app, after_app, after_app, after_app, kept3_arg15, kept2_arg15, kept1_arg15]
theorem kept_arg16 (V : Valuation τ sig (Elt Ideal)) : after (ops (F := Ideal)) V (Proc.devRef .tc main_arg16) = V (Proc.devRef .tc main_arg16) := by
  rw [ops_split, after_app, after_app, after_app, after_app, kept3_arg16, kept2_arg16, kept1_arg16]
theorem kept_arg17 (V : Valuation τ sig (Elt Ideal)) : after (ops (F := Ideal)) V (Proc.devRef .tc main_arg17) = V (Proc.devRef .tc main_arg17) := by
  rw [ops_split, after_app, after_app, after_app, after_app, kept3_arg17, kept2_arg17, kept1_arg17]
theorem kept_arg18 (V : Valuation τ sig (Elt Ideal)) : after (ops (F := Ideal)) V (Proc.devRef .tc main_arg18) = V (Proc.devRef .tc main_arg18) := by
  rw [ops_split, after_app, after_app, after_app, after_app, kept3_arg18, kept2_arg18, kept1_arg18]
theorem kept_arg19 (V : Valuation τ sig (Elt Ideal)) : after (ops (F := Ideal)) V (Proc.devRef .tc main_arg19) = V (Proc.devRef .tc main_arg19) := by
  rw [ops_split, after_app, after_app, after_app, after_app, kept3_arg19, kept2_arg19, kept1_arg19]
theorem kept_arg20 (V : Valuation τ sig (Elt Ideal)) : after (ops (F := Ideal)) V (Proc.devRef .tc main_arg20) = V (Proc.devRef .tc main_arg20) := by
  rw [ops_split, after_app, after_app, after_app, after_app, kept3_arg20, kept2_arg20, kept1_arg20]
theorem kept_arg21 (V : Valuation τ sig (Elt Ideal)) : after (ops (F := Ideal)) V (Proc.devRef .tc main_arg21) = V (Proc.devRef .tc main_arg21) := by
  rw [ops_split, after_app, after_app, after_app, after_app, kept3_arg21, kept2_arg21, kept1_arg21]

/-- Every weakly fair execution of the reference program terminates with the result at the network's function of
    the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v132)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v132).trans (out_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c)),
      (h c main_arg20).trans (kept_arg20 (launchContents m c)),
      (h c main_arg21).trans (kept_arg21 (launchContents m c))⟩)
    (run_seq scopedRefs_eq scopedSems_eq defs main (fun _ => ops) main_eq (fun _ => ops_sub) m ρ (fun _ => ops_fresh))

end Cert.ReferenceIdeal.RefValue

end
-- ==== Proof.RefReadLib.lean ====
/-
  Host operations of the reference read at one entry, over the extended reals, for any extents.

  A vector laid out as one row and that row repeated down a matrix read the vector's entry at the column; a product of
  an `m × k` matrix with the transpose of an `n × k` matrix is, at `(a, b)`, the sum over the contracted coordinate of the
  products of the two matrices' entries at `(a, c)` and `(b, c)`; a sum over the rows of a matrix from an initial value
  is, at column `c`, the initial value plus the sum over the rows of the entries of that column. Last, three facts about
  the node count: it is positive; subtracting a converted integer zero leaves it; so the guard "that difference is
  above zero" holds.
-/
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import proofs.«150348_j62612033241213_2_alg».proof.Proof.Spec
import proofs.«150348_j62612033241213_2_alg».proof.Proof.LibFinite

noncomputable section

open scoped BigOperators

namespace Cert.ReferenceIdeal.RefLib

open Idealize.ShloMosaic Idealize.ShloMosaic.ValueIdx

/-- A vector laid out as a one-row matrix reads, at column `c` of its row, the vector's entry `c`. -/
theorem vecRow_apply {α : Type} {n : Nat} (h : (⟨1, ![n]⟩ : Shape).BroadcastsInDim ⟨2, ![1, n]⟩ ![1])
    (b : (⟨1, ![n]⟩ : Shape).Idx → α) (c : Fin n) :
    broadcastInDim ⟨2, ![1, n]⟩ ![1] h b (ix2 (0 : Fin 1) c) = b (ix1 c) := by
  refine broadcastInDim_apply ![1] h b (ix2 (0 : Fin 1) c) (ix1 c) ?_
  intro a
  match a with
  | ⟨0, _⟩ =>
    show c.val = if n = 1 then 0 else c.val
    split_ifs with hn
    · have := c.isLt; omega
    · rfl

/-- That row repeated down `m` rows reads, at `(r, c)`, the vector's entry `c`. -/
theorem vecRows_apply {α : Type} {m n : Nat} (h1 : (⟨2, ![1, n]⟩ : Shape).BroadcastsInDim ⟨2, ![m, n]⟩ ![0, 1])
    (h2 : (⟨1, ![n]⟩ : Shape).BroadcastsInDim ⟨2, ![1, n]⟩ ![1]) (b : (⟨1, ![n]⟩ : Shape).Idx → α) (r : Fin m) (c : Fin n) :
    broadcastInDim ⟨2, ![m, n]⟩ ![0, 1] h1 (broadcastInDim ⟨2, ![1, n]⟩ ![1] h2 b) (ix2 r c) = b (ix1 c) := by
  rw [broadcastInDim_oneRow_apply, vecRow_apply]

/-- The product with a transposed weight matrix at `(a, b)`: `∑ c, A (a, c) · W (b, c)`. -/
theorem dotT_apply {m k n : Nat} {φ₁ φ₂ : FTy}
    (w : DotDims.WF ⟨2, ![m, k]⟩ ⟨2, ![k, n]⟩ ⟨2, ![m, n]⟩ [1] [0] [0] [1] [] [])
    (ht : (⟨2, ![n, k]⟩ : Shape).Transposes [1, 0] ⟨2, ![k, n]⟩)
    (prec : Option ContractPrecision) (A : FVec Ideal ⟨2, ![m, k]⟩ φ₁) (W : FVec Ideal ⟨2, ![n, k]⟩ φ₂)
    (a : Fin m) (b : Fin n) :
    Host.dotGeneral (F := Ideal) (⟨[1], [0], [0], [1], [], [], w⟩ : DotDims _ _ _) prec A (transpose ⟨2, ![k, n]⟩ [1, 0] W ht) (ix2 a b)
      = ∑ c : Fin k, A (ix2 a c) * W (ix2 b c) := by
  show FloatOps.dotGeneral _ prec _ A _ (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2, transpose_ix2_apply]

/-- The sum over the rows from an initial value, at column `c`. -/
theorem colSum_apply {m n : Nat} {φ : FTy} {u : Shape} (X : FVec Ideal ⟨2, ![m, n]⟩ φ) (init : u.Idx → Ideal φ)
    (h' : (⟨2, ![m, n]⟩ : Shape).ReducesTo [0] ⟨1, ![n]⟩) (hu : 0 < u.numel) (c : Fin n) :
    Host.reduceAdd X init h' hu (ix1 c) = init (Shape.Idx.first hu) + ∑ r : Fin m, X (ix2 r c) := by
  have h : (⟨2, ![m, n]⟩ : Shape).Reduces [0] ⟨1, ![n]⟩ := ⟨h'.1, Nat.one_pos, h'.2⟩
  show Ideal.hostReduceAdd h' X _ (ix1 c) = _
  rw [Ideal.hostReduceAdd_single h' h]
  refine congrArg (_ + ·) (Finset.sum_congr rfl fun k _ => ?_)
  refine congrArg X (funext fun a => Fin.ext ?_)
  match a with
  | ⟨0, _⟩ => rfl
  | ⟨1, _⟩ => rfl

/-- The node count is positive. -/
theorem nodes_pos : (0 : EReal) < Cert.Spec.nodesF := by
  rw [show Cert.Spec.nodesF = ((100000 : ℝ) : EReal) from Cert.LibFinite.ofBits_1e5]
  exact EReal.coe_pos.mpr (by norm_num)

/-- The node count minus a converted integer zero is the node count. -/
theorem nodes_sub_zero : Cert.Spec.nodesF - (((0#32 : BitVec 32).toInt : ℝ) : EReal) = Cert.Spec.nodesF := by
  rw [show (0#32 : BitVec 32).toInt = 0 from rfl, Int.cast_zero, EReal.coe_zero, sub_zero]

/-- The guard "the divisor is above zero" holds. -/
theorem nodes_guard : Ideal.cmp .ogt Cert.Spec.nodesF (0 : EReal) = 1#1 := by
  unfold Ideal.cmp
  simp [nodes_pos]

/-- A scalar constant spread over any shape reads, everywhere, the extended real its word denotes. -/
theorem scalarConst_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]
  rfl

/-- The host's reciprocal square root at an index is the reciprocal square root of the entry. -/
theorem hostRsqrt_apply {s : Shape} {φ : FTy} (x : FVec Ideal s φ) (i : s.Idx) : Host.rsqrt x i = Ideal.rsqrt (x i) := rfl

/-- The variance's divisor, the node count minus a converted integer zero, is the node count. -/
theorem divisor_apply :
    (subf (F := Ideal) (constant (F := Ideal) ⟨0, ![]⟩ .f32 0x47C35000#32) (sitofp (F := Ideal) .f32 (constantI ⟨0, ![]⟩ 32 0#32))) ix0
      = Cert.Spec.nodesF := by
  show Cert.Spec.nodesF - (((0#32 : BitVec 32).toInt : ℝ) : EReal) = _
  exact nodes_sub_zero

/-- The variance's guard, "the divisor is above zero", is the bit one. -/
theorem guard_apply :
    (cmpf (F := Ideal) .ogt (subf (F := Ideal) (constant (F := Ideal) ⟨0, ![]⟩ .f32 0x47C35000#32) (sitofp (F := Ideal) .f32 (constantI ⟨0, ![]⟩ 32 0#32)))
      (constant (F := Ideal) ⟨0, ![]⟩ .f32 0x00000000#32)) ix0 = 1#1 := by
  show Ideal.cmp .ogt (Cert.Spec.nodesF - (((0#32 : BitVec 32).toInt : ℝ) : EReal)) (Ideal.ofBits .f32 0x00000000#32) = 1#1
  rw [nodes_sub_zero, Ideal.ofBits_zero_f32, nodes_guard]

end Cert.ReferenceIdeal.RefLib

end
-- ==== Proof.RefRead64.lean ====
/-
  The reference's layer operations at 64 output features, read at one entry, over the extended reals.

  The pre-activation at node `r` and feature `c` is the aggregate's row times the first weight's row `c`, plus the
  bias, plus the node's own row times the second weight's row `c` (each product is against the transposed weight, so
  the weight is read at (output, input)). The column mean is the column's sum from zero divided by the node count.
  The variance routine forms its own column mean in a one-row layout, subtracts it, squares, sums from zero and divides
  by the node count minus a converted integer zero, which is the node count; its guard (that divisor above zero) holds,
  so the not-a-number branch is never taken. The normalisation, the cut at zero and the cut after adding a residual are
  pointwise, a vector operand being read at the entry's column.
-/
import proofs.«150348_j62612033241213_2_alg».proof.Proof.RefTerm
import proofs.«150348_j62612033241213_2_alg».proof.Proof.RefReadLib

noncomputable section

open scoped BigOperators

namespace Cert.ReferenceIdeal.RefValue

open Cert.ReferenceIdeal Cert.ReferenceIdeal.Gen Idealize.ShloMosaic Idealize.ShloMosaic.ValueIdx Cert.ReferenceIdeal.RefLib

/-- One of the pre-activation's two products at an entry. -/
theorem rd64_dot_apply (A : FVec Ideal S100000x32 .f32) (W : FVec Ideal S64x32 .f32) (r : Fin 100000) (c : Fin 64) :
    Host.dotGeneral (F := Ideal) dot_S100000x32_S32x64_S100000x64_1_0_0_1_n_n none A (transpose S32x64 [1, 0] W Facts₀.transposes_S64x32_S32x64_1_0) (ix2 r c)
      = ∑ k : Fin 32, A (ix2 r k) * W (ix2 c k) :=
  dotT_apply Facts₀.dot_S100000x32_S32x64_S100000x64_1_0_0_1_n_n_wf Facts₀.transposes_S64x32_S32x64_1_0 none A W r c

/-- The pre-activation at an entry: aggregate times first weight, plus bias, plus features times second weight. -/
theorem preT1_apply (agg x : FVec Ideal S100000x32 .f32) (wrel : FVec Ideal S64x32 .f32) (b : FVec Ideal S64 .f32) (wroot : FVec Ideal S64x32 .f32)
    (r : Fin 100000) (c : Fin 64) :
    preT1 agg x wrel b wroot (ix2 r c)
      = Cert.Spec.linMid (fun r k => agg (ix2 r k)) (fun r k => x (ix2 r k)) (fun j k => wrel (ix2 j k)) (fun j k => wroot (ix2 j k))
          (fun j => b (ix1 j)) r c := by
  unfold preT1
  rw [addf_apply, addf_apply, rd64_dot_apply, rd64_dot_apply, vecRows_apply]
  rfl

/-- A column's sum from the zero word is the column sum from zero. -/
theorem rd64_sum_apply (p : FVec Ideal S100000x64 .f32) (c : Fin 64) :
    Host.reduceAdd (F := Ideal) p (constant (F := Ideal) S_ .f32 0x00000000#32) Facts₀.reducesTo_S100000x64_S64_d0 Facts₀.h_S_ (ix1 c)
      = Cert.Spec.colSum (fun r k => p (ix2 r k)) c := by
  rw [colSum_apply, constant_apply, Ideal.ofBits_zero_f32]
  rfl

/-- The column mean at a column. -/
theorem meanT64_apply (p : FVec Ideal S100000x64 .f32) (c : Fin 64) :
    meanT64 p (ix1 c) = Cert.Spec.meanOf (Cert.Spec.colSum (fun r k => p (ix2 r k))) c := by
  unfold meanT64
  rw [hostDivf_apply, rd64_sum_apply, scalarConst_apply]
  rfl

/-- The deviation from the column mean at an entry. -/
theorem rd64_cent_apply (p : FVec Ideal S100000x64 .f32) (r : Fin 100000) (c : Fin 64) :
    centT64 p (ix2 r c) = p (ix2 r c) - Cert.Spec.meanOf (Cert.Spec.colSum (fun r k => p (ix2 r k))) c := by
  unfold centT64
  rw [subf_apply, broadcastInDim_oneRow_apply, hostDivf_apply, vecRow_apply, rd64_sum_apply, scalarConst_apply]
  rfl

/-- The column variance at a column: the mean of the squared deviations from the column mean. -/
theorem varT64_apply (p : FVec Ideal S100000x64 .f32) (c : Fin 64) :
    varT64 p (ix1 c)
      = Cert.Spec.varCentred (fun r k => p (ix2 r k)) (Cert.Spec.meanOf (Cert.Spec.colSum (fun r k => p (ix2 r k)))) c := by
  unfold varT64
  rw [select_apply, broadcastInDim_scalar_apply, guard_apply, select_one, hostDivf_apply, broadcastInDim_scalar_apply,
    divisor_apply, colSum_apply, constant_apply, Ideal.ofBits_zero_f32]
  unfold Cert.Spec.varCentred Cert.Spec.colSum
  refine congrArg (fun s => Ideal.div (0 + s) Cert.Spec.nodesF) (Finset.sum_congr rfl fun r _ => ?_)
  rw [mulf_apply, rd64_cent_apply]
  rfl

/-- The normalisation at an entry. -/
theorem bnT64_apply (p : FVec Ideal S100000x64 .f32) (mu var g be : FVec Ideal S64 .f32) (r : Fin 100000) (c : Fin 64) :
    bnT64 p mu var g be (ix2 r c)
      = Cert.Spec.bn (fun r k => p (ix2 r k)) (fun c => mu (ix1 c)) (fun c => var (ix1 c)) (fun c => g (ix1 c)) (fun c => be (ix1 c)) r c := by
  unfold bnT64
  rw [addf_apply, mulf_apply, mulf_apply, subf_apply, vecRows_apply, vecRows_apply, vecRows_apply, vecRows_apply,
    hostRsqrt_apply, addf_apply, scalarConst_apply]
  rfl

/-- The cut at zero at an entry. -/
theorem reluT64_apply (y : FVec Ideal S100000x64 .f32) (r : Fin 100000) (c : Fin 64) :
    reluT64 y (ix2 r c) = max (y (ix2 r c)) 0 := by
  unfold reluT64
  rw [maximumf_apply, scalarConst_apply, Ideal.ofBits_zero_f32]

/-- The cut at zero after adding a residual, at an entry. -/
theorem resReluT64_apply (y res : FVec Ideal S100000x64 .f32) (r : Fin 100000) (c : Fin 64) :
    resReluT64 y res (ix2 r c) = max (y (ix2 r c) + res (ix2 r c)) 0 := by
  unfold resReluT64
  rw [maximumf_apply, addf_apply, scalarConst_apply, Ideal.ofBits_zero_f32]

end Cert.ReferenceIdeal.RefValue

end
-- ==== Proof.RefRead128.lean ====
/-
  The reference's layer operations at 128 output features, read at one entry, over the extended reals.

  The pre-activation at node `r` and feature `c` is the aggregate's row times the first weight's row `c`, plus the
  bias, plus the node's own row times the second weight's row `c` (each product is against the transposed weight, so
  the weight is read at (output, input)). The column mean is the column's sum from zero divided by the node count.
  The variance routine forms its own column mean in a one-row layout, subtracts it, squares, sums from zero and divides
  by the node count minus a converted integer zero, which is the node count; its guard (that divisor above zero) holds,
  so the not-a-number branch is never taken. The normalisation, the cut at zero and the cut after adding a residual are
  pointwise, a vector operand being read at the entry's column.
-/
import proofs.«150348_j62612033241213_2_alg».proof.Proof.RefTerm
import proofs.«150348_j62612033241213_2_alg».proof.Proof.RefReadLib

noncomputable section

open scoped BigOperators

namespace Cert.ReferenceIdeal.RefValue

open Cert.ReferenceIdeal Cert.ReferenceIdeal.Gen Idealize.ShloMosaic Idealize.ShloMosaic.ValueIdx Cert.ReferenceIdeal.RefLib

/-- One of the pre-activation's two products at an entry. -/
theorem rd128_dot_apply (A : FVec Ideal S100000x64 .f32) (W : FVec Ideal S128x64 .f32) (r : Fin 100000) (c : Fin 128) :
    Host.dotGeneral (F := Ideal) dot_S100000x64_S64x128_S100000x128_1_0_0_1_n_n none A (transpose S64x128 [1, 0] W Facts₀.transposes_S128x64_S64x128_1_0) (ix2 r c)
      = ∑ k : Fin 64, A (ix2 r k) * W (ix2 c k) :=
  dotT_apply Facts₀.dot_S100000x64_S64x128_S100000x128_1_0_0_1_n_n_wf Facts₀.transposes_S128x64_S64x128_1_0 none A W r c

/-- The pre-activation at an entry: aggregate times first weight, plus bias, plus features times second weight. -/
theorem preT2_apply (agg x : FVec Ideal S100000x64 .f32) (wrel : FVec Ideal S128x64 .f32) (b : FVec Ideal S128 .f32) (wroot : FVec Ideal S128x64 .f32)
    (r : Fin 100000) (c : Fin 128) :
    preT2 agg x wrel b wroot (ix2 r c)
      = Cert.Spec.linMid (fun r k => agg (ix2 r k)) (fun r k => x (ix2 r k)) (fun j k => wrel (ix2 j k)) (fun j k => wroot (ix2 j k))
          (fun j => b (ix1 j)) r c := by
  unfold preT2
  rw [addf_apply, addf_apply, rd128_dot_apply, rd128_dot_apply, vecRows_apply]
  rfl

/-- A column's sum from the zero word is the column sum from zero. -/
theorem rd128_sum_apply (p : FVec Ideal S100000x128 .f32) (c : Fin 128) :
    Host.reduceAdd (F := Ideal) p (constant (F := Ideal) S_ .f32 0x00000000#32) Facts₀.reducesTo_S100000x128_S128_d0 Facts₀.h_S_ (ix1 c)
      = Cert.Spec.colSum (fun r k => p (ix2 r k)) c := by
  rw [colSum_apply, constant_apply, Ideal.ofBits_zero_f32]
  rfl

/-- The column mean at a column. -/
theorem meanT128_apply (p : FVec Ideal S100000x128 .f32) (c : Fin 128) :
    meanT128 p (ix1 c) = Cert.Spec.meanOf (Cert.Spec.colSum (fun r k => p (ix2 r k))) c := by
  unfold meanT128
  rw [hostDivf_apply, rd128_sum_apply, scalarConst_apply]
  rfl

/-- The deviation from the column mean at an entry. -/
theorem rd128_cent_apply (p : FVec Ideal S100000x128 .f32) (r : Fin 100000) (c : Fin 128) :
    centT128 p (ix2 r c) = p (ix2 r c) - Cert.Spec.meanOf (Cert.Spec.colSum (fun r k => p (ix2 r k))) c := by
  unfold centT128
  rw [subf_apply, broadcastInDim_oneRow_apply, hostDivf_apply, vecRow_apply, rd128_sum_apply, scalarConst_apply]
  rfl

/-- The column variance at a column: the mean of the squared deviations from the column mean. -/
theorem varT128_apply (p : FVec Ideal S100000x128 .f32) (c : Fin 128) :
    varT128 p (ix1 c)
      = Cert.Spec.varCentred (fun r k => p (ix2 r k)) (Cert.Spec.meanOf (Cert.Spec.colSum (fun r k => p (ix2 r k)))) c := by
  unfold varT128
  rw [select_apply, broadcastInDim_scalar_apply, guard_apply, select_one, hostDivf_apply, broadcastInDim_scalar_apply,
    divisor_apply, colSum_apply, constant_apply, Ideal.ofBits_zero_f32]
  unfold Cert.Spec.varCentred Cert.Spec.colSum
  refine congrArg (fun s => Ideal.div (0 + s) Cert.Spec.nodesF) (Finset.sum_congr rfl fun r _ => ?_)
  rw [mulf_apply, rd128_cent_apply]
  rfl

/-- The normalisation at an entry. -/
theorem bnT128_apply (p : FVec Ideal S100000x128 .f32) (mu var g be : FVec Ideal S128 .f32) (r : Fin 100000) (c : Fin 128) :
    bnT128 p mu var g be (ix2 r c)
      = Cert.Spec.bn (fun r k => p (ix2 r k)) (fun c => mu (ix1 c)) (fun c => var (ix1 c)) (fun c => g (ix1 c)) (fun c => be (ix1 c)) r c := by
  unfold bnT128
  rw [addf_apply, mulf_apply, mulf_apply, subf_apply, vecRows_apply, vecRows_apply, vecRows_apply, vecRows_apply,
    hostRsqrt_apply, addf_apply, scalarConst_apply]
  rfl

/-- The cut at zero at an entry. -/
theorem reluT128_apply (y : FVec Ideal S100000x128 .f32) (r : Fin 100000) (c : Fin 128) :
    reluT128 y (ix2 r c) = max (y (ix2 r c)) 0 := by
  unfold reluT128
  rw [maximumf_apply, scalarConst_apply, Ideal.ofBits_zero_f32]

end Cert.ReferenceIdeal.RefValue

end
-- ==== Proof.RefReadDot.lean ====
/-
  Matrix products and bias rows of the reference, read at one entry.

  A product of an m × k matrix by a k × n matrix (the host's general dot with one contracted axis) read at (a, b) is
  the sum over the contracted coordinate c of A (a, c) · B (c, b): the contraction's index set has one axis of extent
  k, and the sum over it is re-indexed through that axis's coordinate. A weight stored output-feature by
  input-feature enters transposed, so B (c, b) is the stored weight at (b, c). A bias vector is first laid out as one
  row and the row is then repeated down all rows, so at (r, c) it reads the vector at c.

  From these: "features times transposed weight plus bias" at (r, c) is the affine map of the specification, and
  "(aggregate times transposed first weight plus bias) plus features times transposed second weight" at (r, c) is
  the specification's pre-activation with the bias between the two products. Both are stated for any feature counts.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«150348_j62612033241213_2_alg».proof.Proof.Spec

noncomputable section

open scoped BigOperators

namespace Cert.ReferenceIdeal.RefValue

open Idealize.ShloMosaic Idealize.ShloMosaic.ValueIdx

/-- The host's product of an m × k by a k × n matrix at (a, b) is the sum over c of A (a, c) · B (c, b). -/
theorem dot_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A vector laid out as one row reads, at (0, t), the vector at t. -/
theorem vecRow_apply {α : Type} {n : Nat} (hb : (⟨1, ![n]⟩ : Shape).BroadcastsInDim ⟨2, ![1, n]⟩ ![1])
    (b : (⟨1, ![n]⟩ : Shape).Idx → α) (t : Fin n) :
    broadcastInDim ⟨2, ![1, n]⟩ ![1] hb b (ix2 (0 : Fin 1) t) = b (ix1 t) := by
  refine broadcastInDim_apply ![1] hb b (ix2 (0 : Fin 1) t) (ix1 t) ?_
  intro a
  fin_cases a
  show t.val = if n = 1 then 0 else t.val
  split_ifs with hn
  · have := t.isLt; omega
  · rfl

/-- A vector laid out as one row and repeated down m rows reads, at (r, t), the vector at t. -/
theorem biasRows_apply {α : Type} {m n : Nat} (hb1 : (⟨1, ![n]⟩ : Shape).BroadcastsInDim ⟨2, ![1, n]⟩ ![1])
    (hb2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] hb2 (broadcastInDim ⟨2, ![1, n]⟩ ![1] hb1 b) (ix2 r t) = b (ix1 t) := by
  rw [broadcastInDim_oneRow_apply, vecRow_apply]

/-- Features times a transposed weight at (r, c): the sum over k of y (r, k) · W (c, k). -/
theorem dotT_apply {m di dout : Nat}
    (w : DotDims.WF ⟨2, ![m, di]⟩ ⟨2, ![di, dout]⟩ ⟨2, ![m, dout]⟩ [1] [0] [0] [1] [] [])
    (ht : (⟨2, ![dout, di]⟩ : Shape).Transposes [1, 0] ⟨2, ![di, dout]⟩)
    (y : FVec Ideal ⟨2, ![m, di]⟩ .f32) (W : FVec Ideal ⟨2, ![dout, di]⟩ .f32) (r : Fin m) (c : Fin dout) :
    Host.dotGeneral (F := Ideal) (⟨[1], [0], [0], [1], [], [], w⟩ : DotDims ⟨2, ![m, di]⟩ ⟨2, ![di, dout]⟩ ⟨2, ![m, dout]⟩) none y
        (transpose ⟨2, ![di, dout]⟩ [1, 0] W ht) (ix2 r c)
      = ∑ k : Fin di, y (ix2 r k) * W (ix2 c k) := by
  rw [dot_plain_apply]
  refine Finset.sum_congr rfl fun k _ => ?_
  rw [transpose_ix2_apply]

/-- Features times a transposed weight plus a bias, at (r, c): the specification's affine map. -/
theorem affineT_apply {di dout : Nat}
    (w : DotDims.WF ⟨2, ![100000, di]⟩ ⟨2, ![di, dout]⟩ ⟨2, ![100000, dout]⟩ [1] [0] [0] [1] [] [])
    (ht : (⟨2, ![dout, di]⟩ : Shape).Transposes [1, 0] ⟨2, ![di, dout]⟩)
    (hb1 : (⟨1, ![dout]⟩ : Shape).BroadcastsInDim ⟨2, ![1, dout]⟩ ![1])
    (hb2 : (⟨2, ![1, dout]⟩ : Shape).BroadcastsInDim ⟨2, ![100000, dout]⟩ ![0, 1])
    (y : FVec Ideal ⟨2, ![100000, di]⟩ .f32) (W : FVec Ideal ⟨2, ![dout, di]⟩ .f32) (b : FVec Ideal ⟨1, ![dout]⟩ .f32)
    (r : Fin 100000) (c : Fin dout) :
    addf (F := Ideal)
        (Host.dotGeneral (F := Ideal) (⟨[1], [0], [0], [1], [], [], w⟩ : DotDims ⟨2, ![100000, di]⟩ ⟨2, ![di, dout]⟩ ⟨2, ![100000, dout]⟩) none y
          (transpose ⟨2, ![di, dout]⟩ [1, 0] W ht))
        (broadcastInDim ⟨2, ![100000, dout]⟩ ![0, 1] hb2 (broadcastInDim ⟨2, ![1, dout]⟩ ![1] hb1 b)) (ix2 r c)
      = Cert.Spec.affine (fun r k => y (ix2 r k)) (fun j k => W (ix2 j k)) (fun j => b (ix1 j)) r c := by
  rw [addf_apply, dotT_apply, biasRows_apply]
  rfl

/-- (Aggregate times transposed first weight plus bias) plus features times transposed second weight, at (r, c):
    the specification's pre-activation with the bias between the two products. -/
theorem linMidT_apply {di dout : Nat}
    (w : DotDims.WF ⟨2, ![100000, di]⟩ ⟨2, ![di, dout]⟩ ⟨2, ![100000, dout]⟩ [1] [0] [0] [1] [] [])
    (ht : (⟨2, ![dout, di]⟩ : Shape).Transposes [1, 0] ⟨2, ![di, dout]⟩)
    (hb1 : (⟨1, ![dout]⟩ : Shape).BroadcastsInDim ⟨2, ![1, dout]⟩ ![1])
    (hb2 : (⟨2, ![1, dout]⟩ : Shape).BroadcastsInDim ⟨2, ![100000, dout]⟩ ![0, 1])
    (agg h : FVec Ideal ⟨2, ![100000, di]⟩ .f32) (wrel wroot : FVec Ideal ⟨2, ![dout, di]⟩ .f32) (b : FVec Ideal ⟨1, ![dout]⟩ .f32)
    (r : Fin 100000) (c : Fin dout) :
    addf (F := Ideal)
        (addf (F := Ideal)
          (Host.dotGeneral (F := Ideal) (⟨[1], [0], [0], [1], [], [], w⟩ : DotDims ⟨2, ![100000, di]⟩ ⟨2, ![di, dout]⟩ ⟨2, ![100000, dout]⟩) none agg
            (transpose ⟨2, ![di, dout]⟩ [1, 0] wrel ht))
          (broadcastInDim ⟨2, ![100000, dout]⟩ ![0, 1] hb2 (broadcastInDim ⟨2, ![1, dout]⟩ ![1] hb1 b)))
        (Host.dotGeneral (F := Ideal) (⟨[1], [0], [0], [1], [], [], w⟩ : DotDims ⟨2, ![100000, di]⟩ ⟨2, ![di, dout]⟩ ⟨2, ![100000, dout]⟩) none h
          (transpose ⟨2, ![di, dout]⟩ [1, 0] wroot ht)) (ix2 r c)
      = Cert.Spec.linMid (fun r k => agg (ix2 r k)) (fun r k => h (ix2 r k)) (fun j k => wrel (ix2 j k))
          (fun j k => wroot (ix2 j k)) (fun j => b (ix1 j)) r c := by
  rw [addf_apply, affineT_apply, dotT_apply]
  rfl

end Cert.ReferenceIdeal.RefValue

end
-- ==== Proof.RefReadCls.lean ====
/-
  The reference's third pre-activation and its classifier, read at one entry.

  The third layer's pre-activation (128 features in, 64 out) at node r and feature c is the aggregate's row times
  the first weight's row c, plus the bias at c, plus the node's own row times the second weight's row c. The
  classifier at node r and class j is: the 64 features times the first classifier weight plus its bias (32 hidden
  features), cut at zero, times the second classifier weight plus its bias (2 classes).
-/
import proofs.«150348_j62612033241213_2_alg».proof.Proof.RefTerm
import proofs.«150348_j62612033241213_2_alg».proof.Proof.RefReadDot

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The third layer's pre-activation at (r, c). -/
theorem preT3_apply (agg h : FVec Ideal S100000x128 .f32) (wrel : FVec Ideal S64x128 .f32) (b : FVec Ideal S64 .f32)
    (wroot : FVec Ideal S64x128 .f32) (r : Fin 100000) (c : Fin 64) :
    preT3 agg h wrel b wroot (ix2 r c)
      = Cert.Spec.linMid (fun r k => agg (ix2 r k)) (fun r k => h (ix2 r k)) (fun j k => wrel (ix2 j k))
          (fun j k => wroot (ix2 j k)) (fun j => b (ix1 j)) r c :=
  linMidT_apply (di := 128) (dout := 64) dot_S100000x128_S128x64_S100000x64_1_0_0_1_n_n_wf transposes_S64x128_S128x64_1_0
    bcast_S64_S1x64_1 bcast_S1x64_S100000x64_0_1 agg h wrel wroot b r c

/-- The classifier at (r, j). -/
theorem clsT_apply (h3 : FVec Ideal S100000x64 .f32) (wc1 : FVec Ideal S32x64 .f32) (bc1 : FVec Ideal S32 .f32)
    (wc2 : FVec Ideal S2x32 .f32) (bc2 : FVec Ideal S2 .f32) (r : Fin 100000) (j : Fin 2) :
    clsT h3 wc1 bc1 wc2 bc2 (ix2 r j)
      = Cert.Spec.classify (fun r k => h3 (ix2 r k)) (fun j k => wc1 (ix2 j k)) (fun j => bc1 (ix1 j))
          (fun j k => wc2 (ix2 j k)) (fun j => bc2 (ix1 j)) r j := by
  refine (affineT_apply (di := 32) (dout := 2) dot_S100000x32_S32x2_S100000x2_1_0_0_1_n_n_wf transposes_S2x32_S32x2_1_0
    bcast_S2_S1x2_1 bcast_S1x2_S100000x2_0_1 _ wc2 bc2 r j).trans ?_
  unfold Cert.Spec.classify
  refine congrArg (fun y : Fin 100000 → Fin 32 → EReal => Cert.Spec.affine y (fun j k => wc2 (ix2 j k)) (fun j => bc2 (ix1 j)) r j)
    (funext fun r' => funext fun k => ?_)
  rw [maximumf_apply]
  exact congrArg₂ max
    (affineT_apply (di := 64) (dout := 32) dot_S100000x64_S64x32_S100000x32_1_0_0_1_n_n_wf transposes_S32x64_S64x32_1_0
      bcast_S32_S1x32_1 bcast_S1x32_S100000x32_0_1 h3 wc1 bc1 r' k)
    Ideal.ofBits_zero_f32

end Cert.ReferenceIdeal.RefValue

end
-- ==== Proof.RefRead.lean ====
/-
  The reference network read at one entry: its result at node `r` and class `j` is the network of the specification,
  in the reference's arrangement, over the three neighbour aggregations taken as they are printed.

  Each layer is read as a function of literal coordinates. The pre-activation is the specification's (bias between
  the two products); its column mean and variance are the specification's mean of the column sum and mean of the
  squared deviations; normalisation and the cut at zero are pointwise: so a layer's table, read by coordinates, is the
  specification's layer of the previous table read by coordinates. The aggregation enters only through the fact that a
  table is the table of its own entries. The last layer adds the first layer's output before the cut and applies the
  two-layer classifier. The three layers are then chained as functions.
-/
import proofs.«150348_j62612033241213_2_alg».proof.Proof.RefTerm
import proofs.«150348_j62612033241213_2_alg».proof.Proof.RefRead64
import proofs.«150348_j62612033241213_2_alg».proof.Proof.RefRead128
import proofs.«150348_j62612033241213_2_alg».proof.Proof.RefReadCls

noncomputable section

open scoped BigOperators

namespace Cert.ReferenceIdeal.RefValue

open Cert.ReferenceIdeal Cert.ReferenceIdeal.Gen Idealize.ShloMosaic Idealize.ShloMosaic.ValueIdx

/-- A table is the table of its own entries read by coordinates. -/
theorem rd_tab_eta {a b : Nat} {α : Type} (A : (⟨2, ![a, b]⟩ : Shape).Idx → α) :
    (fun i => (fun r k => A (ix2 r k)) (i 0) (i 1)) = A := by
  funext i
  exact congrArg A (eq_ix2 i).symm

/-- Normalisation with the table's own mean and variance, then the cut at zero, at 64 features: when the table read by
    coordinates is `L`, the entry is the specification's normalised and cut entry of `L`. -/
theorem rd_bnRelu64 (P : FVec Ideal S100000x64 .f32) (g be : FVec Ideal S64 .f32) (L : Fin 100000 → Fin 64 → EReal)
    (hP : (fun r k => P (ix2 r k)) = L) (r : Fin 100000) (c : Fin 64) :
    reluT64 (bnT64 P (meanT64 P) (varT64 P) g be) (ix2 r c)
      = Cert.Spec.bnRelu L (Cert.Spec.meanOf (Cert.Spec.colSum L)) (Cert.Spec.varCentred L (Cert.Spec.meanOf (Cert.Spec.colSum L)))
          (fun j => g (ix1 j)) (fun j => be (ix1 j)) r c := by
  subst hP
  have hM : (fun c => meanT64 P (ix1 c)) = Cert.Spec.meanOf (Cert.Spec.colSum (fun r k => P (ix2 r k))) :=
    funext fun c => meanT64_apply P c
  have hV : (fun c => varT64 P (ix1 c))
      = Cert.Spec.varCentred (fun r k => P (ix2 r k)) (Cert.Spec.meanOf (Cert.Spec.colSum (fun r k => P (ix2 r k)))) :=
    funext fun c => varT64_apply P c
  rw [reluT64_apply, bnT64_apply, hM, hV]
  rfl

/-- The same at 128 features. -/
theorem rd_bnRelu128 (P : FVec Ideal S100000x128 .f32) (g be : FVec Ideal S128 .f32) (L : Fin 100000 → Fin 128 → EReal)
    (hP : (fun r k => P (ix2 r k)) = L) (r : Fin 100000) (c : Fin 128) :
    reluT128 (bnT128 P (meanT128 P) (varT128 P) g be) (ix2 r c)
      = Cert.Spec.bnRelu L (Cert.Spec.meanOf (Cert.Spec.colSum L)) (Cert.Spec.varCentred L (Cert.Spec.meanOf (Cert.Spec.colSum L)))
          (fun j => g (ix1 j)) (fun j => be (ix1 j)) r c := by
  subst hP
  have hM : (fun c => meanT128 P (ix1 c)) = Cert.Spec.meanOf (Cert.Spec.colSum (fun r k => P (ix2 r k))) :=
    funext fun c => meanT128_apply P c
  have hV : (fun c => varT128 P (ix1 c))
      = Cert.Spec.varCentred (fun r k => P (ix2 r k)) (Cert.Spec.meanOf (Cert.Spec.colSum (fun r k => P (ix2 r k)))) :=
    funext fun c => varT128_apply P c
  rw [reluT128_apply, bnT128_apply, hM, hV]
  rfl

/-- Normalisation with the table's own mean and variance, a residual added, then the cut at zero, at 64 features. -/
theorem rd_resRelu64 (P : FVec Ideal S100000x64 .f32) (g be : FVec Ideal S64 .f32) (res : FVec Ideal S100000x64 .f32)
    (L : Fin 100000 → Fin 64 → EReal) (hP : (fun r k => P (ix2 r k)) = L) (r : Fin 100000) (c : Fin 64) :
    resReluT64 (bnT64 P (meanT64 P) (varT64 P) g be) res (ix2 r c)
      = Cert.Spec.resRelu L (Cert.Spec.meanOf (Cert.Spec.colSum L)) (Cert.Spec.varCentred L (Cert.Spec.meanOf (Cert.Spec.colSum L)))
          (fun j => g (ix1 j)) (fun j => be (ix1 j)) (fun r k => res (ix2 r k)) r c := by
  subst hP
  have hM : (fun c => meanT64 P (ix1 c)) = Cert.Spec.meanOf (Cert.Spec.colSum (fun r k => P (ix2 r k))) :=
    funext fun c => meanT64_apply P c
  have hV : (fun c => varT64 P (ix1 c))
      = Cert.Spec.varCentred (fun r k => P (ix2 r k)) (Cert.Spec.meanOf (Cert.Spec.colSum (fun r k => P (ix2 r k)))) :=
    funext fun c => varT64_apply P c
  rw [resReluT64_apply, bnT64_apply, hM, hV]
  rfl

/-- The first layer's table, read by coordinates, is the specification's layer of the input features. -/
theorem layerT1_fun (x : FVec Ideal S100000x32 .f32) (ei : IVec S2x1600000 32) (wrel : FVec Ideal S64x32 .f32) (b : FVec Ideal S64 .f32)
    (wroot : FVec Ideal S64x32 .f32) (g be : FVec Ideal S64 .f32) :
    (fun r c => layerT1 x ei wrel b wroot g be (ix2 r c))
      = Cert.Spec.layerR (fun f r k => aggT1 (fun i => f (i 0) (i 1)) ei (ix2 r k)) (fun r k => x (ix2 r k))
          (fun j k => wrel (ix2 j k)) (fun j k => wroot (ix2 j k)) (fun j => b (ix1 j)) (fun j => g (ix1 j)) (fun j => be (ix1 j)) := by
  have hP : (fun r k => preT1 (aggT1 x ei) x wrel b wroot (ix2 r k))
      = Cert.Spec.linMid ((fun f r k => aggT1 (fun i => f (i 0) (i 1)) ei (ix2 r k)) (fun r k => x (ix2 r k))) (fun r k => x (ix2 r k))
          (fun j k => wrel (ix2 j k)) (fun j k => wroot (ix2 j k)) (fun j => b (ix1 j)) := by
    funext r k
    rw [preT1_apply]
    exact congrArg (fun A : FVec Ideal S100000x32 .f32 => Cert.Spec.linMid (fun r k => aggT1 A ei (ix2 r k)) (fun r k => x (ix2 r k))
      (fun j k => wrel (ix2 j k)) (fun j k => wroot (ix2 j k)) (fun j => b (ix1 j)) r k) (rd_tab_eta x).symm
  funext r c
  exact rd_bnRelu64 (preT1 (aggT1 x ei) x wrel b wroot) g be _ hP r c

/-- The second layer's table, read by coordinates, is the specification's layer of the first layer's table. -/
theorem layerT2_fun (h : FVec Ideal S100000x64 .f32) (ei : IVec S2x1600000 32) (wrel : FVec Ideal S128x64 .f32) (b : FVec Ideal S128 .f32)
    (wroot : FVec Ideal S128x64 .f32) (g be : FVec Ideal S128 .f32) :
    (fun r c => layerT2 h ei wrel b wroot g be (ix2 r c))
      = Cert.Spec.layerR (fun f r k => aggT2 (fun i => f (i 0) (i 1)) ei (ix2 r k)) (fun r k => h (ix2 r k))
          (fun j k => wrel (ix2 j k)) (fun j k => wroot (ix2 j k)) (fun j => b (ix1 j)) (fun j => g (ix1 j)) (fun j => be (ix1 j)) := by
  have hP : (fun r k => preT2 (aggT2 h ei) h wrel b wroot (ix2 r k))
      = Cert.Spec.linMid ((fun f r k => aggT2 (fun i => f (i 0) (i 1)) ei (ix2 r k)) (fun r k => h (ix2 r k))) (fun r k => h (ix2 r k))
          (fun j k => wrel (ix2 j k)) (fun j k => wroot (ix2 j k)) (fun j => b (ix1 j)) := by
    funext r k
    rw [preT2_apply]
    exact congrArg (fun A : FVec Ideal S100000x64 .f32 => Cert.Spec.linMid (fun r k => aggT2 A ei (ix2 r k)) (fun r k => h (ix2 r k))
      (fun j k => wrel (ix2 j k)) (fun j k => wroot (ix2 j k)) (fun j => b (ix1 j)) r k) (rd_tab_eta h).symm
  funext r c
  exact rd_bnRelu128 (preT2 (aggT2 h ei) h wrel b wroot) g be _ hP r c

/-- The result's table, read by coordinates, is the specification's last layer and classifier of the second and first
    layers' tables. -/
theorem layerT3_fun (h2 : FVec Ideal S100000x128 .f32) (h1 : FVec Ideal S100000x64 .f32) (ei : IVec S2x1600000 32) (ew : FVec Ideal S1600000 .f32)
    (wrel : FVec Ideal S64x128 .f32) (b : FVec Ideal S64 .f32) (wroot : FVec Ideal S64x128 .f32) (g be : FVec Ideal S64 .f32)
    (wc1 : FVec Ideal S32x64 .f32) (bc1 : FVec Ideal S32 .f32) (wc2 : FVec Ideal S2x32 .f32) (bc2 : FVec Ideal S2 .f32) :
    (fun r j => layerT3 h2 h1 ei ew wrel b wroot g be wc1 bc1 wc2 bc2 (ix2 r j))
      = Cert.Spec.headR (fun f r k => aggT3 (fun i => f (i 0) (i 1)) ei ew (ix2 r k)) (fun r k => h2 (ix2 r k))
          (fun j k => wrel (ix2 j k)) (fun j k => wroot (ix2 j k)) (fun j => b (ix1 j)) (fun j => g (ix1 j)) (fun j => be (ix1 j))
          (fun r k => h1 (ix2 r k))
          (fun j k => wc1 (ix2 j k)) (fun j => bc1 (ix1 j)) (fun j k => wc2 (ix2 j k)) (fun j => bc2 (ix1 j)) := by
  have hP : (fun r k => preT3 (aggT3 h2 ei ew) h2 wrel b wroot (ix2 r k))
      = Cert.Spec.linMid ((fun f r k => aggT3 (fun i => f (i 0) (i 1)) ei ew (ix2 r k)) (fun r k => h2 (ix2 r k))) (fun r k => h2 (ix2 r k))
          (fun j k => wrel (ix2 j k)) (fun j k => wroot (ix2 j k)) (fun j => b (ix1 j)) := by
    funext r k
    rw [preT3_apply]
    exact congrArg (fun A : FVec Ideal S100000x128 .f32 => Cert.Spec.linMid (fun r k => aggT3 A ei ew (ix2 r k)) (fun r k => h2 (ix2 r k))
      (fun j k => wrel (ix2 j k)) (fun j k => wroot (ix2 j k)) (fun j => b (ix1 j)) r k) (rd_tab_eta h2).symm
  funext r j
  show clsT (resReluT64 (bnT64 (preT3 (aggT3 h2 ei ew) h2 wrel b wroot) (meanT64 (preT3 (aggT3 h2 ei ew) h2 wrel b wroot))
    (varT64 (preT3 (aggT3 h2 ei ew) h2 wrel b wroot)) g be) h1) wc1 bc1 wc2 bc2 (ix2 r j) = _
  rw [clsT_apply]
  unfold Cert.Spec.headR
  refine congrArg (fun Y : Fin 100000 → Fin 64 → EReal =>
    Cert.Spec.classify Y (fun j k => wc1 (ix2 j k)) (fun j => bc1 (ix1 j)) (fun j k => wc2 (ix2 j k)) (fun j => bc2 (ix1 j)) r j)
    (funext fun r' => funext fun k => ?_)
  exact rd_resRelu64 (preT3 (aggT3 h2 ei ew) h2 wrel b wroot) g be h1 _ hP r' k

/-- The reference's result at node `r` and class `j` is the specification's network in the reference's arrangement. -/
theorem refOut_apply (x : FVec Ideal S100000x32 .f32) (ei : IVec S2x1600000 32) (ew : FVec Ideal S1600000 .f32)
    (w1rel : FVec Ideal S64x32 .f32) (b1 : FVec Ideal S64 .f32) (w1root : FVec Ideal S64x32 .f32)
    (w2rel : FVec Ideal S128x64 .f32) (b2 : FVec Ideal S128 .f32) (w2root : FVec Ideal S128x64 .f32)
    (w3rel : FVec Ideal S64x128 .f32) (b3 : FVec Ideal S64 .f32) (w3root : FVec Ideal S64x128 .f32)
    (g1 be1 : FVec Ideal S64 .f32) (g2 be2 : FVec Ideal S128 .f32) (g3 be3 : FVec Ideal S64 .f32)
    (wc1 : FVec Ideal S32x64 .f32) (bc1 : FVec Ideal S32 .f32) (wc2 : FVec Ideal S2x32 .f32) (bc2 : FVec Ideal S2 .f32)
    (r : Fin 100000) (j : Fin 2) :
    refOut x ei ew w1rel b1 w1root w2rel b2 w2root w3rel b3 w3root g1 be1 g2 be2 g3 be3 wc1 bc1 wc2 bc2 (ix2 r j)
      = Cert.Spec.netR (fun f r k => aggT1 (fun i => f (i 0) (i 1)) ei (ix2 r k)) (fun f r k => aggT2 (fun i => f (i 0) (i 1)) ei (ix2 r k))
          (fun f r k => aggT3 (fun i => f (i 0) (i 1)) ei ew (ix2 r k))
          (fun r k => x (ix2 r k)) (fun j k => w1rel (ix2 j k)) (fun j k => w1root (ix2 j k)) (fun j => b1 (ix1 j))
          (fun j k => w2rel (ix2 j k)) (fun j k => w2root (ix2 j k)) (fun j => b2 (ix1 j))
          (fun j k => w3rel (ix2 j k)) (fun j k => w3root (ix2 j k)) (fun j => b3 (ix1 j))
          (fun j => g1 (ix1 j)) (fun j => be1 (ix1 j)) (fun j => g2 (ix1 j)) (fun j => be2 (ix1 j)) (fun j => g3 (ix1 j)) (fun j => be3 (ix1 j))
          (fun j k => wc1 (ix2 j k)) (fun j => bc1 (ix1 j)) (fun j k => wc2 (ix2 j k)) (fun j => bc2 (ix1 j)) r j := by
  have e1 := layerT1_fun x ei w1rel b1 w1root g1 be1
  have e2 := (layerT2_fun (layerT1 x ei w1rel b1 w1root g1 be1) ei w2rel b2 w2root g2 be2).trans
    (congrArg (fun H : Fin 100000 → Fin 64 → EReal =>
      Cert.Spec.layerR (fun f r k => aggT2 (fun i => f (i 0) (i 1)) ei (ix2 r k)) H
        (fun j k => w2rel (ix2 j k)) (fun j k => w2root (ix2 j k)) (fun j => b2 (ix1 j)) (fun j => g2 (ix1 j)) (fun j => be2 (ix1 j))) e1)
  have e3 := (layerT3_fun (layerT2 (layerT1 x ei w1rel b1 w1root g1 be1) ei w2rel b2 w2root g2 be2) (layerT1 x ei w1rel b1 w1root g1 be1)
      ei ew w3rel b3 w3root g3 be3 wc1 bc1 wc2 bc2).trans
    (congrArg₂ (fun (H2 : Fin 100000 → Fin 128 → EReal) (H1 : Fin 100000 → Fin 64 → EReal) =>
      Cert.Spec.headR (fun f r k => aggT3 (fun i => f (i 0) (i 1)) ei ew (ix2 r k)) H2
        (fun j k => w3rel (ix2 j k)) (fun j k => w3root (ix2 j k)) (fun j => b3 (ix1 j)) (fun j => g3 (ix1 j)) (fun j => be3 (ix1 j)) H1
        (fun j k => wc1 (ix2 j k)) (fun j => bc1 (ix1 j)) (fun j k => wc2 (ix2 j k)) (fun j => bc2 (ix1 j))) e2 e1)
  exact congrFun (congrFun e3 r) j

end Cert.ReferenceIdeal.RefValue

end
-- ==== Proof.lean ====
/-
  The certificate of a three-layer graph convolution network with batch normalisation and a two-layer classifier: a
  kernel program of six TensorCore regions among host gathers and scatter-adds, against its plain reference.

  Frames. The kernel programs' frames are their generated frame certificates; the reference's frame is its run with the
  result dropped. The idealization rewrote nothing, so there is nothing to preserve.

  Value, at the ideal instance (floats are extended reals). The kernel program's run leaves in its result buffer the
  network in the kernel's arrangement: per layer the two products plus the bias added last, the sums over the nodes
  taken tile by tile through 80-row tables, the variance as the mean of the squares minus the square of the mean. The
  reference's run leaves the network in its own arrangement: the bias between the two products, one sum over all
  nodes, the variance as the mean of the squared deviations. The neighbour aggregations (gather, weight, scatter-add)
  are the same operations in both programs. Under the precondition every float argument is a table of reals, gathering
  and adding keep tables real, and on real tables the two arrangements of a layer agree — commutativity and
  associativity of the sum for the bias and the tiles, and for the variance the one identity that distributes a product
  over a sum, proved on the reals. Layer by layer the two networks are the same function of the arguments.
-/
import proofs.«150348_j62612033241213_2_alg».proof.Defs
import proofs.«150348_j62612033241213_2_alg».proof.Proof.Gen.Kernel
import proofs.«150348_j62612033241213_2_alg».proof.Proof.Gen.Kernel.Frame
import proofs.«150348_j62612033241213_2_alg».proof.Proof.Gen.KernelIdeal
import proofs.«150348_j62612033241213_2_alg».proof.Proof.Gen.KernelIdeal.Frame
import proofs.«150348_j62612033241213_2_alg».proof.Proof.Gen.ReferenceIdeal
import proofs.«150348_j62612033241213_2_alg».proof.Proof.Gen.Pre_finite_inputs
import proofs.«150348_j62612033241213_2_alg».proof.Proof.Stats0
import proofs.«150348_j62612033241213_2_alg».proof.Proof.Stats2
import proofs.«150348_j62612033241213_2_alg».proof.Proof.Stats4
import proofs.«150348_j62612033241213_2_alg».proof.Proof.Point1
import proofs.«150348_j62612033241213_2_alg».proof.Proof.Point3
import proofs.«150348_j62612033241213_2_alg».proof.Proof.Point5
import proofs.«150348_j62612033241213_2_alg».proof.Proof.KBridge
import proofs.«150348_j62612033241213_2_alg».proof.Proof.AggBridge
import proofs.«150348_j62612033241213_2_alg».proof.Proof.RefRun
import proofs.«150348_j62612033241213_2_alg».proof.Proof.RefRead
import Idealize.ShloMosaic.Adequacy
import Idealize.ShloMosaic.Init

set_option maxRecDepth 16384

noncomputable section

namespace Cert.Proof

open Idealize.ShloMosaic Idealize.ShloMosaic.ValueIdx Idealize.SL.Sem
open Cert.KernelIdeal.Chain Cert.KernelIdeal.Iface

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- The two programs aggregate with the same operations: the reference's aggregations, on functions of coordinates,
    are the kernel program's. -/
theorem ag1_eq (m : (ℓ : Loc Cert.KernelIdeal.nD Cert.KernelIdeal.τ Cert.KernelIdeal.sig) → Buf (Elt Ideal) ℓ) (c : Dev Cert.KernelIdeal.nD) :
    (fun (f : Fin 100000 → Fin 32 → EReal) r k => Cert.ReferenceIdeal.RefValue.aggT1 (fun i => f (i 0) (i 1)) (L m c Cert.KernelIdeal.main_arg1) (ix2 r k))
      = ag1 m c := by
  funext f r k
  exact (congrFun (Cert.AggBridge.agg32_eq _ _) _).symm

theorem ag2_eq (m : (ℓ : Loc Cert.KernelIdeal.nD Cert.KernelIdeal.τ Cert.KernelIdeal.sig) → Buf (Elt Ideal) ℓ) (c : Dev Cert.KernelIdeal.nD) :
    (fun (f : Fin 100000 → Fin 64 → EReal) r k => Cert.ReferenceIdeal.RefValue.aggT2 (fun i => f (i 0) (i 1)) (L m c Cert.KernelIdeal.main_arg1) (ix2 r k))
      = ag2 m c := by
  funext f r k
  exact (congrFun (Cert.AggBridge.agg64_eq _ _) _).symm

theorem ag3_eq (m : (ℓ : Loc Cert.KernelIdeal.nD Cert.KernelIdeal.τ Cert.KernelIdeal.sig) → Buf (Elt Ideal) ℓ) (c : Dev Cert.KernelIdeal.nD) :
    (fun (f : Fin 100000 → Fin 128 → EReal) r k => Cert.ReferenceIdeal.RefValue.aggT3 (fun i => f (i 0) (i 1)) (L m c Cert.KernelIdeal.main_arg1)
        (L m c Cert.KernelIdeal.main_arg2) (ix2 r k))
      = ag3 m c := by
  funext f r k
  exact (congrFun (Cert.AggBridge.agg128_eq _ _ _) _).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (tab (logits m c) : TF Cert.KernelIdeal.S100000x2),
    kernel_run m ρ Cert.KernelIdeal.StatsValue.stats0 Cert.KernelIdeal.PointValue.point1 Cert.KernelIdeal.StatsValue.stats2
      Cert.KernelIdeal.PointValue.point3 Cert.KernelIdeal.StatsValue.stats4 Cert.KernelIdeal.PointValue.point5, ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6, a7, a8, a9, a10, a11, a12, a13, a14, a15, a16, a17, a18, a19, a20, a21⟩ := hagree c
  rw [a0, a1, a2, a3, a4, a5, a6, a7, a8, a9, a10, a11, a12, a13, a14, a15, a16, a17, a18, a19, a20, a21]
  show _ = (tab (logits m c) : TF Cert.KernelIdeal.S100000x2)
  rw [logits_eq_netR m hpre c, ← ag1_eq m c, ← ag2_eq m c, ← ag3_eq m c]
  funext i
  obtain ⟨r, j, rfl⟩ : ∃ (r : Fin 100000) (j : Fin 2), i = ix2 r j := ⟨i 0, i 1, eq_ix2 i⟩
  exact Cert.ReferenceIdeal.RefValue.refOut_apply _ _ _ _ _ _ _ _ _ _ _ _ _ _ _ _ _ _ _ _ _ _ r j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
